-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v2)) (v2 : (c : Dev Cert.KernelIdeal.nD) → Buf (Elt Ideal) ((c.tc : Thread Cert.KernelIdeal.nD Cert.KernelIdeal.τ).loc Cert.KernelIdeal.main_v5_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v2) = v1 c
          ∧ r.2.mem ((c.tc : Thread Cert.KernelIdeal.nD Cert.KernelIdeal.τ).loc Cert.KernelIdeal.main_v5_1) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_v23) = v1 c
          ∧ r.2.mem ((c.tc : Thread Cert.ReferenceIdeal.nD Cert.ReferenceIdeal.τ).loc Cert.ReferenceIdeal.main_v18) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x16384 : Shape := ⟨2, ![1024, 16384]⟩
abbrev S16384x256 : Shape := ⟨2, ![16384, 256]⟩
abbrev S4096x16384 : Shape := ⟨2, ![4096, 16384]⟩
abbrev S4096 : Shape := ⟨1, ![4096]⟩
abbrev S256x256 : Shape := ⟨2, ![256, 256]⟩
abbrev S256 : Shape := ⟨1, ![256]⟩
abbrev S4096x256 : Shape := ⟨2, ![4096, 256]⟩
abbrev S_ : Shape := ⟨0, ![]⟩

class Facts : Prop where
  bcast_S_S1024x16384 : S_.BroadcastsInDim S1024x16384 (![] : Fin 0 → Fin S1024x16384.rank)
  reducesTo_S1024x16384_S_d0_1 : S1024x16384.ReducesTo [0, 1] S_
  h_S_ : 0 < S_.numel
  bcast_S_S16384x256 : S_.BroadcastsInDim S16384x256 (![] : Fin 0 → Fin S16384x256.rank)
  reducesTo_S16384x256_S_d0_1 : S16384x256.ReducesTo [0, 1] S_
  bcast_S_S4096x16384 : S_.BroadcastsInDim S4096x16384 (![] : Fin 0 → Fin S4096x16384.rank)
  reducesTo_S4096x16384_S_d0_1 : S4096x16384.ReducesTo [0, 1] S_
  bcast_S_S4096 : S_.BroadcastsInDim S4096 (![] : Fin 0 → Fin S4096.rank)
  reducesTo_S4096_S_d0 : S4096.ReducesTo [0] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S4096x256 : S_.BroadcastsInDim S4096x256 (![] : Fin 0 → Fin S4096x256.rank)
  reducesTo_S4096x256_S_d0_1 : S4096x256.ReducesTo [0, 1] S_

variable [Facts]

def fn_part2 {F : FTy → Type} [FloatOps F] (main_arg7 : FVec F S4096 .f32) (main_v33 : IVec S_ 1) : IVec S_ 1 :=
  let main_v34 : FVec F S4096 .f32 := Host.absf main_arg7
  let main_cst_12 : FVec F S_ .f32 := constant S_ .f32 0x7F800000#32
  let main_v35 : FVec F S4096 .f32 := broadcastInDim S4096 ![] bcast_S_S4096 main_cst_12
  let main_v36 : IVec S4096 1 := cmpf .olt main_v34 main_v35
  let main_c_13 : IVec S_ 1 := constantI S_ 1 1#1
  let main_v37 : IVec S_ 1 := (fun x v => Host.reduce IntOp.andi x v reducesTo_S4096_S_d0 h_S_) main_v36 main_c_13
  let main_v38 : IVec S_ 1 := andi main_v33 main_v37
  main_v38

def fn_part1 {F : FTy → Type} [FloatOps F] (main_arg4 : FVec F S256x256 .f32) (main_arg5 : FVec F S256 .f32) (main_arg6 : FVec F S4096x256 .f32) (main_arg7 : FVec F S4096 .f32) (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  let main_v19 : FVec F S256x256 .f32 := Host.absf main_arg4
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S4096x256 .f32 := Host.absf main_arg6
  let main_cst_10 : FVec F S_ .f32 := constant S_ .f32 0x7F800000#32
  let main_v30 : FVec F S4096x256 .f32 := broadcastInDim S4096x256 ![] bcast_S_S4096x256 main_cst_10
  let main_v31 : IVec S4096x256 1 := cmpf .olt main_v29 main_v30
  let main_c_11 : IVec S_ 1 := constantI S_ 1 1#1
  let main_v32 : IVec S_ 1 := (fun x v => Host.reduce IntOp.andi x v reducesTo_S4096x256_S_d0_1 h_S_) main_v31 main_c_11
  let main_v33 : IVec S_ 1 := andi main_v28 main_v32
  fn_part2 (F := F) main_arg7 main_v33

def fn {F : FTy → Type} [FloatOps F] (main_arg0 : FVec F S1024x16384 .f32) (main_arg1 : FVec F S16384x256 .f32) (main_arg2 : FVec F S4096x16384 .f32) (main_arg3 : FVec F S4096 .f32) (main_arg4 : FVec F S256x256 .f32) (main_arg5 : FVec F S256 .f32) (main_arg6 : FVec F S4096x256 .f32) (main_arg7 : FVec F S4096 .f32) : IVec S_ 1 :=
  let main_v0 : FVec F S1024x16384 .f32 := Host.absf main_arg0
  let main_cst : FVec F S_ .f32 := constant S_ .f32 0x7F800000#32
  let main_v1 : FVec F S1024x16384 .f32 := broadcastInDim S1024x16384 ![] bcast_S_S1024x16384 main_cst
  let main_v2 : IVec S1024x16384 1 := cmpf .olt main_v0 main_v1
  let main_c : IVec S_ 1 := constantI S_ 1 1#1
  let main_v3 : IVec S_ 1 := (fun x v => Host.reduce IntOp.andi x v reducesTo_S1024x16384_S_d0_1 h_S_) main_v2 main_c
  let main_v4 : FVec F S16384x256 .f32 := Host.absf main_arg1
  let main_cst_0 : FVec F S_ .f32 := constant S_ .f32 0x7F800000#32
  let main_v5 : FVec F S16384x256 .f32 := broadcastInDim S16384x256 ![] bcast_S_S16384x256 main_cst_0
  let main_v6 : IVec S16384x256 1 := cmpf .olt main_v4 main_v5
  let main_c_1 : IVec S_ 1 := constantI S_ 1 1#1
  let main_v7 : IVec S_ 1 := (fun x v => Host.reduce IntOp.andi x v reducesTo_S16384x256_S_d0_1 h_S_) main_v6 main_c_1
  let main_v8 : IVec S_ 1 := andi main_v3 main_v7
  let main_v9 : FVec F S4096x16384 .f32 := Host.absf main_arg2
  let main_cst_2 : FVec F S_ .f32 := constant S_ .f32 0x7F800000#32
  let main_v10 : FVec F S4096x16384 .f32 := broadcastInDim S4096x16384 ![] bcast_S_S4096x16384 main_cst_2
  let main_v11 : IVec S4096x16384 1 := cmpf .olt main_v9 main_v10
  let main_c_3 : IVec S_ 1 := constantI S_ 1 1#1
  let main_v12 : IVec S_ 1 := (fun x v => Host.reduce IntOp.andi x v reducesTo_S4096x16384_S_d0_1 h_S_) main_v11 main_c_3
  let main_v13 : IVec S_ 1 := andi main_v8 main_v12
  let main_v14 : FVec F S4096 .f32 := Host.absf main_arg3
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_arg4 main_arg5 main_arg6 main_arg7 main_v13 main_v16
-- ==== Kernel.lean ====
abbrev S1024x16384 : Shape := ⟨2, ![1024, 16384]⟩
abbrev S16384x256 : Shape := ⟨2, ![16384, 256]⟩
abbrev S4096x16384 : Shape := ⟨2, ![4096, 16384]⟩
abbrev S4096 : Shape := ⟨1, ![4096]⟩
abbrev S256x256 : Shape := ⟨2, ![256, 256]⟩
abbrev S256 : Shape := ⟨1, ![256]⟩
abbrev S4096x256 : Shape := ⟨2, ![4096, 256]⟩
abbrev S1024x256 : Shape := ⟨2, ![1024, 256]⟩
abbrev S512x2048 : Shape := ⟨2, ![512, 2048]⟩
abbrev S2048x256 : Shape := ⟨2, ![2048, 256]⟩
abbrev S512x256 : Shape := ⟨2, ![512, 256]⟩
abbrev S1x4096 : Shape := ⟨2, ![1, 4096]⟩
abbrev S1024x4096 : Shape := ⟨2, ![1024, 4096]⟩
abbrev S1x2048 : Shape := ⟨2, ![1, 2048]⟩
abbrev S1024x2048 : Shape := ⟨2, ![1024, 2048]⟩
abbrev S1x256 : Shape := ⟨2, ![1, 256]⟩
abbrev S256x4096 : Shape := ⟨2, ![256, 4096]⟩

abbrev nBuf : Space → Nat
  | .hbm => 15
  | .vmem => 29
  | .smem => 0
  | _ => 0

abbrev bufTy : (tb : Table) → Fin (tcTables nBuf tb) → BufTy
  | .hbm, ⟨0, _⟩ => ⟨S1024x16384, .f32⟩
  | .hbm, ⟨1, _⟩ => ⟨S16384x256, .f32⟩
  | .hbm, ⟨2, _⟩ => ⟨S4096x16384, .f32⟩
  | .hbm, ⟨3, _⟩ => ⟨S4096, .f32⟩
  | .hbm, ⟨4, _⟩ => ⟨S256x256, .f32⟩
  | .hbm, ⟨5, _⟩ => ⟨S256, .f32⟩
  | .hbm, ⟨6, _⟩ => ⟨S4096x256, .f32⟩
  | .hbm, ⟨7, _⟩ => ⟨S4096, .f32⟩
  | .hbm, ⟨8, _⟩ => ⟨S1024x256, .f32⟩
  | .hbm, ⟨9, _⟩ => ⟨S1x4096, .f32⟩
  | .hbm, ⟨10, _⟩ => ⟨S1024x4096, .f32⟩
  | .hbm, ⟨11, _⟩ => ⟨S1x256, .f32⟩
  | .hbm, ⟨12, _⟩ => ⟨S1x4096, .f32⟩
  | .hbm, ⟨13, _⟩ => ⟨S1024x4096, .f32⟩
  | .hbm, ⟨14, _⟩ => ⟨S1024x4096, .f32⟩
  | .local _ .vmem, ⟨0, _⟩ => ⟨S512x2048, .f32⟩
  | .local _ .vmem, ⟨1, _⟩ => ⟨S512x2048, .f32⟩
  | .local _ .vmem, ⟨2, _⟩ => ⟨S2048x256, .f32⟩
  | .local _ .vmem, ⟨3, _⟩ => ⟨S2048x256, .f32⟩
  | .local _ .vmem, ⟨4, _⟩ => ⟨S512x256, .f32⟩
  | .local _ .vmem, ⟨5, _⟩ => ⟨S512x256, .f32⟩
  | .local _ .vmem, ⟨6, _⟩ => ⟨S512x256, .f32⟩
  | .local _ .vmem, ⟨7, _⟩ => ⟨S512x256, .f32⟩
  | .local _ .vmem, ⟨8, _⟩ => ⟨S1024x256, .f32⟩
  | .local _ .vmem, ⟨9, _⟩ => ⟨S1024x256, .f32⟩
  | .local _ .vmem, ⟨10, _⟩ => ⟨S2048x256, .f32⟩
  | .local _ .vmem, ⟨11, _⟩ => ⟨S2048x256, .f32⟩
  | .local _ .vmem, ⟨12, _⟩ => ⟨S1x2048, .f32⟩
  | .local _ .vmem, ⟨13, _⟩ => ⟨S1x2048, .f32⟩
  | .local _ .vmem, ⟨14, _⟩ => ⟨S1024x2048, .f32⟩
  | .local _ .vmem, ⟨15, _⟩ => ⟨S1024x2048, .f32⟩
  | .local _ .vmem, ⟨16, _⟩ => ⟨S1024x2048, .f32⟩
  | .local _ .vmem, ⟨17, _⟩ => ⟨S256x256, .f32⟩
  | .local _ .vmem, ⟨18, _⟩ => ⟨S256x256, .f32⟩
  | .local _ .vmem, ⟨19, _⟩ => ⟨S256x256, .f32⟩
  | .local _ .vmem, ⟨20, _⟩ => ⟨S1x256, .f32⟩
  | .local _ .vmem, ⟨21, _⟩ => ⟨S4096x256, .f32⟩
  | .local _ .vmem, ⟨22, _⟩ => ⟨S1x4096, .f32⟩
  | .local _ .vmem, ⟨23, _⟩ => ⟨S256x4096, .f32⟩
  | .local _ .vmem, ⟨24, _⟩ => ⟨S256x4096, .f32⟩
  | .local _ .vmem, ⟨25, _⟩ => ⟨S256x4096, .f32⟩
  | .local _ .vmem, ⟨26, _⟩ => ⟨S256x4096, .f32⟩
  | .local _ .vmem, ⟨27, _⟩ => ⟨S256x4096, .f32⟩
  | .local _ .vmem, ⟨28, _⟩ => ⟨S256x4096, .f32⟩
  | _, _ => ⟨S1024x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5_0 : Ref sig .tc := ⟨.hbm, 13, rfl⟩
abbrev main_v5_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc1_scratch0 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg5_0 : Ref sig .tc := ⟨.vmem, 23, rfl⟩
abbrev cc2_stg5_1 : Ref sig .tc := ⟨.vmem, 24, rfl⟩
abbrev cc2_stg6_0 : Ref sig .tc := ⟨.vmem, 25, rfl⟩
abbrev cc2_stg6_1 : Ref sig .tc := ⟨.vmem, 26, rfl⟩
abbrev cc2_stg7_0 : Ref sig .tc := ⟨.vmem, 27, rfl⟩
abbrev cc2_stg7_1 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem3_0 : DmaSem sig := 18
abbrev cc2_sem4_0 : DmaSem sig := 19
abbrev cc2_sem5_0 : DmaSem sig := 20
abbrev cc2_sem5_1 : DmaSem sig := 21
abbrev cc2_sem6_0 : DmaSem sig := 22
abbrev cc2_sem6_1 : DmaSem sig := 23
abbrev cc2_sem7_0 : DmaSem sig := 24
abbrev cc2_sem7_1 : DmaSem sig := 25

abbrev nD : Nat := 1
abbrev τ : Topo := Topo.v7x

variable {F : FTy → Type} [FloatOps F]

abbrev grid0 : Pipeline.Grid := ⟨2, ![2, 8], ![false, false]⟩

def k0_cond2 (i : grid0.Coords) : BitVec 1 :=
  let arg1 : BitVec 32 := BitVec.ofNat 32 (i 1).val
  let c7_i32 : BitVec 32 := 7#32
  let v23 : BitVec 1 := Scalar.cmpi .eq arg1 c7_i32
  let v24 : BitVec 32 := Scalar.extui v23
  let c0_i32_13 : BitVec 32 := 0#32
  let v25 : BitVec 1 := Scalar.cmpi .ne v24 c0_i32_13
  v25

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨2, ![2, 64], ![false, false]⟩

def k1_cond2 (i : grid1.Coords) : BitVec 1 :=
  let arg1 : BitVec 32 := BitVec.ofNat 32 (i 1).val
  let c63_i32 : BitVec 32 := 63#32
  let v13 : BitVec 1 := Scalar.cmpi .eq arg1 c63_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage1_0 : Fin 2 → Memref sig .tc .vmem S1024x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S2048x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1024x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev grid2 : Pipeline.Grid := ⟨1, ![4], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S256x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S4096x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x4096 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S256x4096 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S256x4096 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S256x4096 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

class Facts₀ : Prop where
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S512x2048_S512x2048_0_0 : ∀ a, (![0, 0] : Fin 2 → Nat) a + S512x2048.size a ≤ S512x2048.size a
  h_S512x2048 : 0 < S512x2048.numel
  inb_S2048x256_S2048x256_0_0 : ∀ a, (![0, 0] : Fin 2 → Nat) a + S2048x256.size a ≤ S2048x256.size a
  h_S2048x256 : 0 < S2048x256.numel
  bitsLt_bf16_f32 : FTy.bits .bf16 < FTy.bits .f32
  shapeCasts_S4096_S1x4096 : S4096.ShapeCasts S1x4096
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1024x256_S1024x256_0_0 : ∀ a, (![0, 0] : Fin 2 → Nat) a + S1024x256.size a ≤ S1024x256.size a
  h_S1024x256 : 0 < S1024x256.numel
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S1024x2048 : S1x2048.Broadcasts S1024x2048
  shapeCasts_S256_S1x256 : S256.ShapeCasts S1x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S256x256 : S1x256.Broadcasts S256x256
  inb_S4096x256_S4096x256_0_0 : ∀ a, (![0, 0] : Fin 2 → Nat) a + S4096x256.size a ≤ S4096x256.size a
  h_S4096x256 : 0 < S4096x256.numel
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S256x4096 : S1x4096.Broadcasts S256x4096
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  dot_S512x2048_S2048x256_S512x256_1_0_0_1_n_n_wf : DotDims.WF S512x2048 S2048x256 S512x256 [1] [0] [0] [1] [] []
  dot_S1024x256_S2048x256_S1024x2048_1_1_0_0_n_n_wf : DotDims.WF S1024x256 S2048x256 S1024x2048 [1] [1] [0] [0] [] []
  dot_S256x256_S256x256_S256x256_1_1_0_0_n_n_wf : DotDims.WF S256x256 S256x256 S256x256 [1] [1] [0] [0] [] []
  dot_S256x256_S4096x256_S256x4096_1_1_0_0_n_n_wf : DotDims.WF S256x256 S4096x256 S256x4096 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S1024x16384.size a
  hwx0_0 : ∀ i : grid0.Coords, EltTy.bits .f32 = 32 ∨ (Rect.block (s := S1024x16384) S512x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x256.size a ≤ S16384x256.size a
  hwx0_1 : ∀ i : grid0.Coords, EltTy.bits .f32 = 32 ∨ (Rect.block (s := S16384x256) S2048x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x256.size a ≤ S1024x256.size a
  hwx0_2 : ∀ i : grid0.Coords, EltTy.bits .f32 = 32 ∨ (Rect.block (s := S1024x256) S512x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x256.size a ≤ S1024x16384.size a
  hwx1_0 : ∀ i : grid1.Coords, EltTy.bits .f32 = 32 ∨ (Rect.block (s := S1024x16384) S1024x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x256.size a ≤ S4096x16384.size a
  hwx1_1 : ∀ i : grid1.Coords, EltTy.bits .f32 = 32 ∨ (Rect.block (s := S4096x16384) S2048x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2048.size a ≤ S1x4096.size a
  hwx1_2 : ∀ i : grid1.Coords, EltTy.bits .f32 = 32 ∨ (Rect.block (s := S1x4096) S1x2048.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x2048.size a ≤ S1024x4096.size a
  hwx1_3 : ∀ i : grid1.Coords, EltTy.bits .f32 = 32 ∨ (Rect.block (s := S1024x4096) S1024x2048.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S256x256.size a ≤ S1024x256.size a
  hwx2_0 : ∀ i : grid2.Coords, EltTy.bits .f32 = 32 ∨ (Rect.block (s := S1024x256) S256x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x256.size a ≤ S256x256.size a
  hwx2_1 : ∀ i : grid2.Coords, EltTy.bits .f32 = 32 ∨ (Rect.block (s := S256x256) S256x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x256.size a ≤ S1x256.size a
  hwx2_2 : ∀ i : grid2.Coords, EltTy.bits .f32 = 32 ∨ (Rect.block (s := S1x256) S1x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S4096x256.size a ≤ S4096x256.size a
  hwx2_3 : ∀ i : grid2.Coords, EltTy.bits .f32 = 32 ∨ (Rect.block (s := S4096x256) S4096x256.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x4096.size a ≤ S1x4096.size a
  hwx2_4 : ∀ i : grid2.Coords, EltTy.bits .f32 = 32 ∨ (Rect.block (s := S1x4096) S1x4096.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S256x4096.size a ≤ S1024x4096.size a
  hwx2_5 : ∀ i : grid2.Coords, EltTy.bits .f32 = 32 ∨ (Rect.block (s := S1024x4096) S256x4096.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S256x4096.size a ≤ S1024x4096.size a
  hwx2_6 : ∀ i : grid2.Coords, EltTy.bits .f32 = 32 ∨ (Rect.block (s := S1024x4096) S256x4096.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S256x4096.size a ≤ S1024x4096.size a
  hwx2_7 : ∀ i : grid2.Coords, EltTy.bits .f32 = 32 ∨ (Rect.block (s := S1024x4096) S256x4096.size (cc2_transform_7 i) (hinb2_7 i)).WholeWords (EltTy.packing .f32)

variable [Facts₀]

def dot_S512x2048_S2048x256_S512x256_1_0_0_1_n_n : DotDims S512x2048 S2048x256 S512x256 where
  lhsContracting := [1]
  rhsContracting := [0]
  lhsNonContracting := [0]
  rhsNonContracting := [1]
  lhsBatch := []
  rhsBatch := []
  wf := dot_S512x2048_S2048x256_S512x256_1_0_0_1_n_n_wf
def dot_S1024x256_S2048x256_S1024x2048_1_1_0_0_n_n : DotDims S1024x256 S2048x256 S1024x2048 where
  lhsContracting := [1]
  rhsContracting := [1]
  lhsNonContracting := [0]
  rhsNonContracting := [0]
  lhsBatch := []
  rhsBatch := []
  wf := dot_S1024x256_S2048x256_S1024x2048_1_1_0_0_n_n_wf
def dot_S256x256_S256x256_S256x256_1_1_0_0_n_n : DotDims S256x256 S256x256 S256x256 where
  lhsContracting := [1]
  rhsContracting := [1]
  lhsNonContracting := [0]
  rhsNonContracting := [0]
  lhsBatch := []
  rhsBatch := []
  wf := dot_S256x256_S256x256_S256x256_1_1_0_0_n_n_wf
def dot_S256x256_S4096x256_S256x4096_1_1_0_0_n_n : DotDims S256x256 S4096x256 S256x4096 where
  lhsContracting := [1]
  rhsContracting := [1]
  lhsNonContracting := [0]
  rhsNonContracting := [0]
  lhsBatch := []
  rhsBatch := []
  wf := dot_S256x256_S4096x256_S256x4096_1_1_0_0_n_n_wf

abbrev win0_0 : Pipeline.Window sig grid0 :=
  Pipeline.Window.ofSpec (Memref.whole main_arg0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S512x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_arg0) S1024x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S2048x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1x2048.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v2) S1024x2048.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

abbrev win2_0 : Pipeline.Window sig grid2 :=
  Pipeline.Window.ofSpec (Memref.whole main_v0) S256x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S256x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v3) S1x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg6) S4096x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v4) S1x4096.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v2) S256x4096.size cc2_transform_5 reads2_5 false false 2 stage2_5 sem2_5
    hrank2 hreads2_5 hinb2_5 nbuf2_5 (Memref.isWhole_whole _) hwx2_5 hstage2_5

abbrev win2_6 : Pipeline.Window sig grid2 :=
  Pipeline.Window.ofSpec (Memref.whole main_v5_0) S256x4096.size cc2_transform_6 reads2_6 true false 2 stage2_6 sem2_6
    hrank2 hreads2_6 hinb2_6 nbuf2_6 (Memref.isWhole_whole _) hwx2_6 hstage2_6

abbrev win2_7 : Pipeline.Window sig grid2 :=
  Pipeline.Window.ofSpec (Memref.whole main_v5_1) S256x4096.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

class Facts : Prop extends Facts₀ where

variable [Facts]
-- ==== ReferenceIdeal.lean ====
abbrev S1024x16384 : Shape := ⟨2, ![1024, 16384]⟩
abbrev S16384x256 : Shape := ⟨2, ![16384, 256]⟩
abbrev S4096x16384 : Shape := ⟨2, ![4096, 16384]⟩
abbrev S4096 : Shape := ⟨1, ![4096]⟩
abbrev S256x256 : Shape := ⟨2, ![256, 256]⟩
abbrev S256 : Shape := ⟨1, ![256]⟩
abbrev S4096x256 : Shape := ⟨2, ![4096, 256]⟩
abbrev S1024x256 : Shape := ⟨2, ![1024, 256]⟩
abbrev S_ : Shape := ⟨0, ![]⟩
abbrev S1x256 : Shape := ⟨2, ![1, 256]⟩
abbrev S256x4096 : Shape := ⟨2, ![256, 4096]⟩
abbrev S1024x4096 : Shape := ⟨2, ![1024, 4096]⟩
abbrev S1x4096 : Shape := ⟨2, ![1, 4096]⟩
abbrev S16384x4096 : Shape := ⟨2, ![16384, 4096]⟩

abbrev nBuf : Space → Nat
  | .hbm => 36
  | .vmem => 0
  | .smem => 0
  | _ => 0

abbrev bufTy : (tb : Table) → Fin (tcTables nBuf tb) → BufTy
  | .hbm, ⟨0, _⟩ => ⟨S1024x16384, .f32⟩
  | .hbm, ⟨1, _⟩ => ⟨S16384x256, .f32⟩
  | .hbm, ⟨2, _⟩ => ⟨S4096x16384, .f32⟩
  | .hbm, ⟨3, _⟩ => ⟨S4096, .f32⟩
  | .hbm, ⟨4, _⟩ => ⟨S256x256, .f32⟩
  | .hbm, ⟨5, _⟩ => ⟨S256, .f32⟩
  | .hbm, ⟨6, _⟩ => ⟨S4096x256, .f32⟩
  | .hbm, ⟨7, _⟩ => ⟨S4096, .f32⟩
  | .hbm, ⟨8, _⟩ => ⟨S1024x256, .f32⟩
  | .hbm, ⟨9, _⟩ => ⟨S1024x16384, .f32⟩
  | .hbm, ⟨10, _⟩ => ⟨S16384x256, .f32⟩
  | .hbm, ⟨11, _⟩ => ⟨S1024x256, .f32⟩
  | .hbm, ⟨12, _⟩ => ⟨S1024x256, .f32⟩
  | .hbm, ⟨13, _⟩ => ⟨S1024x256, .f32⟩
  | .hbm, ⟨14, _⟩ => ⟨S_, .f32⟩
  | .hbm, ⟨15, _⟩ => ⟨S1024x256, .f32⟩
  | .hbm, ⟨16, _⟩ => ⟨S1024x256, .f32⟩
  | .hbm, ⟨17, _⟩ => ⟨S256x256, .f32⟩
  | .hbm, ⟨18, _⟩ => ⟨S1024x256, .f32⟩
  | .hbm, ⟨19, _⟩ => ⟨S1x256, .f32⟩
  | .hbm, ⟨20, _⟩ => ⟨S1024x256, .f32⟩
  | .hbm, ⟨21, _⟩ => ⟨S1024x256, .f32⟩
  | .hbm, ⟨22, _⟩ => ⟨S_, .f32⟩
  | .hbm, ⟨23, _⟩ => ⟨S1024x256, .f32⟩
  | .hbm, ⟨24, _⟩ => ⟨S1024x256, .f32⟩
  | .hbm, ⟨25, _⟩ => ⟨S256x4096, .f32⟩
  | .hbm, ⟨26, _⟩ => ⟨S1024x4096, .f32⟩
  | .hbm, ⟨27, _⟩ => ⟨S1x4096, .f32⟩
  | .hbm, ⟨28, _⟩ => ⟨S1024x4096, .f32⟩
  | .hbm, ⟨29, _⟩ => ⟨S1024x4096, .f32⟩
  | .hbm, ⟨30, _⟩ => ⟨S16384x4096, .f32⟩
  | .hbm, ⟨31, _⟩ => ⟨S1024x4096, .f32⟩
  | .hbm, ⟨32, _⟩ => ⟨S1x4096, .f32⟩
  | .hbm, ⟨33, _⟩ => ⟨S1024x4096, .f32⟩
  | .hbm, ⟨34, _⟩ => ⟨S1024x4096, .f32⟩
  | .hbm, ⟨35, _⟩ => ⟨S1024x4096, .f32⟩
  | _, _ => ⟨S1024x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_call0_cst : Ref sig .tc := ⟨.hbm, 22, rfl⟩
abbrev main_call0_v0 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩

abbrev nD : Nat := 1
abbrev τ : Topo := Topo.v7x

variable {F : FTy → Type} [FloatOps F]

class Facts₀ : Prop where
  bcast_S_S1024x256 : S_.BroadcastsInDim S1024x256 (![] : Fin 0 → Fin S1024x256.rank)
  transposes_S256x256_S256x256_1_0 : S256x256.Transposes [1, 0] S256x256
  bcast_S256_S1x256_1 : S256.BroadcastsInDim S1x256 (![1] : Fin 1 → Fin S1x256.rank)
  bcast_S1x256_S1024x256_0_1 : S1x256.BroadcastsInDim S1024x256 (![0, 1] : Fin 2 → Fin S1024x256.rank)
  transposes_S4096x256_S256x4096_1_0 : S4096x256.Transposes [1, 0] S256x4096
  bcast_S4096_S1x4096_1 : S4096.BroadcastsInDim S1x4096 (![1] : Fin 1 → Fin S1x4096.rank)
  bcast_S1x4096_S1024x4096_0_1 : S1x4096.BroadcastsInDim S1024x4096 (![0, 1] : Fin 2 → Fin S1024x4096.rank)
  transposes_S4096x16384_S16384x4096_1_0 : S4096x16384.Transposes [1, 0] S16384x4096
  dot_S1024x16384_S16384x256_S1024x256_1_0_0_1_n_n_wf : DotDims.WF S1024x16384 S16384x256 S1024x256 [1] [0] [0] [1] [] []
  dot_S1024x256_S256x256_S1024x256_1_0_0_1_n_n_wf : DotDims.WF S1024x256 S256x256 S1024x256 [1] [0] [0] [1] [] []
  dot_S1024x256_S256x4096_S1024x4096_1_0_0_1_n_n_wf : DotDims.WF S1024x256 S256x4096 S1024x4096 [1] [0] [0] [1] [] []
  dot_S1024x16384_S16384x4096_S1024x4096_1_0_0_1_n_n_wf : DotDims.WF S1024x16384 S16384x4096 S1024x4096 [1] [0] [0] [1] [] []

variable [Facts₀]

def dot_S1024x16384_S16384x256_S1024x256_1_0_0_1_n_n : DotDims S1024x16384 S16384x256 S1024x256 where
  lhsContracting := [1]
  rhsContracting := [0]
  lhsNonContracting := [0]
  rhsNonContracting := [1]
  lhsBatch := []
  rhsBatch := []
  wf := dot_S1024x16384_S16384x256_S1024x256_1_0_0_1_n_n_wf
def dot_S1024x256_S256x256_S1024x256_1_0_0_1_n_n : DotDims S1024x256 S256x256 S1024x256 where
  lhsContracting := [1]
  rhsContracting := [0]
  lhsNonContracting := [0]
  rhsNonContracting := [1]
  lhsBatch := []
  rhsBatch := []
  wf := dot_S1024x256_S256x256_S1024x256_1_0_0_1_n_n_wf
def dot_S1024x256_S256x4096_S1024x4096_1_0_0_1_n_n : DotDims S1024x256 S256x4096 S1024x4096 where
  lhsContracting := [1]
  rhsContracting := [0]
  lhsNonContracting := [0]
  rhsNonContracting := [1]
  lhsBatch := []
  rhsBatch := []
  wf := dot_S1024x256_S256x4096_S1024x4096_1_0_0_1_n_n_wf
def dot_S1024x16384_S16384x4096_S1024x4096_1_0_0_1_n_n : DotDims S1024x16384 S16384x4096 S1024x4096 where
  lhsContracting := [1]
  rhsContracting := [0]
  lhsNonContracting := [0]
  rhsNonContracting := [1]
  lhsBatch := []
  rhsBatch := []
  wf := dot_S1024x16384_S16384x4096_S1024x4096_1_0_0_1_n_n_wf

class Facts : Prop extends Facts₀ where

variable [Facts]
-- ==== Proof.K.Region0Runs.lean ====
/-
  Region 0 of the program: the interaction kernel on a 2×8 grid (batch half b, reduction step f), its two
  accumulators kept in scratch across the eight steps of a batch half. This module fixes what the three control
  cases of its body share: the blocks the windows stage, the two branch conditions decided over the grid
  (the reset at f = 0, the epilogue at f = 7), where the output window is idle, and the region invariant of the
  class split at the kernel's own two scratch buffers.
-/
import proofs.«146741_j35055523070100_2_alg».proof.Proof.Gen.Kernel.Launch
import proofs.«146741_j35055523070100_2_alg».proof.Proof.Gen.Kernel.Skeleton
import proofs.«146741_j35055523070100_2_alg».proof.Proof.Gen.Kernel.Points
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The feature block: its staging buffer holds block (b, f) of the feature matrix at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The embedding block: its staging buffer holds rows f·2048 … of the embedding table at every point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The two branch conditions, decided over the grid -/

/-- The reset's condition: the reduction step is the first. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 8 = 0 :=
  (by decide +kernel : ∀ t : Fin grid0.N, cond0_0 (grid0.coords t) ↔ t.val % 8 = 0)

/-- The epilogue's condition: the reduction step is the last. -/
abbrev cond0_1 (i : grid0.Coords) : Prop := k0_cond2 i = 1#1
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the output window is idle -/

theorem liveAt0_0 : ∀ t : Fin cfg0.N, cfg0.idle 0 (grid0.coords t) = false := by decide +kernel
theorem liveAt0_1 : ∀ t : Fin cfg0.N, cfg0.idle 1 (grid0.coords t) = false := by decide +kernel
/-- Off the last reduction step the body stores nothing into the output block, and the block is not written back. -/
theorem idleAt0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel
/-- At the last reduction step the output block is stored whole. -/
theorem liveAt0_2 : ∀ t : Fin cfg0.N, cond0_1 (grid0.coords t) → cfg0.idle 2 (grid0.coords t) = false := by decide +kernel

/-! ## The memrefs the body is called with -/

abbrev VO0_2 : View sig .tc .vmem S512x256 .f32 := (Memref.whole cc0_stg2_0 : Memref sig .tc .vmem S512x256 .f32).view
abbrev ms0_0 (t : Fin cfg0.N) : Memref sig .tc .vmem S512x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x256 .f32 := win0_2.stage (cfg0.slots t 2)
abbrev hs0_2 (t : Fin cfg0.N) : (ms0_2 t).IsWhole := hstage0_2 ((cfg0.slots t 2).cast nbuf0_2)
/-- The two accumulators: Σ x·e and Σ x²·e² over the reduction steps so far. -/
abbrev scM0_0 : Memref sig .tc .vmem S512x256 .f32 := Memref.whole cc0_scratch0
abbrev scM0_1 : Memref sig .tc .vmem S512x256 .f32 := Memref.whole cc0_scratch1
abbrev VS0_0 : View sig .tc .vmem S512x256 .f32 := scM0_0.view
abbrev VS0_1 : View sig .tc .vmem S512x256 .f32 := scM0_1.view

/-- Every scoped buffer of the core other than this kernel's staging buffers and its two accumulators: carried
    through the region unopened. -/
abbrev others0 (c : Dev nD) : sProp 𝕄 :=
  Pipeline.scopedRestBut (Ix := Unit) (Name := ℕ) (U := UR sig nD τ) (Lvl := ℕ) (Val := Elt F) spec0 c [cc0_scratch0, cc0_scratch1]

/-- The class's region invariant with the two accumulators as memrefs owned at some contents. -/
theorem PhiA0_eq (c : Dev nD) :
    (Pipeline.ΦA spec0 c : sProp 𝕄)
      = iprop(iprop(iprop((∃ d, owns (c : Thread nD τ) scM0_0 fullShare d) ∗ (∃ d, owns (c : Thread nD τ) scM0_1 fullShare d)) ∗ others0 c) ∗ (∃ r, prngReg c r)) := by
  unfold Pipeline.ΦA
  rw [Pipeline.scopedRest_split_of_list spec0 c [cc0_scratch0, cc0_scratch1] (by decide) (by decide)]
  simp only [bigSepL_cons_cons, bigSepL_singleton, scM0_0, scM0_1, owns_whole]
  try rfl

end Cert.Kernel.Hand

end
-- ==== Proof.K.Region0RunA.lean ====
/-
  Region 0, the first reduction step of a batch half (both accumulators reset, then the step's two products added; the output block untouched): the kernel body run once on whole staging memrefs, the pieces each buffer ends with found by
  the run itself.
-/
import proofs.«146741_j35055523070100_2_alg».proof.Proof.K.Region0Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- Case A (f = 0): from the feature block `x0`, the embedding block `x1`, the output's buffer at `xi2` (handed back
    untouched) and the accumulators at anything, the body ends with each accumulator's pieces written. -/
noncomputable def kernelRun0_A (c : Dev nD) (i : grid0.Coords) (arg2 : Memref sig .tc .vmem S512x2048 .f32) (harg2 : arg2.IsWhole) (arg3 : Memref sig .tc .vmem S2048x256 .f32) (harg3 : arg3.IsWhole) (arg4 : Memref sig .tc .vmem S512x256 .f32) (harg4 : arg4.IsWhole) (arg5 : Memref sig .tc .vmem S512x256 .f32) (harg5 : arg5.IsWhole) (arg6 : Memref sig .tc .vmem S512x256 .f32) (harg6 : arg6.IsWhole) (hc0 : cond0_0 i) (hc1 : ¬cond0_1 i)
    (x0 : Vec F S512x2048 .f32) (x1 : Vec F S2048x256 .f32) :
    Σ' (LS0 : List (View.Piece (Elt F) S512x256 .f32)), { LS1 : List (View.Piece (Elt F) S512x256 .f32) //
      ∀ (xi2 : Vec F S512x256 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1)) -∗ K ⟨⟩))
          ⊢ wp frame (wpE (defs₀ (F := F)) Variants.none c none) E (cc0__interaction_kernel i arg2 harg2 arg3 harg3 arg4 harg4 arg5 harg5 arg6 harg6) K } := by
  refine ⟨?_, ?_, fun xi2 E K => ?run⟩
  case run =>
    simp only [cc0__interaction_kernel_eq_skeleton]; unfold cc0__interaction_kernel_skel
    unfold owns
    iintro ⟨⟨%f0, %hf0, H0⟩, ⟨%f1, %hf1, H1⟩, ⟨%f2, %hf2, H2⟩, ⟨%ds0, %fs0, -, HS0⟩, ⟨%ds1, %fs1, -, HS1⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HS0]; · iexists _; iexact HS0
    iexists _; iexact HS1

end Cert.Kernel.Hand

end
-- ==== Proof.K.Region0RunB.lean ====
/-
  Region 0, a middle reduction step (the step's two products added to the accumulators; the output block untouched): the kernel body run once on whole staging memrefs, the pieces each buffer ends with found by
  the run itself.
-/
import proofs.«146741_j35055523070100_2_alg».proof.Proof.K.Region0Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- Case B (0 < f < 7): from the two input blocks, the output's buffer at `xi2` (handed back untouched) and the
    accumulators at what the step before left (`xs0`, `xs1`), the body ends with each accumulator's pieces written. -/
noncomputable def kernelRun0_B (c : Dev nD) (i : grid0.Coords) (arg2 : Memref sig .tc .vmem S512x2048 .f32) (harg2 : arg2.IsWhole) (arg3 : Memref sig .tc .vmem S2048x256 .f32) (harg3 : arg3.IsWhole) (arg4 : Memref sig .tc .vmem S512x256 .f32) (harg4 : arg4.IsWhole) (arg5 : Memref sig .tc .vmem S512x256 .f32) (harg5 : arg5.IsWhole) (arg6 : Memref sig .tc .vmem S512x256 .f32) (harg6 : arg6.IsWhole) (hc0 : ¬cond0_0 i) (hc1 : ¬cond0_1 i)
    (x0 : Vec F S512x2048 .f32) (x1 : Vec F S2048x256 .f32) (xs0 : Vec F S512x256 .f32) (xs1 : Vec F S512x256 .f32) :
    Σ' (LS0 : List (View.Piece (Elt F) S512x256 .f32)), { LS1 : List (View.Piece (Elt F) S512x256 .f32) //
      ∀ (xi2 : Vec F S512x256 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0 ∗ owns (c : Thread nD τ) arg6 fullShare xs1
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1)) -∗ K ⟨⟩))
          ⊢ wp frame (wpE (defs₀ (F := F)) Variants.none c none) E (cc0__interaction_kernel i arg2 harg2 arg3 harg3 arg4 harg4 arg5 harg5 arg6 harg6) K } := by
  refine ⟨?_, ?_, fun xi2 E K => ?run⟩
  case run =>
    simp only [cc0__interaction_kernel_eq_skeleton]; unfold cc0__interaction_kernel_skel
    unfold owns
    iintro ⟨⟨%f0, %hf0, H0⟩, ⟨%f1, %hf1, H1⟩, ⟨%f2, %hf2, H2⟩, ⟨%fs0, %hfs0, HS0⟩, ⟨%fs1, %hfs1, HS1⟩, Hk⟩
    obtain rfl := harg2.eq_unread hf0; obtain rfl := harg3.eq_unread hf1; obtain rfl := harg4.eq_unread hf2
    obtain rfl := harg5.eq_unread hfs0; obtain rfl := harg6.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HS0]; · iexists _; iexact HS0
    iexists _; iexact HS1

end Cert.Kernel.Hand

end
-- ==== Proof.K.Region0RunC.lean ====
/-
  Region 0, the last reduction step of a batch half (the step's two products added, then the output block stored whole from the two accumulators): the kernel body run once on whole staging memrefs, the pieces each buffer ends with found by
  the run itself.
-/
import proofs.«146741_j35055523070100_2_alg».proof.Proof.K.Region0Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- Case C (f = 7): from the two input blocks, the output's buffer at anything and the accumulators at what the step
    before left (`xs0`, `xs1`), the body ends with the output's and each accumulator's pieces written. -/
noncomputable def kernelRun0_C (c : Dev nD) (i : grid0.Coords) (arg2 : Memref sig .tc .vmem S512x2048 .f32) (harg2 : arg2.IsWhole) (arg3 : Memref sig .tc .vmem S2048x256 .f32) (harg3 : arg3.IsWhole) (arg4 : Memref sig .tc .vmem S512x256 .f32) (harg4 : arg4.IsWhole) (arg5 : Memref sig .tc .vmem S512x256 .f32) (harg5 : arg5.IsWhole) (arg6 : Memref sig .tc .vmem S512x256 .f32) (harg6 : arg6.IsWhole) (hc0 : ¬cond0_0 i) (hc1 : cond0_1 i)
    (x0 : Vec F S512x2048 .f32) (x1 : Vec F S2048x256 .f32) (xs0 : Vec F S512x256 .f32) (xs1 : Vec F S512x256 .f32) :
    Σ' (L2 : List (View.Piece (Elt F) S512x256 .f32)) (LS0 : List (View.Piece (Elt F) S512x256 .f32)), { LS1 : List (View.Piece (Elt F) S512x256 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0 ∗ owns (c : Thread nD τ) arg6 fullShare xs1
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1)) -∗ K ⟨⟩))
          ⊢ wp frame (wpE (defs₀ (F := F)) Variants.none c none) E (cc0__interaction_kernel i arg2 harg2 arg3 harg3 arg4 harg4 arg5 harg5 arg6 harg6) K } := by
  refine ⟨?_, ?_, ?_, fun E K => ?run⟩
  case run =>
    simp only [cc0__interaction_kernel_eq_skeleton]; unfold cc0__interaction_kernel_skel
    unfold owns
    iintro ⟨⟨%f0, %hf0, H0⟩, ⟨%f1, %hf1, H1⟩, ⟨%d2, %f2, -, H2⟩, ⟨%fs0, %hfs0, HS0⟩, ⟨%fs1, %hfs1, HS1⟩, Hk⟩
    obtain rfl := harg2.eq_unread hf0; obtain rfl := harg3.eq_unread hf1
    obtain rfl := harg5.eq_unread hfs0; obtain rfl := harg6.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [HS0]; · iexists _; iexact HS0
    iexists _; iexact HS1

end Cert.Kernel.Hand

end
-- ==== Proof.K.Region0.lean ====
/-
  Region 0: what the interaction kernel leaves, step by step. After reduction step f of batch half b the two
  accumulators hold the step's pieces over what step f − 1 left (reset first at f = 0); at f = 7 the output block is
  stored from them. `outsAt0` follows that recursion over the sixteen grid points; the region invariant names the
  accumulators' contents from the second point on; the body obligation is the case's run at each point.
-/
import proofs.«146741_j35055523070100_2_alg».proof.Proof.K.Region0RunA
import proofs.«146741_j35055523070100_2_alg».proof.Proof.K.Region0RunB
import proofs.«146741_j35055523070100_2_alg».proof.Proof.K.Region0RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The three cases at a grid point -/

/-- The first reduction step's run at point `t`. -/
abbrev RA (c : Dev nD) (t : Fin cfg0.N) (h0 : t.val % 8 = 0) (h1 : ¬t.val % 8 = 7) :=
  kernelRun0_A (F := F) c (grid0.coords t) (ms0_0 t) (hs0_0 t) (ms0_1 t) (hs0_1 t) (ms0_2 t) (hs0_2 t) scM0_0 (Memref.isWhole_whole _) scM0_1 (Memref.isWhole_whole _) ((hcond0_0 t).mpr h0) (fun h => h1 ((hcond0_1 t).mp h)) (iblk0 V c 0 t) (iblk0 V c 1 t)
/-- A middle reduction step's run at point `t`, the accumulators found at `xs0`, `xs1`. -/
abbrev RB (c : Dev nD) (t : Fin cfg0.N) (h0 : ¬t.val % 8 = 0) (h1 : ¬t.val % 8 = 7) (xs0 xs1 : Vec F S512x256 .f32) :=
  kernelRun0_B (F := F) c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) (fun h => h1 ((hcond0_1 t).mp h)) (iblk0 V c 0 t) (iblk0 V c 1 t) xs0 xs1
/-- The last reduction step's run at point `t`, the accumulators found at `xs0`, `xs1`. -/
abbrev RC (c : Dev nD) (t : Fin cfg0.N) (h0 : ¬t.val % 8 = 0) (h1 : t.val % 8 = 7) (xs0 xs1 : Vec F S512x256 .f32) :=
  kernelRun0_C (F := F) c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h1) (iblk0 V c 0 t) (iblk0 V c 1 t) xs0 xs1

/-- What a first step leaves: (the output's buffer — idle there, a placeholder nothing reads —, Σ x·e so far, Σ x²·e² so far). -/
def stepA (c : Dev nD) (t : Fin cfg0.N) (h0 : t.val % 8 = 0) (h1 : ¬t.val % 8 = 7) : Vec F S512x256 .f32 × Vec F S512x256 .f32 × Vec F S512x256 .f32 :=
  (VO0_2.read (Elt F) (VO0_2.writes (Elt F) VO0_2.junk []),
   VS0_0.read (Elt F) (VS0_0.writes (Elt F) VS0_0.junk (RA V c t h0 h1).1),
   VS0_1.read (Elt F) (VS0_1.writes (Elt F) VS0_1.junk (RA V c t h0 h1).2.1))
/-- What a middle step leaves. -/
def stepB (c : Dev nD) (t : Fin cfg0.N) (h0 : ¬t.val % 8 = 0) (h1 : ¬t.val % 8 = 7) (xs0 xs1 : Vec F S512x256 .f32) : Vec F S512x256 .f32 × Vec F S512x256 .f32 × Vec F S512x256 .f32 :=
  (VO0_2.read (Elt F) (VO0_2.writes (Elt F) VO0_2.junk []),
   VS0_0.read (Elt F) (VS0_0.writes (Elt F) VS0_0.junk (RB V c t h0 h1 xs0 xs1).1),
   VS0_1.read (Elt F) (VS0_1.writes (Elt F) VS0_1.junk (RB V c t h0 h1 xs0 xs1).2.1))
/-- What the last step leaves: the output block stored, the accumulators advanced once more. -/
def stepC (c : Dev nD) (t : Fin cfg0.N) (h0 : ¬t.val % 8 = 0) (h1 : t.val % 8 = 7) (xs0 xs1 : Vec F S512x256 .f32) : Vec F S512x256 .f32 × Vec F S512x256 .f32 × Vec F S512x256 .f32 :=
  (VO0_2.read (Elt F) (VO0_2.writes (Elt F) VO0_2.junk (RC V c t h0 h1 xs0 xs1).1),
   VS0_0.read (Elt F) (VS0_0.writes (Elt F) VS0_0.junk (RC V c t h0 h1 xs0 xs1).2.1),
   VS0_1.read (Elt F) (VS0_1.writes (Elt F) VS0_1.junk (RC V c t h0 h1 xs0 xs1).2.2.1))

/-! Each buffer a case stores into is stored whole, so its pieces cover it. -/
theorem scoverA_0 (c : Dev nD) (t : Fin cfg0.N) (h0 : t.val % 8 = 0) (h1 : ¬t.val % 8 = 7) (y : S512x256.Idx) :
    ∃ pc ∈ (RA V c t h0 h1).1, y ∈ pc.1.set := View.cover_of_tiledL (RA V c t h0 h1).1 S512x256.size (by sl_kernel_rfl) y
theorem scoverA_1 (c : Dev nD) (t : Fin cfg0.N) (h0 : t.val % 8 = 0) (h1 : ¬t.val % 8 = 7) (y : S512x256.Idx) :
    ∃ pc ∈ (RA V c t h0 h1).2.1, y ∈ pc.1.set := View.cover_of_tiledL (RA V c t h0 h1).2.1 S512x256.size (by sl_kernel_rfl) y
theorem scoverB_0 (c : Dev nD) (t : Fin cfg0.N) (h0 : ¬t.val % 8 = 0) (h1 : ¬t.val % 8 = 7) (xs0 xs1 : Vec F S512x256 .f32) (y : S512x256.Idx) :
    ∃ pc ∈ (RB V c t h0 h1 xs0 xs1).1, y ∈ pc.1.set := View.cover_of_tiledL (RB V c t h0 h1 xs0 xs1).1 S512x256.size (by sl_kernel_rfl) y
theorem scoverB_1 (c : Dev nD) (t : Fin cfg0.N) (h0 : ¬t.val % 8 = 0) (h1 : ¬t.val % 8 = 7) (xs0 xs1 : Vec F S512x256 .f32) (y : S512x256.Idx) :
    ∃ pc ∈ (RB V c t h0 h1 xs0 xs1).2.1, y ∈ pc.1.set := View.cover_of_tiledL (RB V c t h0 h1 xs0 xs1).2.1 S512x256.size (by sl_kernel_rfl) y
theorem coverC_2 (c : Dev nD) (t : Fin cfg0.N) (h0 : ¬t.val % 8 = 0) (h1 : t.val % 8 = 7) (xs0 xs1 : Vec F S512x256 .f32) (y : S512x256.Idx) :
    ∃ pc ∈ (RC V c t h0 h1 xs0 xs1).1, y ∈ pc.1.set := View.cover_of_tiledL (RC V c t h0 h1 xs0 xs1).1 S512x256.size (by sl_kernel_rfl) y
theorem scoverC_0 (c : Dev nD) (t : Fin cfg0.N) (h0 : ¬t.val % 8 = 0) (h1 : t.val % 8 = 7) (xs0 xs1 : Vec F S512x256 .f32) (y : S512x256.Idx) :
    ∃ pc ∈ (RC V c t h0 h1 xs0 xs1).2.1, y ∈ pc.1.set := View.cover_of_tiledL (RC V c t h0 h1 xs0 xs1).2.1 S512x256.size (by sl_kernel_rfl) y
theorem scoverC_1 (c : Dev nD) (t : Fin cfg0.N) (h0 : ¬t.val % 8 = 0) (h1 : t.val % 8 = 7) (xs0 xs1 : Vec F S512x256 .f32) (y : S512x256.Idx) :
    ∃ pc ∈ (RC V c t h0 h1 xs0 xs1).2.2.1, y ∈ pc.1.set := View.cover_of_tiledL (RC V c t h0 h1 xs0 xs1).2.2.1 S512x256.size (by sl_kernel_rfl) y

/-! ## The accumulation over the grid -/

/-- What the output's staging buffer and the two accumulators hold after the body at position `n`: the case the
    position is in, run on the point's blocks, the accumulators taken from position `n − 1` unless the step resets them. -/
def outsAt0 (c : Dev nD) : (n : ℕ) → n < cfg0.N → Vec F S512x256 .f32 × Vec F S512x256 .f32 × Vec F S512x256 .f32
  | 0, hn => stepA V c ⟨0, hn⟩ (Nat.zero_mod _) (by show ¬(0 % 8 = 7); decide)
  | n + 1, hn =>
    if h0 : (n + 1) % 8 = 0 then
      if h1 : (n + 1) % 8 = 7 then False.elim (by omega)
      else stepA V c ⟨n + 1, hn⟩ h0 h1
    else
      if h1 : (n + 1) % 8 = 7 then
        stepC V c ⟨n + 1, hn⟩ h0 h1 (outsAt0 c n (Nat.lt_of_succ_lt hn)).2.1 (outsAt0 c n (Nat.lt_of_succ_lt hn)).2.2
      else
        stepB V c ⟨n + 1, hn⟩ h0 h1 (outsAt0 c n (Nat.lt_of_succ_lt hn)).2.1 (outsAt0 c n (Nat.lt_of_succ_lt hn)).2.2

theorem outsAt0_A (c : Dev nD) (t : Fin cfg0.N) (h0 : t.val % 8 = 0) (h1 : ¬t.val % 8 = 7) :
    outsAt0 V c t.val t.isLt = stepA V c t h0 h1 := by
  obtain ⟨n, hn⟩ := t
  cases n with
  | zero => exact rfl
  | succ n => exact (dif_pos h0).trans ((dif_neg h1).trans rfl)

theorem outsAt0_B (c : Dev nD) (t : Fin cfg0.N) (h0 : ¬t.val % 8 = 0) (h1 : ¬t.val % 8 = 7) :
    outsAt0 V c t.val t.isLt = stepB V c t h0 h1 (outsAt0 V c (t.val - 1) (Nat.lt_of_le_of_lt (Nat.sub_le _ _) t.isLt)).2.1 (outsAt0 V c (t.val - 1) (Nat.lt_of_le_of_lt (Nat.sub_le _ _) t.isLt)).2.2 := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 8 = 0) (h1 : t.val % 8 = 7) :
    outsAt0 V c t.val t.isLt = stepC V c t h0 h1 (outsAt0 V c (t.val - 1) (Nat.lt_of_le_of_lt (Nat.sub_le _ _) t.isLt)).2.1 (outsAt0 V c (t.val - 1) (Nat.lt_of_le_of_lt (Nat.sub_le _ _) t.isLt)).2.2 := by
  obtain ⟨n, hn⟩ := t
  cases n with
  | zero => exact (by exfalso; (try dsimp only at h0); exact absurd (Nat.zero_mod _) h0)
  | succ n => exact (dif_neg h0).trans ((dif_pos h1).trans rfl)

/-! ## The region invariant -/

/-- Before position `n`: at the region's start the class's invariant (every scratch at anything); afterwards the two
    accumulators at what the point before left, every other scoped buffer unopened, the generator register at some state. -/
def PhiS0 (c : Dev nD) : (n : ℕ) → n ≤ cfg0.N → sProp 𝕄
  | 0, _ => Pipeline.ΦA spec0 c
  | n + 1, hn => iprop(iprop(iprop(owns (c : Thread nD τ) scM0_0 fullShare (outsAt0 V c n hn).2.1 ∗ owns (c : Thread nD τ) scM0_1 fullShare (outsAt0 V c n hn).2.2) ∗ others0 c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(iprop(owns (c : Thread nD τ) scM0_0 fullShare (outsAt0 V c n hn).2.1 ∗ owns (c : Thread nD τ) scM0_1 fullShare (outsAt0 V c n hn).2.2) ∗ others0 c) ∗ (∃ r, prngReg c r)) := rfl

theorem PhiS0_pos (c : Dev nD) (n : ℕ) (h : n ≤ cfg0.N) (hz : n ≠ 0) :
    PhiS0 V c n h = iprop(iprop(iprop(owns (c : Thread nD τ) scM0_0 fullShare (outsAt0 V c (n - 1) (by omega)).2.1 ∗ owns (c : Thread nD τ) scM0_1 fullShare (outsAt0 V c (n - 1) (by omega)).2.2) ∗ others0 c) ∗ (∃ r, prngReg c r)) := by
  cases n with
  | zero => exact absurd rfl hz
  | succ n => rfl

/-! ## The proof data -/

/-- Region 0's proof data on core `c`: the arrays as the region finds them; after the body at point `t` each input's
    buffer at its block, the output's at `outsAt0`'s first component; the invariant `PhiS0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point: the two inputs' buffers hold their blocks; the closed forms say which of the three cases
    the point is in; the invariant hands the body the accumulators at what the point before left (at anything before
    the first point) and takes them back at this point's contents; off the last reduction step the output's buffer is
    handed back as found. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  have hN : t.val < 16 := lt_of_lt_of_eq t.isLt (show cfg0.N = 16 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  by_cases h0 : t.val % 8 = 0
  · have h1 : ¬t.val % 8 = 7 := by omega
    rw [Dat.leavesExact_idle (dat0 V c) 2 t (idleAt0_2 t (fun h => h1 ((hcond0_1 t).mp h))) (noFlush0_2 t (fun h => h1 ((hcond0_1 t).mp h)))]
    rw [outsAt0_A V c t h0 h1]
    unfold stepA; (try dsimp only)
    by_cases hz : t.val = 0
    · rw [PhiS0_castSucc V c t, PhiS0_zero V c _ _ hz, PhiA0_eq]
      iintro ⟨⟨⟨⟨HS0, HS1⟩, Hoth⟩, Hg⟩, Ho, ⟨%d0, H0⟩, ⟨%d1, H1⟩, ⟨%d2, H2⟩⟩
      iapply ((RA V c t h0 h1).2.2 _ Set.univ _)
      isplitl [H0]; · iexact H0
      isplitl [H1]; · iexact H1
      isplitl [H2]; · iexact H2
      isplitl [HS0]; · iexact HS0
      isplitl [HS1]; · iexact HS1
      iintro ⟨H0, H1, H2, ⟨%es0, HS0⟩, ⟨%es1, HS1⟩⟩
      isplitl [HS0 HS1 Hoth Hg]
      · isplitl [HS0 HS1 Hoth]
        · isplitl [HS0 HS1]
          · isplitl [HS0]
            · unfold owns; iexists _; isplitr
              swap; · iexact HS0
              ipureintro; exact View.read_writes_of_cover _ _ _ _ _ (scoverA_0 V c t h0 h1)
            · unfold owns; iexists _; isplitr
              swap; · iexact HS1
              ipureintro; exact View.read_writes_of_cover _ _ _ _ _ (scoverA_1 V c t h0 h1)
          iexact Hoth
        iexact Hg
      isplitl [Ho]; · iexact Ho
      isplitl [H0]; · iexact H0
      isplitl [H1]; · iexact H1
      iexists _; iexact H2
    · rw [PhiS0_castSucc V c t, PhiS0_pos V c _ _ hz]
      iintro ⟨⟨⟨⟨HS0, HS1⟩, Hoth⟩, Hg⟩, Ho, ⟨%d0, H0⟩, ⟨%d1, H1⟩, ⟨%d2, H2⟩⟩
      iapply ((RA V c t h0 h1).2.2 _ Set.univ _)
      isplitl [H0]; · iexact H0
      isplitl [H1]; · iexact H1
      isplitl [H2]; · iexact H2
      isplitl [HS0]; · iexists _; iexact HS0
      isplitl [HS1]; · iexists _; iexact HS1
      iintro ⟨H0, H1, H2, ⟨%es0, HS0⟩, ⟨%es1, HS1⟩⟩
      isplitl [HS0 HS1 Hoth Hg]
      · isplitl [HS0 HS1 Hoth]
        · isplitl [HS0 HS1]
          · isplitl [HS0]
            · unfold owns; iexists _; isplitr
              swap; · iexact HS0
              ipureintro; exact View.read_writes_of_cover _ _ _ _ _ (scoverA_0 V c t h0 h1)
            · unfold owns; iexists _; isplitr
              swap; · iexact HS1
              ipureintro; exact View.read_writes_of_cover _ _ _ _ _ (scoverA_1 V c t h0 h1)
          iexact Hoth
        iexact Hg
      isplitl [Ho]; · iexact Ho
      isplitl [H0]; · iexact H0
      isplitl [H1]; · iexact H1
      iexists _; iexact H2
  · have hz : t.val ≠ 0 := fun hz => h0 (by rw [hz])
    by_cases h1 : t.val % 8 = 7
    · rw [show (dat0 V c).leavesExact 2 t = owns (c : Thread nD τ) (ms0_2 t) fullShare ((dat0 V c).after 2 t) from by
        unfold Dat.leavesExact; rw [liveAt0_2 t ((hcond0_1 t).mpr h1)], after0_2]
      rw [outsAt0_C V c t h0 h1]
      unfold stepC; (try dsimp only)
      rw [PhiS0_castSucc V c t, PhiS0_pos V c _ _ hz]
      iintro ⟨⟨⟨⟨HS0, HS1⟩, Hoth⟩, Hg⟩, Ho, ⟨%d0, H0⟩, ⟨%d1, H1⟩, ⟨%d2, H2⟩⟩
      iapply ((RC V c t h0 h1 _ _).2.2.2 Set.univ _)
      isplitl [H0]; · iexact H0
      isplitl [H1]; · iexact H1
      isplitl [H2]; · iexists _; iexact H2
      isplitl [HS0]; · iexact HS0
      isplitl [HS1]; · iexact HS1
      iintro ⟨H0, H1, ⟨%e2, H2⟩, ⟨%es0, HS0⟩, ⟨%es1, HS1⟩⟩
      isplitl [HS0 HS1 Hoth Hg]
      · isplitl [HS0 HS1 Hoth]
        · isplitl [HS0 HS1]
          · isplitl [HS0]
            · unfold owns; iexists _; isplitr
              swap; · iexact HS0
              ipureintro; exact View.read_writes_of_cover _ _ _ _ _ (scoverC_0 V c t h0 h1 _ _)
            · unfold owns; iexists _; isplitr
              swap; · iexact HS1
              ipureintro; exact View.read_writes_of_cover _ _ _ _ _ (scoverC_1 V c t h0 h1 _ _)
          iexact Hoth
        iexact Hg
      isplitl [Ho]; · iexact Ho
      isplitl [H0]; · iexact H0
      isplitl [H1]; · iexact H1
      unfold owns; iexists _; isplitr
      swap; · iexact H2
      ipureintro; exact View.read_writes_of_cover _ _ _ _ _ (coverC_2 V c t h0 h1 _ _)
    · rw [Dat.leavesExact_idle (dat0 V c) 2 t (idleAt0_2 t (fun h => h1 ((hcond0_1 t).mp h))) (noFlush0_2 t (fun h => h1 ((hcond0_1 t).mp h)))]
      rw [outsAt0_B V c t h0 h1]
      unfold stepB; (try dsimp only)
      rw [PhiS0_castSucc V c t, PhiS0_pos V c _ _ hz]
      iintro ⟨⟨⟨⟨HS0, HS1⟩, Hoth⟩, Hg⟩, Ho, ⟨%d0, H0⟩, ⟨%d1, H1⟩, ⟨%d2, H2⟩⟩
      iapply ((RB V c t h0 h1 _ _).2.2 _ Set.univ _)
      isplitl [H0]; · iexact H0
      isplitl [H1]; · iexact H1
      isplitl [H2]; · iexact H2
      isplitl [HS0]; · iexact HS0
      isplitl [HS1]; · iexact HS1
      iintro ⟨H0, H1, H2, ⟨%es0, HS0⟩, ⟨%es1, HS1⟩⟩
      isplitl [HS0 HS1 Hoth Hg]
      · isplitl [HS0 HS1 Hoth]
        · isplitl [HS0 HS1]
          · isplitl [HS0]
            · unfold owns; iexists _; isplitr
              swap; · iexact HS0
              ipureintro; exact View.read_writes_of_cover _ _ _ _ _ (scoverB_0 V c t h0 h1 _ _)
            · unfold owns; iexists _; isplitr
              swap; · iexact HS1
              ipureintro; exact View.read_writes_of_cover _ _ _ _ _ (scoverB_1 V c t h0 h1 _ _)
          iexact Hoth
        iexact Hg
      isplitl [Ho]; · iexact Ho
      isplitl [H0]; · iexact H0
      isplitl [H1]; · iexact H1
      iexists _; iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

/-! ## The invariant's two ends -/

/-- What the region is entered with (the class's invariant) is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point but the first the invariant gives the class's back: the accumulators' contents are forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨⟨HS0, HS1⟩, Hoth⟩, Hg⟩
  isplitl [HS0 HS1 Hoth]
  · isplitl [HS0 HS1]
    · isplitl [HS0]
      · iexists _; iexact HS0
      · iexists _; iexact HS1
    iexact Hoth
  iexact Hg

theorem hout0 (c : Dev nD) : (dat0 V c).Φ (Fin.last cfg0.N) ⊢ Pipeline.ΦA spec0 c :=
  Phi_out0 V c _ (by rw [Fin.val_last]; have : cfg0.N = 16 := N_0; omega)

end Cert.Kernel.Hand

end
-- ==== Proof.K.Region1Runs.lean ====
/- Region 1 (the linear kernel, pipeline 1): what its three case runs share. The windows' blocks read off the
   entry contents, the inputs' staging buffers holding their blocks at every point, the two branch conditions
   of the body in closed form over the grid, where the output window is idle, the staging and scratch memrefs,
   and the region invariant with the accumulator split off the scoped rest. -/
import proofs.«146741_j35055523070100_2_alg».proof.Proof.Gen.Kernel.Launch
import proofs.«146741_j35055523070100_2_alg».proof.Proof.Gen.Kernel.Skeleton
import proofs.«146741_j35055523070100_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter everything here is stated at
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The same for input window 1. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The same for input window 2 (the bias row), which is fetched only where its block index changes: where it is
    not fetched the index has not moved, so the buffer still holds the block. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch conditions -/

/-- The condition of the body's first conditional (the accumulator is zeroed), from the grid coordinates. -/
abbrev cond1_0 (i : grid1.Coords) : Prop := (Scalar.cmpi .ne (Scalar.extui (Scalar.cmpi .eq (BitVec.ofNat 32 (i 1).val) 0#32)) 0#32) = 1#1
/-- It holds at the points ≡ 0 (mod 64): decided over the grid. -/
theorem hcond1_0 : ∀ t : Fin cfg1.N, cond1_0 (grid1.coords t) ↔ t.val % 64 = 0 :=
  (by decide +kernel : ∀ t : Fin grid1.N, cond1_0 (grid1.coords t) ↔ t.val % 64 = 0)

/-- The condition of the body's second conditional (the output is stored), from the grid coordinates. -/
abbrev cond1_1 (i : grid1.Coords) : Prop := k1_cond2 i = 1#1
/-- It holds at the points ≡ 63 (mod 64): decided over the grid. -/
theorem hcond1_1 : ∀ t : Fin cfg1.N, cond1_1 (grid1.coords t) ↔ t.val % 64 = 63 :=
  (by decide +kernel : ∀ t : Fin grid1.N, cond1_1 (grid1.coords t) ↔ t.val % 64 = 63)

/-! ## Where the windows are idle -/

/-- The inputs are never idle. -/
theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
/-- Where the second conditional fails the output window is idle: nothing is stored into it. -/
theorem idleAt1_3 : ∀ t : Fin cfg1.N, ¬cond1_1 (grid1.coords t) → cfg1.idle 3 (grid1.coords t) = true := by decide +kernel
/-- And there the pipeline does not write its block back. -/
theorem noFlush1_3 : ∀ t : Fin cfg1.N, ¬cond1_1 (grid1.coords t) → (cfg1.win 3).flush t = false := by decide +kernel
/-- Where it holds the output window is live: the body stores into it. -/
theorem liveAt1_3 : ∀ t : Fin cfg1.N, cond1_1 (grid1.coords t) → cfg1.idle 3 (grid1.coords t) = false := by decide +kernel

/-! ## The staging and scratch memrefs -/

/-- One staging buffer of output window 3, through which its contents are stated (the choice does not matter). -/
abbrev VO1_3 : View sig .tc .vmem S1024x2048 .f32 := (Memref.whole cc1_stg3_0 : Memref sig .tc .vmem S1024x2048 .f32).view
/-- Each window's current staging memref at point `t`, spelled as the pipeline passes it, and its wholeness. -/
abbrev ms1_0 (t : Fin cfg1.N) : Memref sig .tc .vmem S1024x256 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2048x256 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x2048 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x2048 .f32 := win1_3.stage (cfg1.slots t 3)
abbrev hs1_3 (t : Fin cfg1.N) : (ms1_3 t).IsWhole := hstage1_3 ((cfg1.slots t 3).cast nbuf1_3)
/-- The accumulator: a whole scoped buffer of the kernel's own, passed beside the windows. -/
abbrev scM1_0 : Memref sig .tc .vmem S1024x2048 .f32 := Memref.whole cc1_scratch0
/-- The accumulator as a view: what it holds is stated through it. -/
abbrev VS1_0 : View sig .tc .vmem S1024x2048 .f32 := scM1_0.view

/-- The scoped buffers of the core other than this call's staging buffers and its accumulator, each at some
    contents: carried along unopened. -/
abbrev rest1 (c : Dev nD) : sProp 𝕄 :=
  Pipeline.scopedRestBut (Ix := Unit) (Name := ℕ) (U := UR sig nD τ) (Lvl := ℕ) (Val := Elt F) spec1 c [cc1_scratch0]

/-- The region invariant with the accumulator as a memref owned at some contents, split off the scoped rest:
    what the body obligation hands the run and takes back. -/
theorem PhiA1_eq (c : Dev nD) :
    (Pipeline.ΦA spec1 c : sProp 𝕄)
      = iprop(iprop((∃ d, owns (c : Thread nD τ) scM1_0 fullShare d) ∗ rest1 (F := F) c) ∗ (∃ r, prngReg c r)) := by
  unfold Pipeline.ΦA
  rw [Pipeline.scopedRest_split_of_list spec1 c [cc1_scratch0] (by decide) (by decide)]
  simp only [bigSepL_singleton, scM1_0, owns_whole]; try rfl

end Cert.Kernel.Hand

end
-- ==== Proof.K.Region1RunA.lean ====
/- Region 1, case A of the body (the first conditional taken, the second not: the accumulator is zeroed, then
   accumulated into; nothing is stored out): the body's triple on any whole staging memrefs, with the pieces its
   two stores leave in the accumulator as the witness the symbolic run finds. -/
import proofs.«146741_j35055523070100_2_alg».proof.Proof.K.Region1Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Case A. On whole memrefs — the three inputs at their contents, the output's buffer at contents `xi3` handed
    back untouched, the accumulator at anything — the body runs to the continuation holding the inputs and the
    output's buffer as they were and the accumulator with its pieces written. -/
noncomputable def kernelRun1_A (c : Dev nD) (i : grid1.Coords) (arg2 : Memref sig .tc .vmem S1024x256 .f32) (harg2 : arg2.IsWhole) (arg3 : Memref sig .tc .vmem S2048x256 .f32) (harg3 : arg3.IsWhole) (arg4 : Memref sig .tc .vmem S1x2048 .f32) (harg4 : arg4.IsWhole) (arg5 : Memref sig .tc .vmem S1024x2048 .f32) (harg5 : arg5.IsWhole) (arg6 : Memref sig .tc .vmem S1024x2048 .f32) (harg6 : arg6.IsWhole) (hc0 : cond1_0 i) (hc1 : ¬cond1_1 i)
    (x0 : Vec F S1024x256 .f32) (x1 : Vec F S2048x256 .f32) (x2 : Vec F S1x2048 .f32) :
    Σ' (L3 : List (View.Piece (Elt F) S1024x2048 .f32)), { LS0 : List (View.Piece (Elt F) S1024x2048 .f32) //
      ∀ (xi3 : Vec F S1024x2048 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1__linear_kernel i arg2 harg2 arg3 harg3 arg4 harg4 arg5 harg5 arg6 harg6) K } := by
  refine ⟨[], ?_, fun xi3 E K => ?run⟩
  case run =>
    simp only [cc1__linear_kernel_eq_skeleton]; unfold cc1__linear_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.Kernel.Hand

end
-- ==== Proof.K.Region1RunB.lean ====
/- Region 1, case B of the body (neither conditional taken: the accumulator is neither zeroed nor stored out):
   the body's triple on any whole staging memrefs, with the pieces its one store leaves in the accumulator as
   the witness the symbolic run finds. -/
import proofs.«146741_j35055523070100_2_alg».proof.Proof.K.Region1Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Case B. On whole memrefs — the three inputs at their contents, the output's buffer at contents `xi3` handed
    back untouched, the accumulator at what the point before left (`xs0`) — the body runs to the continuation
    holding the inputs and the output's buffer as they were and the accumulator with its pieces written. -/
noncomputable def kernelRun1_B (c : Dev nD) (i : grid1.Coords) (arg2 : Memref sig .tc .vmem S1024x256 .f32) (harg2 : arg2.IsWhole) (arg3 : Memref sig .tc .vmem S2048x256 .f32) (harg3 : arg3.IsWhole) (arg4 : Memref sig .tc .vmem S1x2048 .f32) (harg4 : arg4.IsWhole) (arg5 : Memref sig .tc .vmem S1024x2048 .f32) (harg5 : arg5.IsWhole) (arg6 : Memref sig .tc .vmem S1024x2048 .f32) (harg6 : arg6.IsWhole) (hc0 : ¬cond1_0 i) (hc1 : ¬cond1_1 i)
    (x0 : Vec F S1024x256 .f32) (x1 : Vec F S2048x256 .f32) (x2 : Vec F S1x2048 .f32) (xs0 : Vec F S1024x2048 .f32) :
    Σ' (L3 : List (View.Piece (Elt F) S1024x2048 .f32)), { LS0 : List (View.Piece (Elt F) S1024x2048 .f32) //
      ∀ (xi3 : Vec F S1024x2048 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1__linear_kernel i arg2 harg2 arg3 harg3 arg4 harg4 arg5 harg5 arg6 harg6) K } := by
  refine ⟨[], ?_, fun xi3 E K => ?run⟩
  case run =>
    simp only [cc1__linear_kernel_eq_skeleton]; unfold cc1__linear_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.Kernel.Hand

end
-- ==== Proof.K.Region1RunC.lean ====
/- Region 1, case C of the body (the second conditional taken, the first not: the accumulator is accumulated
   into, then stored out with the bias row added): the body's triple on any whole staging memrefs, with the
   pieces its stores leave in the output's buffer and in the accumulator as the witness the symbolic run finds. -/
import proofs.«146741_j35055523070100_2_alg».proof.Proof.K.Region1Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Case C. On whole memrefs — the three inputs at their contents, the output's buffer at anything, the
    accumulator at what the point before left (`xs0`) — the body runs to the continuation holding the inputs as
    they were and the output's buffer and the accumulator each with its pieces written. -/
noncomputable def kernelRun1_C (c : Dev nD) (i : grid1.Coords) (arg2 : Memref sig .tc .vmem S1024x256 .f32) (harg2 : arg2.IsWhole) (arg3 : Memref sig .tc .vmem S2048x256 .f32) (harg3 : arg3.IsWhole) (arg4 : Memref sig .tc .vmem S1x2048 .f32) (harg4 : arg4.IsWhole) (arg5 : Memref sig .tc .vmem S1024x2048 .f32) (harg5 : arg5.IsWhole) (arg6 : Memref sig .tc .vmem S1024x2048 .f32) (harg6 : arg6.IsWhole) (hc0 : ¬cond1_0 i) (hc1 : cond1_1 i)
    (x0 : Vec F S1024x256 .f32) (x1 : Vec F S2048x256 .f32) (x2 : Vec F S1x2048 .f32) (xs0 : Vec F S1024x2048 .f32) :
    Σ' (L3 : List (View.Piece (Elt F) S1024x2048 .f32)), { LS0 : List (View.Piece (Elt F) S1024x2048 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc1__linear_kernel i arg2 harg2 arg3 harg3 arg4 harg4 arg5 harg5 arg6 harg6) K } := by
  refine ⟨?_, ?_, fun E K => ?run⟩
  case run =>
    simp only [cc1__linear_kernel_eq_skeleton]; unfold cc1__linear_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.Kernel.Hand

end
-- ==== Proof.K.Region1.lean ====
/- Region 1 (the linear kernel, pipeline 1), the frame half at entry contents `V`: what the output's staging
   buffer and the accumulator hold after each point (case by case, then point by point), the proof data, the body
   obligation at every point, and the invariant's ends. -/
import proofs.«146741_j35055523070100_2_alg».proof.Proof.K.Region1RunA
import proofs.«146741_j35055523070100_2_alg».proof.Proof.K.Region1RunB
import proofs.«146741_j35055523070100_2_alg».proof.Proof.K.Region1RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- Case A stores nothing into the output's buffer (the window is idle at its points and not written back there):
    no pieces, so a placeholder that nothing consults. -/
def out1_A_3 (c : Dev nD) (i : grid1.Coords) (arg2 : Memref sig .tc .vmem S1024x256 .f32) (harg2 : arg2.IsWhole) (arg3 : Memref sig .tc .vmem S2048x256 .f32) (harg3 : arg3.IsWhole) (arg4 : Memref sig .tc .vmem S1x2048 .f32) (harg4 : arg4.IsWhole) (arg5 : Memref sig .tc .vmem S1024x2048 .f32) (harg5 : arg5.IsWhole) (arg6 : Memref sig .tc .vmem S1024x2048 .f32) (harg6 : arg6.IsWhole) (hc0 : cond1_0 i) (hc1 : ¬cond1_1 i)
    (x0 : Vec F S1024x256 .f32) (x1 : Vec F S2048x256 .f32) (x2 : Vec F S1x2048 .f32) : Vec F S1024x2048 .f32 :=
  VO1_3.read (Elt F) (VO1_3.writes (Elt F) VO1_3.junk (kernelRun1_A c i arg2 harg2 arg3 harg3 arg4 harg4 arg5 harg5 arg6 harg6 hc0 hc1 x0 x1 x2).1)

/-- Case A's pieces for the accumulator tile it, so they cover it. -/
theorem scover1_A_0 (c : Dev nD) (i : grid1.Coords) (arg2 : Memref sig .tc .vmem S1024x256 .f32) (harg2 : arg2.IsWhole) (arg3 : Memref sig .tc .vmem S2048x256 .f32) (harg3 : arg3.IsWhole) (arg4 : Memref sig .tc .vmem S1x2048 .f32) (harg4 : arg4.IsWhole) (arg5 : Memref sig .tc .vmem S1024x2048 .f32) (harg5 : arg5.IsWhole) (arg6 : Memref sig .tc .vmem S1024x2048 .f32) (harg6 : arg6.IsWhole) (hc0 : cond1_0 i) (hc1 : ¬cond1_1 i)
    (x0 : Vec F S1024x256 .f32) (x1 : Vec F S2048x256 .f32) (x2 : Vec F S1x2048 .f32) (y : S1024x2048.Idx) :
    ∃ pc ∈ (kernelRun1_A c i arg2 harg2 arg3 harg3 arg4 harg4 arg5 harg5 arg6 harg6 hc0 hc1 x0 x1 x2).2.1, y ∈ pc.1.set :=
  View.cover_of_tiledL (kernelRun1_A c i arg2 harg2 arg3 harg3 arg4 harg4 arg5 harg5 arg6 harg6 hc0 hc1 x0 x1 x2).2.1 S1024x2048.size (by sl_kernel_rfl) y

/-- What case A leaves in the accumulator: its pieces read back. -/
def sout1_A_0 (c : Dev nD) (i : grid1.Coords) (arg2 : Memref sig .tc .vmem S1024x256 .f32) (harg2 : arg2.IsWhole) (arg3 : Memref sig .tc .vmem S2048x256 .f32) (harg3 : arg3.IsWhole) (arg4 : Memref sig .tc .vmem S1x2048 .f32) (harg4 : arg4.IsWhole) (arg5 : Memref sig .tc .vmem S1024x2048 .f32) (harg5 : arg5.IsWhole) (arg6 : Memref sig .tc .vmem S1024x2048 .f32) (harg6 : arg6.IsWhole) (hc0 : cond1_0 i) (hc1 : ¬cond1_1 i)
    (x0 : Vec F S1024x256 .f32) (x1 : Vec F S2048x256 .f32) (x2 : Vec F S1x2048 .f32) : Vec F S1024x2048 .f32 :=
  VS1_0.read (Elt F) (VS1_0.writes (Elt F) VS1_0.junk (kernelRun1_A c i arg2 harg2 arg3 harg3 arg4 harg4 arg5 harg5 arg6 harg6 hc0 hc1 x0 x1 x2).2.1)

/-- Case B stores nothing into the output's buffer (the window is idle at its points and not written back there):
    no pieces, so a placeholder that nothing consults. -/
def out1_B_3 (c : Dev nD) (i : grid1.Coords) (arg2 : Memref sig .tc .vmem S1024x256 .f32) (harg2 : arg2.IsWhole) (arg3 : Memref sig .tc .vmem S2048x256 .f32) (harg3 : arg3.IsWhole) (arg4 : Memref sig .tc .vmem S1x2048 .f32) (harg4 : arg4.IsWhole) (arg5 : Memref sig .tc .vmem S1024x2048 .f32) (harg5 : arg5.IsWhole) (arg6 : Memref sig .tc .vmem S1024x2048 .f32) (harg6 : arg6.IsWhole) (hc0 : ¬cond1_0 i) (hc1 : ¬cond1_1 i)
    (x0 : Vec F S1024x256 .f32) (x1 : Vec F S2048x256 .f32) (x2 : Vec F S1x2048 .f32) (xs0 : Vec F S1024x2048 .f32) : Vec F S1024x2048 .f32 :=
  VO1_3.read (Elt F) (VO1_3.writes (Elt F) VO1_3.junk (kernelRun1_B c i arg2 harg2 arg3 harg3 arg4 harg4 arg5 harg5 arg6 harg6 hc0 hc1 x0 x1 x2 xs0).1)

/-- Case B's pieces for the accumulator tile it, so they cover it. -/
theorem scover1_B_0 (c : Dev nD) (i : grid1.Coords) (arg2 : Memref sig .tc .vmem S1024x256 .f32) (harg2 : arg2.IsWhole) (arg3 : Memref sig .tc .vmem S2048x256 .f32) (harg3 : arg3.IsWhole) (arg4 : Memref sig .tc .vmem S1x2048 .f32) (harg4 : arg4.IsWhole) (arg5 : Memref sig .tc .vmem S1024x2048 .f32) (harg5 : arg5.IsWhole) (arg6 : Memref sig .tc .vmem S1024x2048 .f32) (harg6 : arg6.IsWhole) (hc0 : ¬cond1_0 i) (hc1 : ¬cond1_1 i)
    (x0 : Vec F S1024x256 .f32) (x1 : Vec F S2048x256 .f32) (x2 : Vec F S1x2048 .f32) (xs0 : Vec F S1024x2048 .f32) (y : S1024x2048.Idx) :
    ∃ pc ∈ (kernelRun1_B c i arg2 harg2 arg3 harg3 arg4 harg4 arg5 harg5 arg6 harg6 hc0 hc1 x0 x1 x2 xs0).2.1, y ∈ pc.1.set :=
  View.cover_of_tiledL (kernelRun1_B c i arg2 harg2 arg3 harg3 arg4 harg4 arg5 harg5 arg6 harg6 hc0 hc1 x0 x1 x2 xs0).2.1 S1024x2048.size (by sl_kernel_rfl) y

/-- What case B leaves in the accumulator: its pieces read back. -/
def sout1_B_0 (c : Dev nD) (i : grid1.Coords) (arg2 : Memref sig .tc .vmem S1024x256 .f32) (harg2 : arg2.IsWhole) (arg3 : Memref sig .tc .vmem S2048x256 .f32) (harg3 : arg3.IsWhole) (arg4 : Memref sig .tc .vmem S1x2048 .f32) (harg4 : arg4.IsWhole) (arg5 : Memref sig .tc .vmem S1024x2048 .f32) (harg5 : arg5.IsWhole) (arg6 : Memref sig .tc .vmem S1024x2048 .f32) (harg6 : arg6.IsWhole) (hc0 : ¬cond1_0 i) (hc1 : ¬cond1_1 i)
    (x0 : Vec F S1024x256 .f32) (x1 : Vec F S2048x256 .f32) (x2 : Vec F S1x2048 .f32) (xs0 : Vec F S1024x2048 .f32) : Vec F S1024x2048 .f32 :=
  VS1_0.read (Elt F) (VS1_0.writes (Elt F) VS1_0.junk (kernelRun1_B c i arg2 harg2 arg3 harg3 arg4 harg4 arg5 harg5 arg6 harg6 hc0 hc1 x0 x1 x2 xs0).2.1)

/-- Case C's pieces for the output's buffer tile its block, so they cover it. -/
theorem cover1_C_3 (c : Dev nD) (i : grid1.Coords) (arg2 : Memref sig .tc .vmem S1024x256 .f32) (harg2 : arg2.IsWhole) (arg3 : Memref sig .tc .vmem S2048x256 .f32) (harg3 : arg3.IsWhole) (arg4 : Memref sig .tc .vmem S1x2048 .f32) (harg4 : arg4.IsWhole) (arg5 : Memref sig .tc .vmem S1024x2048 .f32) (harg5 : arg5.IsWhole) (arg6 : Memref sig .tc .vmem S1024x2048 .f32) (harg6 : arg6.IsWhole) (hc0 : ¬cond1_0 i) (hc1 : cond1_1 i)
    (x0 : Vec F S1024x256 .f32) (x1 : Vec F S2048x256 .f32) (x2 : Vec F S1x2048 .f32) (xs0 : Vec F S1024x2048 .f32) (y : S1024x2048.Idx) :
    ∃ pc ∈ (kernelRun1_C c i arg2 harg2 arg3 harg3 arg4 harg4 arg5 harg5 arg6 harg6 hc0 hc1 x0 x1 x2 xs0).1, y ∈ pc.1.set :=
  View.cover_of_tiledL (kernelRun1_C c i arg2 harg2 arg3 harg3 arg4 harg4 arg5 harg5 arg6 harg6 hc0 hc1 x0 x1 x2 xs0).1 S1024x2048.size (by sl_kernel_rfl) y

/-- What case C leaves in the output's staging buffer: its pieces read back. -/
def out1_C_3 (c : Dev nD) (i : grid1.Coords) (arg2 : Memref sig .tc .vmem S1024x256 .f32) (harg2 : arg2.IsWhole) (arg3 : Memref sig .tc .vmem S2048x256 .f32) (harg3 : arg3.IsWhole) (arg4 : Memref sig .tc .vmem S1x2048 .f32) (harg4 : arg4.IsWhole) (arg5 : Memref sig .tc .vmem S1024x2048 .f32) (harg5 : arg5.IsWhole) (arg6 : Memref sig .tc .vmem S1024x2048 .f32) (harg6 : arg6.IsWhole) (hc0 : ¬cond1_0 i) (hc1 : cond1_1 i)
    (x0 : Vec F S1024x256 .f32) (x1 : Vec F S2048x256 .f32) (x2 : Vec F S1x2048 .f32) (xs0 : Vec F S1024x2048 .f32) : Vec F S1024x2048 .f32 :=
  VO1_3.read (Elt F) (VO1_3.writes (Elt F) VO1_3.junk (kernelRun1_C c i arg2 harg2 arg3 harg3 arg4 harg4 arg5 harg5 arg6 harg6 hc0 hc1 x0 x1 x2 xs0).1)

/-- Case C's pieces for the accumulator tile it, so they cover it. -/
theorem scover1_C_0 (c : Dev nD) (i : grid1.Coords) (arg2 : Memref sig .tc .vmem S1024x256 .f32) (harg2 : arg2.IsWhole) (arg3 : Memref sig .tc .vmem S2048x256 .f32) (harg3 : arg3.IsWhole) (arg4 : Memref sig .tc .vmem S1x2048 .f32) (harg4 : arg4.IsWhole) (arg5 : Memref sig .tc .vmem S1024x2048 .f32) (harg5 : arg5.IsWhole) (arg6 : Memref sig .tc .vmem S1024x2048 .f32) (harg6 : arg6.IsWhole) (hc0 : ¬cond1_0 i) (hc1 : cond1_1 i)
    (x0 : Vec F S1024x256 .f32) (x1 : Vec F S2048x256 .f32) (x2 : Vec F S1x2048 .f32) (xs0 : Vec F S1024x2048 .f32) (y : S1024x2048.Idx) :
    ∃ pc ∈ (kernelRun1_C c i arg2 harg2 arg3 harg3 arg4 harg4 arg5 harg5 arg6 harg6 hc0 hc1 x0 x1 x2 xs0).2.1, y ∈ pc.1.set :=
  View.cover_of_tiledL (kernelRun1_C c i arg2 harg2 arg3 harg3 arg4 harg4 arg5 harg5 arg6 harg6 hc0 hc1 x0 x1 x2 xs0).2.1 S1024x2048.size (by sl_kernel_rfl) y

/-- What case C leaves in the accumulator: its pieces read back. -/
def sout1_C_0 (c : Dev nD) (i : grid1.Coords) (arg2 : Memref sig .tc .vmem S1024x256 .f32) (harg2 : arg2.IsWhole) (arg3 : Memref sig .tc .vmem S2048x256 .f32) (harg3 : arg3.IsWhole) (arg4 : Memref sig .tc .vmem S1x2048 .f32) (harg4 : arg4.IsWhole) (arg5 : Memref sig .tc .vmem S1024x2048 .f32) (harg5 : arg5.IsWhole) (arg6 : Memref sig .tc .vmem S1024x2048 .f32) (harg6 : arg6.IsWhole) (hc0 : ¬cond1_0 i) (hc1 : cond1_1 i)
    (x0 : Vec F S1024x256 .f32) (x1 : Vec F S2048x256 .f32) (x2 : Vec F S1x2048 .f32) (xs0 : Vec F S1024x2048 .f32) : Vec F S1024x2048 .f32 :=
  VS1_0.read (Elt F) (VS1_0.writes (Elt F) VS1_0.junk (kernelRun1_C c i arg2 harg2 arg3 harg3 arg4 harg4 arg5 harg5 arg6 harg6 hc0 hc1 x0 x1 x2 xs0).2.1)

/-! ## What the output's buffer and the accumulator hold after each point -/

/-- The accumulation. What the output's staging buffer and the accumulator hold after the body at position `n`:
    the case the closed forms select at `n`, run at the point's memrefs and input blocks, the accumulator read at
    what this leaves at `n - 1`. Both conditions at once is no point of the grid. -/
def outsAt1 (c : Dev nD) : (n : ℕ) → n < cfg1.N → Vec F S1024x2048 .f32 × Vec F S1024x2048 .f32
  | 0, hn => (out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩))
  | n + 1, hn =>
    if h0 : (n + 1) % 64 = 0 then
      if h1 : (n + 1) % 64 = 63 then
        False.elim (by omega)
      else
        (out1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩))
    else
      if h1 : (n + 1) % 64 = 63 then
        (out1_C_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2)
      else
        (out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2)

/-- `outsAt1` at a point of case A: that case's contents. -/
theorem outsAt1_A (c : Dev nD) (t : Fin cfg1.N) (h0 : t.val % 64 = 0) (h1 : ¬t.val % 64 = 63) :
    outsAt1 V c t.val t.isLt = (out1_A_3 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t), sout1_A_0 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t)) := by
  obtain ⟨n, hn⟩ := t
  cases n with
  | zero => exact rfl
  | succ n => exact (dif_pos h0).trans ((dif_neg h1).trans rfl)

/-- `outsAt1` at a point of case B: that case's contents, over what the point before left. -/
theorem outsAt1_B (c : Dev nD) (t : Fin cfg1.N) (h0 : ¬t.val % 64 = 0) (h1 : ¬t.val % 64 = 63) :
    outsAt1 V c t.val t.isLt = (out1_B_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt1` at a point of case C: that case's contents, over what the point before left. -/
theorem outsAt1_C (c : Dev nD) (t : Fin cfg1.N) (h0 : ¬t.val % 64 = 0) (h1 : t.val % 64 = 63) :
    outsAt1 V c t.val t.isLt = (out1_C_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the class's (every scoped buffer at anything);
    afterwards the accumulator at what the point before left in it, the other scoped buffers at anything, and the
    generator register at some state. -/
def PhiS1 (c : Dev nD) : (n : ℕ) → n ≤ cfg1.N → sProp 𝕄
  | 0, _ => Pipeline.ΦA spec1 c
  | n + 1, hn => iprop(iprop(owns (c : Thread nD τ) scM1_0 fullShare ((outsAt1 V c n hn).2) ∗ rest1 (F := F) c) ∗ (∃ r, prngReg c r))

theorem PhiS1_zero (c : Dev nD) (n : ℕ) (h : n ≤ cfg1.N) (hz : n = 0) : PhiS1 V c n h = Pipeline.ΦA spec1 c := by
  subst hz; rfl

/-- After point `n` (before point `n + 1`): the accumulator at that point's contents. -/
theorem PhiS1_succ (c : Dev nD) (n : ℕ) (hn : n < cfg1.N) :
    PhiS1 V c (n + 1) hn = iprop(iprop(owns (c : Thread nD τ) scM1_0 fullShare ((outsAt1 V c n hn).2) ∗ rest1 (F := F) c) ∗ (∃ r, prngReg c r)) := rfl

/-- Before a point that is not the first: the accumulator at what the point before left. -/
theorem PhiS1_pos (c : Dev nD) (n : ℕ) (h : n ≤ cfg1.N) (hz : n ≠ 0) :
    PhiS1 V c n h = iprop(iprop(owns (c : Thread nD τ) scM1_0 fullShare ((outsAt1 V c (n - 1) (by omega)).2) ∗ rest1 (F := F) c) ∗ (∃ r, prngReg c r)) := by
  cases n with
  | zero => exact absurd rfl hz
  | succ n => rfl

/-! ## The pipeline's proof data -/

/-- The proof data of pipeline 1 on core `c`: the arrays as the region finds them (`V`); after the body at point
    `t` each input's buffer at its block and the output's at `outsAt1`; the invariant `PhiS1`; nothing owed; full
    shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

/-- The proof data's arrays are the region-entry contents. -/
theorem A_eq1 (c : Dev nD) (w : Fin cfg1.W) : (dat1 V c).A w = V c (Pipeline.arrRef spec1 w) := by
  dsimp only [dat1]

/-- The invariant at a point's start, restated at `t.val`. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point. The inputs' memrefs hold their blocks; the closed forms say which case the point is in;
    the invariant hands the body the accumulator at what the point before left (at anything at the first point),
    the other scoped buffers and the generator register untouched, and takes the accumulator back at this
    point's contents, the pieces the case's run found covering it; where the output window is idle its buffer goes
    back as it came; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 128 := lt_of_lt_of_eq t.isLt (show cfg1.N = 128 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  by_cases h0 : t.val % 64 = 0
  · by_cases h1 : t.val % 64 = 63
    · exfalso; omega
    · rw [Dat.leavesExact_idle (dat1 V c) 3 t (idleAt1_3 t (fun h => h1 ((hcond1_1 t).mp h))) (noFlush1_3 t (fun h => h1 ((hcond1_1 t).mp h)))]
      rw [outsAt1_A V c t h0 h1]
      unfold sout1_A_0; (try dsimp only)
      by_cases hz : t.val = 0
      · rw [PhiS1_castSucc V c t, PhiS1_zero V c _ _ hz, PhiA1_eq]
        iintro ⟨⟨⟨HS0, Hr⟩, Hg⟩, Ho, ⟨%d0, H0⟩, ⟨%d1, H1⟩, ⟨%d2, H2⟩, ⟨%d3, H3⟩⟩
        iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover1_A_0 c _ _ _ _ _ _ _ _ _ _ _ _ _ _ _ _)
            iexact Hr
          iexact Hg
        isplitl [Ho]; · iexact Ho
        isplitl [H0]; · iexact H0
        isplitl [H1]; · iexact H1
        isplitl [H2]; · iexact H2
        iexists _; iexact H3
      · rw [PhiS1_castSucc V c t, PhiS1_pos V c _ _ hz]
        iintro ⟨⟨⟨HS0, Hr⟩, Hg⟩, Ho, ⟨%d0, H0⟩, ⟨%d1, H1⟩, ⟨%d2, H2⟩, ⟨%d3, H3⟩⟩
        iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover1_A_0 c _ _ _ _ _ _ _ _ _ _ _ _ _ _ _ _)
            iexact Hr
          iexact Hg
        isplitl [Ho]; · iexact Ho
        isplitl [H0]; · iexact H0
        isplitl [H1]; · iexact H1
        isplitl [H2]; · iexact H2
        iexists _; iexact H3
  · by_cases h1 : t.val % 64 = 63
    · rw [show (dat1 V c).leavesExact 3 t = owns (c : Thread nD τ) (ms1_3 t) fullShare ((dat1 V c).after 3 t) from by
        unfold Dat.leavesExact; rw [liveAt1_3 t ((hcond1_1 t).mpr h1)], after1_3]
      rw [outsAt1_C V c t h0 h1]
      unfold out1_C_3 sout1_C_0; (try dsimp only)
      have hz : t.val ≠ 0 := by omega
      rw [PhiS1_castSucc V c t, PhiS1_pos V c _ _ hz]
      iintro ⟨⟨⟨HS0, Hr⟩, Hg⟩, Ho, ⟨%d0, H0⟩, ⟨%d1, H1⟩, ⟨%d2, H2⟩, ⟨%d3, H3⟩⟩
      iapply ((kernelRun1_C c (grid1.coords t) _ _ _ _ _ _ _ _ _ _ (fun h => h0 ((hcond1_0 t).mp h)) ((hcond1_1 t).mpr h1) (iblk1 V c 0 t) (iblk1 V c 1 t) (iblk1 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover1_C_0 c _ _ _ _ _ _ _ _ _ _ _ _ _ _ _ _ _)
          iexact Hr
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover1_C_3 c _ _ _ _ _ _ _ _ _ _ _ _ _ _ _ _ _)
    · rw [Dat.leavesExact_idle (dat1 V c) 3 t (idleAt1_3 t (fun h => h1 ((hcond1_1 t).mp h))) (noFlush1_3 t (fun h => h1 ((hcond1_1 t).mp h)))]
      rw [outsAt1_B V c t h0 h1]
      unfold sout1_B_0; (try dsimp only)
      have hz : t.val ≠ 0 := by omega
      rw [PhiS1_castSucc V c t, PhiS1_pos V c _ _ hz]
      iintro ⟨⟨⟨HS0, Hr⟩, Hg⟩, Ho, ⟨%d0, H0⟩, ⟨%d1, H1⟩, ⟨%d2, H2⟩, ⟨%d3, H3⟩⟩
      iapply ((kernelRun1_B c (grid1.coords t) _ _ _ _ _ _ _ _ _ _ (fun h => h0 ((hcond1_0 t).mp h)) (fun h => h1 ((hcond1_1 t).mp h)) (iblk1 V c 0 t) (iblk1 V c 1 t) (iblk1 V c 2 t) _).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover1_B_0 c _ _ _ _ _ _ _ _ _ _ _ _ _ _ _ _ _)
          iexact Hr
        iexact Hg
      isplitl [Ho]; · iexact Ho
      isplitl [H0]; · iexact H0
      isplitl [H1]; · iexact H1
      isplitl [H2]; · iexact H2
      iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the launch's back: the accumulator's named contents are
    forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HS0, Hr⟩, Hg⟩
  isplitl [HS0 Hr]
  · isplitl [HS0]
    · iexists _; iexact HS0
    iexact Hr
  iexact Hg

/-- The same after the last point. -/
theorem hout1 (c : Dev nD) : (dat1 V c).Φ (Fin.last cfg1.N) ⊢ Pipeline.ΦA spec1 c :=
  Phi_out1 V c _ (by rw [Fin.val_last]; have : cfg1.N = 128 := N_1; omega)

end Cert.Kernel.Hand

end
-- ==== Proof.K.Region2.lean ====
/- REGION 2's frame half: the pure kernel `cc2__mlp_kernel` (pipeline 2), at any float model `F` and at a PARAMETER `V`,
   the TensorCore's buffer contents when the region is entered. Each window's block at a point, what the body leaves
   in the two output windows' buffers, the body's triple, the pipeline's proof data and its body obligation. -/
import proofs.«146741_j35055523070100_2_alg».proof.Proof.Gen.Kernel.Launch
import proofs.«146741_j35055523070100_2_alg».proof.Proof.Gen.Kernel.Skeleton
import proofs.«146741_j35055523070100_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of long extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! ## The body's accesses: every load and store is of a whole staging buffer -/

abbrev r2_a : Rect S256x256 := Rect.unit (s := S256x256) ![0, 0] S256x256.size inb_S256x256_S256x256_0_0
abbrev r2_b : Rect S1x256 := Rect.unit (s := S1x256) ![0, 0] S1x256.size inb_S1x256_S1x256_0_0
abbrev r2_c : Rect S4096x256 := Rect.unit (s := S4096x256) ![0, 0] S4096x256.size inb_S4096x256_S4096x256_0_0
abbrev r2_d : Rect S1x4096 := Rect.unit (s := S1x4096) ![0, 0] S1x4096.size inb_S1x4096_S1x4096_0_0
abbrev r2_e : Rect S256x4096 := Rect.unit (s := S256x4096) ![0, 0] S256x4096.size inb_S256x4096_S256x4096_0_0

/-! ## What the body leaves in each output window's buffer -/

/-- Window 7's staging buffer after the body, from the input windows' blocks: its one store, over the whole buffer, of
    `h·bf16(x3)ᵀ + x4` where `h = bf16(max(bf16(x0)·bf16(x1)ᵀ + x2, 0))`: both products contract the operands' second
    axes, accumulate in f32 from zero, and take their operands rounded to bf16; the row vectors `x2`, `x4` are
    broadcast along the rows. -/
def out2_7 (x0 : Vec F S256x256 .f32) (x1 : Vec F S256x256 .f32) (x2 : Vec F S1x256 .f32) (x3 : Vec F S4096x256 .f32) (x4 : Vec F S1x4096 .f32) : Vec F S256x4096 .f32 :=
  View.canon [⟨r2_e, k2_pay1 (View.ld x0 r2_a) (View.ld x1 r2_a) (View.ld x2 r2_b) (View.ld x3 r2_c) (View.ld x4 r2_d)⟩]

/-- Window 6's staging buffer after the body: its one store, over the whole buffer, of `x5` plus the value stored to
    window 7 (the same payload, recomputed from the same loads). -/
def out2_6 (x0 : Vec F S256x256 .f32) (x1 : Vec F S256x256 .f32) (x2 : Vec F S1x256 .f32) (x3 : Vec F S4096x256 .f32) (x4 : Vec F S1x4096 .f32) (x5 : Vec F S256x4096 .f32) : Vec F S256x4096 .f32 :=
  View.canon [⟨r2_e, k2_pay2 (View.ld x0 r2_a) (View.ld x1 r2_a) (View.ld x2 r2_b) (View.ld x3 r2_c) (View.ld x4 r2_d) (View.ld x5 r2_e)⟩]

/-- A single store of the whole rectangle tiles the buffer, so it covers it. -/
theorem cover2_e (p0 : Vec F S256x4096 .f32) (y : S256x4096.Idx) :
    ∃ pc ∈ ([⟨r2_e, p0⟩] : List (View.Piece (Elt F) S256x4096 .f32)), y ∈ pc.1.set :=
  View.cover_of_tiled [⟨r2_e, p0⟩] S256x4096.size (by rfl) y

/-! ## The body's triple -/

set_option maxHeartbeats 1000000 in
/-- The kernel body on whole staging memrefs, the six inputs' at read contents `xW` and the two outputs' at anything
    (the body loads each output buffer once before storing to it and never uses the value), runs to the continuation
    holding the inputs' as they were, window 6's at `out2_6` and window 7's at `out2_7` of the inputs'. -/
theorem sound_kernel2 (c : Dev nD) (E : Set ℕ) (i : grid2.Coords)
    (arg1 : Memref sig .tc .vmem S256x256 .f32) (harg1 : arg1.IsWhole) (arg2 : Memref sig .tc .vmem S256x256 .f32) (harg2 : arg2.IsWhole)
    (arg3 : Memref sig .tc .vmem S1x256 .f32) (harg3 : arg3.IsWhole) (arg4 : Memref sig .tc .vmem S4096x256 .f32) (harg4 : arg4.IsWhole)
    (arg5 : Memref sig .tc .vmem S1x4096 .f32) (harg5 : arg5.IsWhole) (arg6 : Memref sig .tc .vmem S256x4096 .f32) (harg6 : arg6.IsWhole)
    (arg7 : Memref sig .tc .vmem S256x4096 .f32) (harg7 : arg7.IsWhole) (arg8 : Memref sig .tc .vmem S256x4096 .f32) (harg8 : arg8.IsWhole)
    (x0 : Vec F S256x256 .f32) (x1 : Vec F S256x256 .f32) (x2 : Vec F S1x256 .f32) (x3 : Vec F S4096x256 .f32)
    (x4 : Vec F S1x4096 .f32) (x5 : Vec F S256x4096 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ owns (c : Thread nD τ) arg6 fullShare x5
        ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4 ∗ owns (c : Thread nD τ) arg6 fullShare x5
            ∗ owns (c : Thread nD τ) arg7 fullShare (out2_6 x0 x1 x2 x3 x4 x5)
            ∗ owns (c : Thread nD τ) arg8 fullShare (out2_7 x0 x1 x2 x3 x4)) -∗ K ⟨⟩))
      ⊢ wp frame (wpE (defs₀ (F := F)) Variants.none c none) E
          (cc2__mlp_kernel i arg1 harg1 arg2 harg2 arg3 harg3 arg4 harg4 arg5 harg5 arg6 harg6 arg7 harg7 arg8 harg8) K := by
  simp only [cc2__mlp_kernel_eq_skeleton]; unfold cc2__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩,
    ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover2_e _)
  iexists _; isplitr
  swap; · iexact H7
  ipureintro
  exact View.read_writes_eq_canon _ _ _ (cover2_e _)

/-! ## The inputs' buffers before the body -/

/-- An input window's current staging buffer holds its block at every point, fetched there or not (windows 1 to 4 are
    fetched at the first point only, and their block index never moves), for ANY proof data whose array is `V`'s
    (`hA`) and whose body leaves the block in place (`hafter`); the windows are uncut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-! ## The pipeline's proof data -/

/-- The proof data of pipeline 2 on core `c`: the arrays as the region finds them (`V`); after the body at point `t`
    each input's buffer at its block and each output's at `out2_W` of the input blocks; the invariant that the scoped
    rest of memory and the pseudo-random number register are untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 (iblk2 V c 0 t) (iblk2 V c 1 t) (iblk2 V c 2 t) (iblk2 V c 3 t) (iblk2 V c 4 t) (iblk2 V c 5 t)
    | ⟨7, _⟩ => out2_7 (iblk2 V c 0 t) (iblk2 V c 1 t) (iblk2 V c 2 t) (iblk2 V c 3 t) (iblk2 V c 4 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = out2_6 (iblk2 V c 0 t) (iblk2 V c 1 t) (iblk2 V c 2 t) (iblk2 V c 3 t) (iblk2 V c 4 t) (iblk2 V c 5 t) := by dsimp only [dat2]
theorem after2_7 (c : Dev nD) (t : Fin cfg2.N) : (dat2 V c).after 7 t = out2_7 (iblk2 V c 0 t) (iblk2 V c 1 t) (iblk2 V c 2 t) (iblk2 V c 3 t) (iblk2 V c 4 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t))

set_option maxHeartbeats 1000000 in
/-- The body at any point: the inputs' memrefs hold their blocks (`before2_W`), so `sound_kernel2` applies; the invariant
    and the core's `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel2 c Set.univ _ _ _ _ _ _ _ _ _ _ _ _ _ _ _ _ _ (iblk2 V c 0 t) (iblk2 V c 1 t) (iblk2 V c 2 t) (iblk2 V c 3 t) (iblk2 V c 4 t) (iblk2 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.K.Run.lean ====
/-
  The whole run of the program: three kernel regions with two stretches of host reshapes between them. The
  buffers' contents at each boundary are a fold from the launch memory — a region replaces its arrays by what its
  pipeline leaves (each output's write-backs folded over the grid), a host stretch applies its operations —; each
  region is entered from the boundary before it and left at the one after it; and at the end every unscoped buffer
  holds the last boundary's contents.
-/
import proofs.«146741_j35055523070100_2_alg».proof.Proof.K.Region0
import proofs.«146741_j35055523070100_2_alg».proof.Proof.K.Region1
import proofs.«146741_j35055523070100_2_alg».proof.Proof.K.Region2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch (region 0's entry). -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b

/-- At region 0's exit: its arrays at what the pipeline leaves (the inputs as entered, each output's write-backs
    folded), every other buffer as entered. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After the bias row's reshape (region 1's entry). -/
abbrev W2 : Dev nD → Valuation τ sig (Elt F) := fun c => StableHlo.after hostOps1 (W1 m ρ c)
abbrev V2 : (c : Dev nD) → (b : Ref sig .tc) → Buf (Elt F) ((c : Thread nD τ).loc b) := fun c b => W2 m ρ c b

/-- At region 1's exit: its arrays at what the pipeline leaves (the inputs as entered, each output's write-backs
    folded), every other buffer as entered. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- After the two bias rows' reshapes (region 2's entry). -/
abbrev W4 : Dev nD → Valuation τ sig (Elt F) := fun c => StableHlo.after hostOps2 (W3 m ρ c)
abbrev V4 : (c : Dev nD) → (b : Ref sig .tc) → Buf (Elt F) ((c : Thread nD τ).loc b) := fun c b => W4 m ρ c b

/-- At region 2's exit: its arrays at what the pipeline leaves (the inputs as entered, each output's write-backs
    folded), every other buffer as entered. -/
def W5 (c : Dev nD) : Valuation τ sig (Elt F) :=
  Pipeline.withArrays spec2 c (W4 m ρ c) fun w => (dat2 (V4 m ρ) c).arrAt w cfg2.N
theorem W5_arr (c : Dev nD) (w : Fin cfg2.W) :
    W5 m ρ c (Proc.devRef .tc (Pipeline.arrRef spec2 w)) = (dat2 (V4 m ρ) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m ρ c (Proc.devRef .tc b) = W4 m ρ c (Proc.devRef .tc b) := by
  unfold W5; exact Pipeline.withArrays_of_ne spec2 c _ _ b hb
abbrev V5 : (c : Dev nD) → (b : Ref sig .tc) → Buf (Elt F) ((c : Thread nD τ).loc b) := fun c b => W5 m ρ c b
theorem hF2 (c : Dev nD) (w : Fin cfg2.W) : (dat2 (V4 m ρ) c).arrAt w cfg2.N = V5 m ρ c (Pipeline.arrRef spec2 w) :=
  (W5_arr m ρ c w).symm
theorem hrest2 (c : Dev nD) : ∀ b, b ∉ Finset.univ.image (Pipeline.arrRef spec2) → V5 m ρ c b = V4 m ρ c b :=
  fun b hb => W5_of_ne m ρ c b fun w e => hb (Finset.mem_image.mpr ⟨w, Finset.mem_univ _, e⟩)

/-! ## The proof data family and the thread state -/

/-- No pipeline has a prefetched table. -/
abbrev admH : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) admH p) c
  | ⟨0, _⟩ => fun c => dat0 (V0 m ρ) c
  | ⟨1, _⟩ => fun c => dat1 (V2 m ρ) c
  | ⟨2, _⟩ => fun c => dat2 (V4 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps1_freshH : (hostOps1 : List (HloOp τ sig (Elt F))).Forall fun op => op.fresh = ∅ := by
  simp only [List.Forall]; repeat' constructor
theorem hostOps2_freshH : (hostOps2 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents, the register at some state. -/
abbrev Tₙ (c : Dev nD) : sProp 𝕄 := iprop(StableHlo.held (c : Thread nD τ) (Pipeline.ucRefs τ sig) (W5 m ρ c) ∗ ∃ r, prngReg c r)

/-! ## The regions as segments -/

set_option backward.isDefEq.respectTransparency.types false in
/-- Region 0 over the thread state: entered from every unscoped buffer at `W0`, left at `W1`; its arrays
    split out of the unscoped buffers and put back at what the pipeline leaves; the generator register into the
    region invariant and out; nothing owed; no semaphore of the kernel's own. -/
def reg0 : Pipeline.RegionSeg (pcfgs (F := F)) admH (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) admH (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have hΦ : (iprop(Pipeline.scopedRest (Ix := Unit) (Name := ℕ) (U := UR sig nD τ) (Lvl := ℕ) (Val := Elt F) spec0 c ∗ ∃ r, prngReg c r) : sProp 𝕄) ⊢ (dat0 (V0 m ρ) c).Φ 0 := by
      have h := hin0 (V0 m ρ) c; unfold Pipeline.ΦA at h; exact h
    rw [show (pdats m ρ 0 c).Φ 0 = (dat0 (V0 m ρ) c).Φ 0 from rfl]
    iintro ⟨Hp, -, Hr⟩
    iapply hΦ
    isplitl [Hr]; · iexact Hr
    iexact Hp
  hout c := by
    have hΦ : (dat0 (V0 m ρ) c).Φ (Fin.last cfg0.N) ⊢ (iprop(Pipeline.scopedRest (Ix := Unit) (Name := ℕ) (U := UR sig nD τ) (Lvl := ℕ) (Val := Elt F) spec0 c ∗ ∃ r, prngReg c r) : sProp 𝕄) := by
      have h := hout0 (V0 m ρ) c; unfold Pipeline.ΦA at h; exact h
    rw [Pipeline.ownSems0_none, show (pdats m ρ 0 c).Φ (Fin.last _) = (dat0 (V0 m ρ) c).Φ (Fin.last cfg0.N) from rfl]
    refine hΦ.trans ?_
    show (iprop(Pipeline.scopedRest (Ix := Unit) (Name := ℕ) (U := UR sig nD τ) (Lvl := ℕ) (Val := Elt F) spec0 c ∗ ∃ r, prngReg c r) : sProp 𝕄) ⊢ iprop((∃ r, prngReg c r) ∗ BI.emp ∗ Pipeline.scopedRest (Ix := Unit) (Name := ℕ) (U := UR sig nD τ) (Lvl := ℕ) (Val := Elt F) spec0 c)
    iintro ⟨Hr, Hp⟩
    isplitl [Hp]; · iexact Hp
    isplitr; · iempintro
    iexact Hr
  hexit c := by
    have hjoin := Pipeline.unscopedBufs_of_arrays (p := 0) (pcfgs (F := F)) admH (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W2`, left at `W3`; its arrays
    split out of the unscoped buffers and put back at what the pipeline leaves; the generator register into the
    region invariant and out; nothing owed; no semaphore of the kernel's own. -/
def reg1 : Pipeline.RegionSeg (pcfgs (F := F)) admH (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) admH (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have hΦ : (iprop(Pipeline.scopedRest (Ix := Unit) (Name := ℕ) (U := UR sig nD τ) (Lvl := ℕ) (Val := Elt F) spec1 c ∗ ∃ r, prngReg c r) : sProp 𝕄) ⊢ (dat1 (V2 m ρ) c).Φ 0 := by
      have h := hin1 (V2 m ρ) c; unfold Pipeline.ΦA at h; exact h
    rw [show (pdats m ρ 1 c).Φ 0 = (dat1 (V2 m ρ) c).Φ 0 from rfl]
    iintro ⟨Hp, -, Hr⟩
    iapply hΦ
    isplitl [Hr]; · iexact Hr
    iexact Hp
  hout c := by
    have hΦ : (dat1 (V2 m ρ) c).Φ (Fin.last cfg1.N) ⊢ (iprop(Pipeline.scopedRest (Ix := Unit) (Name := ℕ) (U := UR sig nD τ) (Lvl := ℕ) (Val := Elt F) spec1 c ∗ ∃ r, prngReg c r) : sProp 𝕄) := by
      have h := hout1 (V2 m ρ) c; unfold Pipeline.ΦA at h; exact h
    rw [Pipeline.ownSems0_none, show (pdats m ρ 1 c).Φ (Fin.last _) = (dat1 (V2 m ρ) c).Φ (Fin.last cfg1.N) from rfl]
    refine hΦ.trans ?_
    show (iprop(Pipeline.scopedRest (Ix := Unit) (Name := ℕ) (U := UR sig nD τ) (Lvl := ℕ) (Val := Elt F) spec1 c ∗ ∃ r, prngReg c r) : sProp 𝕄) ⊢ iprop((∃ r, prngReg c r) ∗ BI.emp ∗ Pipeline.scopedRest (Ix := Unit) (Name := ℕ) (U := UR sig nD τ) (Lvl := ℕ) (Val := Elt F) spec1 c)
    iintro ⟨Hr, Hp⟩
    isplitl [Hp]; · iexact Hp
    isplitr; · iempintro
    iexact Hr
  hexit c := by
    have hjoin := Pipeline.unscopedBufs_of_arrays (p := 1) (pcfgs (F := F)) admH (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `W4`, left at `W5`; its arrays
    split out of the unscoped buffers and put back at what the pipeline leaves; the generator register into the
    region invariant and out; nothing owed; no semaphore of the kernel's own. -/
def reg2 : Pipeline.RegionSeg (pcfgs (F := F)) admH (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V4 m ρ) c).loose
  hwaits := Pipeline.hwaits_of_owed_zero _ _ _ _ L lv 2 fun _ _ => rfl
  pre c := iprop(StableHlo.held (c : Thread nD τ) (Pipeline.ucRefs τ sig) (W4 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V4 m ρ c)
  hentry c := by
    rw [Pipeline.ownSems0_none]
    have hsplit := Pipeline.arrays_of_unscopedBufs (p := 2) (pcfgs (F := F)) admH (pdats m ρ) launch2.win launch2.arr_whole c
      ((pdats m ρ 2 c).share_full fun _ => rfl) (V4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) admH (Ix := Unit) (Name := ℕ) (U := UR sig nD τ) (Lvl := ℕ)
      launch2.win launch2.arr_whole c (pdats m ρ) ((pdats m ρ 2 c).share_full fun _ => rfl)
      (V4 m ρ c) (V5 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) admH (pdats m ρ) () defs₀ 𝒱₀ L lv) :=
  [ .region (reg0 m ρ),
    .host (hseg hostOps1 hostOps1_sub hostOps1_freshH (W1 m ρ)),
    .region (reg1 m ρ),
    .host (hseg hostOps2 hostOps2_sub hostOps2_freshH (W3 m ρ)),
    .region (reg2 m ρ) ]
theorem main_run (c : Dev nD) : main (F := F) c = Pipeline.Seg.run (segs m ρ) := (main_chain c).trans (by chain_rfl)

set_option backward.isDefEq.respectTransparency.types false in
/-- From any memory with zero counters every weakly fair execution of @main terminates, nothing faulting, and every
    final memory holds, at every unscoped buffer, the last boundary's contents `W5`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) admH (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c => h c)

end Cert.Kernel.Hand

end
-- ==== Proof.K.RunArgs.lean ====
/-
  What the last boundary holds. No host operation and no region writes an argument array (a region reads it through
  an input window or passes it by), so at an argument the fold walks back to the launch memory; at a result it is a
  region's final array; and regions 1 and 2 find, on entry, the arguments as launched, the bias rows as reshapes of
  the bias vectors, and the earlier regions' final arrays.
-/
import proofs.«146741_j35055523070100_2_alg».proof.Proof.K.Run

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.Sem
open Idealize.ShloMosaic.Pipeline (Dat)

variable {F : FTy → Type} [FloatOps F]

variable (m : (ℓ : Loc nD τ sig) → Buf (Elt F) ℓ) (ρ : Dev nD → PrngReg)

/-- The first host stretch writes only the bias row of region 1. -/
theorem host1_keeps (W : Valuation τ sig (Elt F)) (b : Ref sig .tc) (hb : b ≠ main_v1) :
    StableHlo.after hostOps1 W (Proc.devRef .tc b) = W (Proc.devRef .tc b) :=
  StableHlo.after_of_forall_not_mem (b := Proc.devRef .tc b) _ _ (List.forall_iff_forall_mem.mp (by
    simp only [hostOps1, List.Forall, StableHlo.reshape_writes, Finset.mem_singleton]
    exact StableHlo.devRef_ne_of_ne hb))

/-- The second host stretch writes only the two bias rows of region 2. -/
theorem host2_keeps (W : Valuation τ sig (Elt F)) (b : Ref sig .tc) (hb3 : b ≠ main_v3) (hb4 : b ≠ main_v4) :
    StableHlo.after hostOps2 W (Proc.devRef .tc b) = W (Proc.devRef .tc b) :=
  StableHlo.after_of_forall_not_mem (b := Proc.devRef .tc b) _ _ (List.forall_iff_forall_mem.mp (by
    simp only [hostOps2, List.Forall, StableHlo.reshape_writes, Finset.mem_singleton]
    exact ⟨StableHlo.devRef_ne_of_ne hb3, StableHlo.devRef_ne_of_ne hb4⟩))

/-! ## The arguments end as launched -/

theorem W5_main_arg0 (c : Dev nD) : W5 m ρ c (Proc.devRef .tc main_arg0) = m ((c : Thread nD τ).loc main_arg0) :=
  calc W5 m ρ c (Proc.devRef .tc main_arg0)
    _ = W4 m ρ c (Proc.devRef .tc main_arg0) := W5_of_ne m ρ c main_arg0 (by decide)
    _ = W3 m ρ c (Proc.devRef .tc main_arg0) := host2_keeps (W3 m ρ c) main_arg0 (by decide) (by decide)
    _ = W2 m ρ c (Proc.devRef .tc main_arg0) := (W3_arr m ρ c 0).trans (((dat1 (V2 m ρ) c).arrAt_in 0 rfl _).trans (A_eq1 (V2 m ρ) c 0))
    _ = W1 m ρ c (Proc.devRef .tc main_arg0) := host1_keeps (W1 m ρ c) main_arg0 (by decide)
    _ = W0 m ρ c (Proc.devRef .tc main_arg0) := (W1_arr m ρ c 0).trans (((dat0 (V0 m ρ) c).arrAt_in 0 rfl _).trans (A_eq0 (V0 m ρ) c 0))
    _ = m ((c : Thread nD τ).loc main_arg0) := rfl

theorem W5_main_arg1 (c : Dev nD) : W5 m ρ c (Proc.devRef .tc main_arg1) = m ((c : Thread nD τ).loc main_arg1) :=
  calc W5 m ρ c (Proc.devRef .tc main_arg1)
    _ = W4 m ρ c (Proc.devRef .tc main_arg1) := W5_of_ne m ρ c main_arg1 (by decide)
    _ = W3 m ρ c (Proc.devRef .tc main_arg1) := host2_keeps (W3 m ρ c) main_arg1 (by decide) (by decide)
    _ = W2 m ρ c (Proc.devRef .tc main_arg1) := W3_of_ne m ρ c main_arg1 (by decide)
    _ = W1 m ρ c (Proc.devRef .tc main_arg1) := host1_keeps (W1 m ρ c) main_arg1 (by decide)
    _ = W0 m ρ c (Proc.devRef .tc main_arg1) := (W1_arr m ρ c 1).trans (((dat0 (V0 m ρ) c).arrAt_in 1 rfl _).trans (A_eq0 (V0 m ρ) c 1))
    _ = m ((c : Thread nD τ).loc main_arg1) := rfl

theorem W5_main_arg2 (c : Dev nD) : W5 m ρ c (Proc.devRef .tc main_arg2) = m ((c : Thread nD τ).loc main_arg2) :=
  calc W5 m ρ c (Proc.devRef .tc main_arg2)
    _ = W4 m ρ c (Proc.devRef .tc main_arg2) := W5_of_ne m ρ c main_arg2 (by decide)
    _ = W3 m ρ c (Proc.devRef .tc main_arg2) := host2_keeps (W3 m ρ c) main_arg2 (by decide) (by decide)
    _ = W2 m ρ c (Proc.devRef .tc main_arg2) := (W3_arr m ρ c 1).trans (((dat1 (V2 m ρ) c).arrAt_in 1 rfl _).trans (A_eq1 (V2 m ρ) c 1))
    _ = W1 m ρ c (Proc.devRef .tc main_arg2) := host1_keeps (W1 m ρ c) main_arg2 (by decide)
    _ = W0 m ρ c (Proc.devRef .tc main_arg2) := W1_of_ne m ρ c main_arg2 (by decide)
    _ = m ((c : Thread nD τ).loc main_arg2) := rfl

theorem W5_main_arg3 (c : Dev nD) : W5 m ρ c (Proc.devRef .tc main_arg3) = m ((c : Thread nD τ).loc main_arg3) :=
  calc W5 m ρ c (Proc.devRef .tc main_arg3)
    _ = W4 m ρ c (Proc.devRef .tc main_arg3) := W5_of_ne m ρ c main_arg3 (by decide)
    _ = W3 m ρ c (Proc.devRef .tc main_arg3) := host2_keeps (W3 m ρ c) main_arg3 (by decide) (by decide)
    _ = W2 m ρ c (Proc.devRef .tc main_arg3) := W3_of_ne m ρ c main_arg3 (by decide)
    _ = W1 m ρ c (Proc.devRef .tc main_arg3) := host1_keeps (W1 m ρ c) main_arg3 (by decide)
    _ = W0 m ρ c (Proc.devRef .tc main_arg3) := W1_of_ne m ρ c main_arg3 (by decide)
    _ = m ((c : Thread nD τ).loc main_arg3) := rfl

theorem W5_main_arg4 (c : Dev nD) : W5 m ρ c (Proc.devRef .tc main_arg4) = m ((c : Thread nD τ).loc main_arg4) :=
  calc W5 m ρ c (Proc.devRef .tc main_arg4)
    _ = W4 m ρ c (Proc.devRef .tc main_arg4) := (W5_arr m ρ c 1).trans (((dat2 (V4 m ρ) c).arrAt_in 1 rfl _).trans (A_eq2 (V4 m ρ) c 1))
    _ = W3 m ρ c (Proc.devRef .tc main_arg4) := host2_keeps (W3 m ρ c) main_arg4 (by decide) (by decide)
    _ = W2 m ρ c (Proc.devRef .tc main_arg4) := W3_of_ne m ρ c main_arg4 (by decide)
    _ = W1 m ρ c (Proc.devRef .tc main_arg4) := host1_keeps (W1 m ρ c) main_arg4 (by decide)
    _ = W0 m ρ c (Proc.devRef .tc main_arg4) := W1_of_ne m ρ c main_arg4 (by decide)
    _ = m ((c : Thread nD τ).loc main_arg4) := rfl

theorem W5_main_arg5 (c : Dev nD) : W5 m ρ c (Proc.devRef .tc main_arg5) = m ((c : Thread nD τ).loc main_arg5) :=
  calc W5 m ρ c (Proc.devRef .tc main_arg5)
    _ = W4 m ρ c (Proc.devRef .tc main_arg5) := W5_of_ne m ρ c main_arg5 (by decide)
    _ = W3 m ρ c (Proc.devRef .tc main_arg5) := host2_keeps (W3 m ρ c) main_arg5 (by decide) (by decide)
    _ = W2 m ρ c (Proc.devRef .tc main_arg5) := W3_of_ne m ρ c main_arg5 (by decide)
    _ = W1 m ρ c (Proc.devRef .tc main_arg5) := host1_keeps (W1 m ρ c) main_arg5 (by decide)
    _ = W0 m ρ c (Proc.devRef .tc main_arg5) := W1_of_ne m ρ c main_arg5 (by decide)
    _ = m ((c : Thread nD τ).loc main_arg5) := rfl

theorem W5_main_arg6 (c : Dev nD) : W5 m ρ c (Proc.devRef .tc main_arg6) = m ((c : Thread nD τ).loc main_arg6) :=
  calc W5 m ρ c (Proc.devRef .tc main_arg6)
    _ = W4 m ρ c (Proc.devRef .tc main_arg6) := (W5_arr m ρ c 3).trans (((dat2 (V4 m ρ) c).arrAt_in 3 rfl _).trans (A_eq2 (V4 m ρ) c 3))
    _ = W3 m ρ c (Proc.devRef .tc main_arg6) := host2_keeps (W3 m ρ c) main_arg6 (by decide) (by decide)
    _ = W2 m ρ c (Proc.devRef .tc main_arg6) := W3_of_ne m ρ c main_arg6 (by decide)
    _ = W1 m ρ c (Proc.devRef .tc main_arg6) := host1_keeps (W1 m ρ c) main_arg6 (by decide)
    _ = W0 m ρ c (Proc.devRef .tc main_arg6) := W1_of_ne m ρ c main_arg6 (by decide)
    _ = m ((c : Thread nD τ).loc main_arg6) := rfl

theorem W5_main_arg7 (c : Dev nD) : W5 m ρ c (Proc.devRef .tc main_arg7) = m ((c : Thread nD τ).loc main_arg7) :=
  calc W5 m ρ c (Proc.devRef .tc main_arg7)
    _ = W4 m ρ c (Proc.devRef .tc main_arg7) := W5_of_ne m ρ c main_arg7 (by decide)
    _ = W3 m ρ c (Proc.devRef .tc main_arg7) := host2_keeps (W3 m ρ c) main_arg7 (by decide) (by decide)
    _ = W2 m ρ c (Proc.devRef .tc main_arg7) := W3_of_ne m ρ c main_arg7 (by decide)
    _ = W1 m ρ c (Proc.devRef .tc main_arg7) := host1_keeps (W1 m ρ c) main_arg7 (by decide)
    _ = W0 m ρ c (Proc.devRef .tc main_arg7) := W1_of_ne m ρ c main_arg7 (by decide)
    _ = m ((c : Thread nD τ).loc main_arg7) := rfl

/-! ## The results -/

/-- The first result (the sum of the two branches) is region 2's first output array. -/
theorem W5_main_v5_0 (c : Dev nD) : W5 m ρ c (Proc.devRef .tc main_v5_0) = (dat2 (V4 m ρ) c).arrAt 6 cfg2.N := W5_arr m ρ c 6
/-- The third result (the interaction branch) is region 2's second output array. -/
theorem W5_main_v5_1 (c : Dev nD) : W5 m ρ c (Proc.devRef .tc main_v5_1) = (dat2 (V4 m ρ) c).arrAt 7 cfg2.N := W5_arr m ρ c 7
/-- The second result (the linear branch) is region 1's output array, which region 2 only reads. -/
theorem W5_main_v2 (c : Dev nD) : W5 m ρ c (Proc.devRef .tc main_v2) = (dat1 (V2 m ρ) c).arrAt 3 cfg1.N :=
  calc W5 m ρ c (Proc.devRef .tc main_v2)
    _ = W4 m ρ c (Proc.devRef .tc main_v2) := (W5_arr m ρ c 5).trans (((dat2 (V4 m ρ) c).arrAt_in 5 rfl _).trans (A_eq2 (V4 m ρ) c 5))
    _ = W3 m ρ c (Proc.devRef .tc main_v2) := host2_keeps (W3 m ρ c) main_v2 (by decide) (by decide)
    _ = (dat1 (V2 m ρ) c).arrAt 3 cfg1.N := W3_arr m ρ c 3

/-! ## What regions 1 and 2 find on entry -/

theorem V2_main_arg0 (c : Dev nD) : V2 m ρ c main_arg0 = m ((c : Thread nD τ).loc main_arg0) :=
  (host1_keeps (W1 m ρ c) main_arg0 (by decide)).trans ((W1_arr m ρ c 0).trans (((dat0 (V0 m ρ) c).arrAt_in 0 rfl _).trans (A_eq0 (V0 m ρ) c 0)))
theorem V2_main_arg2 (c : Dev nD) : V2 m ρ c main_arg2 = m ((c : Thread nD τ).loc main_arg2) :=
  (host1_keeps (W1 m ρ c) main_arg2 (by decide)).trans (W1_of_ne m ρ c main_arg2 (by decide))
/-- Region 1's bias row is the bias vector reshaped to one row. -/
theorem V2_main_v1 (c : Dev nD) : V2 m ρ c main_v1 = shapeCast S1x4096 (m ((c : Thread nD τ).loc main_arg3)) shapeCasts_S4096_S1x4096 := by
  show StableHlo.after hostOps1 (W1 m ρ c) (Proc.devRef .tc main_v1) = _
  after_results
  rw [show W1 m ρ c (Proc.devRef .tc main_arg3) = m ((c : Thread nD τ).loc main_arg3) from W1_of_ne m ρ c main_arg3 (by decide)]
  rfl

/-- Region 2 finds region 0's output array as its first operand … -/
theorem V4_main_v0 (c : Dev nD) : V4 m ρ c main_v0 = (dat0 (V0 m ρ) c).arrAt 2 cfg0.N :=
  (host2_keeps (W3 m ρ c) main_v0 (by decide) (by decide)).trans ((W3_of_ne m ρ c main_v0 (by decide)).trans
    ((host1_keeps (W1 m ρ c) main_v0 (by decide)).trans (W1_arr m ρ c 2)))
/-- … and region 1's output array as its last. -/
theorem V4_main_v2 (c : Dev nD) : V4 m ρ c main_v2 = (dat1 (V2 m ρ) c).arrAt 3 cfg1.N :=
  (host2_keeps (W3 m ρ c) main_v2 (by decide) (by decide)).trans (W3_arr m ρ c 3)
theorem V4_main_arg4 (c : Dev nD) : V4 m ρ c main_arg4 = m ((c : Thread nD τ).loc main_arg4) :=
  (host2_keeps (W3 m ρ c) main_arg4 (by decide) (by decide)).trans ((W3_of_ne m ρ c main_arg4 (by decide)).trans
    ((host1_keeps (W1 m ρ c) main_arg4 (by decide)).trans (W1_of_ne m ρ c main_arg4 (by decide))))
theorem V4_main_arg6 (c : Dev nD) : V4 m ρ c main_arg6 = m ((c : Thread nD τ).loc main_arg6) :=
  (host2_keeps (W3 m ρ c) main_arg6 (by decide) (by decide)).trans ((W3_of_ne m ρ c main_arg6 (by decide)).trans
    ((host1_keeps (W1 m ρ c) main_arg6 (by decide)).trans (W1_of_ne m ρ c main_arg6 (by decide))))
theorem W3_main_arg5 (c : Dev nD) : W3 m ρ c (Proc.devRef .tc main_arg5) = m ((c : Thread nD τ).loc main_arg5) :=
  (W3_of_ne m ρ c main_arg5 (by decide)).trans ((host1_keeps (W1 m ρ c) main_arg5 (by decide)).trans (W1_of_ne m ρ c main_arg5 (by decide)))
theorem W3_main_arg7 (c : Dev nD) : W3 m ρ c (Proc.devRef .tc main_arg7) = m ((c : Thread nD τ).loc main_arg7) :=
  (W3_of_ne m ρ c main_arg7 (by decide)).trans ((host1_keeps (W1 m ρ c) main_arg7 (by decide)).trans (W1_of_ne m ρ c main_arg7 (by decide)))
/-- Region 2's two bias rows are the bias vectors reshaped to one row each. -/
theorem V4_main_v3 (c : Dev nD) : V4 m ρ c main_v3 = shapeCast S1x256 (m ((c : Thread nD τ).loc main_arg5)) shapeCasts_S256_S1x256 := by
  show StableHlo.after hostOps2 (W3 m ρ c) (Proc.devRef .tc main_v3) = _
  after_results
  rw [W3_main_arg5]
  rfl
theorem V4_main_v4 (c : Dev nD) : V4 m ρ c main_v4 = shapeCast S1x4096 (m ((c : Thread nD τ).loc main_arg7)) shapeCasts_S4096_S1x4096 := by
  show StableHlo.after hostOps2 (W3 m ρ c) (Proc.devRef .tc main_v4) = _
  after_results
  rw [W3_main_arg7]
  rfl

end Cert.Kernel.Hand

end
-- ==== Proof.KI.Region0Runs.lean ====
/-
  Region 0 of the program: the interaction kernel on a 2×8 grid (batch half b, reduction step f), its two
  accumulators kept in scratch across the eight steps of a batch half. This module fixes what the three control
  cases of its body share: the blocks the windows stage, the two branch conditions decided over the grid
  (the reset at f = 0, the epilogue at f = 7), where the output window is idle, and the region invariant of the
  class split at the kernel's own two scratch buffers.
-/
import proofs.«146741_j35055523070100_2_alg».proof.Proof.Gen.KernelIdeal.Launch
import proofs.«146741_j35055523070100_2_alg».proof.Proof.Gen.KernelIdeal.Skeleton
import proofs.«146741_j35055523070100_2_alg».proof.Proof.Gen.KernelIdeal.Points
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The feature block: its staging buffer holds block (b, f) of the feature matrix at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The embedding block: its staging buffer holds rows f·2048 … of the embedding table at every point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The two branch conditions, decided over the grid -/

/-- The reset's condition: the reduction step is the first. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 8 = 0 :=
  (by decide +kernel : ∀ t : Fin grid0.N, cond0_0 (grid0.coords t) ↔ t.val % 8 = 0)

/-- The epilogue's condition: the reduction step is the last. -/
abbrev cond0_1 (i : grid0.Coords) : Prop := k0_cond2 i = 1#1
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the output window is idle -/

theorem liveAt0_0 : ∀ t : Fin cfg0.N, cfg0.idle 0 (grid0.coords t) = false := by decide +kernel
theorem liveAt0_1 : ∀ t : Fin cfg0.N, cfg0.idle 1 (grid0.coords t) = false := by decide +kernel
/-- Off the last reduction step the body stores nothing into the output block, and the block is not written back. -/
theorem idleAt0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel
/-- At the last reduction step the output block is stored whole. -/
theorem liveAt0_2 : ∀ t : Fin cfg0.N, cond0_1 (grid0.coords t) → cfg0.idle 2 (grid0.coords t) = false := by decide +kernel

/-! ## The memrefs the body is called with -/

abbrev VO0_2 : View sig .tc .vmem S512x256 .f32 := (Memref.whole cc0_stg2_0 : Memref sig .tc .vmem S512x256 .f32).view
abbrev ms0_0 (t : Fin cfg0.N) : Memref sig .tc .vmem S512x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x256 .f32 := win0_2.stage (cfg0.slots t 2)
abbrev hs0_2 (t : Fin cfg0.N) : (ms0_2 t).IsWhole := hstage0_2 ((cfg0.slots t 2).cast nbuf0_2)
/-- The two accumulators: Σ x·e and Σ x²·e² over the reduction steps so far. -/
abbrev scM0_0 : Memref sig .tc .vmem S512x256 .f32 := Memref.whole cc0_scratch0
abbrev scM0_1 : Memref sig .tc .vmem S512x256 .f32 := Memref.whole cc0_scratch1
abbrev VS0_0 : View sig .tc .vmem S512x256 .f32 := scM0_0.view
abbrev VS0_1 : View sig .tc .vmem S512x256 .f32 := scM0_1.view

/-- Every scoped buffer of the core other than this kernel's staging buffers and its two accumulators: carried
    through the region unopened. -/
abbrev others0 (c : Dev nD) : sProp 𝕄 :=
  Pipeline.scopedRestBut (Ix := Unit) (Name := ℕ) (U := UR sig nD τ) (Lvl := ℕ) (Val := Elt F) spec0 c [cc0_scratch0, cc0_scratch1]

/-- The class's region invariant with the two accumulators as memrefs owned at some contents. -/
theorem PhiA0_eq (c : Dev nD) :
    (Pipeline.ΦA spec0 c : sProp 𝕄)
      = iprop(iprop(iprop((∃ d, owns (c : Thread nD τ) scM0_0 fullShare d) ∗ (∃ d, owns (c : Thread nD τ) scM0_1 fullShare d)) ∗ others0 c) ∗ (∃ r, prngReg c r)) := by
  unfold Pipeline.ΦA
  rw [Pipeline.scopedRest_split_of_list spec0 c [cc0_scratch0, cc0_scratch1] (by decide) (by decide)]
  simp only [bigSepL_cons_cons, bigSepL_singleton, scM0_0, scM0_1, owns_whole]
  try rfl

end Cert.KernelIdeal.Hand

end
-- ==== Proof.KI.Region0RunA.lean ====
/-
  Region 0, the first reduction step of a batch half (both accumulators reset, then the step's two products added; the output block untouched): the kernel body run once on whole staging memrefs, the pieces each buffer ends with found by
  the run itself.
-/
import proofs.«146741_j35055523070100_2_alg».proof.Proof.KI.Region0Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- Case A (f = 0): from the feature block `x0`, the embedding block `x1`, the output's buffer at `xi2` (handed back
    untouched) and the accumulators at anything, the body ends with each accumulator's pieces written. -/
noncomputable def kernelRun0_A (c : Dev nD) (i : grid0.Coords) (arg2 : Memref sig .tc .vmem S512x2048 .f32) (harg2 : arg2.IsWhole) (arg3 : Memref sig .tc .vmem S2048x256 .f32) (harg3 : arg3.IsWhole) (arg4 : Memref sig .tc .vmem S512x256 .f32) (harg4 : arg4.IsWhole) (arg5 : Memref sig .tc .vmem S512x256 .f32) (harg5 : arg5.IsWhole) (arg6 : Memref sig .tc .vmem S512x256 .f32) (harg6 : arg6.IsWhole) (hc0 : cond0_0 i) (hc1 : ¬cond0_1 i)
    (x0 : Vec F S512x2048 .f32) (x1 : Vec F S2048x256 .f32) :
    Σ' (LS0 : List (View.Piece (Elt F) S512x256 .f32)), { LS1 : List (View.Piece (Elt F) S512x256 .f32) //
      ∀ (xi2 : Vec F S512x256 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1)) -∗ K ⟨⟩))
          ⊢ wp frame (wpE (defs₀ (F := F)) Variants.none c none) E (cc0__interaction_kernel i arg2 harg2 arg3 harg3 arg4 harg4 arg5 harg5 arg6 harg6) K } := by
  refine ⟨?_, ?_, fun xi2 E K => ?run⟩
  case run =>
    simp only [cc0__interaction_kernel_eq_skeleton]; unfold cc0__interaction_kernel_skel
    unfold owns
    iintro ⟨⟨%f0, %hf0, H0⟩, ⟨%f1, %hf1, H1⟩, ⟨%f2, %hf2, H2⟩, ⟨%ds0, %fs0, -, HS0⟩, ⟨%ds1, %fs1, -, HS1⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HS0]; · iexists _; iexact HS0
    iexists _; iexact HS1

end Cert.KernelIdeal.Hand

end
-- ==== Proof.KI.Region0RunB.lean ====
/-
  Region 0, a middle reduction step (the step's two products added to the accumulators; the output block untouched): the kernel body run once on whole staging memrefs, the pieces each buffer ends with found by
  the run itself.
-/
import proofs.«146741_j35055523070100_2_alg».proof.Proof.KI.Region0Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- Case B (0 < f < 7): from the two input blocks, the output's buffer at `xi2` (handed back untouched) and the
    accumulators at what the step before left (`xs0`, `xs1`), the body ends with each accumulator's pieces written. -/
noncomputable def kernelRun0_B (c : Dev nD) (i : grid0.Coords) (arg2 : Memref sig .tc .vmem S512x2048 .f32) (harg2 : arg2.IsWhole) (arg3 : Memref sig .tc .vmem S2048x256 .f32) (harg3 : arg3.IsWhole) (arg4 : Memref sig .tc .vmem S512x256 .f32) (harg4 : arg4.IsWhole) (arg5 : Memref sig .tc .vmem S512x256 .f32) (harg5 : arg5.IsWhole) (arg6 : Memref sig .tc .vmem S512x256 .f32) (harg6 : arg6.IsWhole) (hc0 : ¬cond0_0 i) (hc1 : ¬cond0_1 i)
    (x0 : Vec F S512x2048 .f32) (x1 : Vec F S2048x256 .f32) (xs0 : Vec F S512x256 .f32) (xs1 : Vec F S512x256 .f32) :
    Σ' (LS0 : List (View.Piece (Elt F) S512x256 .f32)), { LS1 : List (View.Piece (Elt F) S512x256 .f32) //
      ∀ (xi2 : Vec F S512x256 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0 ∗ owns (c : Thread nD τ) arg6 fullShare xs1
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1)) -∗ K ⟨⟩))
          ⊢ wp frame (wpE (defs₀ (F := F)) Variants.none c none) E (cc0__interaction_kernel i arg2 harg2 arg3 harg3 arg4 harg4 arg5 harg5 arg6 harg6) K } := by
  refine ⟨?_, ?_, fun xi2 E K => ?run⟩
  case run =>
    simp only [cc0__interaction_kernel_eq_skeleton]; unfold cc0__interaction_kernel_skel
    unfold owns
    iintro ⟨⟨%f0, %hf0, H0⟩, ⟨%f1, %hf1, H1⟩, ⟨%f2, %hf2, H2⟩, ⟨%fs0, %hfs0, HS0⟩, ⟨%fs1, %hfs1, HS1⟩, Hk⟩
    obtain rfl := harg2.eq_unread hf0; obtain rfl := harg3.eq_unread hf1; obtain rfl := harg4.eq_unread hf2
    obtain rfl := harg5.eq_unread hfs0; obtain rfl := harg6.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HS0]; · iexists _; iexact HS0
    iexists _; iexact HS1

end Cert.KernelIdeal.Hand

end
-- ==== Proof.KI.Region0RunC.lean ====
/-
  Region 0, the last reduction step of a batch half (the step's two products added, then the output block stored whole from the two accumulators): the kernel body run once on whole staging memrefs, the pieces each buffer ends with found by
  the run itself.
-/
import proofs.«146741_j35055523070100_2_alg».proof.Proof.KI.Region0Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- Case C (f = 7): from the two input blocks, the output's buffer at anything and the accumulators at what the step
    before left (`xs0`, `xs1`), the body ends with the output's and each accumulator's pieces written. -/
noncomputable def kernelRun0_C (c : Dev nD) (i : grid0.Coords) (arg2 : Memref sig .tc .vmem S512x2048 .f32) (harg2 : arg2.IsWhole) (arg3 : Memref sig .tc .vmem S2048x256 .f32) (harg3 : arg3.IsWhole) (arg4 : Memref sig .tc .vmem S512x256 .f32) (harg4 : arg4.IsWhole) (arg5 : Memref sig .tc .vmem S512x256 .f32) (harg5 : arg5.IsWhole) (arg6 : Memref sig .tc .vmem S512x256 .f32) (harg6 : arg6.IsWhole) (hc0 : ¬cond0_0 i) (hc1 : cond0_1 i)
    (x0 : Vec F S512x2048 .f32) (x1 : Vec F S2048x256 .f32) (xs0 : Vec F S512x256 .f32) (xs1 : Vec F S512x256 .f32) :
    Σ' (L2 : List (View.Piece (Elt F) S512x256 .f32)) (LS0 : List (View.Piece (Elt F) S512x256 .f32)), { LS1 : List (View.Piece (Elt F) S512x256 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0 ∗ owns (c : Thread nD τ) arg6 fullShare xs1
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1)) -∗ K ⟨⟩))
          ⊢ wp frame (wpE (defs₀ (F := F)) Variants.none c none) E (cc0__interaction_kernel i arg2 harg2 arg3 harg3 arg4 harg4 arg5 harg5 arg6 harg6) K } := by
  refine ⟨?_, ?_, ?_, fun E K => ?run⟩
  case run =>
    simp only [cc0__interaction_kernel_eq_skeleton]; unfold cc0__interaction_kernel_skel
    unfold owns
    iintro ⟨⟨%f0, %hf0, H0⟩, ⟨%f1, %hf1, H1⟩, ⟨%d2, %f2, -, H2⟩, ⟨%fs0, %hfs0, HS0⟩, ⟨%fs1, %hfs1, HS1⟩, Hk⟩
    obtain rfl := harg2.eq_unread hf0; obtain rfl := harg3.eq_unread hf1
    obtain rfl := harg5.eq_unread hfs0; obtain rfl := harg6.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [HS0]; · iexists _; iexact HS0
    iexists _; iexact HS1

end Cert.KernelIdeal.Hand

end
-- ==== Proof.KI.Region0.lean ====
/-
  Region 0: what the interaction kernel leaves, step by step. After reduction step f of batch half b the two
  accumulators hold the step's pieces over what step f − 1 left (reset first at f = 0); at f = 7 the output block is
  stored from them. `outsAt0` follows that recursion over the sixteen grid points; the region invariant names the
  accumulators' contents from the second point on; the body obligation is the case's run at each point.
-/
import proofs.«146741_j35055523070100_2_alg».proof.Proof.KI.Region0RunA
import proofs.«146741_j35055523070100_2_alg».proof.Proof.KI.Region0RunB
import proofs.«146741_j35055523070100_2_alg».proof.Proof.KI.Region0RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The three cases at a grid point -/

/-- The first reduction step's run at point `t`. -/
abbrev RA (c : Dev nD) (t : Fin cfg0.N) (h0 : t.val % 8 = 0) (h1 : ¬t.val % 8 = 7) :=
  kernelRun0_A (F := F) c (grid0.coords t) (ms0_0 t) (hs0_0 t) (ms0_1 t) (hs0_1 t) (ms0_2 t) (hs0_2 t) scM0_0 (Memref.isWhole_whole _) scM0_1 (Memref.isWhole_whole _) ((hcond0_0 t).mpr h0) (fun h => h1 ((hcond0_1 t).mp h)) (iblk0 V c 0 t) (iblk0 V c 1 t)
/-- A middle reduction step's run at point `t`, the accumulators found at `xs0`, `xs1`. -/
abbrev RB (c : Dev nD) (t : Fin cfg0.N) (h0 : ¬t.val % 8 = 0) (h1 : ¬t.val % 8 = 7) (xs0 xs1 : Vec F S512x256 .f32) :=
  kernelRun0_B (F := F) c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) (fun h => h1 ((hcond0_1 t).mp h)) (iblk0 V c 0 t) (iblk0 V c 1 t) xs0 xs1
/-- The last reduction step's run at point `t`, the accumulators found at `xs0`, `xs1`. -/
abbrev RC (c : Dev nD) (t : Fin cfg0.N) (h0 : ¬t.val % 8 = 0) (h1 : t.val % 8 = 7) (xs0 xs1 : Vec F S512x256 .f32) :=
  kernelRun0_C (F := F) c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h1) (iblk0 V c 0 t) (iblk0 V c 1 t) xs0 xs1

/-- What a first step leaves: (the output's buffer — idle there, a placeholder nothing reads —, Σ x·e so far, Σ x²·e² so far). -/
def stepA (c : Dev nD) (t : Fin cfg0.N) (h0 : t.val % 8 = 0) (h1 : ¬t.val % 8 = 7) : Vec F S512x256 .f32 × Vec F S512x256 .f32 × Vec F S512x256 .f32 :=
  (VO0_2.read (Elt F) (VO0_2.writes (Elt F) VO0_2.junk []),
   VS0_0.read (Elt F) (VS0_0.writes (Elt F) VS0_0.junk (RA V c t h0 h1).1),
   VS0_1.read (Elt F) (VS0_1.writes (Elt F) VS0_1.junk (RA V c t h0 h1).2.1))
/-- What a middle step leaves. -/
def stepB (c : Dev nD) (t : Fin cfg0.N) (h0 : ¬t.val % 8 = 0) (h1 : ¬t.val % 8 = 7) (xs0 xs1 : Vec F S512x256 .f32) : Vec F S512x256 .f32 × Vec F S512x256 .f32 × Vec F S512x256 .f32 :=
  (VO0_2.read (Elt F) (VO0_2.writes (Elt F) VO0_2.junk []),
   VS0_0.read (Elt F) (VS0_0.writes (Elt F) VS0_0.junk (RB V c t h0 h1 xs0 xs1).1),
   VS0_1.read (Elt F) (VS0_1.writes (Elt F) VS0_1.junk (RB V c t h0 h1 xs0 xs1).2.1))
/-- What the last step leaves: the output block stored, the accumulators advanced once more. -/
def stepC (c : Dev nD) (t : Fin cfg0.N) (h0 : ¬t.val % 8 = 0) (h1 : t.val % 8 = 7) (xs0 xs1 : Vec F S512x256 .f32) : Vec F S512x256 .f32 × Vec F S512x256 .f32 × Vec F S512x256 .f32 :=
  (VO0_2.read (Elt F) (VO0_2.writes (Elt F) VO0_2.junk (RC V c t h0 h1 xs0 xs1).1),
   VS0_0.read (Elt F) (VS0_0.writes (Elt F) VS0_0.junk (RC V c t h0 h1 xs0 xs1).2.1),
   VS0_1.read (Elt F) (VS0_1.writes (Elt F) VS0_1.junk (RC V c t h0 h1 xs0 xs1).2.2.1))

/-! Each buffer a case stores into is stored whole, so its pieces cover it. -/
theorem scoverA_0 (c : Dev nD) (t : Fin cfg0.N) (h0 : t.val % 8 = 0) (h1 : ¬t.val % 8 = 7) (y : S512x256.Idx) :
    ∃ pc ∈ (RA V c t h0 h1).1, y ∈ pc.1.set := View.cover_of_tiledL (RA V c t h0 h1).1 S512x256.size (by sl_kernel_rfl) y
theorem scoverA_1 (c : Dev nD) (t : Fin cfg0.N) (h0 : t.val % 8 = 0) (h1 : ¬t.val % 8 = 7) (y : S512x256.Idx) :
    ∃ pc ∈ (RA V c t h0 h1).2.1, y ∈ pc.1.set := View.cover_of_tiledL (RA V c t h0 h1).2.1 S512x256.size (by sl_kernel_rfl) y
theorem scoverB_0 (c : Dev nD) (t : Fin cfg0.N) (h0 : ¬t.val % 8 = 0) (h1 : ¬t.val % 8 = 7) (xs0 xs1 : Vec F S512x256 .f32) (y : S512x256.Idx) :
    ∃ pc ∈ (RB V c t h0 h1 xs0 xs1).1, y ∈ pc.1.set := View.cover_of_tiledL (RB V c t h0 h1 xs0 xs1).1 S512x256.size (by sl_kernel_rfl) y
theorem scoverB_1 (c : Dev nD) (t : Fin cfg0.N) (h0 : ¬t.val % 8 = 0) (h1 : ¬t.val % 8 = 7) (xs0 xs1 : Vec F S512x256 .f32) (y : S512x256.Idx) :
    ∃ pc ∈ (RB V c t h0 h1 xs0 xs1).2.1, y ∈ pc.1.set := View.cover_of_tiledL (RB V c t h0 h1 xs0 xs1).2.1 S512x256.size (by sl_kernel_rfl) y
theorem coverC_2 (c : Dev nD) (t : Fin cfg0.N) (h0 : ¬t.val % 8 = 0) (h1 : t.val % 8 = 7) (xs0 xs1 : Vec F S512x256 .f32) (y : S512x256.Idx) :
    ∃ pc ∈ (RC V c t h0 h1 xs0 xs1).1, y ∈ pc.1.set := View.cover_of_tiledL (RC V c t h0 h1 xs0 xs1).1 S512x256.size (by sl_kernel_rfl) y
theorem scoverC_0 (c : Dev nD) (t : Fin cfg0.N) (h0 : ¬t.val % 8 = 0) (h1 : t.val % 8 = 7) (xs0 xs1 : Vec F S512x256 .f32) (y : S512x256.Idx) :
    ∃ pc ∈ (RC V c t h0 h1 xs0 xs1).2.1, y ∈ pc.1.set := View.cover_of_tiledL (RC V c t h0 h1 xs0 xs1).2.1 S512x256.size (by sl_kernel_rfl) y
theorem scoverC_1 (c : Dev nD) (t : Fin cfg0.N) (h0 : ¬t.val % 8 = 0) (h1 : t.val % 8 = 7) (xs0 xs1 : Vec F S512x256 .f32) (y : S512x256.Idx) :
    ∃ pc ∈ (RC V c t h0 h1 xs0 xs1).2.2.1, y ∈ pc.1.set := View.cover_of_tiledL (RC V c t h0 h1 xs0 xs1).2.2.1 S512x256.size (by sl_kernel_rfl) y

/-! ## The accumulation over the grid -/

/-- What the output's staging buffer and the two accumulators hold after the body at position `n`: the case the
    position is in, run on the point's blocks, the accumulators taken from position `n − 1` unless the step resets them. -/
def outsAt0 (c : Dev nD) : (n : ℕ) → n < cfg0.N → Vec F S512x256 .f32 × Vec F S512x256 .f32 × Vec F S512x256 .f32
  | 0, hn => stepA V c ⟨0, hn⟩ (Nat.zero_mod _) (by show ¬(0 % 8 = 7); decide)
  | n + 1, hn =>
    if h0 : (n + 1) % 8 = 0 then
      if h1 : (n + 1) % 8 = 7 then False.elim (by omega)
      else stepA V c ⟨n + 1, hn⟩ h0 h1
    else
      if h1 : (n + 1) % 8 = 7 then
        stepC V c ⟨n + 1, hn⟩ h0 h1 (outsAt0 c n (Nat.lt_of_succ_lt hn)).2.1 (outsAt0 c n (Nat.lt_of_succ_lt hn)).2.2
      else
        stepB V c ⟨n + 1, hn⟩ h0 h1 (outsAt0 c n (Nat.lt_of_succ_lt hn)).2.1 (outsAt0 c n (Nat.lt_of_succ_lt hn)).2.2

theorem outsAt0_A (c : Dev nD) (t : Fin cfg0.N) (h0 : t.val % 8 = 0) (h1 : ¬t.val % 8 = 7) :
    outsAt0 V c t.val t.isLt = stepA V c t h0 h1 := by
  obtain ⟨n, hn⟩ := t
  cases n with
  | zero => exact rfl
  | succ n => exact (dif_pos h0).trans ((dif_neg h1).trans rfl)

theorem outsAt0_B (c : Dev nD) (t : Fin cfg0.N) (h0 : ¬t.val % 8 = 0) (h1 : ¬t.val % 8 = 7) :
    outsAt0 V c t.val t.isLt = stepB V c t h0 h1 (outsAt0 V c (t.val - 1) (Nat.lt_of_le_of_lt (Nat.sub_le _ _) t.isLt)).2.1 (outsAt0 V c (t.val - 1) (Nat.lt_of_le_of_lt (Nat.sub_le _ _) t.isLt)).2.2 := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 8 = 0) (h1 : t.val % 8 = 7) :
    outsAt0 V c t.val t.isLt = stepC V c t h0 h1 (outsAt0 V c (t.val - 1) (Nat.lt_of_le_of_lt (Nat.sub_le _ _) t.isLt)).2.1 (outsAt0 V c (t.val - 1) (Nat.lt_of_le_of_lt (Nat.sub_le _ _) t.isLt)).2.2 := by
  obtain ⟨n, hn⟩ := t
  cases n with
  | zero => exact (by exfalso; (try dsimp only at h0); exact absurd (Nat.zero_mod _) h0)
  | succ n => exact (dif_neg h0).trans ((dif_pos h1).trans rfl)

/-! ## The region invariant -/

/-- Before position `n`: at the region's start the class's invariant (every scratch at anything); afterwards the two
    accumulators at what the point before left, every other scoped buffer unopened, the generator register at some state. -/
def PhiS0 (c : Dev nD) : (n : ℕ) → n ≤ cfg0.N → sProp 𝕄
  | 0, _ => Pipeline.ΦA spec0 c
  | n + 1, hn => iprop(iprop(iprop(owns (c : Thread nD τ) scM0_0 fullShare (outsAt0 V c n hn).2.1 ∗ owns (c : Thread nD τ) scM0_1 fullShare (outsAt0 V c n hn).2.2) ∗ others0 c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(iprop(owns (c : Thread nD τ) scM0_0 fullShare (outsAt0 V c n hn).2.1 ∗ owns (c : Thread nD τ) scM0_1 fullShare (outsAt0 V c n hn).2.2) ∗ others0 c) ∗ (∃ r, prngReg c r)) := rfl

theorem PhiS0_pos (c : Dev nD) (n : ℕ) (h : n ≤ cfg0.N) (hz : n ≠ 0) :
    PhiS0 V c n h = iprop(iprop(iprop(owns (c : Thread nD τ) scM0_0 fullShare (outsAt0 V c (n - 1) (by omega)).2.1 ∗ owns (c : Thread nD τ) scM0_1 fullShare (outsAt0 V c (n - 1) (by omega)).2.2) ∗ others0 c) ∗ (∃ r, prngReg c r)) := by
  cases n with
  | zero => exact absurd rfl hz
  | succ n => rfl

/-! ## The proof data -/

/-- Region 0's proof data on core `c`: the arrays as the region finds them; after the body at point `t` each input's
    buffer at its block, the output's at `outsAt0`'s first component; the invariant `PhiS0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point: the two inputs' buffers hold their blocks; the closed forms say which of the three cases
    the point is in; the invariant hands the body the accumulators at what the point before left (at anything before
    the first point) and takes them back at this point's contents; off the last reduction step the output's buffer is
    handed back as found. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  have hN : t.val < 16 := lt_of_lt_of_eq t.isLt (show cfg0.N = 16 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  by_cases h0 : t.val % 8 = 0
  · have h1 : ¬t.val % 8 = 7 := by omega
    rw [Dat.leavesExact_idle (dat0 V c) 2 t (idleAt0_2 t (fun h => h1 ((hcond0_1 t).mp h))) (noFlush0_2 t (fun h => h1 ((hcond0_1 t).mp h)))]
    rw [outsAt0_A V c t h0 h1]
    unfold stepA; (try dsimp only)
    by_cases hz : t.val = 0
    · rw [PhiS0_castSucc V c t, PhiS0_zero V c _ _ hz, PhiA0_eq]
      iintro ⟨⟨⟨⟨HS0, HS1⟩, Hoth⟩, Hg⟩, Ho, ⟨%d0, H0⟩, ⟨%d1, H1⟩, ⟨%d2, H2⟩⟩
      iapply ((RA V c t h0 h1).2.2 _ Set.univ _)
      isplitl [H0]; · iexact H0
      isplitl [H1]; · iexact H1
      isplitl [H2]; · iexact H2
      isplitl [HS0]; · iexact HS0
      isplitl [HS1]; · iexact HS1
      iintro ⟨H0, H1, H2, ⟨%es0, HS0⟩, ⟨%es1, HS1⟩⟩
      isplitl [HS0 HS1 Hoth Hg]
      · isplitl [HS0 HS1 Hoth]
        · isplitl [HS0 HS1]
          · isplitl [HS0]
            · unfold owns; iexists _; isplitr
              swap; · iexact HS0
              ipureintro; exact View.read_writes_of_cover _ _ _ _ _ (scoverA_0 V c t h0 h1)
            · unfold owns; iexists _; isplitr
              swap; · iexact HS1
              ipureintro; exact View.read_writes_of_cover _ _ _ _ _ (scoverA_1 V c t h0 h1)
          iexact Hoth
        iexact Hg
      isplitl [Ho]; · iexact Ho
      isplitl [H0]; · iexact H0
      isplitl [H1]; · iexact H1
      iexists _; iexact H2
    · rw [PhiS0_castSucc V c t, PhiS0_pos V c _ _ hz]
      iintro ⟨⟨⟨⟨HS0, HS1⟩, Hoth⟩, Hg⟩, Ho, ⟨%d0, H0⟩, ⟨%d1, H1⟩, ⟨%d2, H2⟩⟩
      iapply ((RA V c t h0 h1).2.2 _ Set.univ _)
      isplitl [H0]; · iexact H0
      isplitl [H1]; · iexact H1
      isplitl [H2]; · iexact H2
      isplitl [HS0]; · iexists _; iexact HS0
      isplitl [HS1]; · iexists _; iexact HS1
      iintro ⟨H0, H1, H2, ⟨%es0, HS0⟩, ⟨%es1, HS1⟩⟩
      isplitl [HS0 HS1 Hoth Hg]
      · isplitl [HS0 HS1 Hoth]
        · isplitl [HS0 HS1]
          · isplitl [HS0]
            · unfold owns; iexists _; isplitr
              swap; · iexact HS0
              ipureintro; exact View.read_writes_of_cover _ _ _ _ _ (scoverA_0 V c t h0 h1)
            · unfold owns; iexists _; isplitr
              swap; · iexact HS1
              ipureintro; exact View.read_writes_of_cover _ _ _ _ _ (scoverA_1 V c t h0 h1)
          iexact Hoth
        iexact Hg
      isplitl [Ho]; · iexact Ho
      isplitl [H0]; · iexact H0
      isplitl [H1]; · iexact H1
      iexists _; iexact H2
  · have hz : t.val ≠ 0 := fun hz => h0 (by rw [hz])
    by_cases h1 : t.val % 8 = 7
    · rw [show (dat0 V c).leavesExact 2 t = owns (c : Thread nD τ) (ms0_2 t) fullShare ((dat0 V c).after 2 t) from by
        unfold Dat.leavesExact; rw [liveAt0_2 t ((hcond0_1 t).mpr h1)], after0_2]
      rw [outsAt0_C V c t h0 h1]
      unfold stepC; (try dsimp only)
      rw [PhiS0_castSucc V c t, PhiS0_pos V c _ _ hz]
      iintro ⟨⟨⟨⟨HS0, HS1⟩, Hoth⟩, Hg⟩, Ho, ⟨%d0, H0⟩, ⟨%d1, H1⟩, ⟨%d2, H2⟩⟩
      iapply ((RC V c t h0 h1 _ _).2.2.2 Set.univ _)
      isplitl [H0]; · iexact H0
      isplitl [H1]; · iexact H1
      isplitl [H2]; · iexists _; iexact H2
      isplitl [HS0]; · iexact HS0
      isplitl [HS1]; · iexact HS1
      iintro ⟨H0, H1, ⟨%e2, H2⟩, ⟨%es0, HS0⟩, ⟨%es1, HS1⟩⟩
      isplitl [HS0 HS1 Hoth Hg]
      · isplitl [HS0 HS1 Hoth]
        · isplitl [HS0 HS1]
          · isplitl [HS0]
            · unfold owns; iexists _; isplitr
              swap; · iexact HS0
              ipureintro; exact View.read_writes_of_cover _ _ _ _ _ (scoverC_0 V c t h0 h1 _ _)
            · unfold owns; iexists _; isplitr
              swap; · iexact HS1
              ipureintro; exact View.read_writes_of_cover _ _ _ _ _ (scoverC_1 V c t h0 h1 _ _)
          iexact Hoth
        iexact Hg
      isplitl [Ho]; · iexact Ho
      isplitl [H0]; · iexact H0
      isplitl [H1]; · iexact H1
      unfold owns; iexists _; isplitr
      swap; · iexact H2
      ipureintro; exact View.read_writes_of_cover _ _ _ _ _ (coverC_2 V c t h0 h1 _ _)
    · rw [Dat.leavesExact_idle (dat0 V c) 2 t (idleAt0_2 t (fun h => h1 ((hcond0_1 t).mp h))) (noFlush0_2 t (fun h => h1 ((hcond0_1 t).mp h)))]
      rw [outsAt0_B V c t h0 h1]
      unfold stepB; (try dsimp only)
      rw [PhiS0_castSucc V c t, PhiS0_pos V c _ _ hz]
      iintro ⟨⟨⟨⟨HS0, HS1⟩, Hoth⟩, Hg⟩, Ho, ⟨%d0, H0⟩, ⟨%d1, H1⟩, ⟨%d2, H2⟩⟩
      iapply ((RB V c t h0 h1 _ _).2.2 _ Set.univ _)
      isplitl [H0]; · iexact H0
      isplitl [H1]; · iexact H1
      isplitl [H2]; · iexact H2
      isplitl [HS0]; · iexact HS0
      isplitl [HS1]; · iexact HS1
      iintro ⟨H0, H1, H2, ⟨%es0, HS0⟩, ⟨%es1, HS1⟩⟩
      isplitl [HS0 HS1 Hoth Hg]
      · isplitl [HS0 HS1 Hoth]
        · isplitl [HS0 HS1]
          · isplitl [HS0]
            · unfold owns; iexists _; isplitr
              swap; · iexact HS0
              ipureintro; exact View.read_writes_of_cover _ _ _ _ _ (scoverB_0 V c t h0 h1 _ _)
            · unfold owns; iexists _; isplitr
              swap; · iexact HS1
              ipureintro; exact View.read_writes_of_cover _ _ _ _ _ (scoverB_1 V c t h0 h1 _ _)
          iexact Hoth
        iexact Hg
      isplitl [Ho]; · iexact Ho
      isplitl [H0]; · iexact H0
      isplitl [H1]; · iexact H1
      iexists _; iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

/-! ## The invariant's two ends -/

/-- What the region is entered with (the class's invariant) is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point but the first the invariant gives the class's back: the accumulators' contents are forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨⟨HS0, HS1⟩, Hoth⟩, Hg⟩
  isplitl [HS0 HS1 Hoth]
  · isplitl [HS0 HS1]
    · isplitl [HS0]
      · iexists _; iexact HS0
      · iexists _; iexact HS1
    iexact Hoth
  iexact Hg

theorem hout0 (c : Dev nD) : (dat0 V c).Φ (Fin.last cfg0.N) ⊢ Pipeline.ΦA spec0 c :=
  Phi_out0 V c _ (by rw [Fin.val_last]; have : cfg0.N = 16 := N_0; omega)

end Cert.KernelIdeal.Hand

end
-- ==== Proof.KI.Region1Runs.lean ====
/- Region 1 (the linear kernel, pipeline 1): what its three case runs share. The windows' blocks read off the
   entry contents, the inputs' staging buffers holding their blocks at every point, the two branch conditions
   of the body in closed form over the grid, where the output window is idle, the staging and scratch memrefs,
   and the region invariant with the accumulator split off the scoped rest. -/
import proofs.«146741_j35055523070100_2_alg».proof.Proof.Gen.KernelIdeal.Launch
import proofs.«146741_j35055523070100_2_alg».proof.Proof.Gen.KernelIdeal.Skeleton
import proofs.«146741_j35055523070100_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter everything here is stated at
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The same for input window 1. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The same for input window 2 (the bias row), which is fetched only where its block index changes: where it is
    not fetched the index has not moved, so the buffer still holds the block. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch conditions -/

/-- The condition of the body's first conditional (the accumulator is zeroed), from the grid coordinates. -/
abbrev cond1_0 (i : grid1.Coords) : Prop := (Scalar.cmpi .ne (Scalar.extui (Scalar.cmpi .eq (BitVec.ofNat 32 (i 1).val) 0#32)) 0#32) = 1#1
/-- It holds at the points ≡ 0 (mod 64): decided over the grid. -/
theorem hcond1_0 : ∀ t : Fin cfg1.N, cond1_0 (grid1.coords t) ↔ t.val % 64 = 0 :=
  (by decide +kernel : ∀ t : Fin grid1.N, cond1_0 (grid1.coords t) ↔ t.val % 64 = 0)

/-- The condition of the body's second conditional (the output is stored), from the grid coordinates. -/
abbrev cond1_1 (i : grid1.Coords) : Prop := k1_cond2 i = 1#1
/-- It holds at the points ≡ 63 (mod 64): decided over the grid. -/
theorem hcond1_1 : ∀ t : Fin cfg1.N, cond1_1 (grid1.coords t) ↔ t.val % 64 = 63 :=
  (by decide +kernel : ∀ t : Fin grid1.N, cond1_1 (grid1.coords t) ↔ t.val % 64 = 63)

/-! ## Where the windows are idle -/

/-- The inputs are never idle. -/
theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
/-- Where the second conditional fails the output window is idle: nothing is stored into it. -/
theorem idleAt1_3 : ∀ t : Fin cfg1.N, ¬cond1_1 (grid1.coords t) → cfg1.idle 3 (grid1.coords t) = true := by decide +kernel
/-- And there the pipeline does not write its block back. -/
theorem noFlush1_3 : ∀ t : Fin cfg1.N, ¬cond1_1 (grid1.coords t) → (cfg1.win 3).flush t = false := by decide +kernel
/-- Where it holds the output window is live: the body stores into it. -/
theorem liveAt1_3 : ∀ t : Fin cfg1.N, cond1_1 (grid1.coords t) → cfg1.idle 3 (grid1.coords t) = false := by decide +kernel

/-! ## The staging and scratch memrefs -/

/-- One staging buffer of output window 3, through which its contents are stated (the choice does not matter). -/
abbrev VO1_3 : View sig .tc .vmem S1024x2048 .f32 := (Memref.whole cc1_stg3_0 : Memref sig .tc .vmem S1024x2048 .f32).view
/-- Each window's current staging memref at point `t`, spelled as the pipeline passes it, and its wholeness. -/
abbrev ms1_0 (t : Fin cfg1.N) : Memref sig .tc .vmem S1024x256 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2048x256 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x2048 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x2048 .f32 := win1_3.stage (cfg1.slots t 3)
abbrev hs1_3 (t : Fin cfg1.N) : (ms1_3 t).IsWhole := hstage1_3 ((cfg1.slots t 3).cast nbuf1_3)
/-- The accumulator: a whole scoped buffer of the kernel's own, passed beside the windows. -/
abbrev scM1_0 : Memref sig .tc .vmem S1024x2048 .f32 := Memref.whole cc1_scratch0
/-- The accumulator as a view: what it holds is stated through it. -/
abbrev VS1_0 : View sig .tc .vmem S1024x2048 .f32 := scM1_0.view

/-- The scoped buffers of the core other than this call's staging buffers and its accumulator, each at some
    contents: carried along unopened. -/
abbrev rest1 (c : Dev nD) : sProp 𝕄 :=
  Pipeline.scopedRestBut (Ix := Unit) (Name := ℕ) (U := UR sig nD τ) (Lvl := ℕ) (Val := Elt F) spec1 c [cc1_scratch0]

/-- The region invariant with the accumulator as a memref owned at some contents, split off the scoped rest:
    what the body obligation hands the run and takes back. -/
theorem PhiA1_eq (c : Dev nD) :
    (Pipeline.ΦA spec1 c : sProp 𝕄)
      = iprop(iprop((∃ d, owns (c : Thread nD τ) scM1_0 fullShare d) ∗ rest1 (F := F) c) ∗ (∃ r, prngReg c r)) := by
  unfold Pipeline.ΦA
  rw [Pipeline.scopedRest_split_of_list spec1 c [cc1_scratch0] (by decide) (by decide)]
  simp only [bigSepL_singleton, scM1_0, owns_whole]; try rfl

end Cert.KernelIdeal.Hand

end
-- ==== Proof.KI.Region1RunA.lean ====
/- Region 1, case A of the body (the first conditional taken, the second not: the accumulator is zeroed, then
   accumulated into; nothing is stored out): the body's triple on any whole staging memrefs, with the pieces its
   two stores leave in the accumulator as the witness the symbolic run finds. -/
import proofs.«146741_j35055523070100_2_alg».proof.Proof.KI.Region1Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Case A. On whole memrefs — the three inputs at their contents, the output's buffer at contents `xi3` handed
    back untouched, the accumulator at anything — the body runs to the continuation holding the inputs and the
    output's buffer as they were and the accumulator with its pieces written. -/
noncomputable def kernelRun1_A (c : Dev nD) (i : grid1.Coords) (arg2 : Memref sig .tc .vmem S1024x256 .f32) (harg2 : arg2.IsWhole) (arg3 : Memref sig .tc .vmem S2048x256 .f32) (harg3 : arg3.IsWhole) (arg4 : Memref sig .tc .vmem S1x2048 .f32) (harg4 : arg4.IsWhole) (arg5 : Memref sig .tc .vmem S1024x2048 .f32) (harg5 : arg5.IsWhole) (arg6 : Memref sig .tc .vmem S1024x2048 .f32) (harg6 : arg6.IsWhole) (hc0 : cond1_0 i) (hc1 : ¬cond1_1 i)
    (x0 : Vec F S1024x256 .f32) (x1 : Vec F S2048x256 .f32) (x2 : Vec F S1x2048 .f32) :
    Σ' (L3 : List (View.Piece (Elt F) S1024x2048 .f32)), { LS0 : List (View.Piece (Elt F) S1024x2048 .f32) //
      ∀ (xi3 : Vec F S1024x2048 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1__linear_kernel i arg2 harg2 arg3 harg3 arg4 harg4 arg5 harg5 arg6 harg6) K } := by
  refine ⟨[], ?_, fun xi3 E K => ?run⟩
  case run =>
    simp only [cc1__linear_kernel_eq_skeleton]; unfold cc1__linear_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.Hand

end
-- ==== Proof.KI.Region1RunB.lean ====
/- Region 1, case B of the body (neither conditional taken: the accumulator is neither zeroed nor stored out):
   the body's triple on any whole staging memrefs, with the pieces its one store leaves in the accumulator as
   the witness the symbolic run finds. -/
import proofs.«146741_j35055523070100_2_alg».proof.Proof.KI.Region1Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Case B. On whole memrefs — the three inputs at their contents, the output's buffer at contents `xi3` handed
    back untouched, the accumulator at what the point before left (`xs0`) — the body runs to the continuation
    holding the inputs and the output's buffer as they were and the accumulator with its pieces written. -/
noncomputable def kernelRun1_B (c : Dev nD) (i : grid1.Coords) (arg2 : Memref sig .tc .vmem S1024x256 .f32) (harg2 : arg2.IsWhole) (arg3 : Memref sig .tc .vmem S2048x256 .f32) (harg3 : arg3.IsWhole) (arg4 : Memref sig .tc .vmem S1x2048 .f32) (harg4 : arg4.IsWhole) (arg5 : Memref sig .tc .vmem S1024x2048 .f32) (harg5 : arg5.IsWhole) (arg6 : Memref sig .tc .vmem S1024x2048 .f32) (harg6 : arg6.IsWhole) (hc0 : ¬cond1_0 i) (hc1 : ¬cond1_1 i)
    (x0 : Vec F S1024x256 .f32) (x1 : Vec F S2048x256 .f32) (x2 : Vec F S1x2048 .f32) (xs0 : Vec F S1024x2048 .f32) :
    Σ' (L3 : List (View.Piece (Elt F) S1024x2048 .f32)), { LS0 : List (View.Piece (Elt F) S1024x2048 .f32) //
      ∀ (xi3 : Vec F S1024x2048 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1__linear_kernel i arg2 harg2 arg3 harg3 arg4 harg4 arg5 harg5 arg6 harg6) K } := by
  refine ⟨[], ?_, fun xi3 E K => ?run⟩
  case run =>
    simp only [cc1__linear_kernel_eq_skeleton]; unfold cc1__linear_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.Hand

end
-- ==== Proof.KI.Region1RunC.lean ====
/- Region 1, case C of the body (the second conditional taken, the first not: the accumulator is accumulated
   into, then stored out with the bias row added): the body's triple on any whole staging memrefs, with the
   pieces its stores leave in the output's buffer and in the accumulator as the witness the symbolic run finds. -/
import proofs.«146741_j35055523070100_2_alg».proof.Proof.KI.Region1Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Case C. On whole memrefs — the three inputs at their contents, the output's buffer at anything, the
    accumulator at what the point before left (`xs0`) — the body runs to the continuation holding the inputs as
    they were and the output's buffer and the accumulator each with its pieces written. -/
noncomputable def kernelRun1_C (c : Dev nD) (i : grid1.Coords) (arg2 : Memref sig .tc .vmem S1024x256 .f32) (harg2 : arg2.IsWhole) (arg3 : Memref sig .tc .vmem S2048x256 .f32) (harg3 : arg3.IsWhole) (arg4 : Memref sig .tc .vmem S1x2048 .f32) (harg4 : arg4.IsWhole) (arg5 : Memref sig .tc .vmem S1024x2048 .f32) (harg5 : arg5.IsWhole) (arg6 : Memref sig .tc .vmem S1024x2048 .f32) (harg6 : arg6.IsWhole) (hc0 : ¬cond1_0 i) (hc1 : cond1_1 i)
    (x0 : Vec F S1024x256 .f32) (x1 : Vec F S2048x256 .f32) (x2 : Vec F S1x2048 .f32) (xs0 : Vec F S1024x2048 .f32) :
    Σ' (L3 : List (View.Piece (Elt F) S1024x2048 .f32)), { LS0 : List (View.Piece (Elt F) S1024x2048 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc1__linear_kernel i arg2 harg2 arg3 harg3 arg4 harg4 arg5 harg5 arg6 harg6) K } := by
  refine ⟨?_, ?_, fun E K => ?run⟩
  case run =>
    simp only [cc1__linear_kernel_eq_skeleton]; unfold cc1__linear_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.KernelIdeal.Hand

end
-- ==== Proof.KI.Region1.lean ====
/- Region 1 (the linear kernel, pipeline 1), the frame half at entry contents `V`: what the output's staging
   buffer and the accumulator hold after each point (case by case, then point by point), the proof data, the body
   obligation at every point, and the invariant's ends. -/
import proofs.«146741_j35055523070100_2_alg».proof.Proof.KI.Region1RunA
import proofs.«146741_j35055523070100_2_alg».proof.Proof.KI.Region1RunB
import proofs.«146741_j35055523070100_2_alg».proof.Proof.KI.Region1RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- Case A stores nothing into the output's buffer (the window is idle at its points and not written back there):
    no pieces, so a placeholder that nothing consults. -/
def out1_A_3 (c : Dev nD) (i : grid1.Coords) (arg2 : Memref sig .tc .vmem S1024x256 .f32) (harg2 : arg2.IsWhole) (arg3 : Memref sig .tc .vmem S2048x256 .f32) (harg3 : arg3.IsWhole) (arg4 : Memref sig .tc .vmem S1x2048 .f32) (harg4 : arg4.IsWhole) (arg5 : Memref sig .tc .vmem S1024x2048 .f32) (harg5 : arg5.IsWhole) (arg6 : Memref sig .tc .vmem S1024x2048 .f32) (harg6 : arg6.IsWhole) (hc0 : cond1_0 i) (hc1 : ¬cond1_1 i)
    (x0 : Vec F S1024x256 .f32) (x1 : Vec F S2048x256 .f32) (x2 : Vec F S1x2048 .f32) : Vec F S1024x2048 .f32 :=
  VO1_3.read (Elt F) (VO1_3.writes (Elt F) VO1_3.junk (kernelRun1_A c i arg2 harg2 arg3 harg3 arg4 harg4 arg5 harg5 arg6 harg6 hc0 hc1 x0 x1 x2).1)

/-- Case A's pieces for the accumulator tile it, so they cover it. -/
theorem scover1_A_0 (c : Dev nD) (i : grid1.Coords) (arg2 : Memref sig .tc .vmem S1024x256 .f32) (harg2 : arg2.IsWhole) (arg3 : Memref sig .tc .vmem S2048x256 .f32) (harg3 : arg3.IsWhole) (arg4 : Memref sig .tc .vmem S1x2048 .f32) (harg4 : arg4.IsWhole) (arg5 : Memref sig .tc .vmem S1024x2048 .f32) (harg5 : arg5.IsWhole) (arg6 : Memref sig .tc .vmem S1024x2048 .f32) (harg6 : arg6.IsWhole) (hc0 : cond1_0 i) (hc1 : ¬cond1_1 i)
    (x0 : Vec F S1024x256 .f32) (x1 : Vec F S2048x256 .f32) (x2 : Vec F S1x2048 .f32) (y : S1024x2048.Idx) :
    ∃ pc ∈ (kernelRun1_A c i arg2 harg2 arg3 harg3 arg4 harg4 arg5 harg5 arg6 harg6 hc0 hc1 x0 x1 x2).2.1, y ∈ pc.1.set :=
  View.cover_of_tiledL (kernelRun1_A c i arg2 harg2 arg3 harg3 arg4 harg4 arg5 harg5 arg6 harg6 hc0 hc1 x0 x1 x2).2.1 S1024x2048.size (by sl_kernel_rfl) y

/-- What case A leaves in the accumulator: its pieces read back. -/
def sout1_A_0 (c : Dev nD) (i : grid1.Coords) (arg2 : Memref sig .tc .vmem S1024x256 .f32) (harg2 : arg2.IsWhole) (arg3 : Memref sig .tc .vmem S2048x256 .f32) (harg3 : arg3.IsWhole) (arg4 : Memref sig .tc .vmem S1x2048 .f32) (harg4 : arg4.IsWhole) (arg5 : Memref sig .tc .vmem S1024x2048 .f32) (harg5 : arg5.IsWhole) (arg6 : Memref sig .tc .vmem S1024x2048 .f32) (harg6 : arg6.IsWhole) (hc0 : cond1_0 i) (hc1 : ¬cond1_1 i)
    (x0 : Vec F S1024x256 .f32) (x1 : Vec F S2048x256 .f32) (x2 : Vec F S1x2048 .f32) : Vec F S1024x2048 .f32 :=
  VS1_0.read (Elt F) (VS1_0.writes (Elt F) VS1_0.junk (kernelRun1_A c i arg2 harg2 arg3 harg3 arg4 harg4 arg5 harg5 arg6 harg6 hc0 hc1 x0 x1 x2).2.1)

/-- Case B stores nothing into the output's buffer (the window is idle at its points and not written back there):
    no pieces, so a placeholder that nothing consults. -/
def out1_B_3 (c : Dev nD) (i : grid1.Coords) (arg2 : Memref sig .tc .vmem S1024x256 .f32) (harg2 : arg2.IsWhole) (arg3 : Memref sig .tc .vmem S2048x256 .f32) (harg3 : arg3.IsWhole) (arg4 : Memref sig .tc .vmem S1x2048 .f32) (harg4 : arg4.IsWhole) (arg5 : Memref sig .tc .vmem S1024x2048 .f32) (harg5 : arg5.IsWhole) (arg6 : Memref sig .tc .vmem S1024x2048 .f32) (harg6 : arg6.IsWhole) (hc0 : ¬cond1_0 i) (hc1 : ¬cond1_1 i)
    (x0 : Vec F S1024x256 .f32) (x1 : Vec F S2048x256 .f32) (x2 : Vec F S1x2048 .f32) (xs0 : Vec F S1024x2048 .f32) : Vec F S1024x2048 .f32 :=
  VO1_3.read (Elt F) (VO1_3.writes (Elt F) VO1_3.junk (kernelRun1_B c i arg2 harg2 arg3 harg3 arg4 harg4 arg5 harg5 arg6 harg6 hc0 hc1 x0 x1 x2 xs0).1)

/-- Case B's pieces for the accumulator tile it, so they cover it. -/
theorem scover1_B_0 (c : Dev nD) (i : grid1.Coords) (arg2 : Memref sig .tc .vmem S1024x256 .f32) (harg2 : arg2.IsWhole) (arg3 : Memref sig .tc .vmem S2048x256 .f32) (harg3 : arg3.IsWhole) (arg4 : Memref sig .tc .vmem S1x2048 .f32) (harg4 : arg4.IsWhole) (arg5 : Memref sig .tc .vmem S1024x2048 .f32) (harg5 : arg5.IsWhole) (arg6 : Memref sig .tc .vmem S1024x2048 .f32) (harg6 : arg6.IsWhole) (hc0 : ¬cond1_0 i) (hc1 : ¬cond1_1 i)
    (x0 : Vec F S1024x256 .f32) (x1 : Vec F S2048x256 .f32) (x2 : Vec F S1x2048 .f32) (xs0 : Vec F S1024x2048 .f32) (y : S1024x2048.Idx) :
    ∃ pc ∈ (kernelRun1_B c i arg2 harg2 arg3 harg3 arg4 harg4 arg5 harg5 arg6 harg6 hc0 hc1 x0 x1 x2 xs0).2.1, y ∈ pc.1.set :=
  View.cover_of_tiledL (kernelRun1_B c i arg2 harg2 arg3 harg3 arg4 harg4 arg5 harg5 arg6 harg6 hc0 hc1 x0 x1 x2 xs0).2.1 S1024x2048.size (by sl_kernel_rfl) y

/-- What case B leaves in the accumulator: its pieces read back. -/
def sout1_B_0 (c : Dev nD) (i : grid1.Coords) (arg2 : Memref sig .tc .vmem S1024x256 .f32) (harg2 : arg2.IsWhole) (arg3 : Memref sig .tc .vmem S2048x256 .f32) (harg3 : arg3.IsWhole) (arg4 : Memref sig .tc .vmem S1x2048 .f32) (harg4 : arg4.IsWhole) (arg5 : Memref sig .tc .vmem S1024x2048 .f32) (harg5 : arg5.IsWhole) (arg6 : Memref sig .tc .vmem S1024x2048 .f32) (harg6 : arg6.IsWhole) (hc0 : ¬cond1_0 i) (hc1 : ¬cond1_1 i)
    (x0 : Vec F S1024x256 .f32) (x1 : Vec F S2048x256 .f32) (x2 : Vec F S1x2048 .f32) (xs0 : Vec F S1024x2048 .f32) : Vec F S1024x2048 .f32 :=
  VS1_0.read (Elt F) (VS1_0.writes (Elt F) VS1_0.junk (kernelRun1_B c i arg2 harg2 arg3 harg3 arg4 harg4 arg5 harg5 arg6 harg6 hc0 hc1 x0 x1 x2 xs0).2.1)

/-- Case C's pieces for the output's buffer tile its block, so they cover it. -/
theorem cover1_C_3 (c : Dev nD) (i : grid1.Coords) (arg2 : Memref sig .tc .vmem S1024x256 .f32) (harg2 : arg2.IsWhole) (arg3 : Memref sig .tc .vmem S2048x256 .f32) (harg3 : arg3.IsWhole) (arg4 : Memref sig .tc .vmem S1x2048 .f32) (harg4 : arg4.IsWhole) (arg5 : Memref sig .tc .vmem S1024x2048 .f32) (harg5 : arg5.IsWhole) (arg6 : Memref sig .tc .vmem S1024x2048 .f32) (harg6 : arg6.IsWhole) (hc0 : ¬cond1_0 i) (hc1 : cond1_1 i)
    (x0 : Vec F S1024x256 .f32) (x1 : Vec F S2048x256 .f32) (x2 : Vec F S1x2048 .f32) (xs0 : Vec F S1024x2048 .f32) (y : S1024x2048.Idx) :
    ∃ pc ∈ (kernelRun1_C c i arg2 harg2 arg3 harg3 arg4 harg4 arg5 harg5 arg6 harg6 hc0 hc1 x0 x1 x2 xs0).1, y ∈ pc.1.set :=
  View.cover_of_tiledL (kernelRun1_C c i arg2 harg2 arg3 harg3 arg4 harg4 arg5 harg5 arg6 harg6 hc0 hc1 x0 x1 x2 xs0).1 S1024x2048.size (by sl_kernel_rfl) y

/-- What case C leaves in the output's staging buffer: its pieces read back. -/
def out1_C_3 (c : Dev nD) (i : grid1.Coords) (arg2 : Memref sig .tc .vmem S1024x256 .f32) (harg2 : arg2.IsWhole) (arg3 : Memref sig .tc .vmem S2048x256 .f32) (harg3 : arg3.IsWhole) (arg4 : Memref sig .tc .vmem S1x2048 .f32) (harg4 : arg4.IsWhole) (arg5 : Memref sig .tc .vmem S1024x2048 .f32) (harg5 : arg5.IsWhole) (arg6 : Memref sig .tc .vmem S1024x2048 .f32) (harg6 : arg6.IsWhole) (hc0 : ¬cond1_0 i) (hc1 : cond1_1 i)
    (x0 : Vec F S1024x256 .f32) (x1 : Vec F S2048x256 .f32) (x2 : Vec F S1x2048 .f32) (xs0 : Vec F S1024x2048 .f32) : Vec F S1024x2048 .f32 :=
  VO1_3.read (Elt F) (VO1_3.writes (Elt F) VO1_3.junk (kernelRun1_C c i arg2 harg2 arg3 harg3 arg4 harg4 arg5 harg5 arg6 harg6 hc0 hc1 x0 x1 x2 xs0).1)

/-- Case C's pieces for the accumulator tile it, so they cover it. -/
theorem scover1_C_0 (c : Dev nD) (i : grid1.Coords) (arg2 : Memref sig .tc .vmem S1024x256 .f32) (harg2 : arg2.IsWhole) (arg3 : Memref sig .tc .vmem S2048x256 .f32) (harg3 : arg3.IsWhole) (arg4 : Memref sig .tc .vmem S1x2048 .f32) (harg4 : arg4.IsWhole) (arg5 : Memref sig .tc .vmem S1024x2048 .f32) (harg5 : arg5.IsWhole) (arg6 : Memref sig .tc .vmem S1024x2048 .f32) (harg6 : arg6.IsWhole) (hc0 : ¬cond1_0 i) (hc1 : cond1_1 i)
    (x0 : Vec F S1024x256 .f32) (x1 : Vec F S2048x256 .f32) (x2 : Vec F S1x2048 .f32) (xs0 : Vec F S1024x2048 .f32) (y : S1024x2048.Idx) :
    ∃ pc ∈ (kernelRun1_C c i arg2 harg2 arg3 harg3 arg4 harg4 arg5 harg5 arg6 harg6 hc0 hc1 x0 x1 x2 xs0).2.1, y ∈ pc.1.set :=
  View.cover_of_tiledL (kernelRun1_C c i arg2 harg2 arg3 harg3 arg4 harg4 arg5 harg5 arg6 harg6 hc0 hc1 x0 x1 x2 xs0).2.1 S1024x2048.size (by sl_kernel_rfl) y

/-- What case C leaves in the accumulator: its pieces read back. -/
def sout1_C_0 (c : Dev nD) (i : grid1.Coords) (arg2 : Memref sig .tc .vmem S1024x256 .f32) (harg2 : arg2.IsWhole) (arg3 : Memref sig .tc .vmem S2048x256 .f32) (harg3 : arg3.IsWhole) (arg4 : Memref sig .tc .vmem S1x2048 .f32) (harg4 : arg4.IsWhole) (arg5 : Memref sig .tc .vmem S1024x2048 .f32) (harg5 : arg5.IsWhole) (arg6 : Memref sig .tc .vmem S1024x2048 .f32) (harg6 : arg6.IsWhole) (hc0 : ¬cond1_0 i) (hc1 : cond1_1 i)
    (x0 : Vec F S1024x256 .f32) (x1 : Vec F S2048x256 .f32) (x2 : Vec F S1x2048 .f32) (xs0 : Vec F S1024x2048 .f32) : Vec F S1024x2048 .f32 :=
  VS1_0.read (Elt F) (VS1_0.writes (Elt F) VS1_0.junk (kernelRun1_C c i arg2 harg2 arg3 harg3 arg4 harg4 arg5 harg5 arg6 harg6 hc0 hc1 x0 x1 x2 xs0).2.1)

/-! ## What the output's buffer and the accumulator hold after each point -/

/-- The accumulation. What the output's staging buffer and the accumulator hold after the body at position `n`:
    the case the closed forms select at `n`, run at the point's memrefs and input blocks, the accumulator read at
    what this leaves at `n - 1`. Both conditions at once is no point of the grid. -/
def outsAt1 (c : Dev nD) : (n : ℕ) → n < cfg1.N → Vec F S1024x2048 .f32 × Vec F S1024x2048 .f32
  | 0, hn => (out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩))
  | n + 1, hn =>
    if h0 : (n + 1) % 64 = 0 then
      if h1 : (n + 1) % 64 = 63 then
        False.elim (by omega)
      else
        (out1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩))
    else
      if h1 : (n + 1) % 64 = 63 then
        (out1_C_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2)
      else
        (out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2)

/-- `outsAt1` at a point of case A: that case's contents. -/
theorem outsAt1_A (c : Dev nD) (t : Fin cfg1.N) (h0 : t.val % 64 = 0) (h1 : ¬t.val % 64 = 63) :
    outsAt1 V c t.val t.isLt = (out1_A_3 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t), sout1_A_0 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t)) := by
  obtain ⟨n, hn⟩ := t
  cases n with
  | zero => exact rfl
  | succ n => exact (dif_pos h0).trans ((dif_neg h1).trans rfl)

/-- `outsAt1` at a point of case B: that case's contents, over what the point before left. -/
theorem outsAt1_B (c : Dev nD) (t : Fin cfg1.N) (h0 : ¬t.val % 64 = 0) (h1 : ¬t.val % 64 = 63) :
    outsAt1 V c t.val t.isLt = (out1_B_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt1` at a point of case C: that case's contents, over what the point before left. -/
theorem outsAt1_C (c : Dev nD) (t : Fin cfg1.N) (h0 : ¬t.val % 64 = 0) (h1 : t.val % 64 = 63) :
    outsAt1 V c t.val t.isLt = (out1_C_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the class's (every scoped buffer at anything);
    afterwards the accumulator at what the point before left in it, the other scoped buffers at anything, and the
    generator register at some state. -/
def PhiS1 (c : Dev nD) : (n : ℕ) → n ≤ cfg1.N → sProp 𝕄
  | 0, _ => Pipeline.ΦA spec1 c
  | n + 1, hn => iprop(iprop(owns (c : Thread nD τ) scM1_0 fullShare ((outsAt1 V c n hn).2) ∗ rest1 (F := F) c) ∗ (∃ r, prngReg c r))

theorem PhiS1_zero (c : Dev nD) (n : ℕ) (h : n ≤ cfg1.N) (hz : n = 0) : PhiS1 V c n h = Pipeline.ΦA spec1 c := by
  subst hz; rfl

/-- After point `n` (before point `n + 1`): the accumulator at that point's contents. -/
theorem PhiS1_succ (c : Dev nD) (n : ℕ) (hn : n < cfg1.N) :
    PhiS1 V c (n + 1) hn = iprop(iprop(owns (c : Thread nD τ) scM1_0 fullShare ((outsAt1 V c n hn).2) ∗ rest1 (F := F) c) ∗ (∃ r, prngReg c r)) := rfl

/-- Before a point that is not the first: the accumulator at what the point before left. -/
theorem PhiS1_pos (c : Dev nD) (n : ℕ) (h : n ≤ cfg1.N) (hz : n ≠ 0) :
    PhiS1 V c n h = iprop(iprop(owns (c : Thread nD τ) scM1_0 fullShare ((outsAt1 V c (n - 1) (by omega)).2) ∗ rest1 (F := F) c) ∗ (∃ r, prngReg c r)) := by
  cases n with
  | zero => exact absurd rfl hz
  | succ n => rfl

/-! ## The pipeline's proof data -/

/-- The proof data of pipeline 1 on core `c`: the arrays as the region finds them (`V`); after the body at point
    `t` each input's buffer at its block and the output's at `outsAt1`; the invariant `PhiS1`; nothing owed; full
    shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

/-- The proof data's arrays are the region-entry contents. -/
theorem A_eq1 (c : Dev nD) (w : Fin cfg1.W) : (dat1 V c).A w = V c (Pipeline.arrRef spec1 w) := by
  dsimp only [dat1]

/-- The invariant at a point's start, restated at `t.val`. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point. The inputs' memrefs hold their blocks; the closed forms say which case the point is in;
    the invariant hands the body the accumulator at what the point before left (at anything at the first point),
    the other scoped buffers and the generator register untouched, and takes the accumulator back at this
    point's contents, the pieces the case's run found covering it; where the output window is idle its buffer goes
    back as it came; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 128 := lt_of_lt_of_eq t.isLt (show cfg1.N = 128 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  by_cases h0 : t.val % 64 = 0
  · by_cases h1 : t.val % 64 = 63
    · exfalso; omega
    · rw [Dat.leavesExact_idle (dat1 V c) 3 t (idleAt1_3 t (fun h => h1 ((hcond1_1 t).mp h))) (noFlush1_3 t (fun h => h1 ((hcond1_1 t).mp h)))]
      rw [outsAt1_A V c t h0 h1]
      unfold sout1_A_0; (try dsimp only)
      by_cases hz : t.val = 0
      · rw [PhiS1_castSucc V c t, PhiS1_zero V c _ _ hz, PhiA1_eq]
        iintro ⟨⟨⟨HS0, Hr⟩, Hg⟩, Ho, ⟨%d0, H0⟩, ⟨%d1, H1⟩, ⟨%d2, H2⟩, ⟨%d3, H3⟩⟩
        iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover1_A_0 c _ _ _ _ _ _ _ _ _ _ _ _ _ _ _ _)
            iexact Hr
          iexact Hg
        isplitl [Ho]; · iexact Ho
        isplitl [H0]; · iexact H0
        isplitl [H1]; · iexact H1
        isplitl [H2]; · iexact H2
        iexists _; iexact H3
      · rw [PhiS1_castSucc V c t, PhiS1_pos V c _ _ hz]
        iintro ⟨⟨⟨HS0, Hr⟩, Hg⟩, Ho, ⟨%d0, H0⟩, ⟨%d1, H1⟩, ⟨%d2, H2⟩, ⟨%d3, H3⟩⟩
        iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover1_A_0 c _ _ _ _ _ _ _ _ _ _ _ _ _ _ _ _)
            iexact Hr
          iexact Hg
        isplitl [Ho]; · iexact Ho
        isplitl [H0]; · iexact H0
        isplitl [H1]; · iexact H1
        isplitl [H2]; · iexact H2
        iexists _; iexact H3
  · by_cases h1 : t.val % 64 = 63
    · rw [show (dat1 V c).leavesExact 3 t = owns (c : Thread nD τ) (ms1_3 t) fullShare ((dat1 V c).after 3 t) from by
        unfold Dat.leavesExact; rw [liveAt1_3 t ((hcond1_1 t).mpr h1)], after1_3]
      rw [outsAt1_C V c t h0 h1]
      unfold out1_C_3 sout1_C_0; (try dsimp only)
      have hz : t.val ≠ 0 := by omega
      rw [PhiS1_castSucc V c t, PhiS1_pos V c _ _ hz]
      iintro ⟨⟨⟨HS0, Hr⟩, Hg⟩, Ho, ⟨%d0, H0⟩, ⟨%d1, H1⟩, ⟨%d2, H2⟩, ⟨%d3, H3⟩⟩
      iapply ((kernelRun1_C c (grid1.coords t) _ _ _ _ _ _ _ _ _ _ (fun h => h0 ((hcond1_0 t).mp h)) ((hcond1_1 t).mpr h1) (iblk1 V c 0 t) (iblk1 V c 1 t) (iblk1 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover1_C_0 c _ _ _ _ _ _ _ _ _ _ _ _ _ _ _ _ _)
          iexact Hr
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover1_C_3 c _ _ _ _ _ _ _ _ _ _ _ _ _ _ _ _ _)
    · rw [Dat.leavesExact_idle (dat1 V c) 3 t (idleAt1_3 t (fun h => h1 ((hcond1_1 t).mp h))) (noFlush1_3 t (fun h => h1 ((hcond1_1 t).mp h)))]
      rw [outsAt1_B V c t h0 h1]
      unfold sout1_B_0; (try dsimp only)
      have hz : t.val ≠ 0 := by omega
      rw [PhiS1_castSucc V c t, PhiS1_pos V c _ _ hz]
      iintro ⟨⟨⟨HS0, Hr⟩, Hg⟩, Ho, ⟨%d0, H0⟩, ⟨%d1, H1⟩, ⟨%d2, H2⟩, ⟨%d3, H3⟩⟩
      iapply ((kernelRun1_B c (grid1.coords t) _ _ _ _ _ _ _ _ _ _ (fun h => h0 ((hcond1_0 t).mp h)) (fun h => h1 ((hcond1_1 t).mp h)) (iblk1 V c 0 t) (iblk1 V c 1 t) (iblk1 V c 2 t) _).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover1_B_0 c _ _ _ _ _ _ _ _ _ _ _ _ _ _ _ _ _)
          iexact Hr
        iexact Hg
      isplitl [Ho]; · iexact Ho
      isplitl [H0]; · iexact H0
      isplitl [H1]; · iexact H1
      isplitl [H2]; · iexact H2
      iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the launch's back: the accumulator's named contents are
    forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HS0, Hr⟩, Hg⟩
  isplitl [HS0 Hr]
  · isplitl [HS0]
    · iexists _; iexact HS0
    iexact Hr
  iexact Hg

/-- The same after the last point. -/
theorem hout1 (c : Dev nD) : (dat1 V c).Φ (Fin.last cfg1.N) ⊢ Pipeline.ΦA spec1 c :=
  Phi_out1 V c _ (by rw [Fin.val_last]; have : cfg1.N = 128 := N_1; omega)

end Cert.KernelIdeal.Hand

end
-- ==== Proof.KI.Region2.lean ====
/- REGION 2's frame half: the pure kernel `cc2__mlp_kernel` (pipeline 2), at any float model `F` and at a PARAMETER `V`,
   the TensorCore's buffer contents when the region is entered. Each window's block at a point, what the body leaves
   in the two output windows' buffers, the body's triple, the pipeline's proof data and its body obligation. -/
import proofs.«146741_j35055523070100_2_alg».proof.Proof.Gen.KernelIdeal.Launch
import proofs.«146741_j35055523070100_2_alg».proof.Proof.Gen.KernelIdeal.Skeleton
import proofs.«146741_j35055523070100_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of long extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! ## The body's accesses: every load and store is of a whole staging buffer -/

abbrev r2_a : Rect S256x256 := Rect.unit (s := S256x256) ![0, 0] S256x256.size inb_S256x256_S256x256_0_0
abbrev r2_b : Rect S1x256 := Rect.unit (s := S1x256) ![0, 0] S1x256.size inb_S1x256_S1x256_0_0
abbrev r2_c : Rect S4096x256 := Rect.unit (s := S4096x256) ![0, 0] S4096x256.size inb_S4096x256_S4096x256_0_0
abbrev r2_d : Rect S1x4096 := Rect.unit (s := S1x4096) ![0, 0] S1x4096.size inb_S1x4096_S1x4096_0_0
abbrev r2_e : Rect S256x4096 := Rect.unit (s := S256x4096) ![0, 0] S256x4096.size inb_S256x4096_S256x4096_0_0

/-! ## What the body leaves in each output window's buffer -/

/-- Window 7's staging buffer after the body, from the input windows' blocks: its one store, over the whole buffer, of
    `h·bf16(x3)ᵀ + x4` where `h = bf16(max(bf16(x0)·bf16(x1)ᵀ + x2, 0))`: both products contract the operands' second
    axes, accumulate in f32 from zero, and take their operands rounded to bf16; the row vectors `x2`, `x4` are
    broadcast along the rows. -/
def out2_7 (x0 : Vec F S256x256 .f32) (x1 : Vec F S256x256 .f32) (x2 : Vec F S1x256 .f32) (x3 : Vec F S4096x256 .f32) (x4 : Vec F S1x4096 .f32) : Vec F S256x4096 .f32 :=
  View.canon [⟨r2_e, k2_pay1 (View.ld x0 r2_a) (View.ld x1 r2_a) (View.ld x2 r2_b) (View.ld x3 r2_c) (View.ld x4 r2_d)⟩]

/-- Window 6's staging buffer after the body: its one store, over the whole buffer, of `x5` plus the value stored to
    window 7 (the same payload, recomputed from the same loads). -/
def out2_6 (x0 : Vec F S256x256 .f32) (x1 : Vec F S256x256 .f32) (x2 : Vec F S1x256 .f32) (x3 : Vec F S4096x256 .f32) (x4 : Vec F S1x4096 .f32) (x5 : Vec F S256x4096 .f32) : Vec F S256x4096 .f32 :=
  View.canon [⟨r2_e, k2_pay2 (View.ld x0 r2_a) (View.ld x1 r2_a) (View.ld x2 r2_b) (View.ld x3 r2_c) (View.ld x4 r2_d) (View.ld x5 r2_e)⟩]

/-- A single store of the whole rectangle tiles the buffer, so it covers it. -/
theorem cover2_e (p0 : Vec F S256x4096 .f32) (y : S256x4096.Idx) :
    ∃ pc ∈ ([⟨r2_e, p0⟩] : List (View.Piece (Elt F) S256x4096 .f32)), y ∈ pc.1.set :=
  View.cover_of_tiled [⟨r2_e, p0⟩] S256x4096.size (by rfl) y

/-! ## The body's triple -/

set_option maxHeartbeats 1000000 in
/-- The kernel body on whole staging memrefs, the six inputs' at read contents `xW` and the two outputs' at anything
    (the body loads each output buffer once before storing to it and never uses the value), runs to the continuation
    holding the inputs' as they were, window 6's at `out2_6` and window 7's at `out2_7` of the inputs'. -/
theorem sound_kernel2 (c : Dev nD) (E : Set ℕ) (i : grid2.Coords)
    (arg1 : Memref sig .tc .vmem S256x256 .f32) (harg1 : arg1.IsWhole) (arg2 : Memref sig .tc .vmem S256x256 .f32) (harg2 : arg2.IsWhole)
    (arg3 : Memref sig .tc .vmem S1x256 .f32) (harg3 : arg3.IsWhole) (arg4 : Memref sig .tc .vmem S4096x256 .f32) (harg4 : arg4.IsWhole)
    (arg5 : Memref sig .tc .vmem S1x4096 .f32) (harg5 : arg5.IsWhole) (arg6 : Memref sig .tc .vmem S256x4096 .f32) (harg6 : arg6.IsWhole)
    (arg7 : Memref sig .tc .vmem S256x4096 .f32) (harg7 : arg7.IsWhole) (arg8 : Memref sig .tc .vmem S256x4096 .f32) (harg8 : arg8.IsWhole)
    (x0 : Vec F S256x256 .f32) (x1 : Vec F S256x256 .f32) (x2 : Vec F S1x256 .f32) (x3 : Vec F S4096x256 .f32)
    (x4 : Vec F S1x4096 .f32) (x5 : Vec F S256x4096 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ owns (c : Thread nD τ) arg6 fullShare x5
        ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4 ∗ owns (c : Thread nD τ) arg6 fullShare x5
            ∗ owns (c : Thread nD τ) arg7 fullShare (out2_6 x0 x1 x2 x3 x4 x5)
            ∗ owns (c : Thread nD τ) arg8 fullShare (out2_7 x0 x1 x2 x3 x4)) -∗ K ⟨⟩))
      ⊢ wp frame (wpE (defs₀ (F := F)) Variants.none c none) E
          (cc2__mlp_kernel i arg1 harg1 arg2 harg2 arg3 harg3 arg4 harg4 arg5 harg5 arg6 harg6 arg7 harg7 arg8 harg8) K := by
  simp only [cc2__mlp_kernel_eq_skeleton]; unfold cc2__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩,
    ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover2_e _)
  iexists _; isplitr
  swap; · iexact H7
  ipureintro
  exact View.read_writes_eq_canon _ _ _ (cover2_e _)

/-! ## The inputs' buffers before the body -/

/-- An input window's current staging buffer holds its block at every point, fetched there or not (windows 1 to 4 are
    fetched at the first point only, and their block index never moves), for ANY proof data whose array is `V`'s
    (`hA`) and whose body leaves the block in place (`hafter`); the windows are uncut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-! ## The pipeline's proof data -/

/-- The proof data of pipeline 2 on core `c`: the arrays as the region finds them (`V`); after the body at point `t`
    each input's buffer at its block and each output's at `out2_W` of the input blocks; the invariant that the scoped
    rest of memory and the pseudo-random number register are untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 (iblk2 V c 0 t) (iblk2 V c 1 t) (iblk2 V c 2 t) (iblk2 V c 3 t) (iblk2 V c 4 t) (iblk2 V c 5 t)
    | ⟨7, _⟩ => out2_7 (iblk2 V c 0 t) (iblk2 V c 1 t) (iblk2 V c 2 t) (iblk2 V c 3 t) (iblk2 V c 4 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = out2_6 (iblk2 V c 0 t) (iblk2 V c 1 t) (iblk2 V c 2 t) (iblk2 V c 3 t) (iblk2 V c 4 t) (iblk2 V c 5 t) := by dsimp only [dat2]
theorem after2_7 (c : Dev nD) (t : Fin cfg2.N) : (dat2 V c).after 7 t = out2_7 (iblk2 V c 0 t) (iblk2 V c 1 t) (iblk2 V c 2 t) (iblk2 V c 3 t) (iblk2 V c 4 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t))

set_option maxHeartbeats 1000000 in
/-- The body at any point: the inputs' memrefs hold their blocks (`before2_W`), so `sound_kernel2` applies; the invariant
    and the core's `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel2 c Set.univ _ _ _ _ _ _ _ _ _ _ _ _ _ _ _ _ _ (iblk2 V c 0 t) (iblk2 V c 1 t) (iblk2 V c 2 t) (iblk2 V c 3 t) (iblk2 V c 4 t) (iblk2 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.Run.lean ====
/-
  The whole run of the program: three kernel regions with two stretches of host reshapes between them. The
  buffers' contents at each boundary are a fold from the launch memory — a region replaces its arrays by what its
  pipeline leaves (each output's write-backs folded over the grid), a host stretch applies its operations —; each
  region is entered from the boundary before it and left at the one after it; and at the end every unscoped buffer
  holds the last boundary's contents.
-/
import proofs.«146741_j35055523070100_2_alg».proof.Proof.KI.Region0
import proofs.«146741_j35055523070100_2_alg».proof.Proof.KI.Region1
import proofs.«146741_j35055523070100_2_alg».proof.Proof.KI.Region2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch (region 0's entry). -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b

/-- At region 0's exit: its arrays at what the pipeline leaves (the inputs as entered, each output's write-backs
    folded), every other buffer as entered. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After the bias row's reshape (region 1's entry). -/
abbrev W2 : Dev nD → Valuation τ sig (Elt F) := fun c => StableHlo.after hostOps1 (W1 m ρ c)
abbrev V2 : (c : Dev nD) → (b : Ref sig .tc) → Buf (Elt F) ((c : Thread nD τ).loc b) := fun c b => W2 m ρ c b

/-- At region 1's exit: its arrays at what the pipeline leaves (the inputs as entered, each output's write-backs
    folded), every other buffer as entered. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- After the two bias rows' reshapes (region 2's entry). -/
abbrev W4 : Dev nD → Valuation τ sig (Elt F) := fun c => StableHlo.after hostOps2 (W3 m ρ c)
abbrev V4 : (c : Dev nD) → (b : Ref sig .tc) → Buf (Elt F) ((c : Thread nD τ).loc b) := fun c b => W4 m ρ c b

/-- At region 2's exit: its arrays at what the pipeline leaves (the inputs as entered, each output's write-backs
    folded), every other buffer as entered. -/
def W5 (c : Dev nD) : Valuation τ sig (Elt F) :=
  Pipeline.withArrays spec2 c (W4 m ρ c) fun w => (dat2 (V4 m ρ) c).arrAt w cfg2.N
theorem W5_arr (c : Dev nD) (w : Fin cfg2.W) :
    W5 m ρ c (Proc.devRef .tc (Pipeline.arrRef spec2 w)) = (dat2 (V4 m ρ) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m ρ c (Proc.devRef .tc b) = W4 m ρ c (Proc.devRef .tc b) := by
  unfold W5; exact Pipeline.withArrays_of_ne spec2 c _ _ b hb
abbrev V5 : (c : Dev nD) → (b : Ref sig .tc) → Buf (Elt F) ((c : Thread nD τ).loc b) := fun c b => W5 m ρ c b
theorem hF2 (c : Dev nD) (w : Fin cfg2.W) : (dat2 (V4 m ρ) c).arrAt w cfg2.N = V5 m ρ c (Pipeline.arrRef spec2 w) :=
  (W5_arr m ρ c w).symm
theorem hrest2 (c : Dev nD) : ∀ b, b ∉ Finset.univ.image (Pipeline.arrRef spec2) → V5 m ρ c b = V4 m ρ c b :=
  fun b hb => W5_of_ne m ρ c b fun w e => hb (Finset.mem_image.mpr ⟨w, Finset.mem_univ _, e⟩)

/-! ## The proof data family and the thread state -/

/-- No pipeline has a prefetched table. -/
abbrev admH : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) admH p) c
  | ⟨0, _⟩ => fun c => dat0 (V0 m ρ) c
  | ⟨1, _⟩ => fun c => dat1 (V2 m ρ) c
  | ⟨2, _⟩ => fun c => dat2 (V4 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps1_freshH : (hostOps1 : List (HloOp τ sig (Elt F))).Forall fun op => op.fresh = ∅ := by
  simp only [List.Forall]; repeat' constructor
theorem hostOps2_freshH : (hostOps2 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents, the register at some state. -/
abbrev Tₙ (c : Dev nD) : sProp 𝕄 := iprop(StableHlo.held (c : Thread nD τ) (Pipeline.ucRefs τ sig) (W5 m ρ c) ∗ ∃ r, prngReg c r)

/-! ## The regions as segments -/

set_option backward.isDefEq.respectTransparency.types false in
/-- Region 0 over the thread state: entered from every unscoped buffer at `W0`, left at `W1`; its arrays
    split out of the unscoped buffers and put back at what the pipeline leaves; the generator register into the
    region invariant and out; nothing owed; no semaphore of the kernel's own. -/
def reg0 : Pipeline.RegionSeg (pcfgs (F := F)) admH (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) admH (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have hΦ : (iprop(Pipeline.scopedRest (Ix := Unit) (Name := ℕ) (U := UR sig nD τ) (Lvl := ℕ) (Val := Elt F) spec0 c ∗ ∃ r, prngReg c r) : sProp 𝕄) ⊢ (dat0 (V0 m ρ) c).Φ 0 := by
      have h := hin0 (V0 m ρ) c; unfold Pipeline.ΦA at h; exact h
    rw [show (pdats m ρ 0 c).Φ 0 = (dat0 (V0 m ρ) c).Φ 0 from rfl]
    iintro ⟨Hp, -, Hr⟩
    iapply hΦ
    isplitl [Hr]; · iexact Hr
    iexact Hp
  hout c := by
    have hΦ : (dat0 (V0 m ρ) c).Φ (Fin.last cfg0.N) ⊢ (iprop(Pipeline.scopedRest (Ix := Unit) (Name := ℕ) (U := UR sig nD τ) (Lvl := ℕ) (Val := Elt F) spec0 c ∗ ∃ r, prngReg c r) : sProp 𝕄) := by
      have h := hout0 (V0 m ρ) c; unfold Pipeline.ΦA at h; exact h
    rw [Pipeline.ownSems0_none, show (pdats m ρ 0 c).Φ (Fin.last _) = (dat0 (V0 m ρ) c).Φ (Fin.last cfg0.N) from rfl]
    refine hΦ.trans ?_
    show (iprop(Pipeline.scopedRest (Ix := Unit) (Name := ℕ) (U := UR sig nD τ) (Lvl := ℕ) (Val := Elt F) spec0 c ∗ ∃ r, prngReg c r) : sProp 𝕄) ⊢ iprop((∃ r, prngReg c r) ∗ BI.emp ∗ Pipeline.scopedRest (Ix := Unit) (Name := ℕ) (U := UR sig nD τ) (Lvl := ℕ) (Val := Elt F) spec0 c)
    iintro ⟨Hr, Hp⟩
    isplitl [Hp]; · iexact Hp
    isplitr; · iempintro
    iexact Hr
  hexit c := by
    have hjoin := Pipeline.unscopedBufs_of_arrays (p := 0) (pcfgs (F := F)) admH (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W2`, left at `W3`; its arrays
    split out of the unscoped buffers and put back at what the pipeline leaves; the generator register into the
    region invariant and out; nothing owed; no semaphore of the kernel's own. -/
def reg1 : Pipeline.RegionSeg (pcfgs (F := F)) admH (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) admH (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have hΦ : (iprop(Pipeline.scopedRest (Ix := Unit) (Name := ℕ) (U := UR sig nD τ) (Lvl := ℕ) (Val := Elt F) spec1 c ∗ ∃ r, prngReg c r) : sProp 𝕄) ⊢ (dat1 (V2 m ρ) c).Φ 0 := by
      have h := hin1 (V2 m ρ) c; unfold Pipeline.ΦA at h; exact h
    rw [show (pdats m ρ 1 c).Φ 0 = (dat1 (V2 m ρ) c).Φ 0 from rfl]
    iintro ⟨Hp, -, Hr⟩
    iapply hΦ
    isplitl [Hr]; · iexact Hr
    iexact Hp
  hout c := by
    have hΦ : (dat1 (V2 m ρ) c).Φ (Fin.last cfg1.N) ⊢ (iprop(Pipeline.scopedRest (Ix := Unit) (Name := ℕ) (U := UR sig nD τ) (Lvl := ℕ) (Val := Elt F) spec1 c ∗ ∃ r, prngReg c r) : sProp 𝕄) := by
      have h := hout1 (V2 m ρ) c; unfold Pipeline.ΦA at h; exact h
    rw [Pipeline.ownSems0_none, show (pdats m ρ 1 c).Φ (Fin.last _) = (dat1 (V2 m ρ) c).Φ (Fin.last cfg1.N) from rfl]
    refine hΦ.trans ?_
    show (iprop(Pipeline.scopedRest (Ix := Unit) (Name := ℕ) (U := UR sig nD τ) (Lvl := ℕ) (Val := Elt F) spec1 c ∗ ∃ r, prngReg c r) : sProp 𝕄) ⊢ iprop((∃ r, prngReg c r) ∗ BI.emp ∗ Pipeline.scopedRest (Ix := Unit) (Name := ℕ) (U := UR sig nD τ) (Lvl := ℕ) (Val := Elt F) spec1 c)
    iintro ⟨Hr, Hp⟩
    isplitl [Hp]; · iexact Hp
    isplitr; · iempintro
    iexact Hr
  hexit c := by
    have hjoin := Pipeline.unscopedBufs_of_arrays (p := 1) (pcfgs (F := F)) admH (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `W4`, left at `W5`; its arrays
    split out of the unscoped buffers and put back at what the pipeline leaves; the generator register into the
    region invariant and out; nothing owed; no semaphore of the kernel's own. -/
def reg2 : Pipeline.RegionSeg (pcfgs (F := F)) admH (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V4 m ρ) c).loose
  hwaits := Pipeline.hwaits_of_owed_zero _ _ _ _ L lv 2 fun _ _ => rfl
  pre c := iprop(StableHlo.held (c : Thread nD τ) (Pipeline.ucRefs τ sig) (W4 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V4 m ρ c)
  hentry c := by
    rw [Pipeline.ownSems0_none]
    have hsplit := Pipeline.arrays_of_unscopedBufs (p := 2) (pcfgs (F := F)) admH (pdats m ρ) launch2.win launch2.arr_whole c
      ((pdats m ρ 2 c).share_full fun _ => rfl) (V4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) admH (Ix := Unit) (Name := ℕ) (U := UR sig nD τ) (Lvl := ℕ)
      launch2.win launch2.arr_whole c (pdats m ρ) ((pdats m ρ 2 c).share_full fun _ => rfl)
      (V4 m ρ c) (V5 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) admH (pdats m ρ) () defs₀ 𝒱₀ L lv) :=
  [ .region (reg0 m ρ),
    .host (hseg hostOps1 hostOps1_sub hostOps1_freshH (W1 m ρ)),
    .region (reg1 m ρ),
    .host (hseg hostOps2 hostOps2_sub hostOps2_freshH (W3 m ρ)),
    .region (reg2 m ρ) ]
theorem main_run (c : Dev nD) : main (F := F) c = Pipeline.Seg.run (segs m ρ) := (main_chain c).trans (by chain_rfl)

set_option backward.isDefEq.respectTransparency.types false in
/-- From any memory with zero counters every weakly fair execution of @main terminates, nothing faulting, and every
    final memory holds, at every unscoped buffer, the last boundary's contents `W5`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) admH (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c => h c)

end Cert.KernelIdeal.Hand

end
-- ==== Proof.KI.RunArgs.lean ====
/-
  What the last boundary holds. No host operation and no region writes an argument array (a region reads it through
  an input window or passes it by), so at an argument the fold walks back to the launch memory; at a result it is a
  region's final array; and regions 1 and 2 find, on entry, the arguments as launched, the bias rows as reshapes of
  the bias vectors, and the earlier regions' final arrays.
-/
import proofs.«146741_j35055523070100_2_alg».proof.Proof.KI.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.Sem
open Idealize.ShloMosaic.Pipeline (Dat)

variable {F : FTy → Type} [FloatOps F]

variable (m : (ℓ : Loc nD τ sig) → Buf (Elt F) ℓ) (ρ : Dev nD → PrngReg)

/-- The first host stretch writes only the bias row of region 1. -/
theorem host1_keeps (W : Valuation τ sig (Elt F)) (b : Ref sig .tc) (hb : b ≠ main_v1) :
    StableHlo.after hostOps1 W (Proc.devRef .tc b) = W (Proc.devRef .tc b) :=
  StableHlo.after_of_forall_not_mem (b := Proc.devRef .tc b) _ _ (List.forall_iff_forall_mem.mp (by
    simp only [hostOps1, List.Forall, StableHlo.reshape_writes, Finset.mem_singleton]
    exact StableHlo.devRef_ne_of_ne hb))

/-- The second host stretch writes only the two bias rows of region 2. -/
theorem host2_keeps (W : Valuation τ sig (Elt F)) (b : Ref sig .tc) (hb3 : b ≠ main_v3) (hb4 : b ≠ main_v4) :
    StableHlo.after hostOps2 W (Proc.devRef .tc b) = W (Proc.devRef .tc b) :=
  StableHlo.after_of_forall_not_mem (b := Proc.devRef .tc b) _ _ (List.forall_iff_forall_mem.mp (by
    simp only [hostOps2, List.Forall, StableHlo.reshape_writes, Finset.mem_singleton]
    exact ⟨StableHlo.devRef_ne_of_ne hb3, StableHlo.devRef_ne_of_ne hb4⟩))

/-! ## The arguments end as launched -/

theorem W5_main_arg0 (c : Dev nD) : W5 m ρ c (Proc.devRef .tc main_arg0) = m ((c : Thread nD τ).loc main_arg0) :=
  calc W5 m ρ c (Proc.devRef .tc main_arg0)
    _ = W4 m ρ c (Proc.devRef .tc main_arg0) := W5_of_ne m ρ c main_arg0 (by decide)
    _ = W3 m ρ c (Proc.devRef .tc main_arg0) := host2_keeps (W3 m ρ c) main_arg0 (by decide) (by decide)
    _ = W2 m ρ c (Proc.devRef .tc main_arg0) := (W3_arr m ρ c 0).trans (((dat1 (V2 m ρ) c).arrAt_in 0 rfl _).trans (A_eq1 (V2 m ρ) c 0))
    _ = W1 m ρ c (Proc.devRef .tc main_arg0) := host1_keeps (W1 m ρ c) main_arg0 (by decide)
    _ = W0 m ρ c (Proc.devRef .tc main_arg0) := (W1_arr m ρ c 0).trans (((dat0 (V0 m ρ) c).arrAt_in 0 rfl _).trans (A_eq0 (V0 m ρ) c 0))
    _ = m ((c : Thread nD τ).loc main_arg0) := rfl

theorem W5_main_arg1 (c : Dev nD) : W5 m ρ c (Proc.devRef .tc main_arg1) = m ((c : Thread nD τ).loc main_arg1) :=
  calc W5 m ρ c (Proc.devRef .tc main_arg1)
    _ = W4 m ρ c (Proc.devRef .tc main_arg1) := W5_of_ne m ρ c main_arg1 (by decide)
    _ = W3 m ρ c (Proc.devRef .tc main_arg1) := host2_keeps (W3 m ρ c) main_arg1 (by decide) (by decide)
    _ = W2 m ρ c (Proc.devRef .tc main_arg1) := W3_of_ne m ρ c main_arg1 (by decide)
    _ = W1 m ρ c (Proc.devRef .tc main_arg1) := host1_keeps (W1 m ρ c) main_arg1 (by decide)
    _ = W0 m ρ c (Proc.devRef .tc main_arg1) := (W1_arr m ρ c 1).trans (((dat0 (V0 m ρ) c).arrAt_in 1 rfl _).trans (A_eq0 (V0 m ρ) c 1))
    _ = m ((c : Thread nD τ).loc main_arg1) := rfl

theorem W5_main_arg2 (c : Dev nD) : W5 m ρ c (Proc.devRef .tc main_arg2) = m ((c : Thread nD τ).loc main_arg2) :=
  calc W5 m ρ c (Proc.devRef .tc main_arg2)
    _ = W4 m ρ c (Proc.devRef .tc main_arg2) := W5_of_ne m ρ c main_arg2 (by decide)
    _ = W3 m ρ c (Proc.devRef .tc main_arg2) := host2_keeps (W3 m ρ c) main_arg2 (by decide) (by decide)
    _ = W2 m ρ c (Proc.devRef .tc main_arg2) := (W3_arr m ρ c 1).trans (((dat1 (V2 m ρ) c).arrAt_in 1 rfl _).trans (A_eq1 (V2 m ρ) c 1))
    _ = W1 m ρ c (Proc.devRef .tc main_arg2) := host1_keeps (W1 m ρ c) main_arg2 (by decide)
    _ = W0 m ρ c (Proc.devRef .tc main_arg2) := W1_of_ne m ρ c main_arg2 (by decide)
    _ = m ((c : Thread nD τ).loc main_arg2) := rfl

theorem W5_main_arg3 (c : Dev nD) : W5 m ρ c (Proc.devRef .tc main_arg3) = m ((c : Thread nD τ).loc main_arg3) :=
  calc W5 m ρ c (Proc.devRef .tc main_arg3)
    _ = W4 m ρ c (Proc.devRef .tc main_arg3) := W5_of_ne m ρ c main_arg3 (by decide)
    _ = W3 m ρ c (Proc.devRef .tc main_arg3) := host2_keeps (W3 m ρ c) main_arg3 (by decide) (by decide)
    _ = W2 m ρ c (Proc.devRef .tc main_arg3) := W3_of_ne m ρ c main_arg3 (by decide)
    _ = W1 m ρ c (Proc.devRef .tc main_arg3) := host1_keeps (W1 m ρ c) main_arg3 (by decide)
    _ = W0 m ρ c (Proc.devRef .tc main_arg3) := W1_of_ne m ρ c main_arg3 (by decide)
    _ = m ((c : Thread nD τ).loc main_arg3) := rfl

theorem W5_main_arg4 (c : Dev nD) : W5 m ρ c (Proc.devRef .tc main_arg4) = m ((c : Thread nD τ).loc main_arg4) :=
  calc W5 m ρ c (Proc.devRef .tc main_arg4)
    _ = W4 m ρ c (Proc.devRef .tc main_arg4) := (W5_arr m ρ c 1).trans (((dat2 (V4 m ρ) c).arrAt_in 1 rfl _).trans (A_eq2 (V4 m ρ) c 1))
    _ = W3 m ρ c (Proc.devRef .tc main_arg4) := host2_keeps (W3 m ρ c) main_arg4 (by decide) (by decide)
    _ = W2 m ρ c (Proc.devRef .tc main_arg4) := W3_of_ne m ρ c main_arg4 (by decide)
    _ = W1 m ρ c (Proc.devRef .tc main_arg4) := host1_keeps (W1 m ρ c) main_arg4 (by decide)
    _ = W0 m ρ c (Proc.devRef .tc main_arg4) := W1_of_ne m ρ c main_arg4 (by decide)
    _ = m ((c : Thread nD τ).loc main_arg4) := rfl

theorem W5_main_arg5 (c : Dev nD) : W5 m ρ c (Proc.devRef .tc main_arg5) = m ((c : Thread nD τ).loc main_arg5) :=
  calc W5 m ρ c (Proc.devRef .tc main_arg5)
    _ = W4 m ρ c (Proc.devRef .tc main_arg5) := W5_of_ne m ρ c main_arg5 (by decide)
    _ = W3 m ρ c (Proc.devRef .tc main_arg5) := host2_keeps (W3 m ρ c) main_arg5 (by decide) (by decide)
    _ = W2 m ρ c (Proc.devRef .tc main_arg5) := W3_of_ne m ρ c main_arg5 (by decide)
    _ = W1 m ρ c (Proc.devRef .tc main_arg5) := host1_keeps (W1 m ρ c) main_arg5 (by decide)
    _ = W0 m ρ c (Proc.devRef .tc main_arg5) := W1_of_ne m ρ c main_arg5 (by decide)
    _ = m ((c : Thread nD τ).loc main_arg5) := rfl

theorem W5_main_arg6 (c : Dev nD) : W5 m ρ c (Proc.devRef .tc main_arg6) = m ((c : Thread nD τ).loc main_arg6) :=
  calc W5 m ρ c (Proc.devRef .tc main_arg6)
    _ = W4 m ρ c (Proc.devRef .tc main_arg6) := (W5_arr m ρ c 3).trans (((dat2 (V4 m ρ) c).arrAt_in 3 rfl _).trans (A_eq2 (V4 m ρ) c 3))
    _ = W3 m ρ c (Proc.devRef .tc main_arg6) := host2_keeps (W3 m ρ c) main_arg6 (by decide) (by decide)
    _ = W2 m ρ c (Proc.devRef .tc main_arg6) := W3_of_ne m ρ c main_arg6 (by decide)
    _ = W1 m ρ c (Proc.devRef .tc main_arg6) := host1_keeps (W1 m ρ c) main_arg6 (by decide)
    _ = W0 m ρ c (Proc.devRef .tc main_arg6) := W1_of_ne m ρ c main_arg6 (by decide)
    _ = m ((c : Thread nD τ).loc main_arg6) := rfl

theorem W5_main_arg7 (c : Dev nD) : W5 m ρ c (Proc.devRef .tc main_arg7) = m ((c : Thread nD τ).loc main_arg7) :=
  calc W5 m ρ c (Proc.devRef .tc main_arg7)
    _ = W4 m ρ c (Proc.devRef .tc main_arg7) := W5_of_ne m ρ c main_arg7 (by decide)
    _ = W3 m ρ c (Proc.devRef .tc main_arg7) := host2_keeps (W3 m ρ c) main_arg7 (by decide) (by decide)
    _ = W2 m ρ c (Proc.devRef .tc main_arg7) := W3_of_ne m ρ c main_arg7 (by decide)
    _ = W1 m ρ c (Proc.devRef .tc main_arg7) := host1_keeps (W1 m ρ c) main_arg7 (by decide)
    _ = W0 m ρ c (Proc.devRef .tc main_arg7) := W1_of_ne m ρ c main_arg7 (by decide)
    _ = m ((c : Thread nD τ).loc main_arg7) := rfl

/-! ## The results -/

/-- The first result (the sum of the two branches) is region 2's first output array. -/
theorem W5_main_v5_0 (c : Dev nD) : W5 m ρ c (Proc.devRef .tc main_v5_0) = (dat2 (V4 m ρ) c).arrAt 6 cfg2.N := W5_arr m ρ c 6
/-- The third result (the interaction branch) is region 2's second output array. -/
theorem W5_main_v5_1 (c : Dev nD) : W5 m ρ c (Proc.devRef .tc main_v5_1) = (dat2 (V4 m ρ) c).arrAt 7 cfg2.N := W5_arr m ρ c 7
/-- The second result (the linear branch) is region 1's output array, which region 2 only reads. -/
theorem W5_main_v2 (c : Dev nD) : W5 m ρ c (Proc.devRef .tc main_v2) = (dat1 (V2 m ρ) c).arrAt 3 cfg1.N :=
  calc W5 m ρ c (Proc.devRef .tc main_v2)
    _ = W4 m ρ c (Proc.devRef .tc main_v2) := (W5_arr m ρ c 5).trans (((dat2 (V4 m ρ) c).arrAt_in 5 rfl _).trans (A_eq2 (V4 m ρ) c 5))
    _ = W3 m ρ c (Proc.devRef .tc main_v2) := host2_keeps (W3 m ρ c) main_v2 (by decide) (by decide)
    _ = (dat1 (V2 m ρ) c).arrAt 3 cfg1.N := W3_arr m ρ c 3

/-! ## What regions 1 and 2 find on entry -/

theorem V2_main_arg0 (c : Dev nD) : V2 m ρ c main_arg0 = m ((c : Thread nD τ).loc main_arg0) :=
  (host1_keeps (W1 m ρ c) main_arg0 (by decide)).trans ((W1_arr m ρ c 0).trans (((dat0 (V0 m ρ) c).arrAt_in 0 rfl _).trans (A_eq0 (V0 m ρ) c 0)))
theorem V2_main_arg2 (c : Dev nD) : V2 m ρ c main_arg2 = m ((c : Thread nD τ).loc main_arg2) :=
  (host1_keeps (W1 m ρ c) main_arg2 (by decide)).trans (W1_of_ne m ρ c main_arg2 (by decide))
/-- Region 1's bias row is the bias vector reshaped to one row. -/
theorem V2_main_v1 (c : Dev nD) : V2 m ρ c main_v1 = shapeCast S1x4096 (m ((c : Thread nD τ).loc main_arg3)) shapeCasts_S4096_S1x4096 := by
  show StableHlo.after hostOps1 (W1 m ρ c) (Proc.devRef .tc main_v1) = _
  after_results
  rw [show W1 m ρ c (Proc.devRef .tc main_arg3) = m ((c : Thread nD τ).loc main_arg3) from W1_of_ne m ρ c main_arg3 (by decide)]
  rfl

/-- Region 2 finds region 0's output array as its first operand … -/
theorem V4_main_v0 (c : Dev nD) : V4 m ρ c main_v0 = (dat0 (V0 m ρ) c).arrAt 2 cfg0.N :=
  (host2_keeps (W3 m ρ c) main_v0 (by decide) (by decide)).trans ((W3_of_ne m ρ c main_v0 (by decide)).trans
    ((host1_keeps (W1 m ρ c) main_v0 (by decide)).trans (W1_arr m ρ c 2)))
/-- … and region 1's output array as its last. -/
theorem V4_main_v2 (c : Dev nD) : V4 m ρ c main_v2 = (dat1 (V2 m ρ) c).arrAt 3 cfg1.N :=
  (host2_keeps (W3 m ρ c) main_v2 (by decide) (by decide)).trans (W3_arr m ρ c 3)
theorem V4_main_arg4 (c : Dev nD) : V4 m ρ c main_arg4 = m ((c : Thread nD τ).loc main_arg4) :=
  (host2_keeps (W3 m ρ c) main_arg4 (by decide) (by decide)).trans ((W3_of_ne m ρ c main_arg4 (by decide)).trans
    ((host1_keeps (W1 m ρ c) main_arg4 (by decide)).trans (W1_of_ne m ρ c main_arg4 (by decide))))
theorem V4_main_arg6 (c : Dev nD) : V4 m ρ c main_arg6 = m ((c : Thread nD τ).loc main_arg6) :=
  (host2_keeps (W3 m ρ c) main_arg6 (by decide) (by decide)).trans ((W3_of_ne m ρ c main_arg6 (by decide)).trans
    ((host1_keeps (W1 m ρ c) main_arg6 (by decide)).trans (W1_of_ne m ρ c main_arg6 (by decide))))
theorem W3_main_arg5 (c : Dev nD) : W3 m ρ c (Proc.devRef .tc main_arg5) = m ((c : Thread nD τ).loc main_arg5) :=
  (W3_of_ne m ρ c main_arg5 (by decide)).trans ((host1_keeps (W1 m ρ c) main_arg5 (by decide)).trans (W1_of_ne m ρ c main_arg5 (by decide)))
theorem W3_main_arg7 (c : Dev nD) : W3 m ρ c (Proc.devRef .tc main_arg7) = m ((c : Thread nD τ).loc main_arg7) :=
  (W3_of_ne m ρ c main_arg7 (by decide)).trans ((host1_keeps (W1 m ρ c) main_arg7 (by decide)).trans (W1_of_ne m ρ c main_arg7 (by decide)))
/-- Region 2's two bias rows are the bias vectors reshaped to one row each. -/
theorem V4_main_v3 (c : Dev nD) : V4 m ρ c main_v3 = shapeCast S1x256 (m ((c : Thread nD τ).loc main_arg5)) shapeCasts_S256_S1x256 := by
  show StableHlo.after hostOps2 (W3 m ρ c) (Proc.devRef .tc main_v3) = _
  after_results
  rw [W3_main_arg5]
  rfl
theorem V4_main_v4 (c : Dev nD) : V4 m ρ c main_v4 = shapeCast S1x4096 (m ((c : Thread nD τ).loc main_arg7)) shapeCasts_S4096_S1x4096 := by
  show StableHlo.after hostOps2 (W3 m ρ c) (Proc.devRef .tc main_v4) = _
  after_results
  rw [W3_main_arg7]
  rfl

end Cert.KernelIdeal.Hand

end
-- ==== Proof.Val.Region0Blocks.lean ====
/-
  Region 0 at the ideal instance: where a block's entry sits in its array. Grid point t = 8·b + f stages rows
  512·b … of the feature matrix at columns 2048·f …, rows 2048·f … of the embedding table, and writes rows 512·b … of
  the interaction vector.
-/
import proofs.«146741_j35055523070100_2_alg».proof.Proof.KI.Region0
import Idealize.ShloMosaic.Lib.Pipeline.Value
import Idealize.ShloMosaic.Lib.ValueIdx

noncomputable section

namespace Cert.KernelIdeal.HandValue

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)
open scoped BigOperators

variable (V : (c : Dev nD) → (b : Ref sig .tc) → Buf (Elt Ideal) ((c : Thread nD τ).loc b))

/-- The three index maps of region 0, decided once over its sixteen grid points. -/
theorem idx0 : ∀ t : Fin cfg0.N, win0_0.index t (0 : Fin 2) = t.val / 8 ∧ win0_0.index t (1 : Fin 2) = t.val % 8
    ∧ win0_1.index t (0 : Fin 2) = t.val % 8 ∧ win0_1.index t (1 : Fin 2) = 0
    ∧ win0_2.index t (0 : Fin 2) = t.val / 8 ∧ win0_2.index t (1 : Fin 2) = 0 :=
  (by decide +kernel : ∀ t : Fin grid0.N, _)

/-- Entry (r, k) of the feature matrix as the region finds it (zero outside the matrix). -/
def xN (c : Dev nD) (r k : ℕ) : EReal :=
  if h : r < 1024 ∧ k < 16384 then (V c main_arg0 : Vec Ideal S1024x16384 .f32) (ix2 ⟨r, h.1⟩ ⟨k, h.2⟩) else 0
/-- Entry (k, q) of the embedding table as the region finds it (zero outside the table). -/
def eN (c : Dev nD) (k q : ℕ) : EReal :=
  if h : k < 16384 ∧ q < 256 then (V c main_arg1 : Vec Ideal S16384x256 .f32) (ix2 ⟨k, h.1⟩ ⟨q, h.2⟩) else 0

/-- The feature block at point `t`: entry (p, k) is the matrix's entry (512·(t/8) + p, 2048·(t%8) + k). -/
theorem blk0_apply (c : Dev nD) (t : Fin cfg0.N) (p : Fin 512) (k : Fin 2048) :
    (iblk0 V c 0 t : Vec Ideal S512x2048 .f32) (ix2 p k) = xN V c (t.val / 8 * 512 + p.val) (t.val % 8 * 2048 + k.val) := by
  have hN : t.val < 16 := lt_of_lt_of_eq t.isLt (show cfg0.N = 16 from N_0)
  have hp := p.isLt
  have hk := k.isLt
  obtain ⟨e0, e1, -, -, -, -⟩ := idx0 t
  unfold xN
  rw [dif_pos ⟨by omega, by omega⟩]
  unfold iblk0
  rw [View.read_apply]
  show (V c main_arg0 : Vec Ideal S1024x16384 .f32) _ = _
  refine congrArg _ ?_
  funext a; apply Fin.ext
  match a with
  | ⟨0, _⟩ => show win0_0.index t (0 : Fin 2) * 512 + 1 * p.val = t.val / 8 * 512 + p.val; rw [e0]; omega
  | ⟨1, _⟩ => show win0_0.index t (1 : Fin 2) * 2048 + 1 * k.val = t.val % 8 * 2048 + k.val; rw [e1]; omega

/-- The embedding block at point `t`: entry (k, q) is the table's entry (2048·(t%8) + k, q). -/
theorem blk1_apply (c : Dev nD) (t : Fin cfg0.N) (k : Fin 2048) (q : Fin 256) :
    (iblk0 V c 1 t : Vec Ideal S2048x256 .f32) (ix2 k q) = eN V c (t.val % 8 * 2048 + k.val) q.val := by
  have hN : t.val < 16 := lt_of_lt_of_eq t.isLt (show cfg0.N = 16 from N_0)
  have hq := q.isLt
  have hk := k.isLt
  obtain ⟨-, -, e0, e1, -, -⟩ := idx0 t
  unfold eN
  rw [dif_pos ⟨by omega, by omega⟩]
  unfold iblk0
  rw [View.read_apply]
  show (V c main_arg1 : Vec Ideal S16384x256 .f32) _ = _
  refine congrArg _ ?_
  funext a; apply Fin.ext
  match a with
  | ⟨0, _⟩ => show win0_1.index t (0 : Fin 2) * 2048 + 1 * k.val = t.val % 8 * 2048 + k.val; rw [e0]; omega
  | ⟨1, _⟩ => show win0_1.index t (1 : Fin 2) * 256 + 1 * q.val = q.val; rw [e1]; omega

end Cert.KernelIdeal.HandValue

end
-- ==== Proof.KI.Region0Pieces.lean ====
/-
  Region 0: the found pieces read back as values. A reduction step leaves in each accumulator the step's product
  added to what the accumulator held (the zero block at the first step), and the last step stores
  half · (acc₀ · acc₀ − acc₁) of the accumulators it has just advanced.
-/
import proofs.«146741_j35055523070100_2_alg».proof.Proof.KI.Region0RunA
import proofs.«146741_j35055523070100_2_alg».proof.Proof.KI.Region0RunB
import proofs.«146741_j35055523070100_2_alg».proof.Proof.KI.Region0RunC
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem hz : (![0, 0] : Fin 2 → Nat) = fun _ => 0 := funext fun a => by fin_cases a <;> rfl

/-- A middle step: the first accumulator's one covering store is the step's x·e product added to its contents. -/
theorem accB_0 (c : Dev nD) (i : grid0.Coords) (arg2 : Memref sig .tc .vmem S512x2048 .f32) (harg2 : arg2.IsWhole) (arg3 : Memref sig .tc .vmem S2048x256 .f32) (harg3 : arg3.IsWhole) (arg4 : Memref sig .tc .vmem S512x256 .f32) (harg4 : arg4.IsWhole) (arg5 : Memref sig .tc .vmem S512x256 .f32) (harg5 : arg5.IsWhole) (arg6 : Memref sig .tc .vmem S512x256 .f32) (harg6 : arg6.IsWhole) (hc0 : ¬cond0_0 i) (hc1 : ¬cond0_1 i)
    (x0 : Vec F S512x2048 .f32) (x1 : Vec F S2048x256 .f32) (xs0 xs1 : Vec F S512x256 .f32) :
    VS0_0.read (Elt F) (VS0_0.writes (Elt F) VS0_0.junk (kernelRun0_B (F := F) c i arg2 harg2 arg3 harg3 arg4 harg4 arg5 harg5 arg6 harg6 hc0 hc1 x0 x1 xs0 xs1).1) = k0_pay3 x0 x1 xs0 := by
  rw [View.read_writes_eq_canon _ _ _ (View.cover_of_tiledL _ S512x256.size (by sl_kernel_rfl))]
  unfold kernelRun0_B
  dsimp only
  sl_unfold_words
  rw [View.canon_unit_zero hz]
  simp only [View.readAt_eq_ld, harg2.read_unread, harg3.read_unread, harg5.read_unread, harg6.read_unread, View.ld_unit_zero (S := S512x2048) hz, View.ld_unit_zero (S := S2048x256) hz, View.ld_unit_zero (S := S512x256) hz]

theorem accB_1 (c : Dev nD) (i : grid0.Coords) (arg2 : Memref sig .tc .vmem S512x2048 .f32) (harg2 : arg2.IsWhole) (arg3 : Memref sig .tc .vmem S2048x256 .f32) (harg3 : arg3.IsWhole) (arg4 : Memref sig .tc .vmem S512x256 .f32) (harg4 : arg4.IsWhole) (arg5 : Memref sig .tc .vmem S512x256 .f32) (harg5 : arg5.IsWhole) (arg6 : Memref sig .tc .vmem S512x256 .f32) (harg6 : arg6.IsWhole) (hc0 : ¬cond0_0 i) (hc1 : ¬cond0_1 i)
    (x0 : Vec F S512x2048 .f32) (x1 : Vec F S2048x256 .f32) (xs0 xs1 : Vec F S512x256 .f32) :
    VS0_1.read (Elt F) (VS0_1.writes (Elt F) VS0_1.junk (kernelRun0_B (F := F) c i arg2 harg2 arg3 harg3 arg4 harg4 arg5 harg5 arg6 harg6 hc0 hc1 x0 x1 xs0 xs1).2.1) = k0_pay4 x0 x1 xs1 := by
  rw [View.read_writes_eq_canon _ _ _ (View.cover_of_tiledL _ S512x256.size (by sl_kernel_rfl))]
  unfold kernelRun0_B
  dsimp only
  sl_unfold_words
  rw [View.canon_unit_zero hz]
  simp only [View.readAt_eq_ld, harg2.read_unread, harg3.read_unread, harg5.read_unread, harg6.read_unread, View.ld_unit_zero (S := S512x2048) hz, View.ld_unit_zero (S := S2048x256) hz, View.ld_unit_zero (S := S512x256) hz]

/-- The last step advances the accumulators the same way … -/
theorem accC_0 (c : Dev nD) (i : grid0.Coords) (arg2 : Memref sig .tc .vmem S512x2048 .f32) (harg2 : arg2.IsWhole) (arg3 : Memref sig .tc .vmem S2048x256 .f32) (harg3 : arg3.IsWhole) (arg4 : Memref sig .tc .vmem S512x256 .f32) (harg4 : arg4.IsWhole) (arg5 : Memref sig .tc .vmem S512x256 .f32) (harg5 : arg5.IsWhole) (arg6 : Memref sig .tc .vmem S512x256 .f32) (harg6 : arg6.IsWhole) (hc0 : ¬cond0_0 i) (hc1 : cond0_1 i)
    (x0 : Vec F S512x2048 .f32) (x1 : Vec F S2048x256 .f32) (xs0 xs1 : Vec F S512x256 .f32) :
    VS0_0.read (Elt F) (VS0_0.writes (Elt F) VS0_0.junk (kernelRun0_C (F := F) c i arg2 harg2 arg3 harg3 arg4 harg4 arg5 harg5 arg6 harg6 hc0 hc1 x0 x1 xs0 xs1).2.1) = k0_pay3 x0 x1 xs0 := by
  rw [View.read_writes_eq_canon _ _ _ (View.cover_of_tiledL _ S512x256.size (by sl_kernel_rfl))]
  unfold kernelRun0_C
  dsimp only
  sl_unfold_words
  rw [View.canon_unit_zero hz]
  simp only [View.readAt_eq_ld, harg2.read_unread, harg3.read_unread, harg5.read_unread, harg6.read_unread, View.ld_unit_zero (S := S512x2048) hz, View.ld_unit_zero (S := S2048x256) hz, View.ld_unit_zero (S := S512x256) hz]

theorem accC_1 (c : Dev nD) (i : grid0.Coords) (arg2 : Memref sig .tc .vmem S512x2048 .f32) (harg2 : arg2.IsWhole) (arg3 : Memref sig .tc .vmem S2048x256 .f32) (harg3 : arg3.IsWhole) (arg4 : Memref sig .tc .vmem S512x256 .f32) (harg4 : arg4.IsWhole) (arg5 : Memref sig .tc .vmem S512x256 .f32) (harg5 : arg5.IsWhole) (arg6 : Memref sig .tc .vmem S512x256 .f32) (harg6 : arg6.IsWhole) (hc0 : ¬cond0_0 i) (hc1 : cond0_1 i)
    (x0 : Vec F S512x2048 .f32) (x1 : Vec F S2048x256 .f32) (xs0 xs1 : Vec F S512x256 .f32) :
    VS0_1.read (Elt F) (VS0_1.writes (Elt F) VS0_1.junk (kernelRun0_C (F := F) c i arg2 harg2 arg3 harg3 arg4 harg4 arg5 harg5 arg6 harg6 hc0 hc1 x0 x1 xs0 xs1).2.2.1) = k0_pay4 x0 x1 xs1 := by
  rw [View.read_writes_eq_canon _ _ _ (View.cover_of_tiledL _ S512x256.size (by sl_kernel_rfl))]
  unfold kernelRun0_C
  dsimp only
  sl_unfold_words
  rw [View.canon_unit_zero hz]
  simp only [View.readAt_eq_ld, harg2.read_unread, harg3.read_unread, harg5.read_unread, harg6.read_unread, View.ld_unit_zero (S := S512x2048) hz, View.ld_unit_zero (S := S2048x256) hz, View.ld_unit_zero (S := S512x256) hz]

/-- … and stores the output block from the advanced accumulators. -/
theorem outC (c : Dev nD) (i : grid0.Coords) (arg2 : Memref sig .tc .vmem S512x2048 .f32) (harg2 : arg2.IsWhole) (arg3 : Memref sig .tc .vmem S2048x256 .f32) (harg3 : arg3.IsWhole) (arg4 : Memref sig .tc .vmem S512x256 .f32) (harg4 : arg4.IsWhole) (arg5 : Memref sig .tc .vmem S512x256 .f32) (harg5 : arg5.IsWhole) (arg6 : Memref sig .tc .vmem S512x256 .f32) (harg6 : arg6.IsWhole) (hc0 : ¬cond0_0 i) (hc1 : cond0_1 i)
    (x0 : Vec F S512x2048 .f32) (x1 : Vec F S2048x256 .f32) (xs0 xs1 : Vec F S512x256 .f32) :
    VO0_2.read (Elt F) (VO0_2.writes (Elt F) VO0_2.junk (kernelRun0_C (F := F) c i arg2 harg2 arg3 harg3 arg4 harg4 arg5 harg5 arg6 harg6 hc0 hc1 x0 x1 xs0 xs1).1) = k0_pay5 (k0_pay3 x0 x1 xs0) (k0_pay4 x0 x1 xs1) := by
  rw [View.read_writes_eq_canon _ _ _ (View.cover_of_tiledL _ S512x256.size (by sl_kernel_rfl))]
  unfold kernelRun0_C
  dsimp only
  sl_unfold_words
  rw [View.canon_unit_zero hz, View.readCov_unit_zero (S := S512x256) _ hz, View.readCov_unit_zero (S := S512x256) _ hz]
  simp only [View.readAt_eq_ld, harg2.read_unread, harg3.read_unread, harg5.read_unread, harg6.read_unread, View.ld_unit_zero (S := S512x2048) hz, View.ld_unit_zero (S := S2048x256) hz, View.ld_unit_zero (S := S512x256) hz]

/-- The first step: each accumulator is reset to the zero block, then advanced. -/
theorem accA_0 (c : Dev nD) (i : grid0.Coords) (arg2 : Memref sig .tc .vmem S512x2048 .f32) (harg2 : arg2.IsWhole) (arg3 : Memref sig .tc .vmem S2048x256 .f32) (harg3 : arg3.IsWhole) (arg4 : Memref sig .tc .vmem S512x256 .f32) (harg4 : arg4.IsWhole) (arg5 : Memref sig .tc .vmem S512x256 .f32) (harg5 : arg5.IsWhole) (arg6 : Memref sig .tc .vmem S512x256 .f32) (harg6 : arg6.IsWhole) (hc0 : cond0_0 i) (hc1 : ¬cond0_1 i)
    (x0 : Vec F S512x2048 .f32) (x1 : Vec F S2048x256 .f32) :
    VS0_0.read (Elt F) (VS0_0.writes (Elt F) VS0_0.junk (kernelRun0_A (F := F) c i arg2 harg2 arg3 harg3 arg4 harg4 arg5 harg5 arg6 harg6 hc0 hc1 x0 x1).1) = k0_pay3 x0 x1 k0_pay1 := by
  rw [View.read_writes_eq_canon _ _ _ (View.cover_of_tiledL _ S512x256.size (by sl_kernel_rfl))]
  unfold kernelRun0_A
  dsimp only
  sl_unfold_words
  rw [View.canon_cons_unit_zero (S := S512x256) hz, View.readCov_unit_zero (S := S512x256) _ hz]
  simp only [View.readAt_eq_ld, harg2.read_unread, harg3.read_unread, harg5.read_unread, harg6.read_unread, View.ld_unit_zero (S := S512x2048) hz, View.ld_unit_zero (S := S2048x256) hz, View.ld_unit_zero (S := S512x256) hz]

theorem accA_1 (c : Dev nD) (i : grid0.Coords) (arg2 : Memref sig .tc .vmem S512x2048 .f32) (harg2 : arg2.IsWhole) (arg3 : Memref sig .tc .vmem S2048x256 .f32) (harg3 : arg3.IsWhole) (arg4 : Memref sig .tc .vmem S512x256 .f32) (harg4 : arg4.IsWhole) (arg5 : Memref sig .tc .vmem S512x256 .f32) (harg5 : arg5.IsWhole) (arg6 : Memref sig .tc .vmem S512x256 .f32) (harg6 : arg6.IsWhole) (hc0 : cond0_0 i) (hc1 : ¬cond0_1 i)
    (x0 : Vec F S512x2048 .f32) (x1 : Vec F S2048x256 .f32) :
    VS0_1.read (Elt F) (VS0_1.writes (Elt F) VS0_1.junk (kernelRun0_A (F := F) c i arg2 harg2 arg3 harg3 arg4 harg4 arg5 harg5 arg6 harg6 hc0 hc1 x0 x1).2.1) = k0_pay4 x0 x1 k0_pay2 := by
  rw [View.read_writes_eq_canon _ _ _ (View.cover_of_tiledL _ S512x256.size (by sl_kernel_rfl))]
  unfold kernelRun0_A
  dsimp only
  sl_unfold_words
  rw [View.canon_cons_unit_zero (S := S512x256) hz, View.readCov_unit_zero (S := S512x256) _ hz]
  simp only [View.readAt_eq_ld, harg2.read_unread, harg3.read_unread, harg5.read_unread, harg6.read_unread, View.ld_unit_zero (S := S512x2048) hz, View.ld_unit_zero (S := S2048x256) hz, View.ld_unit_zero (S := S512x256) hz]

end Cert.KernelIdeal.Hand

end
-- ==== Proof.LibPlainDot.lean ====
/-
  A plain matrix product read at an entry.

  For a contraction of an [A, K] array with a [K, B] array over the shared axis — no batch axes, the rows of the left
  operand and the columns of the right operand kept — the (p, q) entry is the sum over k < K of left (p, k) times
  right (k, q). This holds for the product taken on the host and, into a zero accumulator, for the product taken in the
  kernel; both are stated here as sums over `Fin K`.
-/
import Idealize.ShloMosaic.Lib.ValueIdx
import Idealize.ShloMosaic.PureOps.Ideal.Laws

noncomputable section
open scoped BigOperators
namespace Cert.PlainDot
open Idealize.ShloMosaic Idealize.ShloMosaic.ValueIdx

variable {A K B : Nat}

/-- The dimension numbers of an [A, K] by [K, B] product. -/
abbrev Dot2 (A K B : Nat) : Type :=
  DotDims (⟨2, ![A, K]⟩ : Shape) (⟨2, ![K, B]⟩ : Shape) (⟨2, ![A, B]⟩ : Shape)

/-- The left operand's second axis meets the right operand's first; the other two axes are kept; nothing is batched. -/
structure IsPlain (d : Dot2 A K B) : Prop where
  lc : d.lhsContracting = [1]
  rc : d.rhsContracting = [0]
  ln : d.lhsNonContracting = [0]
  rn : d.rhsNonContracting = [1]
  lb : d.lhsBatch = []
  rb : d.rhsBatch = []

section Coordinates
variable (wf : DotDims.WF (⟨2, ![A, K]⟩ : Shape) (⟨2, ![K, B]⟩ : Shape) (⟨2, ![A, B]⟩ : Shape) [1] [0] [0] [1] [] [])

/-- The left operand's row is the entry's row. -/
theorem lhs0 (i : (⟨2, ![A, B]⟩ : Shape).Idx) (q : (⟨[1], [0], [0], [1], [], [], wf⟩ : Dot2 A K B).contr.Idx) :
    ((⟨[1], [0], [0], [1], [], [], wf⟩ : Dot2 A K B).lhsIdx i q 0).val = (i 0).val := by
  unfold DotDims.lhsIdx
  rw [dif_neg (show ¬(0 : Fin 2) ∈ (⟨[1], [0], [0], [1], [], [], wf⟩ : Dot2 A K B).lhsBatch from List.not_mem_nil),
    dif_pos (show (0 : Fin 2) ∈ (⟨[1], [0], [0], [1], [], [], wf⟩ : Dot2 A K B).lhsNonContracting from List.mem_singleton.mpr rfl)]
  rfl

/-- The left operand's column is the contracted index. -/
theorem lhs1 (i : (⟨2, ![A, B]⟩ : Shape).Idx) (q : (⟨[1], [0], [0], [1], [], [], wf⟩ : Dot2 A K B).contr.Idx) :
    ((⟨[1], [0], [0], [1], [], [], wf⟩ : Dot2 A K B).lhsIdx i q 1).val = (q ⟨0, Nat.one_pos⟩).val :=
  (⟨[1], [0], [0], [1], [], [], wf⟩ : Dot2 A K B).lhsIdx_val_of_single rfl i q

/-- The right operand's row is the contracted index. -/
theorem rhs0 (i : (⟨2, ![A, B]⟩ : Shape).Idx) (q : (⟨[1], [0], [0], [1], [], [], wf⟩ : Dot2 A K B).contr.Idx) :
    ((⟨[1], [0], [0], [1], [], [], wf⟩ : Dot2 A K B).rhsIdx i q 0).val = (q ⟨0, Nat.one_pos⟩).val :=
  (⟨[1], [0], [0], [1], [], [], wf⟩ : Dot2 A K B).rhsIdx_val_of_single rfl i q

/-- The right operand's column is the entry's column. -/
theorem rhs1 (i : (⟨2, ![A, B]⟩ : Shape).Idx) (q : (⟨[1], [0], [0], [1], [], [], wf⟩ : Dot2 A K B).contr.Idx) :
    ((⟨[1], [0], [0], [1], [], [], wf⟩ : Dot2 A K B).rhsIdx i q 1).val = (i 1).val := by
  unfold DotDims.rhsIdx
  rw [dif_neg (show ¬(1 : Fin 2) ∈ (⟨[1], [0], [0], [1], [], [], wf⟩ : Dot2 A K B).rhsBatch from List.not_mem_nil),
    dif_pos (show (1 : Fin 2) ∈ (⟨[1], [0], [0], [1], [], [], wf⟩ : Dot2 A K B).rhsNonContracting from List.mem_singleton.mpr rfl)]
  rfl

end Coordinates

/-- The sum over the contracted index, re-indexed by `Fin K`, with the operand entries named by their coordinates. -/
theorem sum_contr (d : Dot2 A K B) (hd : IsPlain d) (l : (⟨2, ![A, K]⟩ : Shape).Idx → EReal)
    (r : (⟨2, ![K, B]⟩ : Shape).Idx → EReal) (i : (⟨2, ![A, B]⟩ : Shape).Idx) :
    ∑ q : d.contr.Idx, l (d.lhsIdx i q) * r (d.rhsIdx i q) = ∑ k : Fin K, l (ix2 (i 0) k) * r (ix2 k (i 1)) := by
  obtain ⟨lc, rc, ln, rn, lb, rb, wf⟩ := d
  obtain ⟨h1, h2, h3, h4, h5, h6⟩ := hd
  dsimp only at h1 h2 h3 h4 h5 h6
  subst h1 h2 h3 h4 h5 h6
  rw [← Equiv.sum_comp (contrEquiv1 (⟨[1], [0], [0], [1], [], [], wf⟩ : Dot2 A K B) K rfl rfl).symm]
  refine Finset.sum_congr rfl fun k _ => ?_
  have hk := contrEquiv1_symm_val (⟨[1], [0], [0], [1], [], [], wf⟩ : Dot2 A K B) K rfl rfl k
  have el : (⟨[1], [0], [0], [1], [], [], wf⟩ : Dot2 A K B).lhsIdx i
      ((contrEquiv1 (⟨[1], [0], [0], [1], [], [], wf⟩ : Dot2 A K B) K rfl rfl).symm k) = ix2 (i 0) k :=
    funext fun a => Fin.ext (by
      match a with
      | ⟨0, _⟩ => exact lhs0 wf _ _
      | ⟨1, _⟩ => exact (lhs1 wf _ _).trans hk)
  have er : (⟨[1], [0], [0], [1], [], [], wf⟩ : Dot2 A K B).rhsIdx i
      ((contrEquiv1 (⟨[1], [0], [0], [1], [], [], wf⟩ : Dot2 A K B) K rfl rfl).symm k) = ix2 k (i 1) :=
    funext fun a => Fin.ext (by
      match a with
      | ⟨0, _⟩ => exact (rhs0 wf _ _).trans hk
      | ⟨1, _⟩ => exact rhs1 wf _ _)
  exact congrArg₂ (· * ·) (congrArg l el) (congrArg r er)

/-- The host's product at an entry. -/
theorem dotGeneral_plain {φ₁ φ₂ : FTy} (d : Dot2 A K B) (hd : IsPlain d) (prec : Option ContractPrecision) (sched : HostSchedule)
    (l : FVec Ideal (⟨2, ![A, K]⟩ : Shape) φ₁) (r : FVec Ideal (⟨2, ![K, B]⟩ : Shape) φ₂) (i : (⟨2, ![A, B]⟩ : Shape).Idx) :
    FloatOps.dotGeneral d prec sched l r i = ∑ k : Fin K, l (ix2 (i 0) k) * r (ix2 k (i 1)) := by
  rw [Ideal.dotGeneral_apply]
  exact sum_contr d hd l r i

/-- The kernel's product into a zero accumulator at an entry. -/
theorem matmul_zero_plain {φ₁ φ₂ : FTy} (d : Dot2 A K B) (hd : IsPlain d) (prec : Option ContractPrecision)
    (l : FVec Ideal (⟨2, ![A, K]⟩ : Shape) φ₁) (r : FVec Ideal (⟨2, ![K, B]⟩ : Shape) φ₂) (i : (⟨2, ![A, B]⟩ : Shape).Idx) :
    FloatOps.matmul d prec l r (constant (⟨2, ![A, B]⟩ : Shape) .f32 0x00000000#32) i
      = ∑ k : Fin K, l (ix2 (i 0) k) * r (ix2 k (i 1)) := by
  rw [Ideal.matmul_constant_zero_apply]
  exact sum_contr d hd l r i

end Cert.PlainDot
-- ==== Proof.LibTransDot.lean ====
/-
  A matrix product against a transposed right operand, read at an entry.

  For a contraction of an [A, K] array with a [B, K] array over their second axes — no batch axes, the rows of both
  operands kept — the (p, q) entry is the sum over k < K of left (p, k) times right (q, k): the left operand times the
  transpose of the right one. This holds for the product taken on the host and, into a zero accumulator, for the product
  taken in the kernel; both are stated here as sums over `Fin K`.
-/
import Idealize.ShloMosaic.Lib.ValueIdx
import Idealize.ShloMosaic.PureOps.Ideal.Laws

noncomputable section
open scoped BigOperators
namespace Cert.TransDot
open Idealize.ShloMosaic Idealize.ShloMosaic.ValueIdx

variable {A K B : Nat}

/-- The dimension numbers of an [A, K] by [B, K] product. -/
abbrev DotT (A K B : Nat) : Type :=
  DotDims (⟨2, ![A, K]⟩ : Shape) (⟨2, ![B, K]⟩ : Shape) (⟨2, ![A, B]⟩ : Shape)

/-- Both operands' second axes meet; both first axes are kept; nothing is batched. -/
structure IsTrans (d : DotT A K B) : Prop where
  lc : d.lhsContracting = [1]
  rc : d.rhsContracting = [1]
  ln : d.lhsNonContracting = [0]
  rn : d.rhsNonContracting = [0]
  lb : d.lhsBatch = []
  rb : d.rhsBatch = []

section Coordinates
variable (wf : DotDims.WF (⟨2, ![A, K]⟩ : Shape) (⟨2, ![B, K]⟩ : Shape) (⟨2, ![A, B]⟩ : Shape) [1] [1] [0] [0] [] [])

/-- The left operand's row is the entry's row. -/
theorem lhs0 (i : (⟨2, ![A, B]⟩ : Shape).Idx) (q : (⟨[1], [1], [0], [0], [], [], wf⟩ : DotT A K B).contr.Idx) :
    ((⟨[1], [1], [0], [0], [], [], wf⟩ : DotT A K B).lhsIdx i q 0).val = (i 0).val := by
  unfold DotDims.lhsIdx
  rw [dif_neg (show ¬(0 : Fin 2) ∈ (⟨[1], [1], [0], [0], [], [], wf⟩ : DotT A K B).lhsBatch from List.not_mem_nil),
    dif_pos (show (0 : Fin 2) ∈ (⟨[1], [1], [0], [0], [], [], wf⟩ : DotT A K B).lhsNonContracting from List.mem_singleton.mpr rfl)]
  rfl

/-- The left operand's column is the contracted index. -/
theorem lhs1 (i : (⟨2, ![A, B]⟩ : Shape).Idx) (q : (⟨[1], [1], [0], [0], [], [], wf⟩ : DotT A K B).contr.Idx) :
    ((⟨[1], [1], [0], [0], [], [], wf⟩ : DotT A K B).lhsIdx i q 1).val = (q ⟨0, Nat.one_pos⟩).val :=
  (⟨[1], [1], [0], [0], [], [], wf⟩ : DotT A K B).lhsIdx_val_of_single rfl i q

/-- The right operand's row is the entry's column. -/
theorem rhs0 (i : (⟨2, ![A, B]⟩ : Shape).Idx) (q : (⟨[1], [1], [0], [0], [], [], wf⟩ : DotT A K B).contr.Idx) :
    ((⟨[1], [1], [0], [0], [], [], wf⟩ : DotT A K B).rhsIdx i q 0).val = (i 1).val := by
  unfold DotDims.rhsIdx
  rw [dif_neg (show ¬(0 : Fin 2) ∈ (⟨[1], [1], [0], [0], [], [], wf⟩ : DotT A K B).rhsBatch from List.not_mem_nil),
    dif_pos (show (0 : Fin 2) ∈ (⟨[1], [1], [0], [0], [], [], wf⟩ : DotT A K B).rhsNonContracting from List.mem_singleton.mpr rfl)]
  rfl

/-- The right operand's column is the contracted index. -/
theorem rhs1 (i : (⟨2, ![A, B]⟩ : Shape).Idx) (q : (⟨[1], [1], [0], [0], [], [], wf⟩ : DotT A K B).contr.Idx) :
    ((⟨[1], [1], [0], [0], [], [], wf⟩ : DotT A K B).rhsIdx i q 1).val = (q ⟨0, Nat.one_pos⟩).val :=
  (⟨[1], [1], [0], [0], [], [], wf⟩ : DotT A K B).rhsIdx_val_of_single rfl i q

end Coordinates

/-- The sum over the contracted index, re-indexed by `Fin K`, with the operand entries named by their coordinates. -/
theorem sum_contr (d : DotT A K B) (hd : IsTrans d) (l : (⟨2, ![A, K]⟩ : Shape).Idx → EReal)
    (r : (⟨2, ![B, K]⟩ : Shape).Idx → EReal) (i : (⟨2, ![A, B]⟩ : Shape).Idx) :
    ∑ q : d.contr.Idx, l (d.lhsIdx i q) * r (d.rhsIdx i q) = ∑ k : Fin K, l (ix2 (i 0) k) * r (ix2 (i 1) k) := by
  obtain ⟨lc, rc, ln, rn, lb, rb, wf⟩ := d
  obtain ⟨h1, h2, h3, h4, h5, h6⟩ := hd
  dsimp only at h1 h2 h3 h4 h5 h6
  subst h1 h2 h3 h4 h5 h6
  rw [← Equiv.sum_comp (contrEquiv1 (⟨[1], [1], [0], [0], [], [], wf⟩ : DotT A K B) K rfl rfl).symm]
  refine Finset.sum_congr rfl fun k _ => ?_
  have hk := contrEquiv1_symm_val (⟨[1], [1], [0], [0], [], [], wf⟩ : DotT A K B) K rfl rfl k
  have el : (⟨[1], [1], [0], [0], [], [], wf⟩ : DotT A K B).lhsIdx i
      ((contrEquiv1 (⟨[1], [1], [0], [0], [], [], wf⟩ : DotT A K B) K rfl rfl).symm k) = ix2 (i 0) k :=
    funext fun a => Fin.ext (by
      match a with
      | ⟨0, _⟩ => exact lhs0 wf _ _
      | ⟨1, _⟩ => exact (lhs1 wf _ _).trans hk)
  have er : (⟨[1], [1], [0], [0], [], [], wf⟩ : DotT A K B).rhsIdx i
      ((contrEquiv1 (⟨[1], [1], [0], [0], [], [], wf⟩ : DotT A K B) K rfl rfl).symm k) = ix2 (i 1) k :=
    funext fun a => Fin.ext (by
      match a with
      | ⟨0, _⟩ => exact rhs0 wf _ _
      | ⟨1, _⟩ => exact (rhs1 wf _ _).trans hk)
  exact congrArg₂ (· * ·) (congrArg l el) (congrArg r er)

/-- The host's product at an entry. -/
theorem dotGeneral_trans {φ₁ φ₂ : FTy} (d : DotT A K B) (hd : IsTrans d) (prec : Option ContractPrecision) (sched : HostSchedule)
    (l : FVec Ideal (⟨2, ![A, K]⟩ : Shape) φ₁) (r : FVec Ideal (⟨2, ![B, K]⟩ : Shape) φ₂) (i : (⟨2, ![A, B]⟩ : Shape).Idx) :
    FloatOps.dotGeneral d prec sched l r i = ∑ k : Fin K, l (ix2 (i 0) k) * r (ix2 (i 1) k) := by
  rw [Ideal.dotGeneral_apply]
  exact sum_contr d hd l r i

/-- The kernel's product into a zero accumulator at an entry. -/
theorem matmul_zero_trans {φ₁ φ₂ : FTy} (d : DotT A K B) (hd : IsTrans d) (prec : Option ContractPrecision)
    (l : FVec Ideal (⟨2, ![A, K]⟩ : Shape) φ₁) (r : FVec Ideal (⟨2, ![B, K]⟩ : Shape) φ₂) (i : (⟨2, ![A, B]⟩ : Shape).Idx) :
    FloatOps.matmul d prec l r (constant (⟨2, ![A, B]⟩ : Shape) .f32 0x00000000#32) i
      = ∑ k : Fin K, l (ix2 (i 0) k) * r (ix2 (i 1) k) := by
  rw [Ideal.matmul_constant_zero_apply]
  exact sum_contr d hd l r i

end Cert.TransDot
-- ==== Proof.Val.Payloads.lean ====
/-
  The pure values the interaction kernel and the linear kernel store, read at one entry, at the ideal instance
  (a float an extended real, every operation exact, a change of format the identity).

  Interaction kernel, one [512, 256] block of the two accumulators per step over a [512, 2048] block of x and a
  [2048, 256] block of e:
    * the first step stores the zero word's value in both accumulators;
    * every step adds to the first accumulator the block product  sum_k x(p,k) e(k,q)  and to the second the
      block product of the squares  sum_k (x(p,k) x(p,k)) (e(k,q) e(k,q));
    * the last step stores  half * (s(p,q) * s(p,q) - t(p,q))  of the two accumulators s, t.
  Linear kernel, one [1024, 2048] block of the accumulator per step over a [1024, 256] block of the left operand
  and a [2048, 256] block of the weights, contracted over BOTH second axes (the left operand against the transposed
  weights):
    * the first step stores the zero word's value; every step adds  sum_k l(p,k) w(q,k);
    * the last step adds the bias row, read at the column:  acc(p,q) + b(0,q).

  A truncation to bf16 before a product is the identity here, a shape cast to the same shape is the identity, a
  product into the zero accumulator is the plain sum over the contracted coordinate (LibPlainDot, LibTransDot).
-/
import proofs.«146741_j35055523070100_2_alg».proof.Proof.Gen.KernelIdeal.Skeleton
import proofs.«146741_j35055523070100_2_alg».proof.Proof.LibPlainDot
import proofs.«146741_j35055523070100_2_alg».proof.Proof.LibTransDot
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.HandValue

open Cert.KernelIdeal Cert.KernelIdeal.Gen Idealize.ShloMosaic Idealize.ShloMosaic.ValueIdx

/-! ## The interaction kernel -/

/-- The first step clears the first accumulator: every entry is the zero word's value. -/
theorem k0_pay1_apply (p : Fin 512) (q : Fin 256) :
    k0_pay1 (F := Ideal) (ix2 p q) = Ideal.ofBits .f32 0x00000000#32 := by
  unfold k0_pay1
  simp only [shapeCast_self]
  rfl

/-- The first step clears the second accumulator likewise. -/
theorem k0_pay2_apply (p : Fin 512) (q : Fin 256) :
    k0_pay2 (F := Ideal) (ix2 p q) = Ideal.ofBits .f32 0x00000000#32 := by
  unfold k0_pay2
  simp only [shapeCast_self]
  rfl

/-- A step of the first accumulator: the entry read before, plus the block product of x and e. -/
theorem k0_pay3_apply (v3 : FVec Ideal S512x2048 .f32) (v4 : FVec Ideal S2048x256 .f32) (v11 : FVec Ideal S512x256 .f32)
    (p : Fin 512) (q : Fin 256) :
    k0_pay3 (F := Ideal) v3 v4 v11 (ix2 p q) = v11 (ix2 p q) + ∑ k : Fin 2048, v3 (ix2 p k) * v4 (ix2 k q) := by
  unfold k0_pay3
  simp only [shapeCast_self]
  rw [addf_apply]
  exact congrArg (v11 (ix2 p q) + ·)
    (Cert.PlainDot.matmul_zero_plain (A := 512) (K := 2048) (B := 256) dot_S512x2048_S2048x256_S512x256_1_0_0_1_n_n
      ⟨rfl, rfl, rfl, rfl, rfl, rfl⟩ none (truncf .bf16 v3 bitsLt_bf16_f32) (truncf .bf16 v4 bitsLt_bf16_f32) (ix2 p q))

/-- A step of the second accumulator: the entry read before, plus the block product of the squares. -/
theorem k0_pay4_apply (v3 : FVec Ideal S512x2048 .f32) (v4 : FVec Ideal S2048x256 .f32) (v17 : FVec Ideal S512x256 .f32)
    (p : Fin 512) (q : Fin 256) :
    k0_pay4 (F := Ideal) v3 v4 v17 (ix2 p q)
      = v17 (ix2 p q) + ∑ k : Fin 2048, (v3 (ix2 p k) * v3 (ix2 p k)) * (v4 (ix2 k q) * v4 (ix2 k q)) := by
  unfold k0_pay4
  simp only [shapeCast_self]
  rw [addf_apply]
  exact congrArg (v17 (ix2 p q) + ·)
    (Cert.PlainDot.matmul_zero_plain (A := 512) (K := 2048) (B := 256) dot_S512x2048_S2048x256_S512x256_1_0_0_1_n_n
      ⟨rfl, rfl, rfl, rfl, rfl, rfl⟩ none (truncf .bf16 (mulf v3 v3) bitsLt_bf16_f32) (truncf .bf16 (mulf v4 v4) bitsLt_bf16_f32)
      (ix2 p q))

/-- The last step: half of (the square of the first accumulator minus the second). -/
theorem k0_pay5_apply (v26 : FVec Ideal S512x256 .f32) (v27 : FVec Ideal S512x256 .f32) (p : Fin 512) (q : Fin 256) :
    k0_pay5 (F := Ideal) v26 v27 (ix2 p q)
      = Ideal.ofBits .f32 0x3F000000#32 * (v26 (ix2 p q) * v26 (ix2 p q) - v27 (ix2 p q)) := rfl

/-! ## The linear kernel -/

/-- The first step clears the accumulator: every entry is the zero word's value. -/
theorem k1_pay1_apply (p : Fin 1024) (q : Fin 2048) :
    k1_pay1 (F := Ideal) (ix2 p q) = Ideal.ofBits .f32 0x00000000#32 := by
  unfold k1_pay1
  simp only [shapeCast_self]
  rfl

/-- A step of the accumulator: the entry read before, plus the block product of the left operand with the transposed
    weights (both second axes contracted). -/
theorem k1_pay2_apply (v3 : FVec Ideal S1024x256 .f32) (v5 : FVec Ideal S2048x256 .f32) (v7 : FVec Ideal S1024x2048 .f32)
    (p : Fin 1024) (q : Fin 2048) :
    k1_pay2 (F := Ideal) v3 v5 v7 (ix2 p q) = v7 (ix2 p q) + ∑ k : Fin 256, v3 (ix2 p k) * v5 (ix2 q k) := by
  unfold k1_pay2
  simp only [shapeCast_self]
  rw [addf_apply]
  exact congrArg (v7 (ix2 p q) + ·)
    (Cert.TransDot.matmul_zero_trans (A := 1024) (K := 256) (B := 2048) dot_S1024x256_S2048x256_S1024x2048_1_1_0_0_n_n
      ⟨rfl, rfl, rfl, rfl, rfl, rfl⟩ none (truncf .bf16 v3 bitsLt_bf16_f32) (truncf .bf16 v5 bitsLt_bf16_f32) (ix2 p q))

/-- The last step adds the bias row, read at the entry's column. -/
theorem k1_pay3_apply (v16 : FVec Ideal S1024x2048 .f32) (v17 : FVec Ideal S1x2048 .f32) (p : Fin 1024) (q : Fin 2048) :
    k1_pay3 (F := Ideal) v16 v17 (ix2 p q) = v16 (ix2 p q) + v17 (ix2 (0 : Fin 1) q) := by
  unfold k1_pay3
  simp only [shapeCast_self]
  rw [addf_apply]
  exact congrArg (v16 (ix2 p q) + ·)
    (broadcastTo_apply v17 broadcasts_S1x2048_S1024x2048 (ix2 p q) (ix2 (0 : Fin 1) q) (fun a => match a with
      | ⟨0, _⟩ => by show (0 : Nat) = if (1 : Nat) = 1 then 0 else _; rw [if_pos rfl]
      | ⟨1, _⟩ => by show q.val = if (2048 : Nat) = 1 then 0 else q.val; rw [if_neg (by decide)]))

end Cert.KernelIdeal.HandValue

end
-- ==== Proof.LibBlockedSum.lean ====
/-
  A finite sum cut into consecutive blocks.

  A sum over the `a * b` indices `0, 1, …, a * b - 1` is the sum, over the `a` blocks `s = 0, …, a - 1`, of the
  block's own sum over its `b` consecutive indices `s * b, s * b + 1, …, s * b + (b - 1)`. Addition is only asked
  to be commutative and associative (any additive commutative monoid: the extended reals qualify, where
  cancellation and distributivity may fail at the infinities but re-bracketing and re-ordering a sum never do).
  This is the law that joins a contraction computed one block of the contracted axis at a time with the same
  contraction computed in one go.
-/
import Mathlib.Algebra.BigOperators.Fin
import Mathlib.Logic.Equiv.Fin.Basic

open scoped BigOperators

namespace BlockedSum

/-- The `k`-th index of block `s` is an index of the whole range. -/
theorem block_index_lt {a b : ℕ} (s : Fin a) (k : Fin b) : s.val * b + k.val < a * b := by
  have hs : s.val + 1 ≤ a := s.isLt
  have hk : k.val < b := k.isLt
  calc s.val * b + k.val < s.val * b + b := Nat.add_lt_add_left hk _
    _ = (s.val + 1) * b := (Nat.succ_mul _ _).symm
    _ ≤ a * b := Nat.mul_le_mul_right b hs

/-- The `k`-th index of block `s`, as an index of the whole range. -/
def blockIndex {a b : ℕ} (s : Fin a) (k : Fin b) : Fin (a * b) := ⟨s.val * b + k.val, block_index_lt s k⟩

@[simp] theorem blockIndex_val {a b : ℕ} (s : Fin a) (k : Fin b) : (blockIndex s k).val = s.val * b + k.val := rfl

/-- A sum over `a * b` indices is the sum of its `a` consecutive blocks of `b` terms each. -/
theorem sum_eq_sum_blocks {M : Type*} [AddCommMonoid M] (a b : ℕ) (f : Fin (a * b) → M) :
    ∑ i : Fin (a * b), f i = ∑ s : Fin a, ∑ k : Fin b, f (blockIndex s k) := by
  rw [← Equiv.sum_comp finProdFinEquiv f, Fintype.sum_prod_type]
  refine Finset.sum_congr rfl fun s _ => Finset.sum_congr rfl fun k _ => congrArg f (Fin.ext ?_)
  show k.val + b * s.val = s.val * b + k.val
  rw [Nat.add_comm, Nat.mul_comm]

/-- The same with the blocks counted by a natural number below `a` (a `Finset.range` sum, the form a fold over
    consecutive steps unrolls to): `g` gives block `s`'s term at its `k`-th place, and agrees with `f` there. -/
theorem sum_range_blocks {M : Type*} [AddCommMonoid M] (a b : ℕ) (f : Fin (a * b) → M) (g : ℕ → Fin b → M)
    (hg : ∀ (s : Fin a) (k : Fin b), g s.val k = f (blockIndex s k)) :
    ∑ s ∈ Finset.range a, ∑ k : Fin b, g s k = ∑ i : Fin (a * b), f i := by
  rw [sum_eq_sum_blocks, Finset.sum_range]
  exact Finset.sum_congr rfl fun s _ => Finset.sum_congr rfl fun k _ => hg s k

end BlockedSum
-- ==== Proof.Val.Accum.lean ====
/-
  An accumulator filled one block at a time holds the whole sum.

  If an accumulator starts at  z + g 0  and each further step adds the next term,  a (n+1) = a n + g (n+1),  then
  after step n it holds  z + (g 0 + g 1 + … + g n).  When term g f is itself the sum of block f's own terms,
  h (f * b + 0) + … + h (f * b + (b - 1)),  the sum of the first blocks is the sum over all the indices they
  cover (LibBlockedSum): eight blocks of 2048 cover 0 … 16383, and so do sixty-four blocks of 256.
  Only commutativity and associativity of addition are used, so the laws hold in the extended reals.
-/
import proofs.«146741_j35055523070100_2_alg».proof.Proof.LibBlockedSum

open scoped BigOperators

namespace Cert.KernelIdeal.HandValue

/-- An accumulator that starts at `z + g 0` and adds `g (n + 1)` at step `n + 1` holds `z` plus the sum of the
    terms up to the step. -/
theorem acc_closed {M : Type*} [AddCommMonoid M] (z : M) (g a : ℕ → M) (h0 : a 0 = z + g 0)
    (hs : ∀ n, a (n + 1) = a n + g (n + 1)) (n : ℕ) : a n = z + ∑ j ∈ Finset.range (n + 1), g j := by
  induction n with
  | zero => rw [h0, Finset.sum_range_one]
  | succ n ih => rw [hs, ih, Finset.sum_range_succ _ (n + 1), add_assoc]

/-- Eight consecutive blocks of 2048 terms are the 16384 terms. -/
theorem sum_blocks_8_2048 {M : Type*} [AddCommMonoid M] (h : ℕ → M) :
    ∑ f ∈ Finset.range 8, ∑ k : Fin 2048, h (f * 2048 + k.val) = ∑ K : Fin 16384, h K.val :=
  BlockedSum.sum_range_blocks 8 2048 (fun i => h i.val) (fun f k => h (f * 2048 + k.val)) (fun _ _ => rfl)

/-- Sixty-four consecutive blocks of 256 terms are the 16384 terms. -/
theorem sum_blocks_64_256 {M : Type*} [AddCommMonoid M] (h : ℕ → M) :
    ∑ f ∈ Finset.range 64, ∑ k : Fin 256, h (f * 256 + k.val) = ∑ K : Fin 16384, h K.val :=
  BlockedSum.sum_range_blocks 64 256 (fun i => h i.val) (fun f k => h (f * 256 + k.val)) (fun _ _ => rfl)

end Cert.KernelIdeal.HandValue
-- ==== Proof.Val.Region0Acc.lean ====
/-
  Region 0 at the ideal instance: the accumulators in closed form. After reduction step f of batch half b the first
  accumulator holds, at (p, q), the zero word plus the steps' products Σ_{j ≤ f} Σ_k x(512b+p, 2048j+k)·e(2048j+k, q),
  the second the same sums of (x·x)·(e·e); by induction on the grid point, the reset restarting the sum at f = 0.
-/
import proofs.«146741_j35055523070100_2_alg».proof.Proof.Val.Region0Blocks
import proofs.«146741_j35055523070100_2_alg».proof.Proof.KI.Region0Pieces
import proofs.«146741_j35055523070100_2_alg».proof.Proof.Val.Payloads
import proofs.«146741_j35055523070100_2_alg».proof.Proof.Val.Accum

noncomputable section

namespace Cert.KernelIdeal.HandValue

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)
open scoped BigOperators

variable (V : (c : Dev nD) → (b : Ref sig .tc) → Buf (Elt Ideal) ((c : Thread nD τ).loc b))

/-- Reduction step `j`'s x·e product for batch half `b`, at entry (p, q). -/
def prodE (c : Dev nD) (b j p q : ℕ) : EReal :=
  ∑ k : Fin 2048, xN V c (b * 512 + p) (j * 2048 + k.val) * eN V c (j * 2048 + k.val) q
/-- Reduction step `j`'s (x·x)·(e·e) product for batch half `b`, at entry (p, q). -/
def prodS (c : Dev nD) (b j p q : ℕ) : EReal :=
  ∑ k : Fin 2048, (xN V c (b * 512 + p) (j * 2048 + k.val) * xN V c (b * 512 + p) (j * 2048 + k.val))
    * (eN V c (j * 2048 + k.val) q * eN V c (j * 2048 + k.val) q)

/-- The zero word the reset stores. -/
abbrev zeroW : EReal := Ideal.ofBits .f32 0x00000000#32

/-- The feature block and the embedding block at point `t`, as vectors of their literal shapes. -/
abbrev xb (c : Dev nD) (t : Fin cfg0.N) : FVec Ideal S512x2048 .f32 := iblk0 V c 0 t
abbrev eb (c : Dev nD) (t : Fin cfg0.N) : FVec Ideal S2048x256 .f32 := iblk0 V c 1 t

/-- The step's product of the point's two blocks is the arrays' product term. -/
theorem blkProdE (c : Dev nD) (t : Fin cfg0.N) (p : Fin 512) (q : Fin 256) :
    (∑ k : Fin 2048, xb V c t (ix2 p k) * eb V c t (ix2 k q))
      = prodE V c (t.val / 8) (t.val % 8) p.val q.val := by
  unfold prodE
  exact Finset.sum_congr rfl fun k _ => by rw [show xb V c t (ix2 p k) = _ from blk0_apply V c t p k, show eb V c t (ix2 k q) = _ from blk1_apply V c t k q]
theorem blkProdS (c : Dev nD) (t : Fin cfg0.N) (p : Fin 512) (q : Fin 256) :
    (∑ k : Fin 2048, (xb V c t (ix2 p k) * xb V c t (ix2 p k))
        * (eb V c t (ix2 k q) * eb V c t (ix2 k q)))
      = prodS V c (t.val / 8) (t.val % 8) p.val q.val := by
  unfold prodS
  exact Finset.sum_congr rfl fun k _ => by rw [show xb V c t (ix2 p k) = _ from blk0_apply V c t p k, show eb V c t (ix2 k q) = _ from blk1_apply V c t k q]

/-! ## One step -/

/-- At a first reduction step both accumulators restart from the zero word. -/
theorem acc_first (c : Dev nD) (t : Fin cfg0.N) (h0 : t.val % 8 = 0) (p : Fin 512) (q : Fin 256) :
    (outsAt0 V c t.val t.isLt).2.1 (ix2 p q) = zeroW + prodE V c (t.val / 8) (t.val % 8) p.val q.val
    ∧ (outsAt0 V c t.val t.isLt).2.2 (ix2 p q) = zeroW + prodS V c (t.val / 8) (t.val % 8) p.val q.val := by
  have h1 : ¬t.val % 8 = 7 := by omega
  rw [outsAt0_A V c t h0 h1]
  unfold stepA
  dsimp only
  rw [accA_0, accA_1, k0_pay3_apply, k0_pay4_apply, k0_pay1_apply, k0_pay2_apply, blkProdE, blkProdS]
  exact ⟨rfl, rfl⟩

/-- At every later step each accumulator adds the step's product to what the step before left. -/
theorem acc_next (c : Dev nD) (t : Fin cfg0.N) (h0 : ¬t.val % 8 = 0) (p : Fin 512) (q : Fin 256) :
    (outsAt0 V c t.val t.isLt).2.1 (ix2 p q)
        = (outsAt0 V c (t.val - 1) (Nat.lt_of_le_of_lt (Nat.sub_le _ _) t.isLt)).2.1 (ix2 p q) + prodE V c (t.val / 8) (t.val % 8) p.val q.val
    ∧ (outsAt0 V c t.val t.isLt).2.2 (ix2 p q)
        = (outsAt0 V c (t.val - 1) (Nat.lt_of_le_of_lt (Nat.sub_le _ _) t.isLt)).2.2 (ix2 p q) + prodS V c (t.val / 8) (t.val % 8) p.val q.val := by
  by_cases h1 : t.val % 8 = 7
  · rw [outsAt0_C V c t h0 h1]
    unfold stepC
    dsimp only
    rw [accC_0, accC_1, k0_pay3_apply, k0_pay4_apply, blkProdE, blkProdS]
    exact ⟨rfl, rfl⟩
  · rw [outsAt0_B V c t h0 h1]
    unfold stepB
    dsimp only
    rw [accB_0, accB_1, k0_pay3_apply, k0_pay4_apply, blkProdE, blkProdS]
    exact ⟨rfl, rfl⟩

/-- The last step's output block is half · (acc₀ · acc₀ − acc₁) of the accumulators it has just advanced. -/
theorem out_last (c : Dev nD) (t : Fin cfg0.N) (h1 : t.val % 8 = 7) (p : Fin 512) (q : Fin 256) :
    (outsAt0 V c t.val t.isLt).1 (ix2 p q)
      = Ideal.ofBits .f32 0x3F000000#32 * ((outsAt0 V c t.val t.isLt).2.1 (ix2 p q) * (outsAt0 V c t.val t.isLt).2.1 (ix2 p q) - (outsAt0 V c t.val t.isLt).2.2 (ix2 p q)) := by
  have h0 : ¬t.val % 8 = 0 := by omega
  rw [outsAt0_C V c t h0 h1]
  unfold stepC
  dsimp only
  rw [outC, accC_0, accC_1, k0_pay5_apply]

/-! ## The closed form -/

/-- After position `n` the accumulators hold the zero word plus the products of the steps 0 … n % 8 of batch half n / 8. -/
theorem acc_closed0 (c : Dev nD) : ∀ (n : ℕ) (h : n < cfg0.N) (p : Fin 512) (q : Fin 256),
    (outsAt0 V c n h).2.1 (ix2 p q) = zeroW + ∑ j ∈ Finset.range (n % 8 + 1), prodE V c (n / 8) j p.val q.val
    ∧ (outsAt0 V c n h).2.2 (ix2 p q) = zeroW + ∑ j ∈ Finset.range (n % 8 + 1), prodS V c (n / 8) j p.val q.val
  | 0, h, p, q => by
    have := acc_first V c ⟨0, h⟩ (Nat.zero_mod _) p q
    simpa using this
  | n + 1, h, p, q => by
    by_cases h0 : (n + 1) % 8 = 0
    · have := acc_first V c ⟨n + 1, h⟩ h0 p q
      dsimp only at this
      rw [this.1, this.2, h0]
      simp
    · have := acc_next V c ⟨n + 1, h⟩ h0 p q
      dsimp only at this
      have ih := acc_closed0 c n (Nat.lt_of_succ_lt h) p q
      have e1 : (n + 1) / 8 = n / 8 := by omega
      have e2 : (n + 1) % 8 = n % 8 + 1 := by omega
      rw [this.1, this.2]
      show (outsAt0 V c n _).2.1 (ix2 p q) + _ = _ ∧ (outsAt0 V c n _).2.2 (ix2 p q) + _ = _
      rw [ih.1, ih.2, e1, e2, Finset.sum_range_succ (fun j => prodE V c (n / 8) j p.val q.val) (n % 8 + 1),
        Finset.sum_range_succ (fun j => prodS V c (n / 8) j p.val q.val) (n % 8 + 1), add_assoc, add_assoc]
      exact ⟨rfl, rfl⟩

end Cert.KernelIdeal.HandValue

end
-- ==== Proof.Spec.lean ====
/-
  The specification of the factorization-machine layer, at the ideal instance: a float is an extended real,
  every arithmetic operation is the extended reals' own, a change of format is the identity.

  Sizes: B = 1024 rows, Fdim = 16384 features, D = 256 embedding coordinates, O = 4096 outputs.
  Arguments: x [1024,16384], e [16384,256], lw [4096,16384], lb [4096], w1 [256,256], b1 [256],
  w2 [4096,256], b2 [4096].

    ivec(p,d) = half * ((sum_k x(p,k) e(k,d)) * (sum_k x(p,k) e(k,d)) - sum_k (x(p,k) x(p,k)) (e(k,d) e(k,d)))
    lin(p,o)  = (sum_k x(p,k) lw(o,k)) + lb(o)
    hid(p,j)  = max ((sum_d ivec(p,d) w1(j,d)) + b1(j)) zero
    iout(p,o) = (sum_j hid(p,j) w2(o,j)) + b2(o)
    out(p,o)  = lin(p,o) + iout(p,o)

  half is the value of the f32 word 0x3F000000 and zero the value of the f32 word 0x00000000; both are kept as
  the words' values and never evaluated (the second is the extended real 0: Ideal.ofBits_zero_f32).
  The pairwise-interaction term is the sum-square identity: half the square of the sum minus the sum of the squares.
-/
import Idealize.ShloMosaic.PureOps.Ideal
import Idealize.ShloMosaic.PureOps.Ideal.Laws
import Idealize.ShloMosaic.Lib.ValueIdx

noncomputable section

open scoped BigOperators

namespace Cert.Spec

open Idealize.ShloMosaic Idealize.ShloMosaic.ValueIdx

/-- The pairwise-interaction vector: half of (the square of the embedded sum minus the sum of the embedded squares). -/
def ivec (x : (⟨2, ![1024, 16384]⟩ : Shape).Idx → EReal) (e : (⟨2, ![16384, 256]⟩ : Shape).Idx → EReal) :
    (⟨2, ![1024, 256]⟩ : Shape).Idx → EReal := fun i =>
  Ideal.ofBits .f32 0x3F000000#32 *
    ((∑ k : Fin 16384, x (ix2 (i 0) k) * e (ix2 k (i 1))) * (∑ k : Fin 16384, x (ix2 (i 0) k) * e (ix2 k (i 1)))
      - ∑ k : Fin 16384, (x (ix2 (i 0) k) * x (ix2 (i 0) k)) * (e (ix2 k (i 1)) * e (ix2 k (i 1))))

/-- The linear term: the features against the linear weights' row, plus the bias. -/
def lin (x : (⟨2, ![1024, 16384]⟩ : Shape).Idx → EReal) (lw : (⟨2, ![4096, 16384]⟩ : Shape).Idx → EReal)
    (lb : (⟨1, ![4096]⟩ : Shape).Idx → EReal) : (⟨2, ![1024, 4096]⟩ : Shape).Idx → EReal := fun i =>
  (∑ k : Fin 16384, x (ix2 (i 0) k) * lw (ix2 (i 1) k)) + lb (ix1 (i 1))

/-- The hidden layer: the interaction vector against the first weights' row, plus the bias, clamped below at zero. -/
def hid (x : (⟨2, ![1024, 16384]⟩ : Shape).Idx → EReal) (e : (⟨2, ![16384, 256]⟩ : Shape).Idx → EReal)
    (w1 : (⟨2, ![256, 256]⟩ : Shape).Idx → EReal) (b1 : (⟨1, ![256]⟩ : Shape).Idx → EReal) :
    (⟨2, ![1024, 256]⟩ : Shape).Idx → EReal := fun i =>
  max ((∑ d : Fin 256, ivec x e (ix2 (i 0) d) * w1 (ix2 (i 1) d)) + b1 (ix1 (i 1))) (Ideal.ofBits .f32 0x00000000#32)

/-- The interaction output: the hidden layer against the second weights' row, plus the bias. -/
def iout (x : (⟨2, ![1024, 16384]⟩ : Shape).Idx → EReal) (e : (⟨2, ![16384, 256]⟩ : Shape).Idx → EReal)
    (w1 : (⟨2, ![256, 256]⟩ : Shape).Idx → EReal) (b1 : (⟨1, ![256]⟩ : Shape).Idx → EReal)
    (w2 : (⟨2, ![4096, 256]⟩ : Shape).Idx → EReal) (b2 : (⟨1, ![4096]⟩ : Shape).Idx → EReal) :
    (⟨2, ![1024, 4096]⟩ : Shape).Idx → EReal := fun i =>
  (∑ j : Fin 256, hid x e w1 b1 (ix2 (i 0) j) * w2 (ix2 (i 1) j)) + b2 (ix1 (i 1))

/-- The output: the linear term plus the interaction output. -/
def out (x : (⟨2, ![1024, 16384]⟩ : Shape).Idx → EReal) (e : (⟨2, ![16384, 256]⟩ : Shape).Idx → EReal)
    (lw : (⟨2, ![4096, 16384]⟩ : Shape).Idx → EReal) (lb : (⟨1, ![4096]⟩ : Shape).Idx → EReal)
    (w1 : (⟨2, ![256, 256]⟩ : Shape).Idx → EReal) (b1 : (⟨1, ![256]⟩ : Shape).Idx → EReal)
    (w2 : (⟨2, ![4096, 256]⟩ : Shape).Idx → EReal) (b2 : (⟨1, ![4096]⟩ : Shape).Idx → EReal) :
    (⟨2, ![1024, 4096]⟩ : Shape).Idx → EReal := fun i =>
  lin x lw lb i + iout x e w1 b1 w2 b2 i

end Cert.Spec

end
-- ==== Proof.Val.Region0Final.lean ====
/-
  Region 0 at the ideal instance: the array it leaves. At the last reduction step of batch half b the accumulators
  hold the whole contractions over the 16384 features (eight blocks of 2048 make the sum over all of them, the zero
  word the reset stored adding nothing), so the block written back is rows 512·b … of
  half · ((Σ x·e)·(Σ x·e) − Σ (x·x)·(e·e)); the two write-backs cover the 1024 rows.
-/
import proofs.«146741_j35055523070100_2_alg».proof.Proof.Val.Region0Acc
import proofs.«146741_j35055523070100_2_alg».proof.Proof.Spec

noncomputable section

namespace Cert.KernelIdeal.HandValue

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)
open scoped BigOperators

variable (V : (c : Dev nD) → (b : Ref sig .tc) → Buf (Elt Ideal) ((c : Thread nD τ).loc b))

/-- The feature matrix and the embedding table as the region finds them, as vectors of their literal shapes. -/
abbrev xa (c : Dev nD) : FVec Ideal S1024x16384 .f32 := V c main_arg0
abbrev ea (c : Dev nD) : FVec Ideal S16384x256 .f32 := V c main_arg1

/-- The interaction vector of the arrays the region finds. -/
abbrev G0 (c : Dev nD) : Vec Ideal S1024x256 .f32 := Cert.Spec.ivec (xa V c) (ea V c)

/-- Eight blocks of 2048 products are the contraction over all 16384 features. -/
theorem sumE (c : Dev nD) (b : ℕ) (hb : b < 2) (p : Fin 512) (q : Fin 256) :
    zeroW + ∑ j ∈ Finset.range 8, prodE V c b j p.val q.val
      = ∑ K : Fin 16384, xa V c (ix2 ⟨b * 512 + p.val, by have := p.isLt; omega⟩ K)
          * ea V c (ix2 K q) := by
  have hp := p.isLt
  unfold zeroW
  rw [Ideal.ofBits_zero_f32, zero_add]
  refine Eq.trans ?_ ((sum_blocks_8_2048 (fun K => xN V c (b * 512 + p.val) K * eN V c K q.val)).trans ?_)
  · rfl
  · refine Finset.sum_congr rfl fun K _ => ?_
    unfold xN eN
    rw [dif_pos ⟨by omega, K.isLt⟩, dif_pos ⟨K.isLt, q.isLt⟩]

theorem sumS (c : Dev nD) (b : ℕ) (hb : b < 2) (p : Fin 512) (q : Fin 256) :
    zeroW + ∑ j ∈ Finset.range 8, prodS V c b j p.val q.val
      = ∑ K : Fin 16384, (xa V c (ix2 ⟨b * 512 + p.val, by have := p.isLt; omega⟩ K)
            * xa V c (ix2 ⟨b * 512 + p.val, by have := p.isLt; omega⟩ K))
          * (ea V c (ix2 K q) * ea V c (ix2 K q)) := by
  have hp := p.isLt
  unfold zeroW
  rw [Ideal.ofBits_zero_f32, zero_add]
  refine Eq.trans ?_ ((sum_blocks_8_2048 (fun K => (xN V c (b * 512 + p.val) K * xN V c (b * 512 + p.val) K) * (eN V c K q.val * eN V c K q.val))).trans ?_)
  · rfl
  · refine Finset.sum_congr rfl fun K _ => ?_
    unfold xN eN
    rw [dif_pos ⟨by omega, K.isLt⟩, dif_pos ⟨K.isLt, q.isLt⟩]

/-- What a last reduction step writes back is its block of the interaction vector. -/
theorem flushed0_eq (c : Dev nD) (t : Fin cfg0.N) (hf : (cfg0.win 2).flush t = true) :
    (dat0 V c).flushed 2 t = ((cfg0.win 2).blk t).view.read (Elt Ideal) (G0 V c) := by
  have h7 : t.val % 8 = 7 := (flush0_2 t).mp hf
  have hN : t.val < 16 := lt_of_lt_of_eq t.isLt (show cfg0.N = 16 from N_0)
  obtain ⟨-, -, -, -, e0, e1⟩ := idx0 t
  show (cfg0.win 2).cut (grid0.coords t) ((dat0 V c).after 2 t) = _
  rw [after0_2]
  funext j
  obtain ⟨p, q, rfl⟩ : ∃ (p : Fin 512) (q : Fin 256), j = ix2 p q := ⟨j 0, j 1, eq_ix2 j⟩
  have hp := p.isLt
  have hq := q.isLt
  rw [View.read_apply]
  have hemb : ((cfg0.win 2).blk t).view.emb (ix2 p q) = (ix2 (⟨t.val / 8 * 512 + p.val, by omega⟩ : Fin 1024) q : S1024x256.Idx) := by
    funext a; apply Fin.ext
    match a with
    | ⟨0, _⟩ => show win0_2.index t (0 : Fin 2) * 512 + 1 * p.val = t.val / 8 * 512 + p.val; rw [e0]; omega
    | ⟨1, _⟩ => show win0_2.index t (1 : Fin 2) * 256 + 1 * q.val = q.val; rw [e1]; omega
  rw [hemb]
  show (outsAt0 V c t.val t.isLt).1 (ix2 p q) = Cert.Spec.ivec (xa V c) (ea V c) (ix2 (⟨t.val / 8 * 512 + p.val, by omega⟩ : Fin 1024) q)
  rw [out_last V c t h7 p q, (acc_closed0 V c t.val t.isLt p q).1, (acc_closed0 V c t.val t.isLt p q).2, h7]
  show Ideal.ofBits .f32 0x3F000000#32 * ((zeroW + ∑ j ∈ Finset.range 8, prodE V c (t.val / 8) j p.val q.val) * (zeroW + ∑ j ∈ Finset.range 8, prodE V c (t.val / 8) j p.val q.val)
      - (zeroW + ∑ j ∈ Finset.range 8, prodS V c (t.val / 8) j p.val q.val)) = _
  rw [sumE V c (t.val / 8) (by omega) p q, sumS V c (t.val / 8) (by omega) p q]
  rfl

/-- An index of the output array is in point `t`'s block iff each coordinate is in the block's range. -/
theorem mem_blk0 (t : Fin cfg0.N) (i : S1024x256.Idx) :
    i ∈ ((cfg0.win 2).blk t).view.set ↔ ∀ a : Fin 2, win0_2.index t a * S512x256.size a ≤ (i a).val ∧ (i a).val < win0_2.index t a * S512x256.size a + S512x256.size a := by
  show i ∈ ((View.whole main_v0).slice (win0_2.rect t)).set ↔ _
  rw [View.set_slice_whole, Rect.mem_set_unit]
  exact Iff.rfl

/-- Region 0 leaves the interaction vector in its output array. -/
theorem final0 (c : Dev nD) : (dat0 V c).arrAt 2 cfg0.N = G0 V c :=
  (dat0 V c).arrAt_eq_of_cover 2 (G0 V c) (flushed0_eq V c) fun i => by
    have hi0 : (i 0).val < 1024 := (i 0).isLt
    have hi1 : (i 1).val < 256 := (i 1).isLt
    have hN : cfg0.N = 16 := N_0
    let t : Fin cfg0.N := ⟨(i 0).val / 512 * 8 + 7, by rw [hN]; omega⟩
    have ht : t.val = (i 0).val / 512 * 8 + 7 := rfl
    obtain ⟨-, -, -, -, e0, e1⟩ := idx0 t
    refine ⟨t, (flush0_2 t).mpr (by rw [ht]; omega), ?_⟩
    rw [mem_blk0]
    intro a
    match a with
    | ⟨0, _⟩ =>
      show win0_2.index t (0 : Fin 2) * 512 ≤ (i 0).val ∧ (i 0).val < win0_2.index t (0 : Fin 2) * 512 + 512
      rw [e0, ht]; omega
    | ⟨1, _⟩ =>
      show win0_2.index t (1 : Fin 2) * 256 ≤ (i 1).val ∧ (i 1).val < win0_2.index t (1 : Fin 2) * 256 + 256
      rw [e1]; omega

end Cert.KernelIdeal.HandValue

end
-- ==== Proof.Val.Region1Blocks.lean ====
/-
  Region 1 at the ideal instance: where a block's entry sits in its array. Grid point t = 64·o + f (o the half of
  the output columns, f the reduction step) stages all 1024 rows of the feature matrix at columns 256·f …, rows
  2048·o … of the linear weights at columns 256·f …, columns 2048·o … of the bias row, and writes columns 2048·o …
  of the linear term.
-/
import proofs.«146741_j35055523070100_2_alg».proof.Proof.KI.Region1
import Idealize.ShloMosaic.Lib.Pipeline.Value
import Idealize.ShloMosaic.Lib.ValueIdx

noncomputable section

namespace Cert.KernelIdeal.HandValue

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)
open scoped BigOperators

variable (V : (c : Dev nD) → (b : Ref sig .tc) → Buf (Elt Ideal) ((c : Thread nD τ).loc b))

/-- The four index maps of region 1, decided once over its 128 grid points. -/
theorem idx1 : ∀ t : Fin cfg1.N, win1_0.index t (0 : Fin 2) = 0 ∧ win1_0.index t (1 : Fin 2) = t.val % 64
    ∧ win1_1.index t (0 : Fin 2) = t.val / 64 ∧ win1_1.index t (1 : Fin 2) = t.val % 64
    ∧ win1_2.index t (0 : Fin 2) = 0 ∧ win1_2.index t (1 : Fin 2) = t.val / 64
    ∧ win1_3.index t (0 : Fin 2) = 0 ∧ win1_3.index t (1 : Fin 2) = t.val / 64 :=
  (by decide +kernel : ∀ t : Fin grid1.N, _)

/-- Entry (r, k) of the feature matrix as the region finds it (zero outside the matrix). -/
def xN1 (c : Dev nD) (r k : ℕ) : EReal :=
  if h : r < 1024 ∧ k < 16384 then (V c main_arg0 : Vec Ideal S1024x16384 .f32) (ix2 ⟨r, h.1⟩ ⟨k, h.2⟩) else 0
/-- Entry (o, k) of the linear weights as the region finds them (zero outside the array). -/
def wN (c : Dev nD) (o k : ℕ) : EReal :=
  if h : o < 4096 ∧ k < 16384 then (V c main_arg2 : Vec Ideal S4096x16384 .f32) (ix2 ⟨o, h.1⟩ ⟨k, h.2⟩) else 0
/-- Entry o of the bias row as the region finds it (zero outside the row). -/
def bN (c : Dev nD) (o : ℕ) : EReal :=
  if h : o < 4096 then (V c main_v1 : Vec Ideal S1x4096 .f32) (ix2 (0 : Fin 1) ⟨o, h⟩) else 0

/-- The feature block at point `t`: entry (p, k) is the matrix's entry (p, 256·(t%64) + k). -/
theorem blk1_0_apply (c : Dev nD) (t : Fin cfg1.N) (p : Fin 1024) (k : Fin 256) :
    (iblk1 V c 0 t : Vec Ideal S1024x256 .f32) (ix2 p k) = xN1 V c p.val (t.val % 64 * 256 + k.val) := by
  have hN : t.val < 128 := lt_of_lt_of_eq t.isLt (show cfg1.N = 128 from N_1)
  have hp := p.isLt
  have hk := k.isLt
  obtain ⟨e0, e1, -, -, -, -, -, -⟩ := idx1 t
  unfold xN1
  rw [dif_pos ⟨by omega, by omega⟩]
  unfold iblk1
  rw [View.read_apply]
  show (V c main_arg0 : Vec Ideal S1024x16384 .f32) _ = _
  refine congrArg _ ?_
  funext a; apply Fin.ext
  match a with
  | ⟨0, _⟩ => show win1_0.index t (0 : Fin 2) * 1024 + 1 * p.val = p.val; rw [e0]; omega
  | ⟨1, _⟩ => show win1_0.index t (1 : Fin 2) * 256 + 1 * k.val = t.val % 64 * 256 + k.val; rw [e1]; omega

/-- The weights block at point `t`: entry (q, k) is the array's entry (2048·(t/64) + q, 256·(t%64) + k). -/
theorem blk1_1_apply (c : Dev nD) (t : Fin cfg1.N) (q : Fin 2048) (k : Fin 256) :
    (iblk1 V c 1 t : Vec Ideal S2048x256 .f32) (ix2 q k) = wN V c (t.val / 64 * 2048 + q.val) (t.val % 64 * 256 + k.val) := by
  have hN : t.val < 128 := lt_of_lt_of_eq t.isLt (show cfg1.N = 128 from N_1)
  have hq := q.isLt
  have hk := k.isLt
  obtain ⟨-, -, e0, e1, -, -, -, -⟩ := idx1 t
  unfold wN
  rw [dif_pos ⟨by omega, by omega⟩]
  unfold iblk1
  rw [View.read_apply]
  show (V c main_arg2 : Vec Ideal S4096x16384 .f32) _ = _
  refine congrArg _ ?_
  funext a; apply Fin.ext
  match a with
  | ⟨0, _⟩ => show win1_1.index t (0 : Fin 2) * 2048 + 1 * q.val = t.val / 64 * 2048 + q.val; rw [e0]; omega
  | ⟨1, _⟩ => show win1_1.index t (1 : Fin 2) * 256 + 1 * k.val = t.val % 64 * 256 + k.val; rw [e1]; omega

/-- The bias block at point `t`: entry (0, q) is the row's entry 2048·(t/64) + q. -/
theorem blk1_2_apply (c : Dev nD) (t : Fin cfg1.N) (q : Fin 2048) :
    (iblk1 V c 2 t : Vec Ideal S1x2048 .f32) (ix2 (0 : Fin 1) q) = bN V c (t.val / 64 * 2048 + q.val) := by
  have hN : t.val < 128 := lt_of_lt_of_eq t.isLt (show cfg1.N = 128 from N_1)
  have hq := q.isLt
  obtain ⟨-, -, -, -, e0, e1, -, -⟩ := idx1 t
  unfold bN
  rw [dif_pos (by omega)]
  unfold iblk1
  rw [View.read_apply]
  show (V c main_v1 : Vec Ideal S1x4096 .f32) _ = _
  refine congrArg _ ?_
  funext a; apply Fin.ext
  match a with
  | ⟨0, _⟩ => show win1_2.index t (0 : Fin 2) * 1 + 1 * 0 = 0; rw [e0]
  | ⟨1, _⟩ => show win1_2.index t (1 : Fin 2) * 2048 + 1 * q.val = t.val / 64 * 2048 + q.val; rw [e1]; omega

end Cert.KernelIdeal.HandValue

end
-- ==== Proof.KI.Region1Pieces.lean ====
/-
  Region 1: the found pieces read back as values. A reduction step leaves in the accumulator the step's product
  x·wᵀ added to what the accumulator held (the zero block at the first step of a row of the grid), and the last
  step of a row stores the accumulator it has just advanced with the bias row added to every row of it.
-/
import proofs.«146741_j35055523070100_2_alg».proof.Proof.KI.Region1
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem hz1 : (![0, 0] : Fin 2 → Nat) = fun _ => 0 := funext fun a => by fin_cases a <;> rfl

/-- A middle step: the accumulator's one covering store is the step's product added to its contents. -/
theorem accB1 (c : Dev nD) (i : grid1.Coords) (arg2 : Memref sig .tc .vmem S1024x256 .f32) (harg2 : arg2.IsWhole) (arg3 : Memref sig .tc .vmem S2048x256 .f32) (harg3 : arg3.IsWhole) (arg4 : Memref sig .tc .vmem S1x2048 .f32) (harg4 : arg4.IsWhole) (arg5 : Memref sig .tc .vmem S1024x2048 .f32) (harg5 : arg5.IsWhole) (arg6 : Memref sig .tc .vmem S1024x2048 .f32) (harg6 : arg6.IsWhole) (hc0 : ¬cond1_0 i) (hc1 : ¬cond1_1 i)
    (x0 : Vec F S1024x256 .f32) (x1 : Vec F S2048x256 .f32) (x2 : Vec F S1x2048 .f32) (xs0 : Vec F S1024x2048 .f32) :
    VS1_0.read (Elt F) (VS1_0.writes (Elt F) VS1_0.junk (kernelRun1_B (F := F) c i arg2 harg2 arg3 harg3 arg4 harg4 arg5 harg5 arg6 harg6 hc0 hc1 x0 x1 x2 xs0).2.1) = k1_pay2 x0 x1 xs0 := by
  rw [View.read_writes_eq_canon _ _ _ (View.cover_of_tiledL _ S1024x2048.size (by sl_kernel_rfl))]
  unfold kernelRun1_B
  dsimp only
  sl_unfold_words
  rw [View.canon_unit_zero hz1]
  simp only [View.readAt_eq_ld, harg2.read_unread, harg3.read_unread, harg4.read_unread, harg5.read_unread, harg6.read_unread, View.ld_unit_zero (S := S1024x256) hz1, View.ld_unit_zero (S := S2048x256) hz1, View.ld_unit_zero (S := S1x2048) hz1, View.ld_unit_zero (S := S1024x2048) hz1]

/-- The last step of a row advances the accumulator the same way … -/
theorem accC1 (c : Dev nD) (i : grid1.Coords) (arg2 : Memref sig .tc .vmem S1024x256 .f32) (harg2 : arg2.IsWhole) (arg3 : Memref sig .tc .vmem S2048x256 .f32) (harg3 : arg3.IsWhole) (arg4 : Memref sig .tc .vmem S1x2048 .f32) (harg4 : arg4.IsWhole) (arg5 : Memref sig .tc .vmem S1024x2048 .f32) (harg5 : arg5.IsWhole) (arg6 : Memref sig .tc .vmem S1024x2048 .f32) (harg6 : arg6.IsWhole) (hc0 : ¬cond1_0 i) (hc1 : cond1_1 i)
    (x0 : Vec F S1024x256 .f32) (x1 : Vec F S2048x256 .f32) (x2 : Vec F S1x2048 .f32) (xs0 : Vec F S1024x2048 .f32) :
    VS1_0.read (Elt F) (VS1_0.writes (Elt F) VS1_0.junk (kernelRun1_C (F := F) c i arg2 harg2 arg3 harg3 arg4 harg4 arg5 harg5 arg6 harg6 hc0 hc1 x0 x1 x2 xs0).2.1) = k1_pay2 x0 x1 xs0 := by
  rw [View.read_writes_eq_canon _ _ _ (View.cover_of_tiledL _ S1024x2048.size (by sl_kernel_rfl))]
  unfold kernelRun1_C
  dsimp only
  sl_unfold_words
  rw [View.canon_unit_zero hz1]
  simp only [View.readAt_eq_ld, harg2.read_unread, harg3.read_unread, harg4.read_unread, harg5.read_unread, harg6.read_unread, View.ld_unit_zero (S := S1024x256) hz1, View.ld_unit_zero (S := S2048x256) hz1, View.ld_unit_zero (S := S1x2048) hz1, View.ld_unit_zero (S := S1024x2048) hz1]

/-- … and stores the output block: the advanced accumulator with the bias row added. -/
theorem outC1 (c : Dev nD) (i : grid1.Coords) (arg2 : Memref sig .tc .vmem S1024x256 .f32) (harg2 : arg2.IsWhole) (arg3 : Memref sig .tc .vmem S2048x256 .f32) (harg3 : arg3.IsWhole) (arg4 : Memref sig .tc .vmem S1x2048 .f32) (harg4 : arg4.IsWhole) (arg5 : Memref sig .tc .vmem S1024x2048 .f32) (harg5 : arg5.IsWhole) (arg6 : Memref sig .tc .vmem S1024x2048 .f32) (harg6 : arg6.IsWhole) (hc0 : ¬cond1_0 i) (hc1 : cond1_1 i)
    (x0 : Vec F S1024x256 .f32) (x1 : Vec F S2048x256 .f32) (x2 : Vec F S1x2048 .f32) (xs0 : Vec F S1024x2048 .f32) :
    VO1_3.read (Elt F) (VO1_3.writes (Elt F) VO1_3.junk (kernelRun1_C (F := F) c i arg2 harg2 arg3 harg3 arg4 harg4 arg5 harg5 arg6 harg6 hc0 hc1 x0 x1 x2 xs0).1) = k1_pay3 (k1_pay2 x0 x1 xs0) x2 := by
  rw [View.read_writes_eq_canon _ _ _ (View.cover_of_tiledL _ S1024x2048.size (by sl_kernel_rfl))]
  unfold kernelRun1_C
  dsimp only
  sl_unfold_words
  rw [View.canon_unit_zero hz1, View.readCov_unit_zero (S := S1024x2048) _ hz1]
  simp only [View.readAt_eq_ld, harg2.read_unread, harg3.read_unread, harg4.read_unread, harg5.read_unread, harg6.read_unread, View.ld_unit_zero (S := S1024x256) hz1, View.ld_unit_zero (S := S2048x256) hz1, View.ld_unit_zero (S := S1x2048) hz1, View.ld_unit_zero (S := S1024x2048) hz1]

/-- The first step of a row: the accumulator is reset to the zero block, then advanced. -/
theorem accA1 (c : Dev nD) (i : grid1.Coords) (arg2 : Memref sig .tc .vmem S1024x256 .f32) (harg2 : arg2.IsWhole) (arg3 : Memref sig .tc .vmem S2048x256 .f32) (harg3 : arg3.IsWhole) (arg4 : Memref sig .tc .vmem S1x2048 .f32) (harg4 : arg4.IsWhole) (arg5 : Memref sig .tc .vmem S1024x2048 .f32) (harg5 : arg5.IsWhole) (arg6 : Memref sig .tc .vmem S1024x2048 .f32) (harg6 : arg6.IsWhole) (hc0 : cond1_0 i) (hc1 : ¬cond1_1 i)
    (x0 : Vec F S1024x256 .f32) (x1 : Vec F S2048x256 .f32) (x2 : Vec F S1x2048 .f32) :
    VS1_0.read (Elt F) (VS1_0.writes (Elt F) VS1_0.junk (kernelRun1_A (F := F) c i arg2 harg2 arg3 harg3 arg4 harg4 arg5 harg5 arg6 harg6 hc0 hc1 x0 x1 x2).2.1) = k1_pay2 x0 x1 k1_pay1 := by
  rw [View.read_writes_eq_canon _ _ _ (View.cover_of_tiledL _ S1024x2048.size (by sl_kernel_rfl))]
  unfold kernelRun1_A
  dsimp only
  sl_unfold_words
  rw [View.canon_cons_unit_zero (S := S1024x2048) hz1, View.readCov_unit_zero (S := S1024x2048) _ hz1]
  simp only [View.readAt_eq_ld, harg2.read_unread, harg3.read_unread, harg4.read_unread, harg5.read_unread, harg6.read_unread, View.ld_unit_zero (S := S1024x256) hz1, View.ld_unit_zero (S := S2048x256) hz1, View.ld_unit_zero (S := S1x2048) hz1, View.ld_unit_zero (S := S1024x2048) hz1]

/-! ## The same as what each case leaves (`sout1_κ_0`, `out1_C_3`) -/

theorem sout1_A_0_eq (c : Dev nD) (i : grid1.Coords) (arg2 : Memref sig .tc .vmem S1024x256 .f32) (harg2 : arg2.IsWhole) (arg3 : Memref sig .tc .vmem S2048x256 .f32) (harg3 : arg3.IsWhole) (arg4 : Memref sig .tc .vmem S1x2048 .f32) (harg4 : arg4.IsWhole) (arg5 : Memref sig .tc .vmem S1024x2048 .f32) (harg5 : arg5.IsWhole) (arg6 : Memref sig .tc .vmem S1024x2048 .f32) (harg6 : arg6.IsWhole) (hc0 : cond1_0 i) (hc1 : ¬cond1_1 i)
    (x0 : Vec F S1024x256 .f32) (x1 : Vec F S2048x256 .f32) (x2 : Vec F S1x2048 .f32) :
    sout1_A_0 (F := F) c i arg2 harg2 arg3 harg3 arg4 harg4 arg5 harg5 arg6 harg6 hc0 hc1 x0 x1 x2 = k1_pay2 x0 x1 k1_pay1 := by
  unfold sout1_A_0; exact accA1 c i arg2 harg2 arg3 harg3 arg4 harg4 arg5 harg5 arg6 harg6 hc0 hc1 x0 x1 x2

theorem sout1_B_0_eq (c : Dev nD) (i : grid1.Coords) (arg2 : Memref sig .tc .vmem S1024x256 .f32) (harg2 : arg2.IsWhole) (arg3 : Memref sig .tc .vmem S2048x256 .f32) (harg3 : arg3.IsWhole) (arg4 : Memref sig .tc .vmem S1x2048 .f32) (harg4 : arg4.IsWhole) (arg5 : Memref sig .tc .vmem S1024x2048 .f32) (harg5 : arg5.IsWhole) (arg6 : Memref sig .tc .vmem S1024x2048 .f32) (harg6 : arg6.IsWhole) (hc0 : ¬cond1_0 i) (hc1 : ¬cond1_1 i)
    (x0 : Vec F S1024x256 .f32) (x1 : Vec F S2048x256 .f32) (x2 : Vec F S1x2048 .f32) (xs0 : Vec F S1024x2048 .f32) :
    sout1_B_0 (F := F) c i arg2 harg2 arg3 harg3 arg4 harg4 arg5 harg5 arg6 harg6 hc0 hc1 x0 x1 x2 xs0 = k1_pay2 x0 x1 xs0 := by
  unfold sout1_B_0; exact accB1 c i arg2 harg2 arg3 harg3 arg4 harg4 arg5 harg5 arg6 harg6 hc0 hc1 x0 x1 x2 xs0

theorem sout1_C_0_eq (c : Dev nD) (i : grid1.Coords) (arg2 : Memref sig .tc .vmem S1024x256 .f32) (harg2 : arg2.IsWhole) (arg3 : Memref sig .tc .vmem S2048x256 .f32) (harg3 : arg3.IsWhole) (arg4 : Memref sig .tc .vmem S1x2048 .f32) (harg4 : arg4.IsWhole) (arg5 : Memref sig .tc .vmem S1024x2048 .f32) (harg5 : arg5.IsWhole) (arg6 : Memref sig .tc .vmem S1024x2048 .f32) (harg6 : arg6.IsWhole) (hc0 : ¬cond1_0 i) (hc1 : cond1_1 i)
    (x0 : Vec F S1024x256 .f32) (x1 : Vec F S2048x256 .f32) (x2 : Vec F S1x2048 .f32) (xs0 : Vec F S1024x2048 .f32) :
    sout1_C_0 (F := F) c i arg2 harg2 arg3 harg3 arg4 harg4 arg5 harg5 arg6 harg6 hc0 hc1 x0 x1 x2 xs0 = k1_pay2 x0 x1 xs0 := by
  unfold sout1_C_0; exact accC1 c i arg2 harg2 arg3 harg3 arg4 harg4 arg5 harg5 arg6 harg6 hc0 hc1 x0 x1 x2 xs0

theorem out1_C_3_eq (c : Dev nD) (i : grid1.Coords) (arg2 : Memref sig .tc .vmem S1024x256 .f32) (harg2 : arg2.IsWhole) (arg3 : Memref sig .tc .vmem S2048x256 .f32) (harg3 : arg3.IsWhole) (arg4 : Memref sig .tc .vmem S1x2048 .f32) (harg4 : arg4.IsWhole) (arg5 : Memref sig .tc .vmem S1024x2048 .f32) (harg5 : arg5.IsWhole) (arg6 : Memref sig .tc .vmem S1024x2048 .f32) (harg6 : arg6.IsWhole) (hc0 : ¬cond1_0 i) (hc1 : cond1_1 i)
    (x0 : Vec F S1024x256 .f32) (x1 : Vec F S2048x256 .f32) (x2 : Vec F S1x2048 .f32) (xs0 : Vec F S1024x2048 .f32) :
    out1_C_3 (F := F) c i arg2 harg2 arg3 harg3 arg4 harg4 arg5 harg5 arg6 harg6 hc0 hc1 x0 x1 x2 xs0 = k1_pay3 (k1_pay2 x0 x1 xs0) x2 := by
  unfold out1_C_3; exact outC1 c i arg2 harg2 arg3 harg3 arg4 harg4 arg5 harg5 arg6 harg6 hc0 hc1 x0 x1 x2 xs0

/-! ## The accumulation, point by point -/

/-- At the first point of a row of the grid the accumulator ends at the step's product over the zero block. -/
theorem acc1_A (c : Dev nD) (t : Fin cfg1.N) (h0 : t.val % 64 = 0) (h1 : ¬t.val % 64 = 63) :
    (outsAt1 V c t.val t.isLt).2 = k1_pay2 (iblk1 V c 0 t) (iblk1 V c 1 t) k1_pay1 := by
  rw [outsAt1_A V c t h0 h1]; dsimp only
  exact sout1_A_0_eq (F := F) c (grid1.coords t) (ms1_0 t) (hs1_0 t) (ms1_1 t) (hs1_1 t) (ms1_2 t) (hs1_2 t) (ms1_3 t) (hs1_3 t) scM1_0 (Memref.isWhole_whole _) _ _ (iblk1 V c 0 t) (iblk1 V c 1 t) (iblk1 V c 2 t)

/-- At a middle point: the step's product over what the point before left. -/
theorem acc1_B (c : Dev nD) (t : Fin cfg1.N) (h0 : ¬t.val % 64 = 0) (h1 : ¬t.val % 64 = 63) :
    (outsAt1 V c t.val t.isLt).2 = k1_pay2 (iblk1 V c 0 t) (iblk1 V c 1 t) (outsAt1 V c (t.val - 1) (Nat.lt_of_le_of_lt (Nat.sub_le _ _) t.isLt)).2 := by
  rw [outsAt1_B V c t h0 h1]; dsimp only
  exact sout1_B_0_eq (F := F) c (grid1.coords t) (ms1_0 t) (hs1_0 t) (ms1_1 t) (hs1_1 t) (ms1_2 t) (hs1_2 t) (ms1_3 t) (hs1_3 t) scM1_0 (Memref.isWhole_whole _) _ _ (iblk1 V c 0 t) (iblk1 V c 1 t) (iblk1 V c 2 t) (outsAt1 V c (t.val - 1) (Nat.lt_of_le_of_lt (Nat.sub_le _ _) t.isLt)).2

/-- At the last point of a row: the same, -/
theorem acc1_C (c : Dev nD) (t : Fin cfg1.N) (h0 : ¬t.val % 64 = 0) (h1 : t.val % 64 = 63) :
    (outsAt1 V c t.val t.isLt).2 = k1_pay2 (iblk1 V c 0 t) (iblk1 V c 1 t) (outsAt1 V c (t.val - 1) (Nat.lt_of_le_of_lt (Nat.sub_le _ _) t.isLt)).2 := by
  rw [outsAt1_C V c t h0 h1]; dsimp only
  exact sout1_C_0_eq (F := F) c (grid1.coords t) (ms1_0 t) (hs1_0 t) (ms1_1 t) (hs1_1 t) (ms1_2 t) (hs1_2 t) (ms1_3 t) (hs1_3 t) scM1_0 (Memref.isWhole_whole _) _ _ (iblk1 V c 0 t) (iblk1 V c 1 t) (iblk1 V c 2 t) (outsAt1 V c (t.val - 1) (Nat.lt_of_le_of_lt (Nat.sub_le _ _) t.isLt)).2

/-- and the output's buffer holds it with the bias row added. -/
theorem out1_C (c : Dev nD) (t : Fin cfg1.N) (h0 : ¬t.val % 64 = 0) (h1 : t.val % 64 = 63) :
    (outsAt1 V c t.val t.isLt).1 = k1_pay3 (k1_pay2 (iblk1 V c 0 t) (iblk1 V c 1 t) (outsAt1 V c (t.val - 1) (Nat.lt_of_le_of_lt (Nat.sub_le _ _) t.isLt)).2) (iblk1 V c 2 t) := by
  rw [outsAt1_C V c t h0 h1]; dsimp only
  exact out1_C_3_eq (F := F) c (grid1.coords t) (ms1_0 t) (hs1_0 t) (ms1_1 t) (hs1_1 t) (ms1_2 t) (hs1_2 t) (ms1_3 t) (hs1_3 t) scM1_0 (Memref.isWhole_whole _) _ _ (iblk1 V c 0 t) (iblk1 V c 1 t) (iblk1 V c 2 t) (outsAt1 V c (t.val - 1) (Nat.lt_of_le_of_lt (Nat.sub_le _ _) t.isLt)).2

end Cert.KernelIdeal.Hand

end
-- ==== Proof.Val.Region1Acc.lean ====
/-
  Region 1 at the ideal instance: the accumulator in closed form. After reduction step f of output half o the
  accumulator holds, at (p, q), the zero word plus the steps' products
  Σ_{j ≤ f} Σ_k x(p, 256j+k)·lw(2048o+q, 256j+k); by induction on the grid point, the reset restarting the sum at
  f = 0. The last step of a half stores the accumulator with the bias row's entry 2048o+q added.
-/
import proofs.«146741_j35055523070100_2_alg».proof.Proof.Val.Region1Blocks
import proofs.«146741_j35055523070100_2_alg».proof.Proof.KI.Region1Pieces
import proofs.«146741_j35055523070100_2_alg».proof.Proof.Val.Payloads
import proofs.«146741_j35055523070100_2_alg».proof.Proof.Val.Accum

noncomputable section

namespace Cert.KernelIdeal.HandValue

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)
open scoped BigOperators

variable (V : (c : Dev nD) → (b : Ref sig .tc) → Buf (Elt Ideal) ((c : Thread nD τ).loc b))

/-- Reduction step `j`'s product of the features with the transposed weights for output half `o`, at entry (p, q). -/
def prodL (c : Dev nD) (o j p q : ℕ) : EReal :=
  ∑ k : Fin 256, xN1 V c p (j * 256 + k.val) * wN V c (o * 2048 + q) (j * 256 + k.val)

/-- The zero word the reset stores. -/
abbrev zeroW1 : EReal := Ideal.ofBits .f32 0x00000000#32

/-- The point's feature block, weights block and bias block, at their literal vector types. -/
abbrev xb1 (c : Dev nD) (t : Fin cfg1.N) : FVec Ideal S1024x256 .f32 := iblk1 V c 0 t
abbrev wb1 (c : Dev nD) (t : Fin cfg1.N) : FVec Ideal S2048x256 .f32 := iblk1 V c 1 t
abbrev bb1 (c : Dev nD) (t : Fin cfg1.N) : FVec Ideal S1x2048 .f32 := iblk1 V c 2 t

/-- The step's product of the point's two blocks is the arrays' product term. -/
theorem blkProdL (c : Dev nD) (t : Fin cfg1.N) (p : Fin 1024) (q : Fin 2048) :
    (∑ k : Fin 256, xb1 V c t (ix2 p k) * wb1 V c t (ix2 q k)) = prodL V c (t.val / 64) (t.val % 64) p.val q.val := by
  unfold prodL
  exact Finset.sum_congr rfl fun k _ => congrArg₂ (· * ·) (blk1_0_apply V c t p k) (blk1_1_apply V c t q k)

/-! ## One step -/

/-- At a first reduction step the accumulator restarts from the zero word. -/
theorem acc_first1 (c : Dev nD) (t : Fin cfg1.N) (h0 : t.val % 64 = 0) (p : Fin 1024) (q : Fin 2048) :
    (outsAt1 V c t.val t.isLt).2 (ix2 p q) = zeroW1 + prodL V c (t.val / 64) (t.val % 64) p.val q.val := by
  have h1 : ¬t.val % 64 = 63 := by omega
  rw [acc1_A V c t h0 h1]
  exact (k1_pay2_apply (xb1 V c t) (wb1 V c t) k1_pay1 p q).trans
    (congrArg₂ (· + ·) (k1_pay1_apply p q) (blkProdL V c t p q))

/-- At every later step the accumulator adds the step's product to what the step before left. -/
theorem acc_next1 (c : Dev nD) (t : Fin cfg1.N) (h0 : ¬t.val % 64 = 0) (p : Fin 1024) (q : Fin 2048) :
    (outsAt1 V c t.val t.isLt).2 (ix2 p q)
      = (outsAt1 V c (t.val - 1) (Nat.lt_of_le_of_lt (Nat.sub_le _ _) t.isLt)).2 (ix2 p q)
        + prodL V c (t.val / 64) (t.val % 64) p.val q.val := by
  by_cases h1 : t.val % 64 = 63
  · rw [acc1_C V c t h0 h1]
    exact (k1_pay2_apply (xb1 V c t) (wb1 V c t) _ p q).trans (congrArg (_ + ·) (blkProdL V c t p q))
  · rw [acc1_B V c t h0 h1]
    exact (k1_pay2_apply (xb1 V c t) (wb1 V c t) _ p q).trans (congrArg (_ + ·) (blkProdL V c t p q))

/-- The last step's output block is the accumulator it has just advanced plus the bias row's entry. -/
theorem out_last1 (c : Dev nD) (t : Fin cfg1.N) (h1 : t.val % 64 = 63) (p : Fin 1024) (q : Fin 2048) :
    (outsAt1 V c t.val t.isLt).1 (ix2 p q)
      = (outsAt1 V c t.val t.isLt).2 (ix2 p q) + bN V c (t.val / 64 * 2048 + q.val) := by
  have h0 : ¬t.val % 64 = 0 := by omega
  rw [out1_C V c t h0 h1, ← acc1_C V c t h0 h1]
  exact (k1_pay3_apply (outsAt1 V c t.val t.isLt).2 (bb1 V c t) p q).trans (congrArg (_ + ·) (blk1_2_apply V c t q))

/-! ## The closed form -/

/-- After position `n` the accumulator holds the zero word plus the products of the steps 0 … n % 64 of output
    half n / 64. -/
theorem acc_closed1 (c : Dev nD) : ∀ (n : ℕ) (h : n < cfg1.N) (p : Fin 1024) (q : Fin 2048),
    (outsAt1 V c n h).2 (ix2 p q) = zeroW1 + ∑ j ∈ Finset.range (n % 64 + 1), prodL V c (n / 64) j p.val q.val
  | 0, h, p, q => by
    have := acc_first1 V c ⟨0, h⟩ (Nat.zero_mod _) p q
    simpa using this
  | n + 1, h, p, q => by
    by_cases h0 : (n + 1) % 64 = 0
    · have := acc_first1 V c ⟨n + 1, h⟩ h0 p q
      dsimp only at this
      rw [this, h0]
      simp
    · have := acc_next1 V c ⟨n + 1, h⟩ h0 p q
      dsimp only at this
      have ih := acc_closed1 c n (Nat.lt_of_succ_lt h) p q
      have e1 : (n + 1) / 64 = n / 64 := by omega
      have e2 : (n + 1) % 64 = n % 64 + 1 := by omega
      rw [this]
      show (outsAt1 V c n _).2 (ix2 p q) + _ = _
      rw [ih, e1, e2, Finset.sum_range_succ (fun j => prodL V c (n / 64) j p.val q.val) (n % 64 + 1), add_assoc]

/-- The output block a last step stores, in closed form: the zero word plus all 64 steps' products, plus the bias. -/
theorem out_closed1 (c : Dev nD) (t : Fin cfg1.N) (h1 : t.val % 64 = 63) (p : Fin 1024) (q : Fin 2048) :
    (outsAt1 V c t.val t.isLt).1 (ix2 p q)
      = (zeroW1 + ∑ j ∈ Finset.range 64, prodL V c (t.val / 64) j p.val q.val) + bN V c (t.val / 64 * 2048 + q.val) := by
  rw [out_last1 V c t h1 p q, acc_closed1 V c t.val t.isLt p q, h1]

end Cert.KernelIdeal.HandValue

end
-- ==== Proof.Val.Targets.lean ====
/-
  The values the three kernels are to compute, as plain sums over the reals extended by ±∞ — the first hidden
  layer with its rectifier (`hidA`), the second layer on top of it (`iout2`), that added to the linear part
  (`out2`), and the linear part itself (`lin1`): x·lwᵀ plus the bias row on every row.
-/
import proofs.«146741_j35055523070100_2_alg».proof.KernelIdeal
import Idealize.ShloMosaic.PureOps.Ideal
import Idealize.ShloMosaic.Lib.ValueIdx

noncomputable section

namespace Cert.KernelIdeal.HandValue

open Cert.KernelIdeal Idealize.ShloMosaic Idealize.ShloMosaic.ValueIdx
open scoped BigOperators

/-- The hidden layer at row `r`, unit `k`: the interaction row against the `k`-th weight row, plus the bias,
    rectified. -/
def hidA (iv : Vec Ideal S1024x256 .f32) (w1 : Vec Ideal S256x256 .f32) (b1r : Vec Ideal S1x256 .f32) (r : Fin 1024) (k : Fin 256) : EReal :=
  max ((∑ j : Fin 256, iv (ix2 r j) * w1 (ix2 k j)) + b1r (ix2 (0 : Fin 1) k)) 0

/-- The second layer: the hidden row against each output unit's weight row, plus the bias row. -/
def iout2 (iv : Vec Ideal S1024x256 .f32) (w1 : Vec Ideal S256x256 .f32) (b1r : Vec Ideal S1x256 .f32) (w2 : Vec Ideal S4096x256 .f32) (b2r : Vec Ideal S1x4096 .f32) : Vec Ideal S1024x4096 .f32 :=
  fun i => (∑ k : Fin 256, hidA iv w1 b1r (i 0) k * w2 (ix2 (i 1) k)) + b2r (ix2 (0 : Fin 1) (i 1))

/-- The output: the linear part plus the second layer. -/
def out2 (iv : Vec Ideal S1024x256 .f32) (w1 : Vec Ideal S256x256 .f32) (b1r : Vec Ideal S1x256 .f32) (w2 : Vec Ideal S4096x256 .f32) (b2r : Vec Ideal S1x4096 .f32) (lin : Vec Ideal S1024x4096 .f32) : Vec Ideal S1024x4096 .f32 :=
  fun i => lin i + iout2 iv w1 b1r w2 b2r i

/-- The linear part: each row of `x` against each row of `lw`, plus the bias row. -/
def lin1 (x : Vec Ideal S1024x16384 .f32) (lw : Vec Ideal S4096x16384 .f32) (lbr : Vec Ideal S1x4096 .f32) : Vec Ideal S1024x4096 .f32 :=
  fun i => (∑ k : Fin 16384, x (ix2 (i 0) k) * lw (ix2 (i 1) k)) + lbr (ix2 (0 : Fin 1) (i 1))

end Cert.KernelIdeal.HandValue

end
-- ==== Proof.Val.Region1Final.lean ====
/-
  Region 1 at the ideal instance: the array the region leaves is the linear term. A last reduction step (f = 63)
  of output half o writes back columns 2048·o … of the array; the block it writes holds, at (p, q), the zero word
  plus the sixty-four steps' products plus the bias, that is  Σ_k x(p, k)·lw(2048·o + q, k) + b(2048·o + q)  over all
  16384 features (sixty-four consecutive blocks of 256 are the whole range; the zero word is the extended real 0).
  The two halves' blocks cover every column, so the whole array is that function of the arrays the region found.
-/
import proofs.«146741_j35055523070100_2_alg».proof.Proof.Val.Region1Acc
import proofs.«146741_j35055523070100_2_alg».proof.Proof.Val.Targets
import Idealize.ShloMosaic.Lib.Pipeline.Value
import Idealize.ShloMosaic.PureOps.Ideal.Laws

noncomputable section

namespace Cert.KernelIdeal.HandValue

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)
open scoped BigOperators

variable (V : (c : Dev nD) → (b : Ref sig .tc) → Buf (Elt Ideal) ((c : Thread nD τ).loc b))

/-! ## The total accessors inside their arrays -/

theorem xN1_eq (c : Dev nD) (p : Fin 1024) (K : Fin 16384) :
    xN1 V c p.val K.val = (V c main_arg0 : Vec Ideal S1024x16384 .f32) (ix2 p K) := by
  unfold xN1; rw [dif_pos ⟨p.isLt, K.isLt⟩]
theorem wN_eq (c : Dev nD) (o : ℕ) (ho : o < 4096) (K : Fin 16384) :
    wN V c o K.val = (V c main_arg2 : Vec Ideal S4096x16384 .f32) (ix2 (⟨o, ho⟩ : Fin 4096) K) := by
  unfold wN; rw [dif_pos ⟨ho, K.isLt⟩]
theorem bN_eq (c : Dev nD) (o : ℕ) (ho : o < 4096) :
    bN V c o = (V c main_v1 : Vec Ideal S1x4096 .f32) (ix2 (0 : Fin 1) (⟨o, ho⟩ : Fin 4096)) := by
  unfold bN; rw [dif_pos ho]

/-! ## What a last step writes back -/

/-- The block a last step of half t / 64 stores: entry j is the linear term at row j 0 and column 2048·(t/64) + j 1. -/
theorem out_at1 (c : Dev nD) (t : Fin cfg1.N) (h63 : t.val % 64 = 63) (j : S1024x2048.Idx)
    (ho : t.val / 64 * 2048 + (j 1).val < 4096) :
    (outsAt1 V c t.val t.isLt).1 j
      = lin1 (V c main_arg0 : Vec Ideal S1024x16384 .f32) (V c main_arg2 : Vec Ideal S4096x16384 .f32)
          (V c main_v1 : Vec Ideal S1x4096 .f32)
          (ix2 (⟨(j 0).val, (j 0).isLt⟩ : Fin 1024) (⟨t.val / 64 * 2048 + (j 1).val, ho⟩ : Fin 4096)) := by
  obtain ⟨p, q, rfl⟩ : ∃ (p : Fin 1024) (q : Fin 2048), j = ix2 p q := ⟨j 0, j 1, eq_ix2 j⟩
  have hs : ∑ f ∈ Finset.range 64, prodL V c (t.val / 64) f p.val q.val
      = ∑ K : Fin 16384, xN1 V c p.val K.val * wN V c (t.val / 64 * 2048 + q.val) K.val :=
    sum_blocks_64_256 (fun K => xN1 V c p.val K * wN V c (t.val / 64 * 2048 + q.val) K)
  rw [out_closed1 V c t h63 p q, hs, show zeroW1 = (0 : EReal) from Ideal.ofBits_zero_f32, zero_add]
  unfold lin1
  exact congrArg₂ (· + ·)
    (Finset.sum_congr rfl fun K _ => congrArg₂ (· * ·) (xN1_eq V c p K) (wN_eq V c _ ho K)) (bN_eq V c _ ho)

/-- What a flushing point writes back is its block of the linear term of the arrays the region found. -/
theorem flushed1_3_eq (c : Dev nD) (t : Fin cfg1.N) (hf : (cfg1.win 3).flush t = true) :
    (dat1 V c).flushed 3 t = ((cfg1.win 3).blk t).view.read (Elt Ideal)
      (lin1 (V c main_arg0 : Vec Ideal S1024x16384 .f32) (V c main_arg2 : Vec Ideal S4096x16384 .f32)
        (V c main_v1 : Vec Ideal S1x4096 .f32)) := by
  have h63 : t.val % 64 = 63 := (flush1_3 t).mp hf
  have hN : t.val < 128 := lt_of_lt_of_eq t.isLt (show cfg1.N = 128 from N_1)
  obtain ⟨-, -, -, -, -, -, e0, e1⟩ := idx1 t
  show (cfg1.win 3).cut (grid1.coords t) ((dat1 V c).after 3 t) = _
  rw [after1_3]
  funext j
  rw [View.read_apply]
  have hj0 : (j 0).val < 1024 := (j 0).isLt
  have hj1 : (j 1).val < 2048 := (j 1).isLt
  show (outsAt1 V c t.val t.isLt).1 j = _
  refine (out_at1 V c t h63 j (by omega)).trans ?_
  refine congrArg _ ?_
  funext a; apply Fin.ext
  match a with
  | ⟨0, _⟩ => show (j 0).val = win1_3.index t (0 : Fin 2) * 1024 + 1 * (j 0).val; rw [e0]; omega
  | ⟨1, _⟩ => show t.val / 64 * 2048 + (j 1).val = win1_3.index t (1 : Fin 2) * 2048 + 1 * (j 1).val; rw [e1]; omega

/-! ## The blocks cover the array -/

/-- An index of the array is in point `t`'s block iff each coordinate is in the block's range on its axis. -/
theorem mem_blk1_3 (t : Fin cfg1.N) (i : S1024x4096.Idx) :
    i ∈ ((cfg1.win 3).blk t).view.set ↔ ∀ a : Fin 2, win1_3.index t a * S1024x2048.size a ≤ (i a).val
      ∧ (i a).val < win1_3.index t a * S1024x2048.size a + S1024x2048.size a := by
  show i ∈ ((View.whole main_v2).slice (win1_3.rect t)).set ↔ _
  rw [View.set_slice_whole, Rect.mem_set_unit]
  exact Iff.rfl

/-- Column q of the 4096 is written back by the last step of its half: point 64·(q / 2048) + 63. -/
theorem cover1_3 (i : S1024x4096.Idx) :
    ∃ t : Fin cfg1.N, (cfg1.win 3).flush t = true ∧ i ∈ ((cfg1.win 3).blk t).view.set := by
  have hi0 : (i 0).val < 1024 := (i 0).isLt
  have hi1 : (i 1).val < 4096 := (i 1).isLt
  obtain ⟨t, ht⟩ : ∃ t : Fin cfg1.N, t.val = 64 * ((i 1).val / 2048) + 63 :=
    ⟨⟨64 * ((i 1).val / 2048) + 63, lt_of_lt_of_eq (by omega : 64 * ((i 1).val / 2048) + 63 < 128) (show (128 : ℕ) = cfg1.N from N_1.symm)⟩, rfl⟩
  obtain ⟨-, -, -, -, -, -, e0, e1⟩ := idx1 t
  refine ⟨t, (flush1_3 t).mpr (by omega), ?_⟩
  rw [mem_blk1_3]
  intro a
  match a with
  | ⟨0, _⟩ =>
    show win1_3.index t (0 : Fin 2) * 1024 ≤ (i 0).val ∧ (i 0).val < win1_3.index t (0 : Fin 2) * 1024 + 1024
    rw [e0]; omega
  | ⟨1, _⟩ =>
    show win1_3.index t (1 : Fin 2) * 2048 ≤ (i 1).val ∧ (i 1).val < win1_3.index t (1 : Fin 2) * 2048 + 2048
    rw [e1]; omega

/-! ## The array after the region -/

/-- The output array of region 1 ends holding the linear term of the arrays the region found. -/
theorem final1_3 (c : Dev nD) :
    (Hand.dat1 V c).arrAt 3 cfg1.N = lin1 (V c main_arg0) (V c main_arg2) (V c main_v1) :=
  (dat1 V c).arrAt_eq_of_cover 3 _ (fun t hf => flushed1_3_eq V c t hf) (cover1_3)

end Cert.KernelIdeal.HandValue

end
-- ==== Proof.KI.Region2Value.lean ====
/- REGION 2's kernel at the ideal values (extended reals): what the body leaves in the two output windows' buffers,
   read at an index, as plain formulas of the input blocks' entries. -/
import proofs.«146741_j35055523070100_2_alg».proof.Proof.KI.Region2
import Idealize.ShloMosaic.Lib.Pipeline.Value
import Idealize.ShloMosaic.Lib.ValueIdx
import Idealize.ShloMosaic.PureOps.Ideal.Laws
import Idealize.ShloMosaic.Lib.Tactic

set_option maxRecDepth 16384

noncomputable section

open scoped BigOperators

namespace Cert.KernelIdeal.HandValue

open Cert.KernelIdeal Cert.KernelIdeal.Gen Cert.KernelIdeal.Hand
open Idealize.ShloMosaic Idealize.ShloMosaic.TcCoe Idealize.SL.Sem Idealize.ShloMosaic.ValueIdx

/-! ## The two products' operand indices -/

theorem lhsA_0 (i : S256x256.Idx) (q : dot_S256x256_S256x256_S256x256_1_1_0_0_n_n.contr.Idx) : (dot_S256x256_S256x256_S256x256_1_1_0_0_n_n.lhsIdx i q 0).val = (i 0).val := by
  unfold DotDims.lhsIdx
  rw [dif_neg (show ¬(0 : Fin S256x256.rank) ∈ dot_S256x256_S256x256_S256x256_1_1_0_0_n_n.lhsBatch by decide), dif_pos (show (0 : Fin S256x256.rank) ∈ dot_S256x256_S256x256_S256x256_1_1_0_0_n_n.lhsNonContracting by decide)]
  rfl
theorem lhsA_1 (i : S256x256.Idx) (q : dot_S256x256_S256x256_S256x256_1_1_0_0_n_n.contr.Idx) : (dot_S256x256_S256x256_S256x256_1_1_0_0_n_n.lhsIdx i q 1).val = (q ⟨0, by decide⟩).val :=
  dot_S256x256_S256x256_S256x256_1_1_0_0_n_n.lhsIdx_val_of_single rfl i q
theorem rhsA_0 (i : S256x256.Idx) (q : dot_S256x256_S256x256_S256x256_1_1_0_0_n_n.contr.Idx) : (dot_S256x256_S256x256_S256x256_1_1_0_0_n_n.rhsIdx i q 0).val = (i 1).val := by
  unfold DotDims.rhsIdx
  rw [dif_neg (show ¬(0 : Fin S256x256.rank) ∈ dot_S256x256_S256x256_S256x256_1_1_0_0_n_n.rhsBatch by decide), dif_pos (show (0 : Fin S256x256.rank) ∈ dot_S256x256_S256x256_S256x256_1_1_0_0_n_n.rhsNonContracting by decide)]
  rfl
theorem rhsA_1 (i : S256x256.Idx) (q : dot_S256x256_S256x256_S256x256_1_1_0_0_n_n.contr.Idx) : (dot_S256x256_S256x256_S256x256_1_1_0_0_n_n.rhsIdx i q 1).val = (q ⟨0, by decide⟩).val :=
  dot_S256x256_S256x256_S256x256_1_1_0_0_n_n.rhsIdx_val_of_single rfl i q

/-- The product read at an output index: row `p` of the left operand against row `j` of the right one (both operands
    are contracted on their second axis), accumulated from zero. -/
theorem mmA_apply (a : FVec Ideal S256x256 .bf16) (b : FVec Ideal S256x256 .bf16) (p : Fin 256) (j : Fin 256) :
    matmul dot_S256x256_S256x256_S256x256_1_1_0_0_n_n none a b (constant (F := Ideal) S256x256 .f32 0x00000000#32) (ix2 p j) = ∑ k : Fin 256, a (ix2 p k) * b (ix2 j k) := by
  simp only [matmul]
  rw [Ideal.matmul_constant_zero_apply, ← Equiv.sum_comp (contrEquiv1 dot_S256x256_S256x256_S256x256_1_1_0_0_n_n 256 rfl rfl).symm]
  refine Finset.sum_congr rfl fun k _ => ?_
  have hk := contrEquiv1_symm_val dot_S256x256_S256x256_S256x256_1_1_0_0_n_n 256 rfl rfl k
  have el : dot_S256x256_S256x256_S256x256_1_1_0_0_n_n.lhsIdx (ix2 p j) ((contrEquiv1 dot_S256x256_S256x256_S256x256_1_1_0_0_n_n 256 rfl rfl).symm k) = ix2 p k := funext fun a => Fin.ext (by
    match a with
    | ⟨0, _⟩ => exact lhsA_0 _ _
    | ⟨1, _⟩ => exact (lhsA_1 _ _).trans hk)
  have er : dot_S256x256_S256x256_S256x256_1_1_0_0_n_n.rhsIdx (ix2 p j) ((contrEquiv1 dot_S256x256_S256x256_S256x256_1_1_0_0_n_n 256 rfl rfl).symm k) = ix2 j k := funext fun a => Fin.ext (by
    match a with
    | ⟨0, _⟩ => exact rhsA_0 _ _
    | ⟨1, _⟩ => exact (rhsA_1 _ _).trans hk)
  rw [el, er]

theorem lhsB_0 (i : S256x4096.Idx) (q : dot_S256x256_S4096x256_S256x4096_1_1_0_0_n_n.contr.Idx) : (dot_S256x256_S4096x256_S256x4096_1_1_0_0_n_n.lhsIdx i q 0).val = (i 0).val := by
  unfold DotDims.lhsIdx
  rw [dif_neg (show ¬(0 : Fin S256x256.rank) ∈ dot_S256x256_S4096x256_S256x4096_1_1_0_0_n_n.lhsBatch by decide), dif_pos (show (0 : Fin S256x256.rank) ∈ dot_S256x256_S4096x256_S256x4096_1_1_0_0_n_n.lhsNonContracting by decide)]
  rfl
theorem lhsB_1 (i : S256x4096.Idx) (q : dot_S256x256_S4096x256_S256x4096_1_1_0_0_n_n.contr.Idx) : (dot_S256x256_S4096x256_S256x4096_1_1_0_0_n_n.lhsIdx i q 1).val = (q ⟨0, by decide⟩).val :=
  dot_S256x256_S4096x256_S256x4096_1_1_0_0_n_n.lhsIdx_val_of_single rfl i q
theorem rhsB_0 (i : S256x4096.Idx) (q : dot_S256x256_S4096x256_S256x4096_1_1_0_0_n_n.contr.Idx) : (dot_S256x256_S4096x256_S256x4096_1_1_0_0_n_n.rhsIdx i q 0).val = (i 1).val := by
  unfold DotDims.rhsIdx
  rw [dif_neg (show ¬(0 : Fin S4096x256.rank) ∈ dot_S256x256_S4096x256_S256x4096_1_1_0_0_n_n.rhsBatch by decide), dif_pos (show (0 : Fin S4096x256.rank) ∈ dot_S256x256_S4096x256_S256x4096_1_1_0_0_n_n.rhsNonContracting by decide)]
  rfl
theorem rhsB_1 (i : S256x4096.Idx) (q : dot_S256x256_S4096x256_S256x4096_1_1_0_0_n_n.contr.Idx) : (dot_S256x256_S4096x256_S256x4096_1_1_0_0_n_n.rhsIdx i q 1).val = (q ⟨0, by decide⟩).val :=
  dot_S256x256_S4096x256_S256x4096_1_1_0_0_n_n.rhsIdx_val_of_single rfl i q

/-- The product read at an output index: row `p` of the left operand against row `j` of the right one (both operands
    are contracted on their second axis), accumulated from zero. -/
theorem mmB_apply (a : FVec Ideal S256x256 .bf16) (b : FVec Ideal S4096x256 .bf16) (p : Fin 256) (j : Fin 4096) :
    matmul dot_S256x256_S4096x256_S256x4096_1_1_0_0_n_n none a b (constant (F := Ideal) S256x4096 .f32 0x00000000#32) (ix2 p j) = ∑ k : Fin 256, a (ix2 p k) * b (ix2 j k) := by
  simp only [matmul]
  rw [Ideal.matmul_constant_zero_apply, ← Equiv.sum_comp (contrEquiv1 dot_S256x256_S4096x256_S256x4096_1_1_0_0_n_n 256 rfl rfl).symm]
  refine Finset.sum_congr rfl fun k _ => ?_
  have hk := contrEquiv1_symm_val dot_S256x256_S4096x256_S256x4096_1_1_0_0_n_n 256 rfl rfl k
  have el : dot_S256x256_S4096x256_S256x4096_1_1_0_0_n_n.lhsIdx (ix2 p j) ((contrEquiv1 dot_S256x256_S4096x256_S256x4096_1_1_0_0_n_n 256 rfl rfl).symm k) = ix2 p k := funext fun a => Fin.ext (by
    match a with
    | ⟨0, _⟩ => exact lhsB_0 _ _
    | ⟨1, _⟩ => exact (lhsB_1 _ _).trans hk)
  have er : dot_S256x256_S4096x256_S256x4096_1_1_0_0_n_n.rhsIdx (ix2 p j) ((contrEquiv1 dot_S256x256_S4096x256_S256x4096_1_1_0_0_n_n 256 rfl rfl).symm k) = ix2 j k := funext fun a => Fin.ext (by
    match a with
    | ⟨0, _⟩ => exact rhsB_0 _ _
    | ⟨1, _⟩ => exact (rhsB_1 _ _).trans hk)
  rw [el, er]

/-! ## The row vectors' broadcasts at an index -/

/-- A row vector broadcast along the rows reads its own entry of the column. -/
theorem bcastA_apply (x : FVec Ideal S1x256 .f32) (p k : Fin 256) :
    broadcastTo S256x256 x broadcasts_S1x256_S256x256 (ix2 p k) = x (ix2 (0 : Fin 1) k) :=
  broadcastTo_apply _ _ _ _ fun a => match a with
    | ⟨0, _⟩ => by show (0 : Nat) = if (1 : Nat) = 1 then 0 else p.val; rfl
    | ⟨1, _⟩ => by show k.val = if (256 : Nat) = 1 then 0 else k.val; rfl
theorem bcastB_apply (x : FVec Ideal S1x4096 .f32) (p : Fin 256) (q : Fin 4096) :
    broadcastTo S256x4096 x broadcasts_S1x4096_S256x4096 (ix2 p q) = x (ix2 (0 : Fin 1) q) :=
  broadcastTo_apply _ _ _ _ fun a => match a with
    | ⟨0, _⟩ => by show (0 : Nat) = if (1 : Nat) = 1 then 0 else p.val; rfl
    | ⟨1, _⟩ => by show q.val = if (4096 : Nat) = 1 then 0 else q.val; rfl

/-- The f32 word of all zero bits is the extended real `0`. -/
theorem zero_f32 : FloatOps.ofBits (F := Ideal) .f32 0x00000000#32 = (0 : EReal) := Ideal.ofBits_zero_f32

/-! ## The payloads at an index -/

/-- The hidden layer at row `p`, unit `k`: `max(Σ_j x0(p,j)·x1(k,j) + x2(0,k), 0)`. At the ideal values the roundings
    to bf16 are identities. -/
def hid2 (x0 x1 : Vec Ideal S256x256 .f32) (x2 : Vec Ideal S1x256 .f32) (p k : Fin 256) : EReal :=
  max ((∑ j : Fin 256, x0 (ix2 p j) * x1 (ix2 k j)) + x2 (ix2 (0 : Fin 1) k)) 0

/-- The value stored to window 7 at `(p, q)`: `Σ_k hid2(p,k)·x3(q,k) + x4(0,q)`. -/
theorem k2_pay1_apply (x0 x1 : Vec Ideal S256x256 .f32) (x2 : Vec Ideal S1x256 .f32) (x3 : Vec Ideal S4096x256 .f32)
    (x4 : Vec Ideal S1x4096 .f32) (p : Fin 256) (q : Fin 4096) :
    k2_pay1 (F := Ideal) x0 x1 x2 x3 x4 (ix2 p q)
      = (∑ k : Fin 256, hid2 x0 x1 x2 p k * x3 (ix2 q k)) + x4 (ix2 (0 : Fin 1) q) := by
  unfold k2_pay1 hid2
  simp only [shapeCast_self, addf_apply, mmB_apply, bcastB_apply, truncf_apply, maximumf_apply, mmA_apply, bcastA_apply,
    broadcast_apply, zero_f32]

/-- The value stored to window 6 at `(p, q)`: the residual `x5(p,q)` plus the value stored to window 7 there. -/
theorem k2_pay2_apply (x0 x1 : Vec Ideal S256x256 .f32) (x2 : Vec Ideal S1x256 .f32) (x3 : Vec Ideal S4096x256 .f32)
    (x4 : Vec Ideal S1x4096 .f32) (x5 : Vec Ideal S256x4096 .f32) (p : Fin 256) (q : Fin 4096) :
    k2_pay2 (F := Ideal) x0 x1 x2 x3 x4 x5 (ix2 p q)
      = x5 (ix2 p q) + ((∑ k : Fin 256, hid2 x0 x1 x2 p k * x3 (ix2 q k)) + x4 (ix2 (0 : Fin 1) q)) := by
  unfold k2_pay2
  simp only [shapeCast_self, addf_apply, k2_pay1_apply]

/-! ## The output windows' buffers at an index -/

theorem zero2 : (![0, 0] : Fin 2 → Nat) = fun _ => 0 := by
  funext a; match a with | ⟨0, _⟩ => rfl | ⟨1, _⟩ => rfl

/-- Window 7's buffer after the body, at `(p, q)`. -/
theorem out2_7_apply (x0 x1 : Vec Ideal S256x256 .f32) (x2 : Vec Ideal S1x256 .f32) (x3 : Vec Ideal S4096x256 .f32)
    (x4 : Vec Ideal S1x4096 .f32) (p : Fin 256) (q : Fin 4096) :
    out2_7 (F := Ideal) x0 x1 x2 x3 x4 (ix2 p q)
      = (∑ k : Fin 256, hid2 x0 x1 x2 p k * x3 (ix2 q k)) + x4 (ix2 (0 : Fin 1) q) := by
  unfold out2_7
  rw [View.canon_unit_zero zero2]
  simp only [View.ld_unit_zero (S := S256x256) zero2, View.ld_unit_zero (S := S1x256) zero2,
    View.ld_unit_zero (S := S4096x256) zero2, View.ld_unit_zero (S := S1x4096) zero2]
  exact k2_pay1_apply x0 x1 x2 x3 x4 p q

/-- Window 6's buffer after the body, at `(p, q)`. -/
theorem out2_6_apply (x0 x1 : Vec Ideal S256x256 .f32) (x2 : Vec Ideal S1x256 .f32) (x3 : Vec Ideal S4096x256 .f32)
    (x4 : Vec Ideal S1x4096 .f32) (x5 : Vec Ideal S256x4096 .f32) (p : Fin 256) (q : Fin 4096) :
    out2_6 (F := Ideal) x0 x1 x2 x3 x4 x5 (ix2 p q)
      = x5 (ix2 p q) + ((∑ k : Fin 256, hid2 x0 x1 x2 p k * x3 (ix2 q k)) + x4 (ix2 (0 : Fin 1) q)) := by
  unfold out2_6
  rw [View.canon_unit_zero zero2]
  simp only [View.ld_unit_zero (S := S256x256) zero2, View.ld_unit_zero (S := S1x256) zero2,
    View.ld_unit_zero (S := S4096x256) zero2, View.ld_unit_zero (S := S1x4096) zero2, View.ld_unit_zero (S := S256x4096) zero2]
  exact k2_pay2_apply x0 x1 x2 x3 x4 x5 p q

end Cert.KernelIdeal.HandValue

end
-- ==== Proof.KI.Region2Final.lean ====
/- REGION 2 at the ideal values: the two output arrays after the region, each as ONE function of the arrays the
   region finds. Grid point t stages rows 256·t … of the activations and of the residual, the weights and biases whole,
   and writes rows 256·t … of both outputs; the four points' blocks tile the 1024 rows. -/
import proofs.«146741_j35055523070100_2_alg».proof.Proof.KI.Region2Value
import proofs.«146741_j35055523070100_2_alg».proof.Proof.Val.Targets
import Idealize.ShloMosaic.Lib.Pipeline.Value
import Idealize.ShloMosaic.Lib.ValueIdx

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)
open scoped BigOperators

variable (V : (c : Dev nD) → (b : Ref sig .tc) → Buf (Elt Ideal) ((c : Thread nD τ).loc b))

/-! ## The index maps -/

/-- The eight index maps of region 2, decided once over its four grid points: the activations, the residual and the
    two outputs move down one block of rows per point; the weights and biases stay. -/
theorem idx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0
    ∧ win2_6.index t (0 : Fin 2) = t.val ∧ win2_6.index t (1 : Fin 2) = 0
    ∧ win2_7.index t (0 : Fin 2) = t.val ∧ win2_7.index t (1 : Fin 2) = 0 :=
  (by decide +kernel : ∀ t : Fin grid2.N, _)

/-! ## The input blocks, read where they sit in their arrays -/

/-- Window 0's block at point `t`: entry (p, b) is the array's entry (256·t + p, b). -/
theorem blk2_0_apply (c : Dev nD) (t : Fin cfg2.N) (p : Fin 256) (b : Fin 256) (r : Fin 1024) (hr : r.val = t.val * 256 + p.val) :
    (iblk2 V c 0 t : Vec Ideal S256x256 .f32) (ix2 p b) = (V c main_v0 : Vec Ideal S1024x256 .f32) (ix2 r b) := by
  obtain ⟨e0, e0', -, -, -, -, -, -, -, -, e5, e5', -⟩ := idx2 t
  unfold iblk2
  rw [View.read_apply]
  show (V c main_v0 : Vec Ideal S1024x256 .f32) _ = _
  refine congrArg _ ?_
  funext x; apply Fin.ext
  match x with
  | ⟨0, _⟩ => show win2_0.index t (0 : Fin 2) * 256 + 1 * p.val = r.val; rw [e0]; omega
  | ⟨1, _⟩ => show win2_0.index t (1 : Fin 2) * 256 + 1 * b.val = b.val; rw [e0']; omega
/-- Window 1 stages its whole array at every point. -/
theorem blk2_1_apply (c : Dev nD) (t : Fin cfg2.N) (a : Fin 256) (b : Fin 256) :
    (iblk2 V c 1 t : Vec Ideal S256x256 .f32) (ix2 a b) = (V c main_arg4 : Vec Ideal S256x256 .f32) (ix2 a b) := by
  obtain ⟨-, -, e1, e1', e2, e2', e3, e3', e4, e4', -⟩ := idx2 t
  unfold iblk2
  rw [View.read_apply]
  show (V c main_arg4 : Vec Ideal S256x256 .f32) _ = _
  refine congrArg _ ?_
  funext x; apply Fin.ext
  match x with
  | ⟨0, _⟩ => show win2_1.index t (0 : Fin 2) * 256 + 1 * a.val = a.val; rw [e1]; omega
  | ⟨1, _⟩ => show win2_1.index t (1 : Fin 2) * 256 + 1 * b.val = b.val; rw [e1']; omega
/-- Window 2 stages its whole array at every point. -/
theorem blk2_2_apply (c : Dev nD) (t : Fin cfg2.N) (a : Fin 1) (b : Fin 256) :
    (iblk2 V c 2 t : Vec Ideal S1x256 .f32) (ix2 a b) = (V c main_v3 : Vec Ideal S1x256 .f32) (ix2 a b) := by
  obtain ⟨-, -, e1, e1', e2, e2', e3, e3', e4, e4', -⟩ := idx2 t
  unfold iblk2
  rw [View.read_apply]
  show (V c main_v3 : Vec Ideal S1x256 .f32) _ = _
  refine congrArg _ ?_
  funext x; apply Fin.ext
  match x with
  | ⟨0, _⟩ => show win2_2.index t (0 : Fin 2) * 1 + 1 * a.val = a.val; rw [e2]; omega
  | ⟨1, _⟩ => show win2_2.index t (1 : Fin 2) * 256 + 1 * b.val = b.val; rw [e2']; omega
/-- Window 3 stages its whole array at every point. -/
theorem blk2_3_apply (c : Dev nD) (t : Fin cfg2.N) (a : Fin 4096) (b : Fin 256) :
    (iblk2 V c 3 t : Vec Ideal S4096x256 .f32) (ix2 a b) = (V c main_arg6 : Vec Ideal S4096x256 .f32) (ix2 a b) := by
  obtain ⟨-, -, e1, e1', e2, e2', e3, e3', e4, e4', -⟩ := idx2 t
  unfold iblk2
  rw [View.read_apply]
  show (V c main_arg6 : Vec Ideal S4096x256 .f32) _ = _
  refine congrArg _ ?_
  funext x; apply Fin.ext
  match x with
  | ⟨0, _⟩ => show win2_3.index t (0 : Fin 2) * 4096 + 1 * a.val = a.val; rw [e3]; omega
  | ⟨1, _⟩ => show win2_3.index t (1 : Fin 2) * 256 + 1 * b.val = b.val; rw [e3']; omega
/-- Window 4 stages its whole array at every point. -/
theorem blk2_4_apply (c : Dev nD) (t : Fin cfg2.N) (a : Fin 1) (b : Fin 4096) :
    (iblk2 V c 4 t : Vec Ideal S1x4096 .f32) (ix2 a b) = (V c main_v4 : Vec Ideal S1x4096 .f32) (ix2 a b) := by
  obtain ⟨-, -, e1, e1', e2, e2', e3, e3', e4, e4', -⟩ := idx2 t
  unfold iblk2
  rw [View.read_apply]
  show (V c main_v4 : Vec Ideal S1x4096 .f32) _ = _
  refine congrArg _ ?_
  funext x; apply Fin.ext
  match x with
  | ⟨0, _⟩ => show win2_4.index t (0 : Fin 2) * 1 + 1 * a.val = a.val; rw [e4]; omega
  | ⟨1, _⟩ => show win2_4.index t (1 : Fin 2) * 4096 + 1 * b.val = b.val; rw [e4']; omega
/-- Window 5's block at point `t`: entry (p, b) is the array's entry (256·t + p, b). -/
theorem blk2_5_apply (c : Dev nD) (t : Fin cfg2.N) (p : Fin 256) (b : Fin 4096) (r : Fin 1024) (hr : r.val = t.val * 256 + p.val) :
    (iblk2 V c 5 t : Vec Ideal S256x4096 .f32) (ix2 p b) = (V c main_v2 : Vec Ideal S1024x4096 .f32) (ix2 r b) := by
  obtain ⟨e0, e0', -, -, -, -, -, -, -, -, e5, e5', -⟩ := idx2 t
  unfold iblk2
  rw [View.read_apply]
  show (V c main_v2 : Vec Ideal S1024x4096 .f32) _ = _
  refine congrArg _ ?_
  funext x; apply Fin.ext
  match x with
  | ⟨0, _⟩ => show win2_5.index t (0 : Fin 2) * 256 + 1 * p.val = r.val; rw [e5]; omega
  | ⟨1, _⟩ => show win2_5.index t (1 : Fin 2) * 4096 + 1 * b.val = b.val; rw [e5']; omega

/-! ## The blocks' values against the whole arrays' -/

/-- The hidden layer of point `t`'s blocks at row `p` is the whole arrays' at row 256·t + p. -/
theorem hid2_blk (c : Dev nD) (t : Fin cfg2.N) (p k : Fin 256) (r : Fin 1024) (hr : r.val = t.val * 256 + p.val) :
    hid2 (iblk2 V c 0 t) (iblk2 V c 1 t) (iblk2 V c 2 t) p k = hidA (V c main_v0) (V c main_arg4) (V c main_v3) r k := by
  unfold hid2 hidA
  simp only [fun j => blk2_0_apply V c t p j r hr, blk2_1_apply, blk2_2_apply]

/-- Window 7's stored value at (p, q) of point `t`'s block is the closed form at (256·t + p, q). -/
theorem row2_7 (c : Dev nD) (t : Fin cfg2.N) (p : Fin 256) (q : Fin 4096) (r : Fin 1024) (hr : r.val = t.val * 256 + p.val) :
    (∑ k : Fin 256, hid2 (iblk2 V c 0 t) (iblk2 V c 1 t) (iblk2 V c 2 t) p k * (iblk2 V c 3 t : Vec Ideal S4096x256 .f32) (ix2 q k))
        + (iblk2 V c 4 t : Vec Ideal S1x4096 .f32) (ix2 (0 : Fin 1) q)
      = iout2 (V c main_v0) (V c main_arg4) (V c main_v3) (V c main_arg6) (V c main_v4) (ix2 r q) := by
  show _ = (∑ k : Fin 256, hidA (V c main_v0) (V c main_arg4) (V c main_v3) r k * (V c main_arg6 : Vec Ideal S4096x256 .f32) (ix2 q k))
      + (V c main_v4 : Vec Ideal S1x4096 .f32) (ix2 (0 : Fin 1) q)
  simp only [fun k => hid2_blk V c t p k r hr, blk2_3_apply, blk2_4_apply]

/-! ## Output window 7 -/

/-- Where point `t`'s block of window 7 sits in its array: entry (p, q) of the block is entry (256·t + p, q). -/
theorem emb2_7 (t : Fin cfg2.N) (p : Fin 256) (q : Fin 4096) (r : Fin 1024) (hr : r.val = t.val * 256 + p.val) :
    ((cfg2.win 7).blk t).view.emb (ix2 p q) = (ix2 r q : S1024x4096.Idx) := by
  obtain ⟨-, -, -, -, -, -, -, -, -, -, -, -, -, -, e, e'⟩ := idx2 t
  funext x; apply Fin.ext
  match x with
  | ⟨0, _⟩ => show win2_7.index t (0 : Fin 2) * 256 + 1 * p.val = r.val; rw [e]; omega
  | ⟨1, _⟩ => show win2_7.index t (1 : Fin 2) * 4096 + 1 * q.val = q.val; rw [e']; omega

/-- What point `t` writes back to window 7's array is block `t` of the closed form. -/
theorem flushed2_7_eq (c : Dev nD) (t : Fin cfg2.N) :
    (dat2 V c).flushed 7 t = ((cfg2.win 7).blk t).view.read (Elt Ideal) (iout2 (V c main_v0) (V c main_arg4) (V c main_v3) (V c main_arg6) (V c main_v4)) := by
  show (cfg2.win 7).cut (grid2.coords t) ((dat2 V c).after 7 t) = _
  rw [after2_7]
  have hN : t.val < 4 := lt_of_lt_of_eq t.isLt (show cfg2.N = 4 from N_2)
  funext j
  obtain ⟨p, q, rfl⟩ : ∃ (p : Fin 256) (q : Fin 4096), j = ix2 p q := ⟨j 0, j 1, eq_ix2 j⟩
  have hp := p.isLt
  rw [View.read_apply, emb2_7 t p q ⟨t.val * 256 + p.val, by omega⟩ rfl]
  show out2_7 (iblk2 V c 0 t) (iblk2 V c 1 t) (iblk2 V c 2 t) (iblk2 V c 3 t) (iblk2 V c 4 t) (ix2 p q) = _
  rw [out2_7_apply]
  exact row2_7 V c t p q ⟨t.val * 256 + p.val, by omega⟩ rfl

/-- An index of the array is in point `t`'s block iff each coordinate is in the block's range on its axis. -/
theorem mem_blk2_7 (t : Fin cfg2.N) (i : S1024x4096.Idx) :
    i ∈ ((cfg2.win 7).blk t).view.set ↔ ∀ a : Fin 2, win2_7.index t a * S256x4096.size a ≤ (i a).val ∧ (i a).val < win2_7.index t a * S256x4096.size a + S256x4096.size a := by
  show i ∈ ((View.whole main_v5_1).slice (win2_7.rect t)).set ↔ _
  rw [View.set_slice_whole, Rect.mem_set_unit]
  exact Iff.rfl

/-- Every index of the array is in some point's block, and every point writes back: row `r` is in point `r / 256`'s. -/
theorem cover2_7 (i : S1024x4096.Idx) : ∃ t : Fin cfg2.N, (cfg2.win 7).flush t = true ∧ i ∈ ((cfg2.win 7).blk t).view.set := by
  have hi0 : (i 0).val < 1024 := (i 0).isLt
  have hi1 : (i 1).val < 4096 := (i 1).isLt
  have hN : cfg2.N = 4 := N_2
  have ht : (i 0).val / 256 < cfg2.N := by rw [hN]; omega
  obtain ⟨-, -, -, -, -, -, -, -, -, -, -, -, -, -, e, e'⟩ := idx2 ⟨(i 0).val / 256, ht⟩
  refine ⟨⟨(i 0).val / 256, ht⟩, flush2_7 _, ?_⟩
  rw [mem_blk2_7]
  intro a
  match a with
  | ⟨0, _⟩ => show win2_7.index ⟨(i 0).val / 256, ht⟩ (0 : Fin 2) * 256 ≤ (i 0).val ∧ (i 0).val < win2_7.index ⟨(i 0).val / 256, ht⟩ (0 : Fin 2) * 256 + 256; rw [e]; show (i 0).val / 256 * 256 ≤ (i 0).val ∧ (i 0).val < (i 0).val / 256 * 256 + 256; omega
  | ⟨1, _⟩ => show win2_7.index ⟨(i 0).val / 256, ht⟩ (1 : Fin 2) * 4096 ≤ (i 1).val ∧ (i 1).val < win2_7.index ⟨(i 0).val / 256, ht⟩ (1 : Fin 2) * 4096 + 4096; rw [e']; omega

/-- THE ARRAY after the region: the closed form, everywhere. -/
theorem final2_7 (c : Dev nD) : (Hand.dat2 V c).arrAt 7 cfg2.N = iout2 (V c main_v0) (V c main_arg4) (V c main_v3) (V c main_arg6) (V c main_v4) :=
  (dat2 V c).arrAt_eq_of_cover 7 (iout2 (V c main_v0) (V c main_arg4) (V c main_v3) (V c main_arg6) (V c main_v4)) (fun t _ => flushed2_7_eq V c t) cover2_7

/-! ## Output window 6 -/

/-- Where point `t`'s block of window 6 sits in its array: entry (p, q) of the block is entry (256·t + p, q). -/
theorem emb2_6 (t : Fin cfg2.N) (p : Fin 256) (q : Fin 4096) (r : Fin 1024) (hr : r.val = t.val * 256 + p.val) :
    ((cfg2.win 6).blk t).view.emb (ix2 p q) = (ix2 r q : S1024x4096.Idx) := by
  obtain ⟨-, -, -, -, -, -, -, -, -, -, -, -, e, e', -⟩ := idx2 t
  funext x; apply Fin.ext
  match x with
  | ⟨0, _⟩ => show win2_6.index t (0 : Fin 2) * 256 + 1 * p.val = r.val; rw [e]; omega
  | ⟨1, _⟩ => show win2_6.index t (1 : Fin 2) * 4096 + 1 * q.val = q.val; rw [e']; omega

/-- What point `t` writes back to window 6's array is block `t` of the closed form. -/
theorem flushed2_6_eq (c : Dev nD) (t : Fin cfg2.N) :
    (dat2 V c).flushed 6 t = ((cfg2.win 6).blk t).view.read (Elt Ideal) (out2 (V c main_v0) (V c main_arg4) (V c main_v3) (V c main_arg6) (V c main_v4) (V c main_v2)) := by
  show (cfg2.win 6).cut (grid2.coords t) ((dat2 V c).after 6 t) = _
  rw [after2_6]
  have hN : t.val < 4 := lt_of_lt_of_eq t.isLt (show cfg2.N = 4 from N_2)
  funext j
  obtain ⟨p, q, rfl⟩ : ∃ (p : Fin 256) (q : Fin 4096), j = ix2 p q := ⟨j 0, j 1, eq_ix2 j⟩
  have hp := p.isLt
  rw [View.read_apply, emb2_6 t p q ⟨t.val * 256 + p.val, by omega⟩ rfl]
  show out2_6 (iblk2 V c 0 t) (iblk2 V c 1 t) (iblk2 V c 2 t) (iblk2 V c 3 t) (iblk2 V c 4 t) (iblk2 V c 5 t) (ix2 p q) = _
  rw [out2_6_apply]
  unfold out2
  rw [row2_7 V c t p q ⟨t.val * 256 + p.val, by omega⟩ rfl, blk2_5_apply V c t p q ⟨t.val * 256 + p.val, by omega⟩ rfl]
  rfl

/-- An index of the array is in point `t`'s block iff each coordinate is in the block's range on its axis. -/
theorem mem_blk2_6 (t : Fin cfg2.N) (i : S1024x4096.Idx) :
    i ∈ ((cfg2.win 6).blk t).view.set ↔ ∀ a : Fin 2, win2_6.index t a * S256x4096.size a ≤ (i a).val ∧ (i a).val < win2_6.index t a * S256x4096.size a + S256x4096.size a := by
  show i ∈ ((View.whole main_v5_0).slice (win2_6.rect t)).set ↔ _
  rw [View.set_slice_whole, Rect.mem_set_unit]
  exact Iff.rfl

/-- Every index of the array is in some point's block, and every point writes back: row `r` is in point `r / 256`'s. -/
theorem cover2_6 (i : S1024x4096.Idx) : ∃ t : Fin cfg2.N, (cfg2.win 6).flush t = true ∧ i ∈ ((cfg2.win 6).blk t).view.set := by
  have hi0 : (i 0).val < 1024 := (i 0).isLt
  have hi1 : (i 1).val < 4096 := (i 1).isLt
  have hN : cfg2.N = 4 := N_2
  have ht : (i 0).val / 256 < cfg2.N := by rw [hN]; omega
  obtain ⟨-, -, -, -, -, -, -, -, -, -, -, -, e, e', -⟩ := idx2 ⟨(i 0).val / 256, ht⟩
  refine ⟨⟨(i 0).val / 256, ht⟩, flush2_6 _, ?_⟩
  rw [mem_blk2_6]
  intro a
  match a with
  | ⟨0, _⟩ => show win2_6.index ⟨(i 0).val / 256, ht⟩ (0 : Fin 2) * 256 ≤ (i 0).val ∧ (i 0).val < win2_6.index ⟨(i 0).val / 256, ht⟩ (0 : Fin 2) * 256 + 256; rw [e]; show (i 0).val / 256 * 256 ≤ (i 0).val ∧ (i 0).val < (i 0).val / 256 * 256 + 256; omega
  | ⟨1, _⟩ => show win2_6.index ⟨(i 0).val / 256, ht⟩ (1 : Fin 2) * 4096 ≤ (i 1).val ∧ (i 1).val < win2_6.index ⟨(i 0).val / 256, ht⟩ (1 : Fin 2) * 4096 + 4096; rw [e']; omega

/-- THE ARRAY after the region: the closed form, everywhere. -/
theorem final2_6 (c : Dev nD) : (Hand.dat2 V c).arrAt 6 cfg2.N = out2 (V c main_v0) (V c main_arg4) (V c main_v3) (V c main_arg6) (V c main_v4) (V c main_v2) :=
  (dat2 V c).arrAt_eq_of_cover 6 (out2 (V c main_v0) (V c main_arg4) (V c main_v3) (V c main_arg6) (V c main_v4) (V c main_v2)) (fun t _ => flushed2_6_eq V c t) cover2_6

end Cert.KernelIdeal.HandValue

end
-- ==== Proof.Val.Bridge.lean ====
/-
  The kernels' targets at the launch arrays are the specification: a bias vector reshaped to a one-row matrix reads,
  in its row, the vector; the rectifier's zero word is the extended real 0; the sums are the same sums.
-/
import proofs.«146741_j35055523070100_2_alg».proof.Proof.Val.Targets
import proofs.«146741_j35055523070100_2_alg».proof.Proof.Spec
import proofs.«146741_j35055523070100_2_alg».proof.Proof.Gen.KernelIdeal
import Idealize.ShloMosaic.PureOps.Ideal.Laws
import Idealize.ShloMosaic.Lib.ValueLayout
import Idealize.ShloMosaic.Lib.Pipeline.Value

noncomputable section

namespace Cert.KernelIdeal.HandValue

open Cert.KernelIdeal Cert.KernelIdeal.Gen Idealize.ShloMosaic Idealize.ShloMosaic.ValueIdx
open scoped BigOperators

/-- A vector of 4096 reshaped to one row reads, in that row, the vector. -/
theorem row_apply_4096 (v : Vec Ideal S4096 .f32) (q : Fin 4096) :
    shapeCast S1x4096 v shapeCasts_S4096_S1x4096 (ix2 (0 : Fin 1) q) = v (ix1 q) :=
  shapeCast_a_1a_apply v shapeCasts_S4096_S1x4096 0 q

/-- The same for a vector of 256. -/
theorem row_apply_256 (v : Vec Ideal S256 .f32) (q : Fin 256) :
    shapeCast S1x256 v shapeCasts_S256_S1x256 (ix2 (0 : Fin 1) q) = v (ix1 q) :=
  shapeCast_a_1a_apply v shapeCasts_S256_S1x256 0 q

/-- The linear part at the reshaped bias is the specification's linear term. -/
theorem lin1_eq (x : Vec Ideal S1024x16384 .f32) (lw : Vec Ideal S4096x16384 .f32) (lb : Vec Ideal S4096 .f32) :
    lin1 x lw (shapeCast S1x4096 lb shapeCasts_S4096_S1x4096) = Cert.Spec.lin x lw lb := by
  funext i
  obtain ⟨p, q, rfl⟩ : ∃ (p : Fin 1024) (q : Fin 4096), i = ix2 p q := ⟨i 0, i 1, eq_ix2 i⟩
  show (∑ k : Fin 16384, x (ix2 p k) * lw (ix2 q k)) + shapeCast S1x4096 lb shapeCasts_S4096_S1x4096 (ix2 (0 : Fin 1) q)
    = (∑ k : Fin 16384, x (ix2 p k) * lw (ix2 q k)) + lb (ix1 q)
  rw [row_apply_4096]

/-- The hidden layer over the specification's interaction vector, at the reshaped bias, is the specification's. -/
theorem hidA_eq (x : Vec Ideal S1024x16384 .f32) (e : Vec Ideal S16384x256 .f32) (w1 : Vec Ideal S256x256 .f32) (b1 : Vec Ideal S256 .f32)
    (r : Fin 1024) (k : Fin 256) :
    hidA (Cert.Spec.ivec x e) w1 (shapeCast S1x256 b1 shapeCasts_S256_S1x256) r k = Cert.Spec.hid x e w1 b1 (ix2 r k) := by
  unfold hidA Cert.Spec.hid
  rw [row_apply_256, Ideal.ofBits_zero_f32]
  all_goals rfl

/-- The second layer at the reshaped biases is the specification's interaction output. -/
theorem iout2_eq (x : Vec Ideal S1024x16384 .f32) (e : Vec Ideal S16384x256 .f32) (w1 : Vec Ideal S256x256 .f32) (b1 : Vec Ideal S256 .f32)
    (w2 : Vec Ideal S4096x256 .f32) (b2 : Vec Ideal S4096 .f32) :
    iout2 (Cert.Spec.ivec x e) w1 (shapeCast S1x256 b1 shapeCasts_S256_S1x256) w2 (shapeCast S1x4096 b2 shapeCasts_S4096_S1x4096)
      = Cert.Spec.iout x e w1 b1 w2 b2 := by
  funext i
  obtain ⟨p, q, rfl⟩ : ∃ (p : Fin 1024) (q : Fin 4096), i = ix2 p q := ⟨i 0, i 1, eq_ix2 i⟩
  show (∑ k : Fin 256, hidA (Cert.Spec.ivec x e) w1 (shapeCast S1x256 b1 shapeCasts_S256_S1x256) p k * w2 (ix2 q k))
      + shapeCast S1x4096 b2 shapeCasts_S4096_S1x4096 (ix2 (0 : Fin 1) q)
    = (∑ j : Fin 256, Cert.Spec.hid x e w1 b1 (ix2 p j) * w2 (ix2 q j)) + b2 (ix1 q)
  rw [row_apply_4096]
  exact congrArg (fun z => z + b2 (ix1 q)) (Finset.sum_congr rfl fun k _ => by rw [hidA_eq])

/-- The output at the reshaped biases and the linear part is the specification's output. -/
theorem out2_eq (x : Vec Ideal S1024x16384 .f32) (e : Vec Ideal S16384x256 .f32) (lw : Vec Ideal S4096x16384 .f32) (lb : Vec Ideal S4096 .f32)
    (w1 : Vec Ideal S256x256 .f32) (b1 : Vec Ideal S256 .f32) (w2 : Vec Ideal S4096x256 .f32) (b2 : Vec Ideal S4096 .f32) :
    out2 (Cert.Spec.ivec x e) w1 (shapeCast S1x256 b1 shapeCasts_S256_S1x256) w2 (shapeCast S1x4096 b2 shapeCasts_S4096_S1x4096)
        (lin1 x lw (shapeCast S1x4096 lb shapeCasts_S4096_S1x4096))
      = Cert.Spec.out x e lw lb w1 b1 w2 b2 := by
  funext i
  unfold out2 Cert.Spec.out
  rw [lin1_eq, iout2_eq]

end Cert.KernelIdeal.HandValue

end
-- ==== Proof.Val.RunValue.lean ====
/-
  The idealized kernel's three results as functions of the launch arrays. Region 0 leaves the interaction vector,
  region 1 the linear branch (its bias row the bias vector reshaped), region 2 the interaction branch of region 0's
  array and its sum with region 1's — each the specification's function of the arguments.
-/
import proofs.«146741_j35055523070100_2_alg».proof.Proof.KI.RunArgs
import proofs.«146741_j35055523070100_2_alg».proof.Proof.Val.Region0Final
import proofs.«146741_j35055523070100_2_alg».proof.Proof.Val.Region1Final
import proofs.«146741_j35055523070100_2_alg».proof.Proof.KI.Region2Final
import proofs.«146741_j35055523070100_2_alg».proof.Proof.Val.Bridge

noncomputable section

namespace Cert.KernelIdeal.HandValue

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- Region 0's output array is the interaction vector of the launch arrays. -/
theorem res_ivec (c : Dev nD) : (dat0 (V0 m ρ) c).arrAt 2 cfg0.N = Cert.Spec.ivec (m ((c : Thread nD τ).loc main_arg0)) (m ((c : Thread nD τ).loc main_arg1)) :=
  final0 (V0 m ρ) c

/-- Region 1's output array is the linear branch. -/
theorem res_lin (c : Dev nD) : (dat1 (V2 m ρ) c).arrAt 3 cfg1.N = Cert.Spec.lin (m ((c : Thread nD τ).loc main_arg0)) (m ((c : Thread nD τ).loc main_arg2)) (m ((c : Thread nD τ).loc main_arg3)) := by
  rw [final1_3, V2_main_arg0, V2_main_arg2, V2_main_v1]
  exact lin1_eq _ _ _

/-- Region 2's second output array is the interaction branch. -/
theorem res_iout (c : Dev nD) : (dat2 (V4 m ρ) c).arrAt 7 cfg2.N
    = Cert.Spec.iout (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) := by
  rw [final2_7, V4_main_v0, res_ivec, V4_main_arg4, V4_main_v3, V4_main_arg6, V4_main_v4]
  exact iout2_eq _ _ _ _ _ _

/-- Region 2's first output array is the sum of the two branches. -/
theorem res_out (c : Dev nD) : (dat2 (V4 m ρ) c).arrAt 6 cfg2.N
    = Cert.Spec.out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  rw [final2_6, V4_main_v0, res_ivec, V4_main_arg4, V4_main_v3, V4_main_arg6, V4_main_v4, V4_main_v2, res_lin]
  funext i
  show Cert.Spec.lin _ _ _ i + iout2 _ _ _ _ _ i = _
  rw [iout2_eq]
  rfl

/-- The run, read: the three results at the specification's functions of the launch arrays, the arguments unchanged. -/
theorem run_value : θ_run defs (onTc (τ := τ) (main (F := Ideal))) ⟨m, fun _ => 0, ρ⟩ (fun r => ∀ c : Dev nD,
      r.2.mem ((c.tc : Thread nD τ).loc main_v5_0) = Cert.Spec.out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
      ∧ r.2.mem ((c.tc : Thread nD τ).loc main_v2) = Cert.Spec.lin (m ((c : Thread nD τ).loc main_arg0)) (m ((c : Thread nD τ).loc main_arg2)) (m ((c : Thread nD τ).loc main_arg3))
      ∧ r.2.mem ((c.tc : Thread nD τ).loc main_v5_1) = Cert.Spec.iout (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    ⟨(h c _ (mem_uc main_v5_0 (by decide))).trans ((W5_main_v5_0 m ρ c).trans (res_out m ρ c)),
     (h c _ (mem_uc main_v2 (by decide))).trans ((W5_main_v2 m ρ c).trans (res_lin m ρ c)),
     (h c _ (mem_uc main_v5_1 (by decide))).trans ((W5_main_v5_1 m ρ c).trans (res_iout m ρ c)),
     (h c _ (mem_uc main_arg0 (by decide))).trans (W5_main_arg0 m ρ c),
     (h c _ (mem_uc main_arg1 (by decide))).trans (W5_main_arg1 m ρ c),
     (h c _ (mem_uc main_arg2 (by decide))).trans (W5_main_arg2 m ρ c),
     (h c _ (mem_uc main_arg3 (by decide))).trans (W5_main_arg3 m ρ c),
     (h c _ (mem_uc main_arg4 (by decide))).trans (W5_main_arg4 m ρ c),
     (h c _ (mem_uc main_arg5 (by decide))).trans (W5_main_arg5 m ρ c),
     (h c _ (mem_uc main_arg6 (by decide))).trans (W5_main_arg6 m ρ c),
     (h c _ (mem_uc main_arg7 (by decide))).trans (W5_main_arg7 m ρ c)⟩)
    (run_all (F := Ideal) m ρ)

end Cert.KernelIdeal.HandValue

end
-- ==== Proof.RefSpec.lean ====
/-
  The reference program computes the specification: each of its three results, read index by index at the ideal
  instance, is the corresponding function of Spec.lean.

  A contraction (dot_general) of the reference is the sum over its one contracted coordinate of the products of
  its operands; a transpose reads its operand at the swapped index and a broadcast of a vector along the rows
  reads it at the column, so the transposed weights w1ᵀ, w2ᵀ, lwᵀ of the reference are the rows w1(j,·), w2(o,·),
  lw(o,·) of the specification, and each bias is read at the column. The proof goes layer by layer: the
  interaction vector, the hidden layer, the interaction output, the linear term, and last their sum.
-/
import proofs.«146741_j35055523070100_2_alg».proof.Proof.Gen.ReferenceIdeal.Read
import proofs.«146741_j35055523070100_2_alg».proof.Proof.Spec

noncomputable section

open scoped BigOperators

namespace Cert.ReferenceIdeal.RefValue

open Cert.ReferenceIdeal Cert.ReferenceIdeal.Gen Cert.ReferenceIdeal.Read Idealize.ShloMosaic Idealize.ShloMosaic.ValueIdx

/-- The interaction vector: half of (the square of the contraction of x with e, minus the contraction of the
    squares). -/
theorem ivec_eq (x0 : (⟨S1024x16384, .f32⟩ : BufTy).Contents (Elt Ideal)) (x1 : (⟨S16384x256, .f32⟩ : BufTy).Contents (Elt Ideal)) :
    val_main_v7 (F := Ideal) x0 x1 = Cert.Spec.ivec x0 x1 := by
  funext i
  obtain ⟨p, d, rfl⟩ : ∃ (p : Fin 1024) (d : Fin 256), i = ix2 p d := ⟨i 0, i 1, eq_ix2 i⟩
  have el0 : ∀ k : Fin 16384, lidx_main_v0 (ix2 p d) k = ix2 p k := fun k => funext fun a => Fin.ext (by match a with | ⟨0, _⟩ => rfl | ⟨1, _⟩ => rfl)
  have er0 : ∀ k : Fin 16384, ridx_main_v0 (ix2 p d) k = ix2 k d := fun k => funext fun a => Fin.ext (by match a with | ⟨0, _⟩ => rfl | ⟨1, _⟩ => rfl)
  have el3 : ∀ k : Fin 16384, lidx_main_v3 (ix2 p d) k = ix2 p k := fun k => funext fun a => Fin.ext (by match a with | ⟨0, _⟩ => rfl | ⟨1, _⟩ => rfl)
  have er3 : ∀ k : Fin 16384, ridx_main_v3 (ix2 p d) k = ix2 k d := fun k => funext fun a => Fin.ext (by match a with | ⟨0, _⟩ => rfl | ⟨1, _⟩ => rfl)
  simp only [val_main_v7_apply, val_main_v6_apply, val_main_cst_apply, val_main_v5_apply, val_main_v4_apply,
    val_main_v3_apply, val_main_v0_apply, val_main_v1_apply, val_main_v2_apply, el0, er0, el3, er3,
    Ideal.mulf_def, Ideal.subf_def, Ideal.ofBits_def]
  rfl

/-- The hidden layer: the interaction vector against the row w1(j,·), plus b1(j), clamped below at the zero word's
    value. -/
theorem hid_eq (x0 : (⟨S1024x16384, .f32⟩ : BufTy).Contents (Elt Ideal)) (x1 : (⟨S16384x256, .f32⟩ : BufTy).Contents (Elt Ideal)) (x4 : (⟨S256x256, .f32⟩ : BufTy).Contents (Elt Ideal)) (x5 : (⟨S256, .f32⟩ : BufTy).Contents (Elt Ideal)) :
    val_main_v13 (F := Ideal) x0 x1 x4 x5 = Cert.Spec.hid x0 x1 x4 x5 := by
  funext i
  obtain ⟨p, j, rfl⟩ : ∃ (p : Fin 1024) (j : Fin 256), i = ix2 p j := ⟨i 0, i 1, eq_ix2 i⟩
  have el : ∀ d : Fin 256, lidx_main_v9 (ix2 p j) d = ix2 p d := fun d => funext fun a => Fin.ext (by match a with | ⟨0, _⟩ => rfl | ⟨1, _⟩ => rfl)
  have er : ∀ d : Fin 256, idx_main_v8 (ridx_main_v9 (ix2 p j) d) = ix2 j d := fun d => funext fun a => Fin.ext (by match a with | ⟨0, _⟩ => rfl | ⟨1, _⟩ => rfl)
  have eb : idx_main_v10 (idx_main_v11 (ix2 p j)) = ix1 j := funext fun a => Fin.ext (by match a with | ⟨0, _⟩ => rfl)
  simp only [val_main_v13_apply, val_main_v12_apply, val_main_v9_apply, val_main_v11_apply, val_main_v10_apply,
    val_main_call0_v0_apply, val_main_call0_cst_apply, val_main_v8_apply, ivec_eq, el, er, eb,
    Ideal.maximumf_def, Ideal.addf_def, Ideal.ofBits_def]
  rfl

/-- The interaction output (the reference's third result): the hidden layer against the row w2(o,·), plus b2(o). -/
theorem iout_eq (x0 : (⟨S1024x16384, .f32⟩ : BufTy).Contents (Elt Ideal)) (x1 : (⟨S16384x256, .f32⟩ : BufTy).Contents (Elt Ideal)) (x4 : (⟨S256x256, .f32⟩ : BufTy).Contents (Elt Ideal)) (x5 : (⟨S256, .f32⟩ : BufTy).Contents (Elt Ideal)) (x6 : (⟨S4096x256, .f32⟩ : BufTy).Contents (Elt Ideal)) (x7 : (⟨S4096, .f32⟩ : BufTy).Contents (Elt Ideal)) :
    val_main_v18 (F := Ideal) x0 x1 x4 x5 x6 x7 = Cert.Spec.iout x0 x1 x4 x5 x6 x7 := by
  funext i
  obtain ⟨p, q, rfl⟩ : ∃ (p : Fin 1024) (q : Fin 4096), i = ix2 p q := ⟨i 0, i 1, eq_ix2 i⟩
  have el : ∀ j : Fin 256, lidx_main_v15 (ix2 p q) j = ix2 p j := fun j => funext fun a => Fin.ext (by match a with | ⟨0, _⟩ => rfl | ⟨1, _⟩ => rfl)
  have er : ∀ j : Fin 256, idx_main_v14 (ridx_main_v15 (ix2 p q) j) = ix2 q j := fun j => funext fun a => Fin.ext (by match a with | ⟨0, _⟩ => rfl | ⟨1, _⟩ => rfl)
  have eb : idx_main_v16 (idx_main_v17 (ix2 p q)) = ix1 q := funext fun a => Fin.ext (by match a with | ⟨0, _⟩ => rfl)
  simp only [val_main_v18_apply, val_main_v15_apply, val_main_v17_apply, val_main_v16_apply, val_main_v14_apply,
    hid_eq, el, er, eb, Ideal.addf_def]
  rfl

/-- The linear term (the reference's second result): x against the row lw(o,·), plus lb(o). -/
theorem lin_eq (x0 : (⟨S1024x16384, .f32⟩ : BufTy).Contents (Elt Ideal)) (x2 : (⟨S4096x16384, .f32⟩ : BufTy).Contents (Elt Ideal)) (x3 : (⟨S4096, .f32⟩ : BufTy).Contents (Elt Ideal)) :
    val_main_v23 (F := Ideal) x0 x2 x3 = Cert.Spec.lin x0 x2 x3 := by
  funext i
  obtain ⟨p, q, rfl⟩ : ∃ (p : Fin 1024) (q : Fin 4096), i = ix2 p q := ⟨i 0, i 1, eq_ix2 i⟩
  have el : ∀ k : Fin 16384, lidx_main_v20 (ix2 p q) k = ix2 p k := fun k => funext fun a => Fin.ext (by match a with | ⟨0, _⟩ => rfl | ⟨1, _⟩ => rfl)
  have er : ∀ k : Fin 16384, idx_main_v19 (ridx_main_v20 (ix2 p q) k) = ix2 q k := fun k => funext fun a => Fin.ext (by match a with | ⟨0, _⟩ => rfl | ⟨1, _⟩ => rfl)
  have eb : idx_main_v21 (idx_main_v22 (ix2 p q)) = ix1 q := funext fun a => Fin.ext (by match a with | ⟨0, _⟩ => rfl)
  simp only [val_main_v23_apply, val_main_v20_apply, val_main_v22_apply, val_main_v21_apply, val_main_v19_apply,
    el, er, eb, Ideal.addf_def]
  rfl

/-- The output (the reference's first result): the linear term plus the interaction output. -/
theorem out_eq (x0 : (⟨S1024x16384, .f32⟩ : BufTy).Contents (Elt Ideal)) (x1 : (⟨S16384x256, .f32⟩ : BufTy).Contents (Elt Ideal)) (x2 : (⟨S4096x16384, .f32⟩ : BufTy).Contents (Elt Ideal)) (x3 : (⟨S4096, .f32⟩ : BufTy).Contents (Elt Ideal)) (x4 : (⟨S256x256, .f32⟩ : BufTy).Contents (Elt Ideal)) (x5 : (⟨S256, .f32⟩ : BufTy).Contents (Elt Ideal)) (x6 : (⟨S4096x256, .f32⟩ : BufTy).Contents (Elt Ideal)) (x7 : (⟨S4096, .f32⟩ : BufTy).Contents (Elt Ideal)) :
    val_main_v24 (F := Ideal) x0 x1 x2 x3 x4 x5 x6 x7 = Cert.Spec.out x0 x1 x2 x3 x4 x5 x6 x7 := by
  funext i
  rw [val_main_v24_apply, lin_eq, iout_eq]
  rfl

/-! ## The same three equations at the terms the reference's run is stated with

The run states each result as the composed term of the program's operations over the launch contents. That term
is, by unfolding alone, the staged value of the same name (the generated equations `val_main_v24_eq`,
`val_main_v23_eq`, `val_main_v18_eq`, each closed by reflexivity), so it equals the specification by the
equations above. Each statement below is "the run's term at the ideal instance = the specification's function":
its left side is taken from the generated equation instantiated at the ideal instance rather than written out
again, because at the ideal instance every float format has the same carrier (the extended reals), and a
contraction's operand formats can then no longer be read back from the operands' types. -/

/-- The run's term for the first result is the output. -/
theorem run_out_eq (x0 : (⟨S1024x16384, .f32⟩ : BufTy).Contents (Elt Ideal)) (x1 : (⟨S16384x256, .f32⟩ : BufTy).Contents (Elt Ideal)) (x2 : (⟨S4096x16384, .f32⟩ : BufTy).Contents (Elt Ideal)) (x3 : (⟨S4096, .f32⟩ : BufTy).Contents (Elt Ideal)) (x4 : (⟨S256x256, .f32⟩ : BufTy).Contents (Elt Ideal)) (x5 : (⟨S256, .f32⟩ : BufTy).Contents (Elt Ideal)) (x6 : (⟨S4096x256, .f32⟩ : BufTy).Contents (Elt Ideal)) (x7 : (⟨S4096, .f32⟩ : BufTy).Contents (Elt Ideal)) :
    type_of% ((val_main_v24_eq (F := Ideal) x0 x1 x2 x3 x4 x5 x6 x7).trans (out_eq x0 x1 x2 x3 x4 x5 x6 x7)) :=
  (val_main_v24_eq (F := Ideal) x0 x1 x2 x3 x4 x5 x6 x7).trans (out_eq x0 x1 x2 x3 x4 x5 x6 x7)

/-- The run's term for the second result is the linear term. -/
theorem run_lin_eq (x0 : (⟨S1024x16384, .f32⟩ : BufTy).Contents (Elt Ideal)) (x2 : (⟨S4096x16384, .f32⟩ : BufTy).Contents (Elt Ideal)) (x3 : (⟨S4096, .f32⟩ : BufTy).Contents (Elt Ideal)) :
    type_of% ((val_main_v23_eq (F := Ideal) x0 x2 x3).trans (lin_eq x0 x2 x3)) :=
  (val_main_v23_eq (F := Ideal) x0 x2 x3).trans (lin_eq x0 x2 x3)

/-- The run's term for the third result is the interaction output. -/
theorem run_iout_eq (x0 : (⟨S1024x16384, .f32⟩ : BufTy).Contents (Elt Ideal)) (x1 : (⟨S16384x256, .f32⟩ : BufTy).Contents (Elt Ideal)) (x4 : (⟨S256x256, .f32⟩ : BufTy).Contents (Elt Ideal)) (x5 : (⟨S256, .f32⟩ : BufTy).Contents (Elt Ideal)) (x6 : (⟨S4096x256, .f32⟩ : BufTy).Contents (Elt Ideal)) (x7 : (⟨S4096, .f32⟩ : BufTy).Contents (Elt Ideal)) :
    type_of% ((val_main_v18_eq (F := Ideal) x0 x1 x4 x5 x6 x7).trans (iout_eq x0 x1 x4 x5 x6 x7)) :=
  (val_main_v18_eq (F := Ideal) x0 x1 x4 x5 x6 x7).trans (iout_eq x0 x1 x4 x5 x6 x7)

end Cert.ReferenceIdeal.RefValue

end
-- ==== Proof.lean ====
/-
  The certificate of the factorization-machine kernel against its jnp reference.

  The program runs three kernel regions. Region 0 (a 2×8 grid: batch half, reduction step) keeps two accumulators in
  scratch across the eight steps of a batch half — Σ x·e and Σ (x·x)·(e·e) over blocks of 2048 features, reset at
  the first step — and at the last step stores half · ((Σ x·e)·(Σ x·e) − Σ (x·x)·(e·e)). Region 1 (a 2×64 grid) does
  the same for x·lwᵀ over blocks of 256 features and adds the bias row at the last step. Region 2 (four row blocks)
  is the two-layer perceptron on region 0's array, and its sum with region 1's.

  Frames: each region's body is run once per control case on whole staging memrefs; the accumulators' contents after
  each grid point are followed by recursion on the point, and the region invariant names them from the second point
  on; the three regions and the two stretches of host reshapes between them are composed in order, and every
  unscoped buffer is read at the end. The same text serves the word-level program and its idealization.

  Values, at the ideal instance: eight (or sixty-four) block products added in grid order are the whole
  contraction — associativity and commutativity of + on the extended reals, no finiteness needed, the zero word the
  reset stores adding nothing —, a format change is the identity, so each result array is the specification's
  function of the arguments; the reference's run is the same function, read one operation at a time.
-/
import proofs.«146741_j35055523070100_2_alg».proof.Defs
import proofs.«146741_j35055523070100_2_alg».proof.Proof.Gen.Kernel
import proofs.«146741_j35055523070100_2_alg».proof.Proof.Gen.KernelIdeal
import proofs.«146741_j35055523070100_2_alg».proof.Proof.Gen.ReferenceIdeal
import proofs.«146741_j35055523070100_2_alg».proof.Proof.Gen.Pre_finite_inputs
import proofs.«146741_j35055523070100_2_alg».proof.Proof.Gen.ReferenceIdeal.Read
import proofs.«146741_j35055523070100_2_alg».proof.Proof.K.RunArgs
import proofs.«146741_j35055523070100_2_alg».proof.Proof.KI.RunArgs
import proofs.«146741_j35055523070100_2_alg».proof.Proof.Val.RunValue
import proofs.«146741_j35055523070100_2_alg».proof.Proof.RefSpec
import Idealize.ShloMosaic.Adequacy
import Idealize.ShloMosaic.Init

noncomputable section

namespace Cert.Proof

open Idealize.ShloMosaic Idealize.ShloMosaic.TcCoe Idealize.SL.Sem

variable [Cert.Kernel.Facts] [Cert.KernelIdeal.Facts] [Cert.ReferenceIdeal.Facts] [Cert.Pre_finite_inputs.Facts]

/-- The word-level program runs to the end, faults nowhere, and leaves its arguments as launched. -/
theorem frame_k : Cert.frame_Kernel := fun m ρ _ =>
  (θ_run (Cert.Kernel.defs (F := Bits)) _ _).mono (fun r h c =>
    ⟨(h c _ (Cert.Kernel.Hand.mem_uc Cert.Kernel.main_arg0 (by decide))).trans (Cert.Kernel.Hand.W5_main_arg0 m ρ c),
     (h c _ (Cert.Kernel.Hand.mem_uc Cert.Kernel.main_arg1 (by decide))).trans (Cert.Kernel.Hand.W5_main_arg1 m ρ c),
     (h c _ (Cert.Kernel.Hand.mem_uc Cert.Kernel.main_arg2 (by decide))).trans (Cert.Kernel.Hand.W5_main_arg2 m ρ c),
     (h c _ (Cert.Kernel.Hand.mem_uc Cert.Kernel.main_arg3 (by decide))).trans (Cert.Kernel.Hand.W5_main_arg3 m ρ c),
     (h c _ (Cert.Kernel.Hand.mem_uc Cert.Kernel.main_arg4 (by decide))).trans (Cert.Kernel.Hand.W5_main_arg4 m ρ c),
     (h c _ (Cert.Kernel.Hand.mem_uc Cert.Kernel.main_arg5 (by decide))).trans (Cert.Kernel.Hand.W5_main_arg5 m ρ c),
     (h c _ (Cert.Kernel.Hand.mem_uc Cert.Kernel.main_arg6 (by decide))).trans (Cert.Kernel.Hand.W5_main_arg6 m ρ c),
     (h c _ (Cert.Kernel.Hand.mem_uc Cert.Kernel.main_arg7 (by decide))).trans (Cert.Kernel.Hand.W5_main_arg7 m ρ c)⟩)
    (Cert.Kernel.Hand.run_all (F := Bits) m ρ)

/-- So does its idealization. -/
theorem frame_ki : Cert.frame_KernelIdeal := fun m ρ _ =>
  (θ_run (Cert.KernelIdeal.defs (F := Ideal)) _ _).mono (fun r h c =>
    ⟨(h c _ (Cert.KernelIdeal.Hand.mem_uc Cert.KernelIdeal.main_arg0 (by decide))).trans (Cert.KernelIdeal.Hand.W5_main_arg0 m ρ c),
     (h c _ (Cert.KernelIdeal.Hand.mem_uc Cert.KernelIdeal.main_arg1 (by decide))).trans (Cert.KernelIdeal.Hand.W5_main_arg1 m ρ c),
     (h c _ (Cert.KernelIdeal.Hand.mem_uc Cert.KernelIdeal.main_arg2 (by decide))).trans (Cert.KernelIdeal.Hand.W5_main_arg2 m ρ c),
     (h c _ (Cert.KernelIdeal.Hand.mem_uc Cert.KernelIdeal.main_arg3 (by decide))).trans (Cert.KernelIdeal.Hand.W5_main_arg3 m ρ c),
     (h c _ (Cert.KernelIdeal.Hand.mem_uc Cert.KernelIdeal.main_arg4 (by decide))).trans (Cert.KernelIdeal.Hand.W5_main_arg4 m ρ c),
     (h c _ (Cert.KernelIdeal.Hand.mem_uc Cert.KernelIdeal.main_arg5 (by decide))).trans (Cert.KernelIdeal.Hand.W5_main_arg5 m ρ c),
     (h c _ (Cert.KernelIdeal.Hand.mem_uc Cert.KernelIdeal.main_arg6 (by decide))).trans (Cert.KernelIdeal.Hand.W5_main_arg6 m ρ c),
     (h c _ (Cert.KernelIdeal.Hand.mem_uc Cert.KernelIdeal.main_arg7 (by decide))).trans (Cert.KernelIdeal.Hand.W5_main_arg7 m ρ c)⟩)
    (Cert.KernelIdeal.Hand.run_all (F := Ideal) m ρ)

/-- The reference is a straight line of host operations: its run, the results dropped. -/
theorem frame_ri : Cert.frame_ReferenceIdeal := fun m ρ _ =>
  (θ_run Cert.ReferenceIdeal.defs _ _).mono (fun _ h c => (h c).2.2.2) (Cert.ReferenceIdeal.Value.run (F := Ideal) m ρ)

/-- The ideal pass rewrote nothing. -/
theorem preserves : Cert.preserves_Kernel_KernelIdeal := trivial

/-- Both idealized programs end with the specification's three functions of the arguments. -/
theorem algebraic : Cert.algebraic_KernelIdeal_ReferenceIdeal := by
  intro m ρ m' ρ' _ hagree
  refine ⟨fun c => Cert.Spec.out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)),
    fun c => Cert.Spec.lin (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)),
    fun c => Cert.Spec.iout (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)),
    Cert.KernelIdeal.HandValue.run_value m ρ, ?_⟩
  refine (θ_run Cert.ReferenceIdeal.defs _ _).mono (fun _ h c => ?_) (Cert.ReferenceIdeal.Value.run (F := Ideal) m' ρ')
  obtain ⟨a0, a1, a2, a3, a4, a5, a6, a7⟩ := hagree c
  refine ⟨(h c).1.trans ?_, (h c).2.1.trans ?_, (h c).2.2.1.trans ?_, (h c).2.2.2⟩
  · rw [Cert.ReferenceIdeal.RefValue.run_out_eq, a0, a1, a2, a3, a4, a5, a6, a7]
  · rw [Cert.ReferenceIdeal.RefValue.run_lin_eq, a0, a2, a3]
  · rw [Cert.ReferenceIdeal.RefValue.run_iout_eq, a0, a1, a4, a5, a6, a7]

end Cert.Proof

namespace Cert.Proof

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
